-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v122_0)) (v1 : (c : Dev Cert.KernelIdeal.nD) → Buf (Elt Ideal) ((c.tc : Thread Cert.KernelIdeal.nD Cert.KernelIdeal.τ).loc Cert.KernelIdeal.main_v122_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122_0) = v0 c
          ∧ r.2.mem ((c.tc : Thread Cert.KernelIdeal.nD Cert.KernelIdeal.τ).loc Cert.KernelIdeal.main_v122_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S32x1 : Shape := ⟨2, ![32, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg19 : FVec F S32 .f32) (main_arg20 : FVec F S32x1 .f32) (main_arg21 : FVec F S1 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x1 .f32 := Host.absf main_arg20
  let main_cst_36 : FVec F S_ .f32 := constant S_ .f32 0x7F800000#32
  let main_v95 : FVec F S32x1 .f32 := broadcastInDim S32x1 ![] bcast_S_S32x1 main_cst_36
  let main_v96 : IVec S32x1 1 := cmpf .olt main_v94 main_v95
  let main_c_37 : IVec S_ 1 := constantI S_ 1 1#1
  let main_v97 : IVec S_ 1 := (fun x v => Host.reduce IntOp.andi x v reducesTo_S32x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg15 : FVec F S32 .f32) (main_arg16 : FVec F S32x3 .f32) (main_arg17 : FVec F S3 .f32) (main_arg18 : FVec F S64x32 .f32) (main_arg19 : FVec F S32 .f32) (main_arg20 : FVec F S32x1 .f32) (main_arg21 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x3 .f32 := Host.absf main_arg16
  let main_cst_28 : FVec F S_ .f32 := constant S_ .f32 0x7F800000#32
  let main_v75 : FVec F S32x3 .f32 := broadcastInDim S32x3 ![] bcast_S_S32x3 main_cst_28
  let main_v76 : IVec S32x3 1 := cmpf .olt main_v74 main_v75
  let main_c_29 : IVec S_ 1 := constantI S_ 1 1#1
  let main_v77 : IVec S_ 1 := (fun x v => Host.reduce IntOp.andi x v reducesTo_S32x3_S_d0_1 h_S_) main_v76 main_c_29
  let main_v78 : IVec S_ 1 := andi main_v73 main_v77
  let main_v79 : FVec F S3 .f32 := Host.absf main_arg17
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  let main_v84 : FVec F S64x32 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64 .f32) (main_arg13 : FVec F S64 .f32) (main_arg14 : FVec F S64x32 .f32) (main_arg15 : FVec F S32 .f32) (main_arg16 : FVec F S32x3 .f32) (main_arg17 : FVec F S3 .f32) (main_arg18 : FVec F S64x32 .f32) (main_arg19 : FVec F S32 .f32) (main_arg20 : FVec F S32x1 .f32) (main_arg21 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x32 .f32) (main_arg15 : FVec F S32 .f32) (main_arg16 : FVec F S32x3 .f32) (main_arg17 : FVec F S3 .f32) (main_arg18 : FVec F S64x32 .f32) (main_arg19 : FVec F S32 .f32) (main_arg20 : FVec F S32x1 .f32) (main_arg21 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x32 .f32) (main_arg15 : FVec F S32 .f32) (main_arg16 : FVec F S32x3 .f32) (main_arg17 : FVec F S3 .f32) (main_arg18 : FVec F S64x32 .f32) (main_arg19 : FVec F S32 .f32) (main_arg20 : FVec F S32x1 .f32) (main_arg21 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S10000x128 .f32) (main_arg1 : IVec S2x320000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x32 .f32) (main_arg15 : FVec F S32 .f32) (main_arg16 : FVec F S32x3 .f32) (main_arg17 : FVec F S3 .f32) (main_arg18 : FVec F S64x32 .f32) (main_arg19 : FVec F S32 .f32) (main_arg20 : FVec F S32x1 .f32) (main_arg21 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S32x1 : Shape := ⟨2, ![32, 1]⟩
abbrev S1 : Shape := ⟨1, ![1]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S1x10000 : Shape := ⟨2, ![1, 10000]⟩
abbrev S10000x64 : Shape := ⟨2, ![10000, 64]⟩
abbrev S1x1 : Shape := ⟨2, ![1, 1]⟩
abbrev S330000x64 : Shape := ⟨2, ![330000, 64]⟩
abbrev S6600x64 : Shape := ⟨2, ![6600, 64]⟩
abbrev S6600x1 : Shape := ⟨2, ![6600, 1]⟩
abbrev S1x64 : Shape := ⟨2, ![1, 64]⟩
abbrev S1x3 : Shape := ⟨2, ![1, 3]⟩
abbrev S1x32 : Shape := ⟨2, ![1, 32]⟩

abbrev nBuf : Space → Nat
  | .hbm => 302
  | .vmem => 34
  | .smem => 0
  | _ => 0

abbrev hbmTy0_0 (i : Nat) : BufTy := match i % 128 with
  | 0 => ⟨S10000x128, .f32⟩
  | 1 => ⟨S2x320000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x32, .f32⟩
  | 15 => ⟨S32, .f32⟩
  | 16 => ⟨S32x3, .f32⟩
  | 17 => ⟨S3, .f32⟩
  | 18 => ⟨S64x32, .f32⟩
  | 19 => ⟨S32, .f32⟩
  | 20 => ⟨S32x1, .f32⟩
  | 21 => ⟨S1, .f32⟩
  | 22 => ⟨S1x320000, .i32⟩
  | 23 => ⟨S320000, .i32⟩
  | 24 => ⟨S1x320000, .i32⟩
  | 25 => ⟨S320000, .i32⟩
  | 26 => ⟨S10000, .i32⟩
  | 27 => ⟨S330000, .i32⟩
  | 28 => ⟨S330000, .i32⟩
  | 29 => ⟨S_, .f32⟩
  | 30 => ⟨S330000, .f32⟩
  | 31 => ⟨S_, .f32⟩
  | 32 => ⟨S10000, .f32⟩
  | 33 => ⟨S330000x1, .i32⟩
  | 34 => ⟨S10000, .f32⟩
  | 35 => ⟨S1x10000, .f32⟩
  | 36 => ⟨S1x10000, .f32⟩
  | 37 => ⟨S10000, .f32⟩
  | 38 => ⟨S_, .i32⟩
  | 39 => ⟨S330000, .i32⟩
  | 40 => ⟨S330000, .i1⟩
  | 41 => ⟨S_, .i32⟩
  | 42 => ⟨S330000, .i32⟩
  | 43 => ⟨S330000, .i32⟩
  | 44 => ⟨S330000, .i32⟩
  | 45 => ⟨S330000x1, .i32⟩
  | 46 => ⟨S330000, .f32⟩
  | 47 => ⟨S_, .i32⟩
  | 48 => ⟨S330000, .i32⟩
  | 49 => ⟨S330000, .i1⟩
  | 50 => ⟨S_, .i32⟩
  | 51 => ⟨S330000, .i32⟩
  | 52 => ⟨S330000, .i32⟩
  | 53 => ⟨S330000, .i32⟩
  | 54 => ⟨S330000x1, .i32⟩
  | 55 => ⟨S330000, .f32⟩
  | 56 => ⟨S330000, .f32⟩
  | 57 => ⟨S10000x64, .f32⟩
  | 58 => ⟨S_, .i32⟩
  | 59 => ⟨S330000, .i32⟩
  | 60 => ⟨S330000, .i1⟩
  | 61 => ⟨S_, .i32⟩
  | 62 => ⟨S330000, .i32⟩
  | 63 => ⟨S330000, .i32⟩
  | 64 => ⟨S330000, .i32⟩
  | 65 => ⟨S330000x1, .i32⟩
  | 66 => ⟨S1, .i32⟩
  | 67 => ⟨S_, .i32⟩
  | 68 => ⟨S330000x1, .i32⟩
  | 69 => ⟨S330000x1, .i1⟩
  | 70 => ⟨S1x1, .i32⟩
  | 71 => ⟨S330000x1, .i32⟩
  | 72 => ⟨S330000x1, .i1⟩
  | 73 => ⟨S330000x1, .i1⟩
  | 74 => ⟨S_, .i1⟩
  | 75 => ⟨S330000, .i1⟩
  | 76 => ⟨S330000x64, .f32⟩
  | 77 => ⟨S330000x64, .i1⟩
  | 78 => ⟨S_, .f32⟩
  | 79 => ⟨S330000x64, .f32⟩
  | 80 => ⟨S330000x64, .f32⟩
  | 81 => ⟨S330000x1, .f32⟩
  | 82 => ⟨S330000x64, .f32⟩
  | 83 => ⟨S_, .f32⟩
  | 84 => ⟨S10000x64, .f32⟩
  | 85 => ⟨S330000x1, .i32⟩
  | 86 => ⟨S10000x64, .f32⟩
  | 87 => ⟨S1x64, .f32⟩
  | 88 => ⟨S10000x64, .f32⟩
  | 89 => ⟨S10000x64, .f32⟩
  | 90 => ⟨S_, .f32⟩
  | 91 => ⟨S64, .f32⟩
  | 92 => ⟨S_, .f32⟩
  | 93 => ⟨S64, .f32⟩
  | 94 => ⟨S64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S10000x64, .f32⟩
  | 103 => ⟨S10000x64, .f32⟩
  | 104 => ⟨S10000x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S1x64, .f32⟩
  | 119 => ⟨S10000x64, .f32⟩
  | 120 => ⟨S10000x64, .f32⟩
  | 121 => ⟨S1x64, .f32⟩
  | 122 => ⟨S10000x64, .f32⟩
  | 123 => ⟨S10000x64, .f32⟩
  | 124 => ⟨S_, .f32⟩
  | 125 => ⟨S64, .f32⟩
  | 126 => ⟨S64, .f32⟩
  | 127 => ⟨S64, .f32⟩
  | _ => ⟨S10000x128, .f32⟩

abbrev hbmTy0_1 (i : Nat) : BufTy := match i % 128 with
  | 0 => ⟨S1x64, .f32⟩
  | 1 => ⟨S10000x64, .f32⟩
  | 2 => ⟨S10000x64, .f32⟩
  | 3 => ⟨S1x64, .f32⟩
  | 4 => ⟨S10000x64, .f32⟩
  | 5 => ⟨S10000x64, .f32⟩
  | 6 => ⟨S_, .f32⟩
  | 7 => ⟨S10000x64, .f32⟩
  | 8 => ⟨S10000x64, .f32⟩
  | 9 => ⟨S10000x64, .f32⟩
  | 10 => ⟨S_, .i32⟩
  | 11 => ⟨S330000, .i32⟩
  | 12 => ⟨S330000, .i1⟩
  | 13 => ⟨S_, .i32⟩
  | 14 => ⟨S330000, .i32⟩
  | 15 => ⟨S330000, .i32⟩
  | 16 => ⟨S330000, .i32⟩
  | 17 => ⟨S330000x1, .i32⟩
  | 18 => ⟨S1, .i32⟩
  | 19 => ⟨S_, .i32⟩
  | 20 => ⟨S330000x1, .i32⟩
  | 21 => ⟨S330000x1, .i1⟩
  | 22 => ⟨S1x1, .i32⟩
  | 23 => ⟨S330000x1, .i32⟩
  | 24 => ⟨S330000x1, .i1⟩
  | 25 => ⟨S330000x1, .i1⟩
  | 26 => ⟨S_, .i1⟩
  | 27 => ⟨S330000, .i1⟩
  | 28 => ⟨S330000x64, .f32⟩
  | 29 => ⟨S330000x64, .i1⟩
  | 30 => ⟨S_, .f32⟩
  | 31 => ⟨S330000x64, .f32⟩
  | 32 => ⟨S330000x64, .f32⟩
  | 33 => ⟨S330000x1, .f32⟩
  | 34 => ⟨S330000x64, .f32⟩
  | 35 => ⟨S_, .f32⟩
  | 36 => ⟨S10000x64, .f32⟩
  | 37 => ⟨S330000x1, .i32⟩
  | 38 => ⟨S10000x64, .f32⟩
  | 39 => ⟨S1x64, .f32⟩
  | 40 => ⟨S10000x64, .f32⟩
  | 41 => ⟨S10000x64, .f32⟩
  | 42 => ⟨S_, .f32⟩
  | 43 => ⟨S64, .f32⟩
  | 44 => ⟨S_, .f32⟩
  | 45 => ⟨S64, .f32⟩
  | 46 => ⟨S64, .f32⟩
  | 47 => ⟨S_, .i32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S10000x64, .f32⟩
  | 55 => ⟨S10000x64, .f32⟩
  | 56 => ⟨S10000x64, .f32⟩
  | 57 => ⟨S_, .f32⟩
  | 58 => ⟨S_, .f32⟩
  | 59 => ⟨S_, .f32⟩
  | 60 => ⟨S_, .f32⟩
  | 61 => ⟨S64, .f32⟩
  | 62 => ⟨S64, .f32⟩
  | 63 => ⟨S64, .f32⟩
  | 64 => ⟨S_, .f32⟩
  | 65 => ⟨S_, .i1⟩
  | 66 => ⟨S_, .f32⟩
  | 67 => ⟨S_, .f32⟩
  | 68 => ⟨S64, .f32⟩
  | 69 => ⟨S64, .f32⟩
  | 70 => ⟨S1x64, .f32⟩
  | 71 => ⟨S10000x64, .f32⟩
  | 72 => ⟨S10000x64, .f32⟩
  | 73 => ⟨S1x64, .f32⟩
  | 74 => ⟨S10000x64, .f32⟩
  | 75 => ⟨S10000x64, .f32⟩
  | 76 => ⟨S_, .f32⟩
  | 77 => ⟨S64, .f32⟩
  | 78 => ⟨S64, .f32⟩
  | 79 => ⟨S64, .f32⟩
  | 80 => ⟨S1x64, .f32⟩
  | 81 => ⟨S10000x64, .f32⟩
  | 82 => ⟨S10000x64, .f32⟩
  | 83 => ⟨S1x64, .f32⟩
  | 84 => ⟨S10000x64, .f32⟩
  | 85 => ⟨S10000x64, .f32⟩
  | 86 => ⟨S_, .f32⟩
  | 87 => ⟨S10000x64, .f32⟩
  | 88 => ⟨S10000x64, .f32⟩
  | 89 => ⟨S10000x64, .f32⟩
  | 90 => ⟨S_, .i32⟩
  | 91 => ⟨S330000, .i32⟩
  | 92 => ⟨S330000, .i1⟩
  | 93 => ⟨S_, .i32⟩
  | 94 => ⟨S330000, .i32⟩
  | 95 => ⟨S330000, .i32⟩
  | 96 => ⟨S330000, .i32⟩
  | 97 => ⟨S330000x1, .i32⟩
  | 98 => ⟨S1, .i32⟩
  | 99 => ⟨S_, .i32⟩
  | 100 => ⟨S330000x1, .i32⟩
  | 101 => ⟨S330000x1, .i1⟩
  | 102 => ⟨S1x1, .i32⟩
  | 103 => ⟨S330000x1, .i32⟩
  | 104 => ⟨S330000x1, .i1⟩
  | 105 => ⟨S330000x1, .i1⟩
  | 106 => ⟨S_, .i1⟩
  | 107 => ⟨S330000, .i1⟩
  | 108 => ⟨S330000x64, .f32⟩
  | 109 => ⟨S330000x64, .i1⟩
  | 110 => ⟨S_, .f32⟩
  | 111 => ⟨S330000x64, .f32⟩
  | 112 => ⟨S330000x64, .f32⟩
  | 113 => ⟨S330000x1, .f32⟩
  | 114 => ⟨S330000x64, .f32⟩
  | 115 => ⟨S_, .f32⟩
  | 116 => ⟨S10000x64, .f32⟩
  | 117 => ⟨S330000x1, .i32⟩
  | 118 => ⟨S10000x64, .f32⟩
  | 119 => ⟨S1x64, .f32⟩
  | 120 => ⟨S10000x64, .f32⟩
  | 121 => ⟨S10000x64, .f32⟩
  | 122 => ⟨S_, .f32⟩
  | 123 => ⟨S64, .f32⟩
  | 124 => ⟨S_, .f32⟩
  | 125 => ⟨S64, .f32⟩
  | 126 => ⟨S64, .f32⟩
  | 127 => ⟨S_, .i32⟩
  | _ => ⟨S10000x128, .f32⟩

abbrev hbmTy0_2 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S10000x64, .f32⟩
  | 7 => ⟨S10000x64, .f32⟩
  | 8 => ⟨S10000x64, .f32⟩
  | 9 => ⟨S_, .f32⟩
  | 10 => ⟨S_, .f32⟩
  | 11 => ⟨S_, .f32⟩
  | 12 => ⟨S_, .f32⟩
  | 13 => ⟨S64, .f32⟩
  | 14 => ⟨S64, .f32⟩
  | 15 => ⟨S64, .f32⟩
  | 16 => ⟨S_, .f32⟩
  | 17 => ⟨S_, .i1⟩
  | 18 => ⟨S_, .f32⟩
  | 19 => ⟨S_, .f32⟩
  | 20 => ⟨S64, .f32⟩
  | 21 => ⟨S64, .f32⟩
  | 22 => ⟨S1x64, .f32⟩
  | 23 => ⟨S10000x64, .f32⟩
  | 24 => ⟨S10000x64, .f32⟩
  | 25 => ⟨S1x64, .f32⟩
  | 26 => ⟨S10000x64, .f32⟩
  | 27 => ⟨S10000x64, .f32⟩
  | 28 => ⟨S_, .f32⟩
  | 29 => ⟨S64, .f32⟩
  | 30 => ⟨S64, .f32⟩
  | 31 => ⟨S64, .f32⟩
  | 32 => ⟨S1x64, .f32⟩
  | 33 => ⟨S10000x64, .f32⟩
  | 34 => ⟨S10000x64, .f32⟩
  | 35 => ⟨S1x64, .f32⟩
  | 36 => ⟨S10000x64, .f32⟩
  | 37 => ⟨S10000x64, .f32⟩
  | 38 => ⟨S_, .f32⟩
  | 39 => ⟨S64, .f32⟩
  | 40 => ⟨S1x64, .f32⟩
  | 41 => ⟨S_, .f32⟩
  | 42 => ⟨S1x64, .f32⟩
  | 43 => ⟨S1x64, .f32⟩
  | 44 => ⟨S1x3, .f32⟩
  | 45 => ⟨S1x1, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S1x10000, .f32⟩
  | .local _ .vmem, ⟨1, _⟩ => ⟨S1x10000, .f32⟩
  | .local _ .vmem, ⟨2, _⟩ => ⟨S10000x128, .f32⟩
  | .local _ .vmem, ⟨3, _⟩ => ⟨S128x64, .f32⟩
  | .local _ .vmem, ⟨4, _⟩ => ⟨S10000x64, .f32⟩
  | .local _ .vmem, ⟨5, _⟩ => ⟨S6600x64, .f32⟩
  | .local _ .vmem, ⟨6, _⟩ => ⟨S6600x64, .f32⟩
  | .local _ .vmem, ⟨7, _⟩ => ⟨S6600x1, .f32⟩
  | .local _ .vmem, ⟨8, _⟩ => ⟨S6600x1, .f32⟩
  | .local _ .vmem, ⟨9, _⟩ => ⟨S6600x64, .f32⟩
  | .local _ .vmem, ⟨10, _⟩ => ⟨S6600x64, .f32⟩
  | .local _ .vmem, ⟨11, _⟩ => ⟨S6600x64, .f32⟩
  | .local _ .vmem, ⟨12, _⟩ => ⟨S6600x64, .f32⟩
  | .local _ .vmem, ⟨13, _⟩ => ⟨S6600x1, .f32⟩
  | .local _ .vmem, ⟨14, _⟩ => ⟨S6600x1, .f32⟩
  | .local _ .vmem, ⟨15, _⟩ => ⟨S6600x64, .f32⟩
  | .local _ .vmem, ⟨16, _⟩ => ⟨S6600x64, .f32⟩
  | .local _ .vmem, ⟨17, _⟩ => ⟨S6600x64, .f32⟩
  | .local _ .vmem, ⟨18, _⟩ => ⟨S6600x64, .f32⟩
  | .local _ .vmem, ⟨19, _⟩ => ⟨S6600x1, .f32⟩
  | .local _ .vmem, ⟨20, _⟩ => ⟨S6600x1, .f32⟩
  | .local _ .vmem, ⟨21, _⟩ => ⟨S6600x64, .f32⟩
  | .local _ .vmem, ⟨22, _⟩ => ⟨S6600x64, .f32⟩
  | .local _ .vmem, ⟨23, _⟩ => ⟨S1x64, .f32⟩
  | .local _ .vmem, ⟨24, _⟩ => ⟨S64x32, .f32⟩
  | .local _ .vmem, ⟨25, _⟩ => ⟨S32, .f32⟩
  | .local _ .vmem, ⟨26, _⟩ => ⟨S32x3, .f32⟩
  | .local _ .vmem, ⟨27, _⟩ => ⟨S3, .f32⟩
  | .local _ .vmem, ⟨28, _⟩ => ⟨S64x32, .f32⟩
  | .local _ .vmem, ⟨29, _⟩ => ⟨S32, .f32⟩
  | .local _ .vmem, ⟨30, _⟩ => ⟨S32x1, .f32⟩
  | .local _ .vmem, ⟨31, _⟩ => ⟨S1, .f32⟩
  | .local _ .vmem, ⟨32, _⟩ => ⟨S1x3, .f32⟩
  | .local _ .vmem, ⟨33, _⟩ => ⟨S1x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call0_c : Ref sig .tc := ⟨.hbm, 58, rfl⟩
abbrev main_call0_v0 : Ref sig .tc := ⟨.hbm, 59, rfl⟩
abbrev main_call0_v1 : Ref sig .tc := ⟨.hbm, 60, rfl⟩
abbrev main_call0_c_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_c_1 : Ref sig .tc := ⟨.hbm, 66, rfl⟩
abbrev main_call0_c_2 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_3 : Ref sig .tc := ⟨.hbm, 74, rfl⟩
abbrev main_call0_v12 : Ref sig .tc := ⟨.hbm, 75, rfl⟩
abbrev main_call0_v13 : Ref sig .tc := ⟨.hbm, 76, rfl⟩
abbrev main_call0_v14 : Ref sig .tc := ⟨.hbm, 77, rfl⟩
abbrev main_call0_cst : Ref sig .tc := ⟨.hbm, 78, rfl⟩
abbrev main_call0_v15 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst_4 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_5 : Ref sig .tc := ⟨.hbm, 90, rfl⟩
abbrev main_v39 : Ref sig .tc := ⟨.hbm, 91, rfl⟩
abbrev main_cst_6 : Ref sig .tc := ⟨.hbm, 92, rfl⟩
abbrev main_v40 : Ref sig .tc := ⟨.hbm, 93, rfl⟩
abbrev main_v41 : Ref sig .tc := ⟨.hbm, 94, rfl⟩
abbrev main_c_7 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_cst_3 : Ref sig .tc := ⟨.hbm, 112, rfl⟩
abbrev main_call1_v12 : Ref sig .tc := ⟨.hbm, 113, rfl⟩
abbrev main_call1_cst_4 : Ref sig .tc := ⟨.hbm, 114, rfl⟩
abbrev main_call1_call0_v0 : Ref sig .tc := ⟨.hbm, 115, rfl⟩
abbrev main_call1_call0_v1 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_cst_8 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_call2_cst : Ref sig .tc := ⟨.hbm, 134, rfl⟩
abbrev main_call2_v0 : Ref sig .tc := ⟨.hbm, 135, rfl⟩
abbrev main_v58 : Ref sig .tc := ⟨.hbm, 136, rfl⟩
abbrev main_v59 : Ref sig .tc := ⟨.hbm, 137, rfl⟩
abbrev main_call3_c : Ref sig .tc := ⟨.hbm, 138, rfl⟩
abbrev main_call3_v0 : Ref sig .tc := ⟨.hbm, 139, rfl⟩
abbrev main_call3_v1 : Ref sig .tc := ⟨.hbm, 140, rfl⟩
abbrev main_call3_c_0 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_c_1 : Ref sig .tc := ⟨.hbm, 146, rfl⟩
abbrev main_call3_c_2 : Ref sig .tc := ⟨.hbm, 147, rfl⟩
abbrev main_call3_v6 : Ref sig .tc := ⟨.hbm, 148, rfl⟩
abbrev main_call3_v7 : Ref sig .tc := ⟨.hbm, 149, rfl⟩
abbrev main_call3_v8 : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_c_3 : Ref sig .tc := ⟨.hbm, 154, rfl⟩
abbrev main_call3_v12 : Ref sig .tc := ⟨.hbm, 155, rfl⟩
abbrev main_call3_v13 : Ref sig .tc := ⟨.hbm, 156, rfl⟩
abbrev main_call3_v14 : Ref sig .tc := ⟨.hbm, 157, rfl⟩
abbrev main_call3_cst : Ref sig .tc := ⟨.hbm, 158, rfl⟩
abbrev main_call3_v15 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_cst_9 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_cst_10 : Ref sig .tc := ⟨.hbm, 170, rfl⟩
abbrev main_v69 : Ref sig .tc := ⟨.hbm, 171, rfl⟩
abbrev main_cst_11 : Ref sig .tc := ⟨.hbm, 172, rfl⟩
abbrev main_v70 : Ref sig .tc := ⟨.hbm, 173, rfl⟩
abbrev main_v71 : Ref sig .tc := ⟨.hbm, 174, rfl⟩
abbrev main_c_12 : Ref sig .tc := ⟨.hbm, 175, rfl⟩
abbrev main_call4_cst : Ref sig .tc := ⟨.hbm, 176, rfl⟩
abbrev main_call4_v0 : Ref sig .tc := ⟨.hbm, 177, rfl⟩
abbrev main_call4_v1 : Ref sig .tc := ⟨.hbm, 178, rfl⟩
abbrev main_call4_cst_0 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_call4_v5 : Ref sig .tc := ⟨.hbm, 183, rfl⟩
abbrev main_call4_v6 : Ref sig .tc := ⟨.hbm, 184, rfl⟩
abbrev main_call4_v7 : Ref sig .tc := ⟨.hbm, 185, rfl⟩
abbrev main_call4_cst_1 : Ref sig .tc := ⟨.hbm, 186, rfl⟩
abbrev main_call4_v8 : Ref sig .tc := ⟨.hbm, 187, rfl⟩
abbrev main_call4_cst_2 : Ref sig .tc := ⟨.hbm, 188, rfl⟩
abbrev main_call4_v9 : Ref sig .tc := ⟨.hbm, 189, rfl⟩
abbrev main_call4_v10 : Ref sig .tc := ⟨.hbm, 190, rfl⟩
abbrev main_call4_v11 : Ref sig .tc := ⟨.hbm, 191, rfl⟩
abbrev main_call4_cst_3 : Ref sig .tc := ⟨.hbm, 192, rfl⟩
abbrev main_call4_v12 : Ref sig .tc := ⟨.hbm, 193, rfl⟩
abbrev main_call4_cst_4 : Ref sig .tc := ⟨.hbm, 194, rfl⟩
abbrev main_call4_call0_v0 : Ref sig .tc := ⟨.hbm, 195, rfl⟩
abbrev main_call4_call0_v1 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_v78 : Ref sig .tc := ⟨.hbm, 203, rfl⟩
abbrev main_cst_13 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_call5_cst : Ref sig .tc := ⟨.hbm, 214, rfl⟩
abbrev main_call5_v0 : Ref sig .tc := ⟨.hbm, 215, rfl⟩
abbrev main_v88 : Ref sig .tc := ⟨.hbm, 216, rfl⟩
abbrev main_v89 : Ref sig .tc := ⟨.hbm, 217, rfl⟩
abbrev main_call6_c : Ref sig .tc := ⟨.hbm, 218, rfl⟩
abbrev main_call6_v0 : Ref sig .tc := ⟨.hbm, 219, rfl⟩
abbrev main_call6_v1 : Ref sig .tc := ⟨.hbm, 220, rfl⟩
abbrev main_call6_c_0 : Ref sig .tc := ⟨.hbm, 221, rfl⟩
abbrev main_call6_v2 : Ref sig .tc := ⟨.hbm, 222, rfl⟩
abbrev main_call6_v3 : Ref sig .tc := ⟨.hbm, 223, rfl⟩
abbrev main_call6_v4 : Ref sig .tc := ⟨.hbm, 224, rfl⟩
abbrev main_call6_v5 : Ref sig .tc := ⟨.hbm, 225, rfl⟩
abbrev main_call6_c_1 : Ref sig .tc := ⟨.hbm, 226, rfl⟩
abbrev main_call6_c_2 : Ref sig .tc := ⟨.hbm, 227, rfl⟩
abbrev main_call6_v6 : Ref sig .tc := ⟨.hbm, 228, rfl⟩
abbrev main_call6_v7 : Ref sig .tc := ⟨.hbm, 229, rfl⟩
abbrev main_call6_v8 : Ref sig .tc := ⟨.hbm, 230, rfl⟩
abbrev main_call6_v9 : Ref sig .tc := ⟨.hbm, 231, rfl⟩
abbrev main_call6_v10 : Ref sig .tc := ⟨.hbm, 232, rfl⟩
abbrev main_call6_v11 : Ref sig .tc := ⟨.hbm, 233, rfl⟩
abbrev main_call6_c_3 : Ref sig .tc := ⟨.hbm, 234, rfl⟩
abbrev main_call6_v12 : Ref sig .tc := ⟨.hbm, 235, rfl⟩
abbrev main_call6_v13 : Ref sig .tc := ⟨.hbm, 236, rfl⟩
abbrev main_call6_v14 : Ref sig .tc := ⟨.hbm, 237, rfl⟩
abbrev main_call6_cst : Ref sig .tc := ⟨.hbm, 238, rfl⟩
abbrev main_call6_v15 : Ref sig .tc := ⟨.hbm, 239, rfl⟩
abbrev main_v90 : Ref sig .tc := ⟨.hbm, 240, rfl⟩
abbrev main_v91 : Ref sig .tc := ⟨.hbm, 241, rfl⟩
abbrev main_v92 : Ref sig .tc := ⟨.hbm, 242, rfl⟩
abbrev main_cst_14 : Ref sig .tc := ⟨.hbm, 243, rfl⟩
abbrev main_v93 : Ref sig .tc := ⟨.hbm, 244, rfl⟩
abbrev main_v94 : Ref sig .tc := ⟨.hbm, 245, rfl⟩
abbrev main_v95 : Ref sig .tc := ⟨.hbm, 246, rfl⟩
abbrev main_v96 : Ref sig .tc := ⟨.hbm, 247, rfl⟩
abbrev main_v97 : Ref sig .tc := ⟨.hbm, 248, rfl⟩
abbrev main_v98 : Ref sig .tc := ⟨.hbm, 249, rfl⟩
abbrev main_cst_15 : Ref sig .tc := ⟨.hbm, 250, rfl⟩
abbrev main_v99 : Ref sig .tc := ⟨.hbm, 251, rfl⟩
abbrev main_cst_16 : Ref sig .tc := ⟨.hbm, 252, rfl⟩
abbrev main_v100 : Ref sig .tc := ⟨.hbm, 253, rfl⟩
abbrev main_v101 : Ref sig .tc := ⟨.hbm, 254, rfl⟩
abbrev main_c_17 : Ref sig .tc := ⟨.hbm, 255, rfl⟩
abbrev main_call7_cst : Ref sig .tc := ⟨.hbm, 256, rfl⟩
abbrev main_call7_v0 : Ref sig .tc := ⟨.hbm, 257, rfl⟩
abbrev main_call7_v1 : Ref sig .tc := ⟨.hbm, 258, rfl⟩
abbrev main_call7_cst_0 : Ref sig .tc := ⟨.hbm, 259, rfl⟩
abbrev main_call7_v2 : Ref sig .tc := ⟨.hbm, 260, rfl⟩
abbrev main_call7_v3 : Ref sig .tc := ⟨.hbm, 261, rfl⟩
abbrev main_call7_v4 : Ref sig .tc := ⟨.hbm, 262, rfl⟩
abbrev main_call7_v5 : Ref sig .tc := ⟨.hbm, 263, rfl⟩
abbrev main_call7_v6 : Ref sig .tc := ⟨.hbm, 264, rfl⟩
abbrev main_call7_v7 : Ref sig .tc := ⟨.hbm, 265, rfl⟩
abbrev main_call7_cst_1 : Ref sig .tc := ⟨.hbm, 266, rfl⟩
abbrev main_call7_v8 : Ref sig .tc := ⟨.hbm, 267, rfl⟩
abbrev main_call7_cst_2 : Ref sig .tc := ⟨.hbm, 268, rfl⟩
abbrev main_call7_v9 : Ref sig .tc := ⟨.hbm, 269, rfl⟩
abbrev main_call7_v10 : Ref sig .tc := ⟨.hbm, 270, rfl⟩
abbrev main_call7_v11 : Ref sig .tc := ⟨.hbm, 271, rfl⟩
abbrev main_call7_cst_3 : Ref sig .tc := ⟨.hbm, 272, rfl⟩
abbrev main_call7_v12 : Ref sig .tc := ⟨.hbm, 273, rfl⟩
abbrev main_call7_cst_4 : Ref sig .tc := ⟨.hbm, 274, rfl⟩
abbrev main_call7_call0_v0 : Ref sig .tc := ⟨.hbm, 275, rfl⟩
abbrev main_call7_call0_v1 : Ref sig .tc := ⟨.hbm, 276, rfl⟩
abbrev main_v102 : Ref sig .tc := ⟨.hbm, 277, rfl⟩
abbrev main_v103 : Ref sig .tc := ⟨.hbm, 278, rfl⟩
abbrev main_v104 : Ref sig .tc := ⟨.hbm, 279, rfl⟩
abbrev main_v105 : Ref sig .tc := ⟨.hbm, 280, rfl⟩
abbrev main_v106 : Ref sig .tc := ⟨.hbm, 281, rfl⟩
abbrev main_v107 : Ref sig .tc := ⟨.hbm, 282, rfl⟩
abbrev main_v108 : Ref sig .tc := ⟨.hbm, 283, rfl⟩
abbrev main_cst_18 : Ref sig .tc := ⟨.hbm, 284, rfl⟩
abbrev main_v109 : Ref sig .tc := ⟨.hbm, 285, rfl⟩
abbrev main_v110 : Ref sig .tc := ⟨.hbm, 286, rfl⟩
abbrev main_v111 : Ref sig .tc := ⟨.hbm, 287, rfl⟩
abbrev main_v112 : Ref sig .tc := ⟨.hbm, 288, rfl⟩
abbrev main_v113 : Ref sig .tc := ⟨.hbm, 289, rfl⟩
abbrev main_v114 : Ref sig .tc := ⟨.hbm, 290, rfl⟩
abbrev main_v115 : Ref sig .tc := ⟨.hbm, 291, rfl⟩
abbrev main_v116 : Ref sig .tc := ⟨.hbm, 292, rfl⟩
abbrev main_v117 : Ref sig .tc := ⟨.hbm, 293, rfl⟩
abbrev main_cst_19 : Ref sig .tc := ⟨.hbm, 294, rfl⟩
abbrev main_v118 : Ref sig .tc := ⟨.hbm, 295, rfl⟩
abbrev main_v119 : Ref sig .tc := ⟨.hbm, 296, rfl⟩
abbrev main_cst_20 : Ref sig .tc := ⟨.hbm, 297, rfl⟩
abbrev main_v120 : Ref sig .tc := ⟨.hbm, 298, rfl⟩
abbrev main_v121 : Ref sig .tc := ⟨.hbm, 299, rfl⟩
abbrev main_v122_0 : Ref sig .tc := ⟨.hbm, 300, rfl⟩
abbrev main_v122_1 : Ref sig .tc := ⟨.hbm, 301, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc4_stg0_0 : Ref sig .tc := ⟨.vmem, 17, rfl⟩
abbrev cc4_stg0_1 : Ref sig .tc := ⟨.vmem, 18, rfl⟩
abbrev cc4_stg1_0 : Ref sig .tc := ⟨.vmem, 19, rfl⟩
abbrev cc4_stg1_1 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc5_stg3_0 : Ref sig .tc := ⟨.vmem, 26, rfl⟩
abbrev cc5_stg4_0 : Ref sig .tc := ⟨.vmem, 27, rfl⟩
abbrev cc5_stg5_0 : Ref sig .tc := ⟨.vmem, 28, rfl⟩
abbrev cc5_stg6_0 : Ref sig .tc := ⟨.vmem, 29, rfl⟩
abbrev cc5_stg7_0 : Ref sig .tc := ⟨.vmem, 30, rfl⟩
abbrev cc5_stg8_0 : Ref sig .tc := ⟨.vmem, 31, rfl⟩
abbrev cc5_stg9_0 : Ref sig .tc := ⟨.vmem, 32, rfl⟩
abbrev cc5_stg10_0 : Ref sig .tc := ⟨.vmem, 33, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc2_sem0_0 : DmaSem sig := 5
abbrev cc2_sem0_1 : DmaSem sig := 6
abbrev cc2_sem1_0 : DmaSem sig := 7
abbrev cc2_sem1_1 : DmaSem sig := 8
abbrev cc2_sem2_0 : DmaSem sig := 9
abbrev cc2_sem2_1 : DmaSem sig := 10
abbrev cc3_sem0_0 : DmaSem sig := 11
abbrev cc3_sem0_1 : DmaSem sig := 12
abbrev cc3_sem1_0 : DmaSem sig := 13
abbrev cc3_sem1_1 : DmaSem sig := 14
abbrev cc3_sem2_0 : DmaSem sig := 15
abbrev cc3_sem2_1 : DmaSem sig := 16
abbrev cc4_sem0_0 : DmaSem sig := 17
abbrev cc4_sem0_1 : DmaSem sig := 18
abbrev cc4_sem1_0 : DmaSem sig := 19
abbrev cc4_sem1_1 : DmaSem sig := 20
abbrev cc4_sem2_0 : DmaSem sig := 21
abbrev cc4_sem2_1 : DmaSem sig := 22
abbrev cc5_sem0_0 : DmaSem sig := 23
abbrev cc5_sem1_0 : DmaSem sig := 24
abbrev cc5_sem2_0 : DmaSem sig := 25
abbrev cc5_sem3_0 : DmaSem sig := 26
abbrev cc5_sem4_0 : DmaSem sig := 27
abbrev cc5_sem5_0 : DmaSem sig := 28
abbrev cc5_sem6_0 : DmaSem sig := 29
abbrev cc5_sem7_0 : DmaSem sig := 30
abbrev cc5_sem8_0 : DmaSem sig := 31
abbrev cc5_sem9_0 : DmaSem sig := 32
abbrev cc5_sem10_0 : DmaSem sig := 33

abbrev nD : Nat := 1
abbrev τ : Topo := Topo.v7x

variable {F : FTy → Type} [FloatOps F]

abbrev grid0 : Pipeline.Grid := .none

abbrev stage0_0 : Fin 1 → Memref sig .tc .vmem S1x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6600x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6600x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6600x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6600x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6600x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6600x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6600x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6600x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6600x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := .none

abbrev stage5_0 : Fin 1 → Memref sig .tc .vmem S1x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S32x3 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S3 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S64x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S32x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))

abbrev stage5_8 : Fin 1 → Memref sig .tc .vmem S1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))

abbrev stage5_9 : Fin 1 → Memref sig .tc .vmem S1x3 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))

abbrev stage5_10 : Fin 1 → Memref sig .tc .vmem S1x1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  shapeCasts_S10000_S1x10000 : S10000.ShapeCasts S1x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  shapeCasts_S1x10000_S10000 : S1x10000.ShapeCasts S10000
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S330000x1 : S_.BroadcastsInDim S330000x1 (![] : Fin 0 → Fin S330000x1.rank)
  bcast_S1_S1x1_1 : S1.BroadcastsInDim S1x1 (![1] : Fin 1 → Fin S1x1.rank)
  bcast_S1x1_S330000x1_0_1 : S1x1.BroadcastsInDim S330000x1 (![0, 1] : Fin 2 → Fin S330000x1.rank)
  reducesTo_S330000x1_S330000_d1 : S330000x1.ReducesTo [1] S330000
  h_S_ : 0 < S_.numel
  bcast_S330000_S330000x64_0 : S330000.BroadcastsInDim S330000x64 (![0] : Fin 1 → Fin S330000x64.rank)
  bcast_S_S330000x64 : S_.BroadcastsInDim S330000x64 (![] : Fin 0 → Fin S330000x64.rank)
  shapeCasts_S330000_S330000x1 : S330000.ShapeCasts S330000x1
  inb_S6600x64_S6600x64_0_0 : ∀ a, (![0, 0] : Fin 2 → Nat) a + S6600x64.size a ≤ S6600x64.size a
  h_S6600x64 : 0 < S6600x64.numel
  shapeCasts_S6600x64_S6600x64 : S6600x64.ShapeCasts S6600x64
  inb_S6600x1_S6600x1_0_0 : ∀ a, (![0, 0] : Fin 2 → Nat) a + S6600x1.size a ≤ S6600x1.size a
  h_S6600x1 : 0 < S6600x1.numel
  shapeCasts_S6600x1_S6600x1 : S6600x1.ShapeCasts S6600x1
  broadcasts_S6600x1_S6600x64 : S6600x1.Broadcasts S6600x64
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S64_d0 : S10000x64.ReducesTo [0] S64
  bcast_S_S64 : S_.BroadcastsInDim S64 (![] : Fin 0 → Fin S64.rank)
  bcast_S_S1x64 : S_.BroadcastsInDim S1x64 (![] : Fin 0 → Fin S1x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  inb_S32x3_S32x3_0_0 : ∀ a, (![0, 0] : Fin 2 → Nat) a + S32x3.size a ≤ S32x3.size a
  h_S32x3 : 0 < S32x3.numel
  inb_S3_S3_0 : ∀ a, (![0] : Fin 1 → Nat) a + S3.size a ≤ S3.size a
  h_S3 : 0 < S3.numel
  shapeCasts_S3_S1x3 : S3.ShapeCasts S1x3
  inb_S1x3_S1x3_0_0 : ∀ a, (![0, 0] : Fin 2 → Nat) a + S1x3.size a ≤ S1x3.size a
  h_S1x3 : 0 < S1x3.numel
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  inb_S1x1_S1x1_0_0 : ∀ a, (![0, 0] : Fin 2 → Nat) a + S1x1.size a ≤ S1x1.size a
  h_S1x1 : 0 < S1x1.numel
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x128_S128x64_S10000x64_1_0_0_1_n_n_wf : DotDims.WF S10000x128 S128x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S1x64_S64x32_S1x32_1_0_0_1_n_n_wf : DotDims.WF S1x64 S64x32 S1x32 [1] [0] [0] [1] [] []
  dot_S1x32_S32x3_S1x3_1_0_0_1_n_n_wf : DotDims.WF S1x32 S32x3 S1x3 [1] [0] [0] [1] [] []
  dot_S1x32_S32x1_S1x1_1_0_0_1_n_n_wf : DotDims.WF S1x32 S32x1 S1x1 [1] [0] [0] [1] [] []
  hstage0_0 : ∀ j, (stage0_0 j).IsWhole
  hstage0_1 : ∀ j, (stage0_1 j).IsWhole
  hstage1_0 : ∀ j, (stage1_0 j).IsWhole
  hstage1_1 : ∀ j, (stage1_1 j).IsWhole
  hstage1_2 : ∀ j, (stage1_2 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6600x64.size a ≤ S330000x64.size a
  hwx2_0 : ∀ i : grid2.Coords, EltTy.bits .f32 = 32 ∨ (Rect.block (s := S330000x64) S6600x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6600x1.size a ≤ S330000x1.size a
  hwx2_1 : ∀ i : grid2.Coords, EltTy.bits .f32 = 32 ∨ (Rect.block (s := S330000x1) S6600x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6600x64.size a ≤ S330000x64.size a
  hwx2_2 : ∀ i : grid2.Coords, EltTy.bits .f32 = 32 ∨ (Rect.block (s := S330000x64) S6600x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6600x64.size a ≤ S330000x64.size a
  hwx3_0 : ∀ i : grid3.Coords, EltTy.bits .f32 = 32 ∨ (Rect.block (s := S330000x64) S6600x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6600x1.size a ≤ S330000x1.size a
  hwx3_1 : ∀ i : grid3.Coords, EltTy.bits .f32 = 32 ∨ (Rect.block (s := S330000x1) S6600x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6600x64.size a ≤ S330000x64.size a
  hwx3_2 : ∀ i : grid3.Coords, EltTy.bits .f32 = 32 ∨ (Rect.block (s := S330000x64) S6600x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6600x64.size a ≤ S330000x64.size a
  hwx4_0 : ∀ i : grid4.Coords, EltTy.bits .f32 = 32 ∨ (Rect.block (s := S330000x64) S6600x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6600x1.size a ≤ S330000x1.size a
  hwx4_1 : ∀ i : grid4.Coords, EltTy.bits .f32 = 32 ∨ (Rect.block (s := S330000x1) S6600x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6600x64.size a ≤ S330000x64.size a
  hwx4_2 : ∀ i : grid4.Coords, EltTy.bits .f32 = 32 ∨ (Rect.block (s := S330000x64) S6600x64.size (cc4_transform_2 i) (hinb4_2 i)).WholeWords (EltTy.packing .f32)
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole
  hstage5_6 : ∀ j, (stage5_6 j).IsWhole
  hstage5_7 : ∀ j, (stage5_7 j).IsWhole
  hstage5_8 : ∀ j, (stage5_8 j).IsWhole
  hstage5_9 : ∀ j, (stage5_9 j).IsWhole
  hstage5_10 : ∀ j, (stage5_10 j).IsWhole

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x3_S1x3_1_0_0_1_n_n : DotDims S1x32 S32x3 S1x3 where
  lhsContracting := [1]
  rhsContracting := [0]
  lhsNonContracting := [0]
  rhsNonContracting := [1]
  lhsBatch := []
  rhsBatch := []
  wf := dot_S1x32_S32x3_S1x3_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

abbrev win0_0 : Pipeline.Window sig grid0 :=
  Pipeline.Window.whole (Memref.whole main_v11) false false (stage0_0 0) (sem0_0 0) (Memref.isWhole_whole _) (hstage0_0 0)

abbrev win0_1 : Pipeline.Window sig grid0 :=
  Pipeline.Window.whole (Memref.whole main_v12) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.whole (Memref.whole main_arg0) false false (stage1_0 0) (sem1_0 0) (Memref.isWhole_whole _) (hstage1_0 0)

abbrev win1_1 : Pipeline.Window sig grid1 :=
  Pipeline.Window.whole (Memref.whole main_arg2) false false (stage1_1 0) (sem1_1 0) (Memref.isWhole_whole _) (hstage1_1 0)

abbrev win1_2 : Pipeline.Window sig grid1 :=
  Pipeline.Window.whole (Memref.whole main_v29) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S6600x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S6600x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S6600x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S6600x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S6600x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S6600x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v90) S6600x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S6600x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S6600x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.whole (Memref.whole main_v121) false false (stage5_0 0) (sem5_0 0) (Memref.isWhole_whole _) (hstage5_0 0)

abbrev win5_1 : Pipeline.Window sig grid5 :=
  Pipeline.Window.whole (Memref.whole main_arg14) false false (stage5_1 0) (sem5_1 0) (Memref.isWhole_whole _) (hstage5_1 0)

abbrev win5_2 : Pipeline.Window sig grid5 :=
  Pipeline.Window.whole (Memref.whole main_arg15) false false (stage5_2 0) (sem5_2 0) (Memref.isWhole_whole _) (hstage5_2 0)

abbrev win5_3 : Pipeline.Window sig grid5 :=
  Pipeline.Window.whole (Memref.whole main_arg16) false false (stage5_3 0) (sem5_3 0) (Memref.isWhole_whole _) (hstage5_3 0)

abbrev win5_4 : Pipeline.Window sig grid5 :=
  Pipeline.Window.whole (Memref.whole main_arg17) false false (stage5_4 0) (sem5_4 0) (Memref.isWhole_whole _) (hstage5_4 0)

abbrev win5_5 : Pipeline.Window sig grid5 :=
  Pipeline.Window.whole (Memref.whole main_arg18) false false (stage5_5 0) (sem5_5 0) (Memref.isWhole_whole _) (hstage5_5 0)

abbrev win5_6 : Pipeline.Window sig grid5 :=
  Pipeline.Window.whole (Memref.whole main_arg19) false false (stage5_6 0) (sem5_6 0) (Memref.isWhole_whole _) (hstage5_6 0)

abbrev win5_7 : Pipeline.Window sig grid5 :=
  Pipeline.Window.whole (Memref.whole main_arg20) false false (stage5_7 0) (sem5_7 0) (Memref.isWhole_whole _) (hstage5_7 0)

abbrev win5_8 : Pipeline.Window sig grid5 :=
  Pipeline.Window.whole (Memref.whole main_arg21) false false (stage5_8 0) (sem5_8 0) (Memref.isWhole_whole _) (hstage5_8 0)

abbrev win5_9 : Pipeline.Window sig grid5 :=
  Pipeline.Window.whole (Memref.whole main_v122_0) true false (stage5_9 0) (sem5_9 0) (Memref.isWhole_whole _) (hstage5_9 0)

abbrev win5_10 : Pipeline.Window sig grid5 :=
  Pipeline.Window.whole (Memref.whole main_v122_1) true false (stage5_10 0) (sem5_10 0) (Memref.isWhole_whole _) (hstage5_10 0)

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S32x1 : Shape := ⟨2, ![32, 1]⟩
abbrev S1 : Shape := ⟨1, ![1]⟩
abbrev S1x320000 : Shape := ⟨2, ![1, 320000]⟩
abbrev S320000 : Shape := ⟨1, ![320000]⟩
abbrev S10000x64 : Shape := ⟨2, ![10000, 64]⟩
abbrev S10000 : Shape := ⟨1, ![10000]⟩
abbrev S330000 : Shape := ⟨1, ![330000]⟩
abbrev S_ : Shape := ⟨0, ![]⟩
abbrev S330000x1 : Shape := ⟨2, ![330000, 1]⟩
abbrev S1x1 : Shape := ⟨2, ![1, 1]⟩
abbrev S330000x64 : Shape := ⟨2, ![330000, 64]⟩
abbrev S1x64 : Shape := ⟨2, ![1, 64]⟩
abbrev S1x32 : Shape := ⟨2, ![1, 32]⟩
abbrev S1x3 : Shape := ⟨2, ![1, 3]⟩

abbrev nBuf : Space → Nat
  | .hbm => 407
  | .vmem => 0
  | .smem => 0
  | _ => 0

abbrev hbmTy0_0 (i : Nat) : BufTy := match i % 128 with
  | 0 => ⟨S10000x128, .f32⟩
  | 1 => ⟨S2x320000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x32, .f32⟩
  | 15 => ⟨S32, .f32⟩
  | 16 => ⟨S32x3, .f32⟩
  | 17 => ⟨S3, .f32⟩
  | 18 => ⟨S64x32, .f32⟩
  | 19 => ⟨S32, .f32⟩
  | 20 => ⟨S32x1, .f32⟩
  | 21 => ⟨S1, .f32⟩
  | 22 => ⟨S1x320000, .i32⟩
  | 23 => ⟨S320000, .i32⟩
  | 24 => ⟨S1x320000, .i32⟩
  | 25 => ⟨S320000, .i32⟩
  | 26 => ⟨S10000x64, .f32⟩
  | 27 => ⟨S10000, .i32⟩
  | 28 => ⟨S330000, .i32⟩
  | 29 => ⟨S330000, .i32⟩
  | 30 => ⟨S_, .f32⟩
  | 31 => ⟨S330000, .f32⟩
  | 32 => ⟨S_, .f32⟩
  | 33 => ⟨S10000, .f32⟩
  | 34 => ⟨S330000x1, .i32⟩
  | 35 => ⟨S10000, .f32⟩
  | 36 => ⟨S_, .f32⟩
  | 37 => ⟨S10000, .f32⟩
  | 38 => ⟨S10000, .i1⟩
  | 39 => ⟨S10000, .f32⟩
  | 40 => ⟨S_, .f32⟩
  | 41 => ⟨S10000, .f32⟩
  | 42 => ⟨S10000, .f32⟩
  | 43 => ⟨S_, .f32⟩
  | 44 => ⟨S_, .f32⟩
  | 45 => ⟨S10000, .f32⟩
  | 46 => ⟨S10000, .f32⟩
  | 47 => ⟨S_, .i32⟩
  | 48 => ⟨S330000, .i32⟩
  | 49 => ⟨S330000, .i1⟩
  | 50 => ⟨S_, .i32⟩
  | 51 => ⟨S330000, .i32⟩
  | 52 => ⟨S330000, .i32⟩
  | 53 => ⟨S330000, .i32⟩
  | 54 => ⟨S330000x1, .i32⟩
  | 55 => ⟨S330000, .f32⟩
  | 56 => ⟨S_, .i32⟩
  | 57 => ⟨S330000, .i32⟩
  | 58 => ⟨S330000, .i1⟩
  | 59 => ⟨S_, .i32⟩
  | 60 => ⟨S330000, .i32⟩
  | 61 => ⟨S330000, .i32⟩
  | 62 => ⟨S330000, .i32⟩
  | 63 => ⟨S330000x1, .i32⟩
  | 64 => ⟨S330000, .f32⟩
  | 65 => ⟨S330000, .f32⟩
  | 66 => ⟨S330000x1, .f32⟩
  | 67 => ⟨S_, .i32⟩
  | 68 => ⟨S330000, .i32⟩
  | 69 => ⟨S330000, .i1⟩
  | 70 => ⟨S_, .i32⟩
  | 71 => ⟨S330000, .i32⟩
  | 72 => ⟨S330000, .i32⟩
  | 73 => ⟨S330000, .i32⟩
  | 74 => ⟨S330000x1, .i32⟩
  | 75 => ⟨S1, .i32⟩
  | 76 => ⟨S_, .i32⟩
  | 77 => ⟨S330000x1, .i32⟩
  | 78 => ⟨S330000x1, .i1⟩
  | 79 => ⟨S1x1, .i32⟩
  | 80 => ⟨S330000x1, .i32⟩
  | 81 => ⟨S330000x1, .i1⟩
  | 82 => ⟨S330000x1, .i1⟩
  | 83 => ⟨S_, .i1⟩
  | 84 => ⟨S330000, .i1⟩
  | 85 => ⟨S330000x64, .f32⟩
  | 86 => ⟨S330000x64, .i1⟩
  | 87 => ⟨S_, .f32⟩
  | 88 => ⟨S330000x64, .f32⟩
  | 89 => ⟨S330000x64, .f32⟩
  | 90 => ⟨S330000x64, .f32⟩
  | 91 => ⟨S330000x64, .f32⟩
  | 92 => ⟨S_, .f32⟩
  | 93 => ⟨S10000x64, .f32⟩
  | 94 => ⟨S330000x1, .i32⟩
  | 95 => ⟨S10000x64, .f32⟩
  | 96 => ⟨S1x64, .f32⟩
  | 97 => ⟨S10000x64, .f32⟩
  | 98 => ⟨S10000x64, .f32⟩
  | 99 => ⟨S_, .f32⟩
  | 100 => ⟨S64, .f32⟩
  | 101 => ⟨S_, .f32⟩
  | 102 => ⟨S64, .f32⟩
  | 103 => ⟨S64, .f32⟩
  | 104 => ⟨S_, .i32⟩
  | 105 => ⟨S_, .f32⟩
  | 106 => ⟨S64, .f32⟩
  | 107 => ⟨S1x64, .f32⟩
  | 108 => ⟨S_, .f32⟩
  | 109 => ⟨S1x64, .f32⟩
  | 110 => ⟨S1x64, .f32⟩
  | 111 => ⟨S10000x64, .f32⟩
  | 112 => ⟨S10000x64, .f32⟩
  | 113 => ⟨S10000x64, .f32⟩
  | 114 => ⟨S_, .f32⟩
  | 115 => ⟨S_, .f32⟩
  | 116 => ⟨S_, .f32⟩
  | 117 => ⟨S_, .f32⟩
  | 118 => ⟨S64, .f32⟩
  | 119 => ⟨S64, .f32⟩
  | 120 => ⟨S64, .f32⟩
  | 121 => ⟨S_, .f32⟩
  | 122 => ⟨S_, .i1⟩
  | 123 => ⟨S_, .f32⟩
  | 124 => ⟨S_, .f32⟩
  | 125 => ⟨S64, .f32⟩
  | 126 => ⟨S64, .f32⟩
  | 127 => ⟨S1x64, .f32⟩
  | _ => ⟨S10000x128, .f32⟩

abbrev hbmTy0_1 (i : Nat) : BufTy := match i % 128 with
  | 0 => ⟨S10000x64, .f32⟩
  | 1 => ⟨S10000x64, .f32⟩
  | 2 => ⟨S1x64, .f32⟩
  | 3 => ⟨S10000x64, .f32⟩
  | 4 => ⟨S10000x64, .f32⟩
  | 5 => ⟨S_, .f32⟩
  | 6 => ⟨S64, .f32⟩
  | 7 => ⟨S64, .f32⟩
  | 8 => ⟨S64, .f32⟩
  | 9 => ⟨S1x64, .f32⟩
  | 10 => ⟨S10000x64, .f32⟩
  | 11 => ⟨S10000x64, .f32⟩
  | 12 => ⟨S1x64, .f32⟩
  | 13 => ⟨S10000x64, .f32⟩
  | 14 => ⟨S10000x64, .f32⟩
  | 15 => ⟨S_, .f32⟩
  | 16 => ⟨S10000x64, .f32⟩
  | 17 => ⟨S10000x64, .f32⟩
  | 18 => ⟨S10000x64, .f32⟩
  | 19 => ⟨S10000, .i32⟩
  | 20 => ⟨S330000, .i32⟩
  | 21 => ⟨S330000, .i32⟩
  | 22 => ⟨S_, .f32⟩
  | 23 => ⟨S330000, .f32⟩
  | 24 => ⟨S_, .f32⟩
  | 25 => ⟨S10000, .f32⟩
  | 26 => ⟨S330000x1, .i32⟩
  | 27 => ⟨S10000, .f32⟩
  | 28 => ⟨S_, .f32⟩
  | 29 => ⟨S10000, .f32⟩
  | 30 => ⟨S10000, .i1⟩
  | 31 => ⟨S10000, .f32⟩
  | 32 => ⟨S_, .f32⟩
  | 33 => ⟨S10000, .f32⟩
  | 34 => ⟨S10000, .f32⟩
  | 35 => ⟨S_, .f32⟩
  | 36 => ⟨S_, .f32⟩
  | 37 => ⟨S10000, .f32⟩
  | 38 => ⟨S10000, .f32⟩
  | 39 => ⟨S_, .i32⟩
  | 40 => ⟨S330000, .i32⟩
  | 41 => ⟨S330000, .i1⟩
  | 42 => ⟨S_, .i32⟩
  | 43 => ⟨S330000, .i32⟩
  | 44 => ⟨S330000, .i32⟩
  | 45 => ⟨S330000, .i32⟩
  | 46 => ⟨S330000x1, .i32⟩
  | 47 => ⟨S330000, .f32⟩
  | 48 => ⟨S_, .i32⟩
  | 49 => ⟨S330000, .i32⟩
  | 50 => ⟨S330000, .i1⟩
  | 51 => ⟨S_, .i32⟩
  | 52 => ⟨S330000, .i32⟩
  | 53 => ⟨S330000, .i32⟩
  | 54 => ⟨S330000, .i32⟩
  | 55 => ⟨S330000x1, .i32⟩
  | 56 => ⟨S330000, .f32⟩
  | 57 => ⟨S330000, .f32⟩
  | 58 => ⟨S330000x1, .f32⟩
  | 59 => ⟨S_, .i32⟩
  | 60 => ⟨S330000, .i32⟩
  | 61 => ⟨S330000, .i1⟩
  | 62 => ⟨S_, .i32⟩
  | 63 => ⟨S330000, .i32⟩
  | 64 => ⟨S330000, .i32⟩
  | 65 => ⟨S330000, .i32⟩
  | 66 => ⟨S330000x1, .i32⟩
  | 67 => ⟨S1, .i32⟩
  | 68 => ⟨S_, .i32⟩
  | 69 => ⟨S330000x1, .i32⟩
  | 70 => ⟨S330000x1, .i1⟩
  | 71 => ⟨S1x1, .i32⟩
  | 72 => ⟨S330000x1, .i32⟩
  | 73 => ⟨S330000x1, .i1⟩
  | 74 => ⟨S330000x1, .i1⟩
  | 75 => ⟨S_, .i1⟩
  | 76 => ⟨S330000, .i1⟩
  | 77 => ⟨S330000x64, .f32⟩
  | 78 => ⟨S330000x64, .i1⟩
  | 79 => ⟨S_, .f32⟩
  | 80 => ⟨S330000x64, .f32⟩
  | 81 => ⟨S330000x64, .f32⟩
  | 82 => ⟨S330000x64, .f32⟩
  | 83 => ⟨S330000x64, .f32⟩
  | 84 => ⟨S_, .f32⟩
  | 85 => ⟨S10000x64, .f32⟩
  | 86 => ⟨S330000x1, .i32⟩
  | 87 => ⟨S10000x64, .f32⟩
  | 88 => ⟨S1x64, .f32⟩
  | 89 => ⟨S10000x64, .f32⟩
  | 90 => ⟨S10000x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S10000x64, .f32⟩
  | 104 => ⟨S10000x64, .f32⟩
  | 105 => ⟨S10000x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S10000x64, .f32⟩
  | 121 => ⟨S10000x64, .f32⟩
  | 122 => ⟨S1x64, .f32⟩
  | 123 => ⟨S10000x64, .f32⟩
  | 124 => ⟨S10000x64, .f32⟩
  | 125 => ⟨S_, .f32⟩
  | 126 => ⟨S64, .f32⟩
  | 127 => ⟨S64, .f32⟩
  | _ => ⟨S10000x128, .f32⟩

abbrev hbmTy0_2 (i : Nat) : BufTy := match i % 128 with
  | 0 => ⟨S64, .f32⟩
  | 1 => ⟨S1x64, .f32⟩
  | 2 => ⟨S10000x64, .f32⟩
  | 3 => ⟨S10000x64, .f32⟩
  | 4 => ⟨S1x64, .f32⟩
  | 5 => ⟨S10000x64, .f32⟩
  | 6 => ⟨S10000x64, .f32⟩
  | 7 => ⟨S_, .f32⟩
  | 8 => ⟨S10000x64, .f32⟩
  | 9 => ⟨S10000x64, .f32⟩
  | 10 => ⟨S10000x64, .f32⟩
  | 11 => ⟨S10000, .i32⟩
  | 12 => ⟨S330000, .i32⟩
  | 13 => ⟨S330000, .i32⟩
  | 14 => ⟨S_, .f32⟩
  | 15 => ⟨S330000, .f32⟩
  | 16 => ⟨S_, .f32⟩
  | 17 => ⟨S10000, .f32⟩
  | 18 => ⟨S330000x1, .i32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S10000, .f32⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S330000, .i32⟩
  | 33 => ⟨S330000, .i1⟩
  | 34 => ⟨S_, .i32⟩
  | 35 => ⟨S330000, .i32⟩
  | 36 => ⟨S330000, .i32⟩
  | 37 => ⟨S330000, .i32⟩
  | 38 => ⟨S330000x1, .i32⟩
  | 39 => ⟨S330000, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S330000, .f32⟩
  | 49 => ⟨S330000, .f32⟩
  | 50 => ⟨S330000x1, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S1, .i32⟩
  | 60 => ⟨S_, .i32⟩
  | 61 => ⟨S330000x1, .i32⟩
  | 62 => ⟨S330000x1, .i1⟩
  | 63 => ⟨S1x1, .i32⟩
  | 64 => ⟨S330000x1, .i32⟩
  | 65 => ⟨S330000x1, .i1⟩
  | 66 => ⟨S330000x1, .i1⟩
  | 67 => ⟨S_, .i1⟩
  | 68 => ⟨S330000, .i1⟩
  | 69 => ⟨S330000x64, .f32⟩
  | 70 => ⟨S330000x64, .i1⟩
  | 71 => ⟨S_, .f32⟩
  | 72 => ⟨S330000x64, .f32⟩
  | 73 => ⟨S330000x64, .f32⟩
  | 74 => ⟨S330000x64, .f32⟩
  | 75 => ⟨S330000x64, .f32⟩
  | 76 => ⟨S_, .f32⟩
  | 77 => ⟨S10000x64, .f32⟩
  | 78 => ⟨S330000x1, .i32⟩
  | 79 => ⟨S10000x64, .f32⟩
  | 80 => ⟨S1x64, .f32⟩
  | 81 => ⟨S10000x64, .f32⟩
  | 82 => ⟨S10000x64, .f32⟩
  | 83 => ⟨S_, .f32⟩
  | 84 => ⟨S64, .f32⟩
  | 85 => ⟨S_, .f32⟩
  | 86 => ⟨S64, .f32⟩
  | 87 => ⟨S64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S10000x64, .f32⟩
  | 96 => ⟨S10000x64, .f32⟩
  | 97 => ⟨S10000x64, .f32⟩
  | 98 => ⟨S_, .f32⟩
  | 99 => ⟨S_, .f32⟩
  | 100 => ⟨S_, .f32⟩
  | 101 => ⟨S_, .f32⟩
  | 102 => ⟨S64, .f32⟩
  | 103 => ⟨S64, .f32⟩
  | 104 => ⟨S64, .f32⟩
  | 105 => ⟨S_, .f32⟩
  | 106 => ⟨S_, .i1⟩
  | 107 => ⟨S_, .f32⟩
  | 108 => ⟨S_, .f32⟩
  | 109 => ⟨S64, .f32⟩
  | 110 => ⟨S64, .f32⟩
  | 111 => ⟨S1x64, .f32⟩
  | 112 => ⟨S10000x64, .f32⟩
  | 113 => ⟨S10000x64, .f32⟩
  | 114 => ⟨S1x64, .f32⟩
  | 115 => ⟨S10000x64, .f32⟩
  | 116 => ⟨S10000x64, .f32⟩
  | 117 => ⟨S_, .f32⟩
  | 118 => ⟨S64, .f32⟩
  | 119 => ⟨S64, .f32⟩
  | 120 => ⟨S64, .f32⟩
  | 121 => ⟨S1x64, .f32⟩
  | 122 => ⟨S10000x64, .f32⟩
  | 123 => ⟨S10000x64, .f32⟩
  | 124 => ⟨S1x64, .f32⟩
  | 125 => ⟨S10000x64, .f32⟩
  | 126 => ⟨S10000x64, .f32⟩
  | 127 => ⟨S_, .f32⟩
  | _ => ⟨S10000x128, .f32⟩

abbrev hbmTy0_3 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S1x32, .f32⟩
  | 6 => ⟨S1x32, .f32⟩
  | 7 => ⟨S1x32, .f32⟩
  | 8 => ⟨S_, .f32⟩
  | 9 => ⟨S1x32, .f32⟩
  | 10 => ⟨S1x32, .f32⟩
  | 11 => ⟨S1x3, .f32⟩
  | 12 => ⟨S1x3, .f32⟩
  | 13 => ⟨S1x3, .f32⟩
  | 14 => ⟨S1x32, .f32⟩
  | 15 => ⟨S1x32, .f32⟩
  | 16 => ⟨S1x32, .f32⟩
  | 17 => ⟨S_, .f32⟩
  | 18 => ⟨S1x32, .f32⟩
  | 19 => ⟨S1x32, .f32⟩
  | 20 => ⟨S1x1, .f32⟩
  | 21 => ⟨S1x1, .f32⟩
  | 22 => ⟨S1x1, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v17 : Ref sig .tc := ⟨.hbm, 46, rfl⟩
abbrev main_c : Ref sig .tc := ⟨.hbm, 47, rfl⟩
abbrev main_v18 : Ref sig .tc := ⟨.hbm, 48, rfl⟩
abbrev main_v19 : Ref sig .tc := ⟨.hbm, 49, rfl⟩
abbrev main_c_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_c_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_7 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_8 : Ref sig .tc := ⟨.hbm, 99, rfl⟩
abbrev main_v43 : Ref sig .tc := ⟨.hbm, 100, rfl⟩
abbrev main_cst_9 : Ref sig .tc := ⟨.hbm, 101, rfl⟩
abbrev main_v44 : Ref sig .tc := ⟨.hbm, 102, rfl⟩
abbrev main_v45 : Ref sig .tc := ⟨.hbm, 103, rfl⟩
abbrev main_c_10 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_cst_3 : Ref sig .tc := ⟨.hbm, 121, rfl⟩
abbrev main_call2_v12 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_11 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_call3_cst : Ref sig .tc := ⟨.hbm, 143, rfl⟩
abbrev main_call3_v0 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_cst_12 : Ref sig .tc := ⟨.hbm, 150, rfl⟩
abbrev main_v67 : Ref sig .tc := ⟨.hbm, 151, rfl⟩
abbrev main_cst_13 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_cst_14 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_cst_15 : Ref sig .tc := ⟨.hbm, 160, rfl⟩
abbrev main_v74 : Ref sig .tc := ⟨.hbm, 161, rfl⟩
abbrev main_v75 : Ref sig .tc := ⟨.hbm, 162, rfl⟩
abbrev main_cst_16 : Ref sig .tc := ⟨.hbm, 163, rfl⟩
abbrev main_call4_v0 : Ref sig .tc := ⟨.hbm, 164, rfl⟩
abbrev main_call4_v1 : Ref sig .tc := ⟨.hbm, 165, rfl⟩
abbrev main_v76 : Ref sig .tc := ⟨.hbm, 166, rfl⟩
abbrev main_c_17 : Ref sig .tc := ⟨.hbm, 167, rfl⟩
abbrev main_v77 : Ref sig .tc := ⟨.hbm, 168, rfl⟩
abbrev main_v78 : Ref sig .tc := ⟨.hbm, 169, rfl⟩
abbrev main_c_18 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_c_19 : Ref sig .tc := ⟨.hbm, 176, rfl⟩
abbrev main_v84 : Ref sig .tc := ⟨.hbm, 177, rfl⟩
abbrev main_v85 : Ref sig .tc := ⟨.hbm, 178, rfl⟩
abbrev main_c_20 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_call5_c : Ref sig .tc := ⟨.hbm, 187, rfl⟩
abbrev main_call5_v0 : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_v5 : Ref sig .tc := ⟨.hbm, 194, rfl⟩
abbrev main_call5_c_1 : Ref sig .tc := ⟨.hbm, 195, rfl⟩
abbrev main_call5_c_2 : Ref sig .tc := ⟨.hbm, 196, rfl⟩
abbrev main_call5_v6 : Ref sig .tc := ⟨.hbm, 197, rfl⟩
abbrev main_call5_v7 : Ref sig .tc := ⟨.hbm, 198, rfl⟩
abbrev main_call5_v8 : Ref sig .tc := ⟨.hbm, 199, rfl⟩
abbrev main_call5_v9 : Ref sig .tc := ⟨.hbm, 200, rfl⟩
abbrev main_call5_v10 : Ref sig .tc := ⟨.hbm, 201, rfl⟩
abbrev main_call5_v11 : Ref sig .tc := ⟨.hbm, 202, rfl⟩
abbrev main_call5_c_3 : Ref sig .tc := ⟨.hbm, 203, rfl⟩
abbrev main_call5_v12 : Ref sig .tc := ⟨.hbm, 204, rfl⟩
abbrev main_call5_v13 : Ref sig .tc := ⟨.hbm, 205, rfl⟩
abbrev main_call5_v14 : Ref sig .tc := ⟨.hbm, 206, rfl⟩
abbrev main_call5_cst : Ref sig .tc := ⟨.hbm, 207, rfl⟩
abbrev main_call5_v15 : Ref sig .tc := ⟨.hbm, 208, rfl⟩
abbrev main_v93 : Ref sig .tc := ⟨.hbm, 209, rfl⟩
abbrev main_v94 : Ref sig .tc := ⟨.hbm, 210, rfl⟩
abbrev main_v95 : Ref sig .tc := ⟨.hbm, 211, rfl⟩
abbrev main_cst_21 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_cst_22 : Ref sig .tc := ⟨.hbm, 219, rfl⟩
abbrev main_v102 : Ref sig .tc := ⟨.hbm, 220, rfl⟩
abbrev main_cst_23 : Ref sig .tc := ⟨.hbm, 221, rfl⟩
abbrev main_v103 : Ref sig .tc := ⟨.hbm, 222, rfl⟩
abbrev main_v104 : Ref sig .tc := ⟨.hbm, 223, rfl⟩
abbrev main_c_24 : Ref sig .tc := ⟨.hbm, 224, rfl⟩
abbrev main_call6_cst : Ref sig .tc := ⟨.hbm, 225, rfl⟩
abbrev main_call6_v0 : Ref sig .tc := ⟨.hbm, 226, rfl⟩
abbrev main_call6_v1 : Ref sig .tc := ⟨.hbm, 227, rfl⟩
abbrev main_call6_cst_0 : Ref sig .tc := ⟨.hbm, 228, rfl⟩
abbrev main_call6_v2 : Ref sig .tc := ⟨.hbm, 229, rfl⟩
abbrev main_call6_v3 : Ref sig .tc := ⟨.hbm, 230, rfl⟩
abbrev main_call6_v4 : Ref sig .tc := ⟨.hbm, 231, rfl⟩
abbrev main_call6_v5 : Ref sig .tc := ⟨.hbm, 232, rfl⟩
abbrev main_call6_v6 : Ref sig .tc := ⟨.hbm, 233, rfl⟩
abbrev main_call6_v7 : Ref sig .tc := ⟨.hbm, 234, rfl⟩
abbrev main_call6_cst_1 : Ref sig .tc := ⟨.hbm, 235, rfl⟩
abbrev main_call6_v8 : Ref sig .tc := ⟨.hbm, 236, rfl⟩
abbrev main_call6_cst_2 : Ref sig .tc := ⟨.hbm, 237, rfl⟩
abbrev main_call6_v9 : Ref sig .tc := ⟨.hbm, 238, rfl⟩
abbrev main_call6_v10 : Ref sig .tc := ⟨.hbm, 239, rfl⟩
abbrev main_call6_v11 : Ref sig .tc := ⟨.hbm, 240, rfl⟩
abbrev main_call6_cst_3 : Ref sig .tc := ⟨.hbm, 241, rfl⟩
abbrev main_call6_v12 : Ref sig .tc := ⟨.hbm, 242, rfl⟩
abbrev main_call6_cst_4 : Ref sig .tc := ⟨.hbm, 243, rfl⟩
abbrev main_call6_call0_v0 : Ref sig .tc := ⟨.hbm, 244, rfl⟩
abbrev main_call6_call0_v1 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_v110 : Ref sig .tc := ⟨.hbm, 251, rfl⟩
abbrev main_v111 : Ref sig .tc := ⟨.hbm, 252, rfl⟩
abbrev main_cst_25 : Ref sig .tc := ⟨.hbm, 253, rfl⟩
abbrev main_v112 : Ref sig .tc := ⟨.hbm, 254, rfl⟩
abbrev main_v113 : Ref sig .tc := ⟨.hbm, 255, rfl⟩
abbrev main_v114 : Ref sig .tc := ⟨.hbm, 256, rfl⟩
abbrev main_v115 : Ref sig .tc := ⟨.hbm, 257, rfl⟩
abbrev main_v116 : Ref sig .tc := ⟨.hbm, 258, rfl⟩
abbrev main_v117 : Ref sig .tc := ⟨.hbm, 259, rfl⟩
abbrev main_v118 : Ref sig .tc := ⟨.hbm, 260, rfl⟩
abbrev main_v119 : Ref sig .tc := ⟨.hbm, 261, rfl⟩
abbrev main_v120 : Ref sig .tc := ⟨.hbm, 262, rfl⟩
abbrev main_call7_cst : Ref sig .tc := ⟨.hbm, 263, rfl⟩
abbrev main_call7_v0 : Ref sig .tc := ⟨.hbm, 264, rfl⟩
abbrev main_v121 : Ref sig .tc := ⟨.hbm, 265, rfl⟩
abbrev main_v122 : Ref sig .tc := ⟨.hbm, 266, rfl⟩
abbrev main_v123 : Ref sig .tc := ⟨.hbm, 267, rfl⟩
abbrev main_v124 : Ref sig .tc := ⟨.hbm, 268, rfl⟩
abbrev main_v125 : Ref sig .tc := ⟨.hbm, 269, rfl⟩
abbrev main_cst_26 : Ref sig .tc := ⟨.hbm, 270, rfl⟩
abbrev main_v126 : Ref sig .tc := ⟨.hbm, 271, rfl⟩
abbrev main_cst_27 : Ref sig .tc := ⟨.hbm, 272, rfl⟩
abbrev main_v127 : Ref sig .tc := ⟨.hbm, 273, rfl⟩
abbrev main_v128 : Ref sig .tc := ⟨.hbm, 274, rfl⟩
abbrev main_v129 : Ref sig .tc := ⟨.hbm, 275, rfl⟩
abbrev main_cst_28 : Ref sig .tc := ⟨.hbm, 276, rfl⟩
abbrev main_v130 : Ref sig .tc := ⟨.hbm, 277, rfl⟩
abbrev main_v131 : Ref sig .tc := ⟨.hbm, 278, rfl⟩
abbrev main_v132 : Ref sig .tc := ⟨.hbm, 279, rfl⟩
abbrev main_cst_29 : Ref sig .tc := ⟨.hbm, 280, rfl⟩
abbrev main_v133 : Ref sig .tc := ⟨.hbm, 281, rfl⟩
abbrev main_v134 : Ref sig .tc := ⟨.hbm, 282, rfl⟩
abbrev main_cst_30 : Ref sig .tc := ⟨.hbm, 283, rfl⟩
abbrev main_call8_v0 : Ref sig .tc := ⟨.hbm, 284, rfl⟩
abbrev main_call8_v1 : Ref sig .tc := ⟨.hbm, 285, rfl⟩
abbrev main_v135 : Ref sig .tc := ⟨.hbm, 286, rfl⟩
abbrev main_c_31 : Ref sig .tc := ⟨.hbm, 287, rfl⟩
abbrev main_v136 : Ref sig .tc := ⟨.hbm, 288, rfl⟩
abbrev main_v137 : Ref sig .tc := ⟨.hbm, 289, rfl⟩
abbrev main_c_32 : Ref sig .tc := ⟨.hbm, 290, rfl⟩
abbrev main_v138 : Ref sig .tc := ⟨.hbm, 291, rfl⟩
abbrev main_v139 : Ref sig .tc := ⟨.hbm, 292, rfl⟩
abbrev main_v140 : Ref sig .tc := ⟨.hbm, 293, rfl⟩
abbrev main_v141 : Ref sig .tc := ⟨.hbm, 294, rfl⟩
abbrev main_v142 : Ref sig .tc := ⟨.hbm, 295, rfl⟩
abbrev main_c_33 : Ref sig .tc := ⟨.hbm, 296, rfl⟩
abbrev main_v143 : Ref sig .tc := ⟨.hbm, 297, rfl⟩
abbrev main_v144 : Ref sig .tc := ⟨.hbm, 298, rfl⟩
abbrev main_c_34 : Ref sig .tc := ⟨.hbm, 299, rfl⟩
abbrev main_v145 : Ref sig .tc := ⟨.hbm, 300, rfl⟩
abbrev main_v146 : Ref sig .tc := ⟨.hbm, 301, rfl⟩
abbrev main_v147 : Ref sig .tc := ⟨.hbm, 302, rfl⟩
abbrev main_v148 : Ref sig .tc := ⟨.hbm, 303, rfl⟩
abbrev main_v149 : Ref sig .tc := ⟨.hbm, 304, rfl⟩
abbrev main_v150 : Ref sig .tc := ⟨.hbm, 305, rfl⟩
abbrev main_v151 : Ref sig .tc := ⟨.hbm, 306, rfl⟩
abbrev main_call9_c : Ref sig .tc := ⟨.hbm, 307, rfl⟩
abbrev main_call9_v0 : Ref sig .tc := ⟨.hbm, 308, rfl⟩
abbrev main_call9_v1 : Ref sig .tc := ⟨.hbm, 309, rfl⟩
abbrev main_call9_c_0 : Ref sig .tc := ⟨.hbm, 310, rfl⟩
abbrev main_call9_v2 : Ref sig .tc := ⟨.hbm, 311, rfl⟩
abbrev main_call9_v3 : Ref sig .tc := ⟨.hbm, 312, rfl⟩
abbrev main_call9_v4 : Ref sig .tc := ⟨.hbm, 313, rfl⟩
abbrev main_call9_v5 : Ref sig .tc := ⟨.hbm, 314, rfl⟩
abbrev main_call9_c_1 : Ref sig .tc := ⟨.hbm, 315, rfl⟩
abbrev main_call9_c_2 : Ref sig .tc := ⟨.hbm, 316, rfl⟩
abbrev main_call9_v6 : Ref sig .tc := ⟨.hbm, 317, rfl⟩
abbrev main_call9_v7 : Ref sig .tc := ⟨.hbm, 318, rfl⟩
abbrev main_call9_v8 : Ref sig .tc := ⟨.hbm, 319, rfl⟩
abbrev main_call9_v9 : Ref sig .tc := ⟨.hbm, 320, rfl⟩
abbrev main_call9_v10 : Ref sig .tc := ⟨.hbm, 321, rfl⟩
abbrev main_call9_v11 : Ref sig .tc := ⟨.hbm, 322, rfl⟩
abbrev main_call9_c_3 : Ref sig .tc := ⟨.hbm, 323, rfl⟩
abbrev main_call9_v12 : Ref sig .tc := ⟨.hbm, 324, rfl⟩
abbrev main_call9_v13 : Ref sig .tc := ⟨.hbm, 325, rfl⟩
abbrev main_call9_v14 : Ref sig .tc := ⟨.hbm, 326, rfl⟩
abbrev main_call9_cst : Ref sig .tc := ⟨.hbm, 327, rfl⟩
abbrev main_call9_v15 : Ref sig .tc := ⟨.hbm, 328, rfl⟩
abbrev main_v152 : Ref sig .tc := ⟨.hbm, 329, rfl⟩
abbrev main_v153 : Ref sig .tc := ⟨.hbm, 330, rfl⟩
abbrev main_v154 : Ref sig .tc := ⟨.hbm, 331, rfl⟩
abbrev main_cst_35 : Ref sig .tc := ⟨.hbm, 332, rfl⟩
abbrev main_v155 : Ref sig .tc := ⟨.hbm, 333, rfl⟩
abbrev main_v156 : Ref sig .tc := ⟨.hbm, 334, rfl⟩
abbrev main_v157 : Ref sig .tc := ⟨.hbm, 335, rfl⟩
abbrev main_v158 : Ref sig .tc := ⟨.hbm, 336, rfl⟩
abbrev main_v159 : Ref sig .tc := ⟨.hbm, 337, rfl⟩
abbrev main_v160 : Ref sig .tc := ⟨.hbm, 338, rfl⟩
abbrev main_cst_36 : Ref sig .tc := ⟨.hbm, 339, rfl⟩
abbrev main_v161 : Ref sig .tc := ⟨.hbm, 340, rfl⟩
abbrev main_cst_37 : Ref sig .tc := ⟨.hbm, 341, rfl⟩
abbrev main_v162 : Ref sig .tc := ⟨.hbm, 342, rfl⟩
abbrev main_v163 : Ref sig .tc := ⟨.hbm, 343, rfl⟩
abbrev main_c_38 : Ref sig .tc := ⟨.hbm, 344, rfl⟩
abbrev main_call10_cst : Ref sig .tc := ⟨.hbm, 345, rfl⟩
abbrev main_call10_v0 : Ref sig .tc := ⟨.hbm, 346, rfl⟩
abbrev main_call10_v1 : Ref sig .tc := ⟨.hbm, 347, rfl⟩
abbrev main_call10_cst_0 : Ref sig .tc := ⟨.hbm, 348, rfl⟩
abbrev main_call10_v2 : Ref sig .tc := ⟨.hbm, 349, rfl⟩
abbrev main_call10_v3 : Ref sig .tc := ⟨.hbm, 350, rfl⟩
abbrev main_call10_v4 : Ref sig .tc := ⟨.hbm, 351, rfl⟩
abbrev main_call10_v5 : Ref sig .tc := ⟨.hbm, 352, rfl⟩
abbrev main_call10_v6 : Ref sig .tc := ⟨.hbm, 353, rfl⟩
abbrev main_call10_v7 : Ref sig .tc := ⟨.hbm, 354, rfl⟩
abbrev main_call10_cst_1 : Ref sig .tc := ⟨.hbm, 355, rfl⟩
abbrev main_call10_v8 : Ref sig .tc := ⟨.hbm, 356, rfl⟩
abbrev main_call10_cst_2 : Ref sig .tc := ⟨.hbm, 357, rfl⟩
abbrev main_call10_v9 : Ref sig .tc := ⟨.hbm, 358, rfl⟩
abbrev main_call10_v10 : Ref sig .tc := ⟨.hbm, 359, rfl⟩
abbrev main_call10_v11 : Ref sig .tc := ⟨.hbm, 360, rfl⟩
abbrev main_call10_cst_3 : Ref sig .tc := ⟨.hbm, 361, rfl⟩
abbrev main_call10_v12 : Ref sig .tc := ⟨.hbm, 362, rfl⟩
abbrev main_call10_cst_4 : Ref sig .tc := ⟨.hbm, 363, rfl⟩
abbrev main_call10_call0_v0 : Ref sig .tc := ⟨.hbm, 364, rfl⟩
abbrev main_call10_call0_v1 : Ref sig .tc := ⟨.hbm, 365, rfl⟩
abbrev main_v164 : Ref sig .tc := ⟨.hbm, 366, rfl⟩
abbrev main_v165 : Ref sig .tc := ⟨.hbm, 367, rfl⟩
abbrev main_v166 : Ref sig .tc := ⟨.hbm, 368, rfl⟩
abbrev main_v167 : Ref sig .tc := ⟨.hbm, 369, rfl⟩
abbrev main_v168 : Ref sig .tc := ⟨.hbm, 370, rfl⟩
abbrev main_v169 : Ref sig .tc := ⟨.hbm, 371, rfl⟩
abbrev main_v170 : Ref sig .tc := ⟨.hbm, 372, rfl⟩
abbrev main_cst_39 : Ref sig .tc := ⟨.hbm, 373, rfl⟩
abbrev main_v171 : Ref sig .tc := ⟨.hbm, 374, rfl⟩
abbrev main_v172 : Ref sig .tc := ⟨.hbm, 375, rfl⟩
abbrev main_v173 : Ref sig .tc := ⟨.hbm, 376, rfl⟩
abbrev main_v174 : Ref sig .tc := ⟨.hbm, 377, rfl⟩
abbrev main_v175 : Ref sig .tc := ⟨.hbm, 378, rfl⟩
abbrev main_v176 : Ref sig .tc := ⟨.hbm, 379, rfl⟩
abbrev main_v177 : Ref sig .tc := ⟨.hbm, 380, rfl⟩
abbrev main_v178 : Ref sig .tc := ⟨.hbm, 381, rfl⟩
abbrev main_v179 : Ref sig .tc := ⟨.hbm, 382, rfl⟩
abbrev main_cst_40 : Ref sig .tc := ⟨.hbm, 383, rfl⟩
abbrev main_v180 : Ref sig .tc := ⟨.hbm, 384, rfl⟩
abbrev main_v181 : Ref sig .tc := ⟨.hbm, 385, rfl⟩
abbrev main_cst_41 : Ref sig .tc := ⟨.hbm, 386, rfl⟩
abbrev main_v182 : Ref sig .tc := ⟨.hbm, 387, rfl⟩
abbrev main_v183 : Ref sig .tc := ⟨.hbm, 388, rfl⟩
abbrev main_v184 : Ref sig .tc := ⟨.hbm, 389, rfl⟩
abbrev main_v185 : Ref sig .tc := ⟨.hbm, 390, rfl⟩
abbrev main_v186 : Ref sig .tc := ⟨.hbm, 391, rfl⟩
abbrev main_call11_cst : Ref sig .tc := ⟨.hbm, 392, rfl⟩
abbrev main_call11_v0 : Ref sig .tc := ⟨.hbm, 393, rfl⟩
abbrev main_v187 : Ref sig .tc := ⟨.hbm, 394, rfl⟩
abbrev main_v188 : Ref sig .tc := ⟨.hbm, 395, rfl⟩
abbrev main_v189 : Ref sig .tc := ⟨.hbm, 396, rfl⟩
abbrev main_v190 : Ref sig .tc := ⟨.hbm, 397, rfl⟩
abbrev main_v191 : Ref sig .tc := ⟨.hbm, 398, rfl⟩
abbrev main_v192 : Ref sig .tc := ⟨.hbm, 399, rfl⟩
abbrev main_v193 : Ref sig .tc := ⟨.hbm, 400, rfl⟩
abbrev main_call12_cst : Ref sig .tc := ⟨.hbm, 401, rfl⟩
abbrev main_call12_v0 : Ref sig .tc := ⟨.hbm, 402, rfl⟩
abbrev main_v194 : Ref sig .tc := ⟨.hbm, 403, rfl⟩
abbrev main_v195 : Ref sig .tc := ⟨.hbm, 404, rfl⟩
abbrev main_v196 : Ref sig .tc := ⟨.hbm, 405, rfl⟩
abbrev main_v197 : Ref sig .tc := ⟨.hbm, 406, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S330000x1 : S_.BroadcastsInDim S330000x1 (![] : Fin 0 → Fin S330000x1.rank)
  bcast_S1_S1x1_1 : S1.BroadcastsInDim S1x1 (![1] : Fin 1 → Fin S1x1.rank)
  bcast_S1x1_S330000x1_0_1 : S1x1.BroadcastsInDim S330000x1 (![0, 1] : Fin 2 → Fin S330000x1.rank)
  reducesTo_S330000x1_S330000_d1 : S330000x1.ReducesTo [1] S330000
  h_S_ : 0 < S_.numel
  bcast_S330000_S330000x64_0 : S330000.BroadcastsInDim S330000x64 (![0] : Fin 1 → Fin S330000x64.rank)
  bcast_S_S330000x64 : S_.BroadcastsInDim S330000x64 (![] : Fin 0 → Fin S330000x64.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S64_d0 : S10000x64.ReducesTo [0] S64
  bcast_S_S64 : S_.BroadcastsInDim S64 (![] : Fin 0 → Fin S64.rank)
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S3_S1x3_1 : S3.BroadcastsInDim S1x3 (![1] : Fin 1 → Fin S1x3.rank)
  dot_S10000x128_S128x64_S10000x64_1_0_0_1_n_n_wf : DotDims.WF S10000x128 S128x64 S10000x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S1x64_S64x32_S1x32_1_0_0_1_n_n_wf : DotDims.WF S1x64 S64x32 S1x32 [1] [0] [0] [1] [] []
  dot_S1x32_S32x3_S1x3_1_0_0_1_n_n_wf : DotDims.WF S1x32 S32x3 S1x3 [1] [0] [0] [1] [] []
  dot_S1x32_S32x1_S1x1_1_0_0_1_n_n_wf : DotDims.WF S1x32 S32x1 S1x1 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x3_S1x3_1_0_0_1_n_n : DotDims S1x32 S32x3 S1x3 where
  lhsContracting := [1]
  rhsContracting := [0]
  lhsNonContracting := [0]
  rhsNonContracting := [1]
  lhsBatch := []
  rhsBatch := []
  wf := dot_S1x32_S32x3_S1x3_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

class Facts : Prop extends Facts₀ where

variable [Facts]
-- ==== Proof.KernelRun.lean ====
/- The idealized kernel program's run with its two results named.

   Every weakly fair execution of the program terminates, nothing faulting; at the end each of the two result
   buffers holds what the chain of buffer contents through the program's host stretches and its six kernel regions
   ends with at that buffer, and every argument array is as launched. The argument is the frame's: the regions and
   host stretches are run as segments over "every unscoped buffer at the boundary's contents", and the last
   boundary's contents are read against the final state — here at the two result buffers as well as at the arguments. -/
import proofs.«107159_g82575041232963_cont_9to1c4b_479_20_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the two results at the last boundary's contents, the arguments unchanged. -/
theorem run_results : θ_run defs (onTc (τ := τ) (main (F := F))) ⟨m, fun _ => 0, ρ⟩ (fun r => ∀ c : Dev nD,
      r.2.mem ((c.tc : Thread nD τ).loc main_v122_0) = Gen.W27 m ρ c (Proc.devRef .tc main_v122_0)
      ∧ r.2.mem ((c.tc : Thread nD τ).loc main_v122_1) = Gen.W27 m ρ c (Proc.devRef .tc main_v122_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v122_0 (by decide)),
       h c _ (mem_uc main_v122_1 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c),
       (h c _ (mem_uc main_arg13 (by decide))).trans (W27_main_arg13 m ρ c),
       (h c _ (mem_uc main_arg14 (by decide))).trans (W27_main_arg14 m ρ c),
       (h c _ (mem_uc main_arg15 (by decide))).trans (W27_main_arg15 m ρ c),
       (h c _ (mem_uc main_arg16 (by decide))).trans (W27_main_arg16 m ρ c),
       (h c _ (mem_uc main_arg17 (by decide))).trans (W27_main_arg17 m ρ c),
       (h c _ (mem_uc main_arg18 (by decide))).trans (W27_main_arg18 m ρ c),
       (h c _ (mem_uc main_arg19 (by decide))).trans (W27_main_arg19 m ρ c),
       (h c _ (mem_uc main_arg20 (by decide))).trans (W27_main_arg20 m ρ c),
       (h c _ (mem_uc main_arg21 (by decide))).trans (W27_main_arg21 m ρ c)⟩)

end Cert.KernelIdeal.Hand

end
-- ==== Proof.LibHostLine.lean ====
/- A straight line of host operations, taken in pieces.

General facts about a straight line of host operations on a device, used to treat a long program window by window.

* An operation that "writes past slot n" writes exactly one device buffer, and that buffer's slot index is at least n.
  A line made only of such operations leaves every buffer in a slot below n with the contents it started from: the
  argument arrays of a program sit in the first slots, so this is "the arguments end unchanged".
* What a concatenation of two lines leaves is what the second leaves of what the first leaves.
* The three side conditions a run of a line asks (only device buffers touched, nothing allocated, the writes past a slot)
  hold of a concatenation when they hold of the pieces.
* A line in single-assignment form with ascending slots — each operation writes one buffer, in a slot above every slot
  written before it, and its result depends only on buffers in lower slots — satisfies its own equations at the end: the
  final contents of each operation's result buffer are that operation's function of the FINAL contents of the buffers
  (nothing it reads is written again, and nothing later writes its result). This turns a long line into a system of
  equations between named buffers, one per operation, to be used in any order. -/
import Idealize.ShloMosaic.Lib.StableHlo.Run

noncomputable section

namespace Idealize.ShloMosaic.StableHlo

variable {nD : Nat} {τ : Topo} {sig : RefSig} {Val : EltTy → Type}

/-- The operation writes exactly one device buffer, in a slot of index at least n. -/
def WritesPast (n : ℕ) (op : HloOp τ sig Val) : Prop :=
  ∃ y : Ref sig .tc, op.writes = {Proc.devRef (τ := τ) .tc y} ∧ n ≤ y.idx.val

/-- A line of operations that all write past slot n leaves a buffer in a slot below n as it found it. -/
theorem after_keep_of_writesPast {n : ℕ} {r : Ref sig .tc} (hr : r.idx.val < n) (ops : List (HloOp τ sig Val))
    (V : Valuation τ sig Val) (h : ops.Forall (WritesPast (τ := τ) n)) :
    after ops V (Proc.devRef .tc r) = V (Proc.devRef .tc r) :=
  after_of_forall_not_mem ops V fun op hop hb => by
    obtain ⟨y, hw, hy⟩ := (List.forall_iff_forall_mem.mp h) op hop
    rw [hw, Finset.mem_singleton] at hb
    have : r = y := Proc.devRef_injective _ hb
    subst this
    omega

/-- Two lines one after the other: the second's effect on the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of two lines is one of their concatenation. -/
theorem forall_append_of {p : HloOp τ sig Val → Prop} {l₁ l₂ : List (HloOp τ sig Val)}
    (h₁ : l₁.Forall p) (h₂ : l₂.Forall p) : (l₁ ++ l₂).Forall p :=
  List.forall_iff_forall_mem.mpr fun op hop =>
    (List.mem_append.mp hop).elim (List.forall_iff_forall_mem.mp h₁ op) (List.forall_iff_forall_mem.mp h₂ op)

/-- The operation's result at y depends only on the contents of buffers in slots below y's. -/
def ReadsBelow (op : HloOp τ sig Val) (y : Ref sig .tc) : Prop :=
  ∀ F G : Valuation τ sig Val,
    (∀ r : Ref sig .tc, r.idx.val < y.idx.val → F (Proc.devRef .tc r) = G (Proc.devRef .tc r)) →
    op.result F (Proc.devRef .tc y) = op.result G (Proc.devRef .tc y)

/-- Single assignment with ascending slots, from slot n up to (not including) slot m: each operation writes one buffer, at
    a slot not below n and above all earlier ones, reads only below its own slot, and the last slot written is below m. -/
def AscendingTo : ℕ → List (HloOp τ sig Val) → ℕ → Prop
  | n, [], m => n ≤ m
  | n, op :: ops, m => ∃ y : Ref sig .tc, op.writes = {Proc.devRef (τ := τ) .tc y} ∧ n ≤ y.idx.val ∧ ReadsBelow op y
      ∧ AscendingTo (y.idx.val + 1) ops m

/-- Starting lower is weaker. -/
theorem AscendingTo.mono_start {n k m : ℕ} (hkn : k ≤ n) : ∀ {ops : List (HloOp τ sig Val)},
    AscendingTo n ops m → AscendingTo k ops m
  | [], h => le_trans hkn h
  | _ :: _, ⟨y, hw, hn, hr, hrest⟩ => ⟨y, hw, le_trans hkn hn, hr, hrest⟩

/-- An ascending line writes only at or past its starting slot. -/
theorem AscendingTo.forall_writesPast : ∀ {n m : ℕ} {ops : List (HloOp τ sig Val)}, AscendingTo n ops m →
    ops.Forall (WritesPast (τ := τ) n)
  | _, _, [], _ => List.forall_iff_forall_mem.mpr fun _ h => nomatch h
  | n, m, op :: ops, ⟨y, hw, hn, _, hrest⟩ =>
    List.forall_iff_forall_mem.mpr fun o ho => by
      rcases List.mem_cons.mp ho with rfl | ho'
      · exact ⟨y, hw, hn⟩
      · obtain ⟨z, hz, hzn⟩ := List.forall_iff_forall_mem.mp (AscendingTo.forall_writesPast hrest) o ho'
        exact ⟨z, hz, by omega⟩

/-- Ascending lines join end to start. -/
theorem AscendingTo.append : ∀ {n k m : ℕ} {l₁ l₂ : List (HloOp τ sig Val)}, AscendingTo n l₁ k → AscendingTo k l₂ m →
    AscendingTo n (l₁ ++ l₂) m
  | _, _, _, [], _, h₁, h₂ => AscendingTo.mono_start h₁ h₂
  | _, _, _, _ :: _, _, ⟨y, hw, hn, hr, hrest⟩, h₂ => ⟨y, hw, hn, hr, AscendingTo.append hrest h₂⟩

/-- **An ascending single-assignment line satisfies its own equations at the end.** -/
theorem AscendingTo.fixpoint : ∀ {n m : ℕ} {ops : List (HloOp τ sig Val)}, AscendingTo n ops m → ∀ (V : Valuation τ sig Val),
    ∀ op ∈ ops, ∀ y : Ref sig .tc, op.writes = {Proc.devRef (τ := τ) .tc y} → ReadsBelow op y →
      after ops V (Proc.devRef .tc y) = op.result (after ops V) (Proc.devRef .tc y)
  | _, _, [], _, _, _, ho, _, _, _ => nomatch ho
  | n, m, op₀ :: rest, ⟨y₀, hw₀, hn₀, hr₀, hrest⟩, V, op, ho, y, hw, hr => by
    rcases List.mem_cons.mp ho with rfl | ho'
    · -- the head: nothing later writes its result, and what it reads is below every later write
      have hy : y = y₀ := by
        have : Proc.devRef (τ := τ) .tc y ∈ ({Proc.devRef (τ := τ) .tc y₀} : Finset _) := by
          rw [← hw₀, hw]; exact Finset.mem_singleton_self _
        exact Proc.devRef_injective _ (Finset.mem_singleton.mp this)
      subst hy
      have hpast := AscendingTo.forall_writesPast hrest
      rw [after_cons, after_keep_of_writesPast (Nat.lt_succ_self _) rest _ hpast]
      refine hr _ _ fun r hrlt => ?_
      have h1 : after rest (op.result V) (Proc.devRef .tc r) = op.result V (Proc.devRef .tc r) :=
        after_keep_of_writesPast (by omega) rest _ hpast
      rw [h1]
      refine (op.result_of_not_mem V ?_).symm
      rw [hw₀, Finset.mem_singleton]
      intro he
      have : r = y := Proc.devRef_injective _ he
      subst this
      omega
    · exact AscendingTo.fixpoint hrest (op₀.result V) op ho' y hw hr

/-! The builders of host operations read only their operands. -/

section Builders

variable (x a b c y : Ref sig .tc)

theorem readsBelow_nullary (v : y.ty.Contents Val) (hy) : ReadsBelow (nullary (τ := τ) y v hy) y :=
  fun F G _ => by rw [nullary_result, nullary_result]

theorem readsBelow_unary (f : x.ty.Contents Val → y.ty.Contents Val) (hx hy) (h : x.idx.val < y.idx.val) :
    ReadsBelow (unary (τ := τ) x y f hx hy) y :=
  fun F G hFG => by rw [unary_result, unary_result, hFG x h]

theorem readsBelow_binary (f : a.ty.Contents Val → b.ty.Contents Val → y.ty.Contents Val) (ha hb hy)
    (h₁ : a.idx.val < y.idx.val) (h₂ : b.idx.val < y.idx.val) : ReadsBelow (binary (τ := τ) a b y f ha hb hy) y :=
  fun F G hFG => by rw [binary_result, binary_result, hFG a h₁, hFG b h₂]

theorem readsBelow_ternary (f : c.ty.Contents Val → a.ty.Contents Val → b.ty.Contents Val → y.ty.Contents Val) (hc ha hb hy)
    (h₀ : c.idx.val < y.idx.val) (h₁ : a.idx.val < y.idx.val) (h₂ : b.idx.val < y.idx.val) :
    ReadsBelow (ternary (τ := τ) c a b y f hc ha hb hy) y :=
  fun F G hFG => by rw [ternary_result, ternary_result, hFG c h₀, hFG a h₁, hFG b h₂]

theorem readsBelow_reshape (he hn hx hy) (h : x.idx.val < y.idx.val) :
    ReadsBelow (reshape (τ := τ) (Val := Val) x y he hn hx hy) y :=
  fun F G hFG => by rw [reshape_result, reshape_result, hFG x h]

theorem readsBelow_nary {n : ℕ} (xs : Fin n → Ref sig .tc) (f : ((k : Fin n) → (xs k).ty.Contents Val) → y.ty.Contents Val)
    (hxs hy) (h : ∀ k, (xs k).idx.val < y.idx.val) : ReadsBelow (nary (τ := τ) xs y f hxs hy) y :=
  fun F G hFG => by
    rw [nary_result, nary_result]
    congr 1
    funext k
    exact hFG (xs k) (h k)

end Builders

end Idealize.ShloMosaic.StableHlo

end
-- ==== Proof.RefPast.lean ====
/- Builders for "writes past a slot": each host-operation builder writes exactly its result buffer, so the operation writes
   past slot n as soon as the result buffer's slot index is at least n. One lemma per builder; the slot comparison is left
   as the only explicit argument, so that a list of operations is handled by a tuple of these, each closed by computation. -/
import Idealize.ShloMosaic.Lib.StableHlo.Run
import proofs.«107159_g82575041232963_cont_9to1c4b_479_20_alg».proof.Proof.LibHostLine

noncomputable section

namespace Idealize.ShloMosaic.StableHlo

variable {τ : Topo} {sig : RefSig} {Val : EltTy → Type} {n : ℕ}

section Builders

variable {x a b c y : Ref sig .tc}

theorem writesPast_nullary {v : y.ty.Contents Val} {hy} (h : n ≤ y.idx.val) : WritesPast n (nullary (τ := τ) y v hy) :=
  ⟨y, nullary_writes .., h⟩

theorem writesPast_unary {f : x.ty.Contents Val → y.ty.Contents Val} {hx hy} (h : n ≤ y.idx.val) :
    WritesPast n (unary (τ := τ) x y f hx hy) :=
  ⟨y, unary_writes .., h⟩

theorem writesPast_binary {f : a.ty.Contents Val → b.ty.Contents Val → y.ty.Contents Val} {ha hb hy} (h : n ≤ y.idx.val) :
    WritesPast n (binary (τ := τ) a b y f ha hb hy) :=
  ⟨y, binary_writes .., h⟩

theorem writesPast_ternary {f : c.ty.Contents Val → a.ty.Contents Val → b.ty.Contents Val → y.ty.Contents Val} {hc ha hb hy}
    (h : n ≤ y.idx.val) : WritesPast n (ternary (τ := τ) c a b y f hc ha hb hy) :=
  ⟨y, ternary_writes .., h⟩

theorem writesPast_reshape {he hn hx hy} (h : n ≤ y.idx.val) :
    WritesPast n (reshape (τ := τ) (Val := Val) x y he hn hx hy) :=
  ⟨y, reshape_writes .., h⟩

end Builders

/-- Writing past a later slot is writing past an earlier one. -/
theorem WritesPast.mono {m : ℕ} (h : m ≤ n) {op : HloOp τ sig Val} : WritesPast (τ := τ) n op → WritesPast (τ := τ) m op
  | ⟨y, hw, hy⟩ => ⟨y, hw, le_trans h hy⟩

/-- The same of every operation of a line. -/
theorem forall_writesPast_mono {m : ℕ} (h : m ≤ n) {ops : List (HloOp τ sig Val)} (H : ops.Forall (WritesPast (τ := τ) n)) :
    ops.Forall (WritesPast (τ := τ) m) :=
  List.forall_iff_forall_mem.mpr fun op hop => (List.forall_iff_forall_mem.mp H op hop).mono h

end Idealize.ShloMosaic.StableHlo

end
-- ==== Proof.RefOpsA.lean ====
/- The reference program's first layer, as lists of host operations: the edge rows, then the layer's stretches in program order.
   An outlined function's operations stand at its call, over the call's own buffers. Each list comes with three facts:
   it touches device buffers only, every operation writes one buffer at or past the list's first slot, none allocates. -/
import proofs.«107159_g82575041232963_cont_9to1c4b_479_20_alg».proof.Proof.Gen.ReferenceIdeal
import Idealize.ShloMosaic.Lib.StableHlo.Run
import proofs.«107159_g82575041232963_cont_9to1c4b_479_20_alg».proof.Proof.LibHostLine
import proofs.«107159_g82575041232963_cont_9to1c4b_479_20_alg».proof.Proof.RefPast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 4 operations (slots 22 … 25): the two rows of the edge table, each as a vector. -/
abbrev refChunk_idx : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000 ]
/-- Each touches device buffers only. -/
theorem refChunk_idx_sub : (refChunk_idx : List (HloOp τ sig (Elt F))).Forall fun op => op.bufs ⊆ tcRefs τ sig :=
  ⟨unary_bufs_sub .., reshape_bufs_sub .., unary_bufs_sub .., reshape_bufs_sub ..⟩
/-- Each writes one buffer, in slot 22 or later. -/
theorem refChunk_idx_past : (refChunk_idx : List (HloOp τ sig (Elt F))).Forall (WritesPast (τ := τ) 22) :=
  ⟨writesPast_unary (by decide), writesPast_reshape (by decide), writesPast_unary (by decide), writesPast_reshape (by decide)⟩
/-- None allocates a buffer. -/
theorem refChunk_idx_fresh : (refChunk_idx : List (HloOp τ sig (Elt F))).Forall fun op => op.fresh = ∅ := by
  simp only [List.Forall]; repeat' constructor

/-- 1 operation (slot 26): the features times the layer's weight matrix. -/
abbrev refChunk_xw1 : List (HloOp τ sig (Elt F)) :=
  [ StableHlo.binary main_arg0 main_arg2 main_v4 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)) ]
/-- Each touches device buffers only. -/
theorem refChunk_xw1_sub : (refChunk_xw1 : List (HloOp τ sig (Elt F))).Forall fun op => op.bufs ⊆ tcRefs τ sig :=
  binary_bufs_sub ..
/-- Each writes one buffer, in slot 26 or later. -/
theorem refChunk_xw1_past : (refChunk_xw1 : List (HloOp τ sig (Elt F))).Forall (WritesPast (τ := τ) 26) :=
  writesPast_binary (by decide)
/-- None allocates a buffer. -/
theorem refChunk_xw1_fresh : (refChunk_xw1 : List (HloOp τ sig (Elt F))).Forall fun op => op.fresh = ∅ := by
  simp only [List.Forall]; repeat' constructor

/-- 3 operations (slots 27 … 29): the node numbering appended to each row of edges (one self edge per node). -/
abbrev refChunk_cat1 : List (HloOp τ sig (Elt F)) :=
  [ StableHlo.nullary main_v5 (iotaInDim S10000 32 0),
    StableHlo.binary main_v1 main_v5 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.binary main_v3 main_v5 main_v7 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
/-- Each touches device buffers only. -/
theorem refChunk_cat1_sub : (refChunk_cat1 : List (HloOp τ sig (Elt F))).Forall fun op => op.bufs ⊆ tcRefs τ sig :=
  ⟨nullary_bufs_sub .., binary_bufs_sub .., binary_bufs_sub ..⟩
/-- Each writes one buffer, in slot 27 or later. -/
theorem refChunk_cat1_past : (refChunk_cat1 : List (HloOp τ sig (Elt F))).Forall (WritesPast (τ := τ) 27) :=
  ⟨writesPast_nullary (by decide), writesPast_binary (by decide), writesPast_binary (by decide)⟩
/-- None allocates a buffer. -/
theorem refChunk_cat1_fresh : (refChunk_cat1 : List (HloOp τ sig (Elt F))).Forall fun op => op.fresh = ∅ := by
  simp only [List.Forall]; repeat' constructor

/-- 6 operations (slots 30 … 35): the degree of each node: ones added at the target row. -/
abbrev refChunk_deg1 : List (HloOp τ sig (Elt F)) :=
  [ StableHlo.nullary main_cst (constant S_ .f32 0x3F800000#32),
    StableHlo.unary main_cst main_v8 (broadcastInDim S330000 ![] bcast_S_S330000 : (⟨S_, .f32⟩ : BufTy).Contents (Elt F) → (⟨S330000, .f32⟩ : BufTy).Contents (Elt F)),
    StableHlo.nullary main_cst_0 (constant S_ .f32 0x00000000#32),
    StableHlo.unary main_cst_0 main_v9 (broadcastInDim S10000 ![] bcast_S_S10000 : (⟨S_, .f32⟩ : BufTy).Contents (Elt F) → (⟨S10000, .f32⟩ : BufTy).Contents (Elt F)),
    StableHlo.unary main_v7 main_v10 (broadcastInDim S330000x1 ![0] bcast_S330000_S330000x1_0 : (⟨S330000, .i32⟩ : BufTy).Contents (Elt F) → (⟨S330000x1, .i32⟩ : BufTy).Contents (Elt F)),
    StableHlo.ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)) ]
/-- Each touches device buffers only. -/
theorem refChunk_deg1_sub : (refChunk_deg1 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
/-- Each writes one buffer, in slot 30 or later. -/
theorem refChunk_deg1_past : (refChunk_deg1 : List (HloOp τ sig (Elt F))).Forall (WritesPast (τ := τ) 30) :=
  ⟨writesPast_nullary (by decide), writesPast_unary (by decide), writesPast_nullary (by decide), writesPast_unary (by decide), writesPast_unary (by decide), writesPast_ternary (by decide)⟩
/-- None allocates a buffer. -/
theorem refChunk_deg1_fresh : (refChunk_deg1 : List (HloOp τ sig (Elt F))).Forall fun op => op.fresh = ∅ := by
  simp only [List.Forall]; repeat' constructor

/-- 11 operations (slots 36 … 46): the inverse square root of the degree, zero where the degree is zero. -/
abbrev refChunk_inv1 : List (HloOp τ sig (Elt F)) :=
  [ StableHlo.nullary main_cst_1 (constant S_ .f32 0x00000000#32),
    StableHlo.unary main_cst_1 main_v12 (broadcastInDim S10000 ![] bcast_S_S10000 : (⟨S_, .f32⟩ : BufTy).Contents (Elt F) → (⟨S10000, .f32⟩ : BufTy).Contents (Elt F)),
    StableHlo.binary main_v11 main_v12 main_v13 (cmpf .ogt : (⟨S10000, .f32⟩ : BufTy).Contents (Elt F) → (⟨S10000, .f32⟩ : BufTy).Contents (Elt F) → (⟨S10000, .i1⟩ : BufTy).Contents (Elt F)),
    StableHlo.unary main_v11 main_v14 (Host.sqrt : (⟨S10000, .f32⟩ : BufTy).Contents (Elt F) → (⟨S10000, .f32⟩ : BufTy).Contents (Elt F)),
    StableHlo.nullary main_cst_2 (constant S_ .f32 0x3F800000#32),
    StableHlo.unary main_cst_2 main_v15 (broadcastInDim S10000 ![] bcast_S_S10000 : (⟨S_, .f32⟩ : BufTy).Contents (Elt F) → (⟨S10000, .f32⟩ : BufTy).Contents (Elt F)),
    StableHlo.binary main_v15 main_v14 main_v16 (Host.divf : (⟨S10000, .f32⟩ : BufTy).Contents (Elt F) → (⟨S10000, .f32⟩ : BufTy).Contents (Elt F) → (⟨S10000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S10000, .f32⟩) (broadcastInDim S10000 ![] bcast_S_S10000),
    StableHlo.TRef.ternary (.of main_v13 : StableHlo.TRef sig ⟨S10000, .i1⟩) (.of main_v16 : StableHlo.TRef sig ⟨S10000, .f32⟩) (.of main_call0_v1 : StableHlo.TRef sig ⟨S10000, .f32⟩) (.of main_v17 : StableHlo.TRef sig ⟨S10000, .f32⟩) select ]
/-- Each touches device buffers only. -/
theorem refChunk_inv1_sub : (refChunk_inv1 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., unary_bufs_sub .., ternary_bufs_sub ..⟩
/-- Each writes one buffer, in slot 36 or later. -/
theorem refChunk_inv1_past : (refChunk_inv1 : List (HloOp τ sig (Elt F))).Forall (WritesPast (τ := τ) 36) :=
  ⟨writesPast_nullary (by decide), writesPast_unary (by decide), writesPast_binary (by decide), writesPast_unary (by decide), writesPast_nullary (by decide), writesPast_unary (by decide), writesPast_binary (by decide), writesPast_nullary (by decide), writesPast_unary (by decide), writesPast_unary (by decide), writesPast_ternary (by decide)⟩
/-- None allocates a buffer. -/
theorem refChunk_inv1_fresh : (refChunk_inv1 : List (HloOp τ sig (Elt F))).Forall fun op => op.fresh = ∅ := by
  simp only [List.Forall]; repeat' constructor

/-- 19 operations (slots 47 … 65): both row indices wrapped into range, the inverse roots read at them, and their product: the edge weight. -/
abbrev refChunk_nrm1 : List (HloOp τ sig (Elt F)) :=
  [ StableHlo.nullary main_c (constantI S_ 32 0#32),
    StableHlo.unary main_c main_v18 (broadcastInDim S330000 ![] bcast_S_S330000 : (⟨S_, .i32⟩ : BufTy).Contents (Elt F) → (⟨S330000, .i32⟩ : BufTy).Contents (Elt F)),
    StableHlo.binary main_v6 main_v18 main_v19 (cmpi .slt : (⟨S330000, .i32⟩ : BufTy).Contents (Elt F) → (⟨S330000, .i32⟩ : BufTy).Contents (Elt F) → (⟨S330000, .i1⟩ : BufTy).Contents (Elt F)),
    StableHlo.nullary main_c_4 (constantI S_ 32 10000#32),
    StableHlo.unary main_c_4 main_v20 (broadcastInDim S330000 ![] bcast_S_S330000 : (⟨S_, .i32⟩ : BufTy).Contents (Elt F) → (⟨S330000, .i32⟩ : BufTy).Contents (Elt F)),
    StableHlo.binary main_v6 main_v20 main_v21 (addi : (⟨S330000, .i32⟩ : BufTy).Contents (Elt F) → (⟨S330000, .i32⟩ : BufTy).Contents (Elt F) → (⟨S330000, .i32⟩ : BufTy).Contents (Elt F)),
    StableHlo.ternary main_v19 main_v21 main_v6 main_v22 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v22 main_v23 (broadcastInDim S330000x1 ![0] bcast_S330000_S330000x1_0 : (⟨S330000, .i32⟩ : BufTy).Contents (Elt F) → (⟨S330000x1, .i32⟩ : BufTy).Contents (Elt F)),
    StableHlo.binary main_v17 main_v23 main_v24 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.nullary main_c_5 (constantI S_ 32 0#32),
    StableHlo.unary main_c_5 main_v25 (broadcastInDim S330000 ![] bcast_S_S330000 : (⟨S_, .i32⟩ : BufTy).Contents (Elt F) → (⟨S330000, .i32⟩ : BufTy).Contents (Elt F)),
    StableHlo.binary main_v7 main_v25 main_v26 (cmpi .slt : (⟨S330000, .i32⟩ : BufTy).Contents (Elt F) → (⟨S330000, .i32⟩ : BufTy).Contents (Elt F) → (⟨S330000, .i1⟩ : BufTy).Contents (Elt F)),
    StableHlo.nullary main_c_6 (constantI S_ 32 10000#32),
    StableHlo.unary main_c_6 main_v27 (broadcastInDim S330000 ![] bcast_S_S330000 : (⟨S_, .i32⟩ : BufTy).Contents (Elt F) → (⟨S330000, .i32⟩ : BufTy).Contents (Elt F)),
    StableHlo.binary main_v7 main_v27 main_v28 (addi : (⟨S330000, .i32⟩ : BufTy).Contents (Elt F) → (⟨S330000, .i32⟩ : BufTy).Contents (Elt F) → (⟨S330000, .i32⟩ : BufTy).Contents (Elt F)),
    StableHlo.ternary main_v26 main_v28 main_v7 main_v29 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v29 main_v30 (broadcastInDim S330000x1 ![0] bcast_S330000_S330000x1_0 : (⟨S330000, .i32⟩ : BufTy).Contents (Elt F) → (⟨S330000x1, .i32⟩ : BufTy).Contents (Elt F)),
    StableHlo.binary main_v17 main_v30 main_v31 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v24 main_v31 main_v32 (mulf : (⟨S330000, .f32⟩ : BufTy).Contents (Elt F) → (⟨S330000, .f32⟩ : BufTy).Contents (Elt F) → (⟨S330000, .f32⟩ : BufTy).Contents (Elt F)) ]
/-- Each touches device buffers only. -/
theorem refChunk_nrm1_sub : (refChunk_nrm1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- Each writes one buffer, in slot 47 or later. -/
theorem refChunk_nrm1_past : (refChunk_nrm1 : List (HloOp τ sig (Elt F))).Forall (WritesPast (τ := τ) 47) :=
  ⟨writesPast_nullary (by decide), writesPast_unary (by decide), writesPast_binary (by decide), writesPast_nullary (by decide), writesPast_unary (by decide), writesPast_binary (by decide), writesPast_ternary (by decide), writesPast_unary (by decide), writesPast_binary (by decide), writesPast_nullary (by decide), writesPast_unary (by decide), writesPast_binary (by decide), writesPast_nullary (by decide), writesPast_unary (by decide), writesPast_binary (by decide), writesPast_ternary (by decide), writesPast_unary (by decide), writesPast_binary (by decide), writesPast_binary (by decide)⟩
/-- None allocates a buffer. -/
theorem refChunk_nrm1_fresh : (refChunk_nrm1 : List (HloOp τ sig (Elt F))).Forall fun op => op.fresh = ∅ := by
  simp only [List.Forall]; repeat' constructor

/-- 1 operation (slot 66): the edge weights as a column. -/
abbrev refChunk_col1 : List (HloOp τ sig (Elt F)) :=
  [ StableHlo.unary main_v32 main_v33 (broadcastInDim S330000x1 ![0] bcast_S330000_S330000x1_0 : (⟨S330000, .f32⟩ : BufTy).Contents (Elt F) → (⟨S330000x1, .f32⟩ : BufTy).Contents (Elt F)) ]
/-- Each touches device buffers only. -/
theorem refChunk_col1_sub : (refChunk_col1 : List (HloOp τ sig (Elt F))).Forall fun op => op.bufs ⊆ tcRefs τ sig :=
  unary_bufs_sub ..
/-- Each writes one buffer, in slot 66 or later. -/
theorem refChunk_col1_past : (refChunk_col1 : List (HloOp τ sig (Elt F))).Forall (WritesPast (τ := τ) 66) :=
  writesPast_unary (by decide)
/-- None allocates a buffer. -/
theorem refChunk_col1_fresh : (refChunk_col1 : List (HloOp τ sig (Elt F))).Forall fun op => op.fresh = ∅ := by
  simp only [List.Forall]; repeat' constructor

/-- 23 operations (slots 67 … 89): the transformed features read at each edge's source, out-of-range rows marked. -/
abbrev refChunk_take1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S330000, .i32⟩) (broadcastInDim S330000 ![] bcast_S_S330000),
    StableHlo.TRef.binary (.of main_v6 : StableHlo.TRef sig ⟨S330000, .i32⟩) (.of main_call1_v0 : StableHlo.TRef sig ⟨S330000, .i32⟩) (.of main_call1_v1 : StableHlo.TRef sig ⟨S330000, .i1⟩) (cmpi .slt),
    StableHlo.TRef.nullary (.of main_call1_c_0 : StableHlo.TRef sig ⟨S_, .i32⟩) (constantI S_ 32 10000#32),
    StableHlo.TRef.unary (.of main_call1_c_0 : StableHlo.TRef sig ⟨S_, .i32⟩) (.of main_call1_v2 : StableHlo.TRef sig ⟨S330000, .i32⟩) (broadcastInDim S330000 ![] bcast_S_S330000),
    StableHlo.TRef.binary (.of main_v6 : StableHlo.TRef sig ⟨S330000, .i32⟩) (.of main_call1_v2 : StableHlo.TRef sig ⟨S330000, .i32⟩) (.of main_call1_v3 : StableHlo.TRef sig ⟨S330000, .i32⟩) addi,
    StableHlo.TRef.ternary (.of main_call1_v1 : StableHlo.TRef sig ⟨S330000, .i1⟩) (.of main_call1_v3 : StableHlo.TRef sig ⟨S330000, .i32⟩) (.of main_v6 : StableHlo.TRef sig ⟨S330000, .i32⟩) (.of main_call1_v4 : StableHlo.TRef sig ⟨S330000, .i32⟩) select,
    StableHlo.TRef.unary (.of main_call1_v4 : StableHlo.TRef sig ⟨S330000, .i32⟩) (.of main_call1_v5 : StableHlo.TRef sig ⟨S330000x1, .i32⟩) (broadcastInDim S330000x1 ![0] bcast_S330000_S330000x1_0),
    StableHlo.TRef.nullary (.of main_call1_c_1 : StableHlo.TRef sig ⟨S1, .i32⟩) (constantI S1 32 9999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S330000x1, .i32⟩) (broadcastInDim S330000x1 ![] bcast_S_S330000x1),
    StableHlo.TRef.binary (.of main_call1_v5 : StableHlo.TRef sig ⟨S330000x1, .i32⟩) (.of main_call1_v6 : StableHlo.TRef sig ⟨S330000x1, .i32⟩) (.of main_call1_v7 : StableHlo.TRef sig ⟨S330000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S330000x1, .i32⟩) (broadcastInDim S330000x1 ![0, 1] bcast_S1x1_S330000x1_0_1),
    StableHlo.TRef.binary (.of main_call1_v5 : StableHlo.TRef sig ⟨S330000x1, .i32⟩) (.of main_call1_v9 : StableHlo.TRef sig ⟨S330000x1, .i32⟩) (.of main_call1_v10 : StableHlo.TRef sig ⟨S330000x1, .i1⟩) (cmpi .sle),
    StableHlo.TRef.binary (.of main_call1_v7 : StableHlo.TRef sig ⟨S330000x1, .i1⟩) (.of main_call1_v10 : StableHlo.TRef sig ⟨S330000x1, .i1⟩) (.of main_call1_v11 : StableHlo.TRef sig ⟨S330000x1, .i1⟩) andi,
    StableHlo.TRef.nullary (.of main_call1_c_3 : StableHlo.TRef sig ⟨S_, .i1⟩) (constantI S_ 1 1#1),
    StableHlo.TRef.binary (.of main_call1_v11 : StableHlo.TRef sig ⟨S330000x1, .i1⟩) (.of main_call1_c_3 : StableHlo.TRef sig ⟨S_, .i1⟩) (.of main_call1_v12 : StableHlo.TRef sig ⟨S330000, .i1⟩) (fun x v => Host.reduce IntOp.andi x v reducesTo_S330000x1_S330000_d1 h_S_),
    StableHlo.TRef.binary (.of main_v4 : StableHlo.TRef sig ⟨S10000x64, .f32⟩) (.of main_call1_v5 : StableHlo.TRef sig ⟨S330000x1, .i32⟩) (.of main_call1_v13 : StableHlo.TRef sig ⟨S330000x64, .f32⟩) (fun x i => Host.gather gather_S10000x64_S330000x1_S330000x64_1_0_n_n_0_1_164 x i),
    StableHlo.TRef.unary (.of main_call1_v12 : StableHlo.TRef sig ⟨S330000, .i1⟩) (.of main_call1_v14 : StableHlo.TRef sig ⟨S330000x64, .i1⟩) (broadcastInDim S330000x64 ![0] bcast_S330000_S330000x64_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S330000x64, .f32⟩) (broadcastInDim S330000x64 ![] bcast_S_S330000x64),
    StableHlo.TRef.ternary (.of main_call1_v14 : StableHlo.TRef sig ⟨S330000x64, .i1⟩) (.of main_call1_v13 : StableHlo.TRef sig ⟨S330000x64, .f32⟩) (.of main_call1_v15 : StableHlo.TRef sig ⟨S330000x64, .f32⟩) (.of main_v34 : StableHlo.TRef sig ⟨S330000x64, .f32⟩) select ]
/-- Each touches device buffers only. -/
theorem refChunk_take1_sub : (refChunk_take1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each writes one buffer, in slot 67 or later. -/
theorem refChunk_take1_past : (refChunk_take1 : List (HloOp τ sig (Elt F))).Forall (WritesPast (τ := τ) 67) :=
  ⟨writesPast_nullary (by decide), writesPast_unary (by decide), writesPast_binary (by decide), writesPast_nullary (by decide), writesPast_unary (by decide), writesPast_binary (by decide), writesPast_ternary (by decide), writesPast_unary (by decide), writesPast_nullary (by decide), writesPast_nullary (by decide), writesPast_unary (by decide), writesPast_binary (by decide), writesPast_unary (by decide), writesPast_unary (by decide), writesPast_binary (by decide), writesPast_binary (by decide), writesPast_nullary (by decide), writesPast_binary (by decide), writesPast_binary (by decide), writesPast_unary (by decide), writesPast_nullary (by decide), writesPast_unary (by decide), writesPast_ternary (by decide)⟩
/-- None allocates a buffer. -/
theorem refChunk_take1_fresh : (refChunk_take1 : List (HloOp τ sig (Elt F))).Forall fun op => op.fresh = ∅ := by
  simp only [List.Forall]; repeat' constructor

/-- 2 operations (slots 90 … 91): each read row times its edge weight. -/
abbrev refChunk_scl1 : List (HloOp τ sig (Elt F)) :=
  [ StableHlo.unary main_v33 main_v35 (broadcastInDim S330000x64 ![0, 1] bcast_S330000x1_S330000x64_0_1 : (⟨S330000x1, .f32⟩ : BufTy).Contents (Elt F) → (⟨S330000x64, .f32⟩ : BufTy).Contents (Elt F)),
    StableHlo.binary main_v35 main_v34 main_v36 (mulf : (⟨S330000x64, .f32⟩ : BufTy).Contents (Elt F) → (⟨S330000x64, .f32⟩ : BufTy).Contents (Elt F) → (⟨S330000x64, .f32⟩ : BufTy).Contents (Elt F)) ]
/-- Each touches device buffers only. -/
theorem refChunk_scl1_sub : (refChunk_scl1 : List (HloOp τ sig (Elt F))).Forall fun op => op.bufs ⊆ tcRefs τ sig :=
  ⟨unary_bufs_sub .., binary_bufs_sub ..⟩
/-- Each writes one buffer, in slot 90 or later. -/
theorem refChunk_scl1_past : (refChunk_scl1 : List (HloOp τ sig (Elt F))).Forall (WritesPast (τ := τ) 90) :=
  ⟨writesPast_unary (by decide), writesPast_binary (by decide)⟩
/-- None allocates a buffer. -/
theorem refChunk_scl1_fresh : (refChunk_scl1 : List (HloOp τ sig (Elt F))).Forall fun op => op.fresh = ∅ := by
  simp only [List.Forall]; repeat' constructor

/-- 7 operations (slots 92 … 98): the weighted rows added at each edge's target, plus the bias. -/
abbrev refChunk_agg1 : List (HloOp τ sig (Elt F)) :=
  [ StableHlo.nullary main_cst_7 (constant S_ .f32 0x00000000#32),
    StableHlo.unary main_cst_7 main_v37 (broadcastInDim S10000x64 ![] bcast_S_S10000x64 : (⟨S_, .f32⟩ : BufTy).Contents (Elt F) → (⟨S10000x64, .f32⟩ : BufTy).Contents (Elt F)),
    StableHlo.unary main_v7 main_v38 (broadcastInDim S330000x1 ![0] bcast_S330000_S330000x1_0 : (⟨S330000, .i32⟩ : BufTy).Contents (Elt F) → (⟨S330000x1, .i32⟩ : BufTy).Contents (Elt F)),
    StableHlo.ternary main_v37 main_v38 main_v36 main_v39 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    StableHlo.unary main_arg3 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S10000x64 ![0, 1] bcast_S1x64_S10000x64_0_1 : (⟨S1x64, .f32⟩ : BufTy).Contents (Elt F) → (⟨S10000x64, .f32⟩ : BufTy).Contents (Elt F)),
    StableHlo.binary main_v39 main_v41 main_v42 (addf : (⟨S10000x64, .f32⟩ : BufTy).Contents (Elt F) → (⟨S10000x64, .f32⟩ : BufTy).Contents (Elt F) → (⟨S10000x64, .f32⟩ : BufTy).Contents (Elt F)) ]
/-- Each touches device buffers only. -/
theorem refChunk_agg1_sub : (refChunk_agg1 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub ..⟩
/-- Each writes one buffer, in slot 92 or later. -/
theorem refChunk_agg1_past : (refChunk_agg1 : List (HloOp τ sig (Elt F))).Forall (WritesPast (τ := τ) 92) :=
  ⟨writesPast_nullary (by decide), writesPast_unary (by decide), writesPast_unary (by decide), writesPast_ternary (by decide), writesPast_unary (by decide), writesPast_unary (by decide), writesPast_binary (by decide)⟩
/-- None allocates a buffer. -/
theorem refChunk_agg1_fresh : (refChunk_agg1 : List (HloOp τ sig (Elt F))).Forall fun op => op.fresh = ∅ := by
  simp only [List.Forall]; repeat' constructor

/-- 28 operations (slots 99 … 126): the column means and variances, the normalisation with scale and shift, and the positive part. -/
abbrev refChunk_bn1a : List (HloOp τ sig (Elt F)) :=
  [ StableHlo.nullary main_cst_8 (constant S_ .f32 0x00000000#32),
    StableHlo.binary main_v42 main_cst_8 main_v43 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_9 (constant S_ .f32 0x461C4000#32),
    StableHlo.unary main_cst_9 main_v44 (broadcastInDim S64 ![] bcast_S_S64 : (⟨S_, .f32⟩ : BufTy).Contents (Elt F) → (⟨S64, .f32⟩ : BufTy).Contents (Elt F)),
    StableHlo.binary main_v43 main_v44 main_v45 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary (.of main_call2_cst : StableHlo.TRef sig ⟨S_, .f32⟩) (constant S_ .f32 0x00000000#32),
    StableHlo.TRef.binary (.of main_v42 : StableHlo.TRef sig ⟨S10000x64, .f32⟩) (.of main_call2_cst : StableHlo.TRef sig ⟨S_, .f32⟩) (.of main_call2_v0 : StableHlo.TRef sig ⟨S64, .f32⟩) (fun x v => Host.reduceAdd x v reducesTo_S10000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x461C4000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S10000x64, .f32⟩) (broadcastInDim S10000x64 ![0, 1] bcast_S1x64_S10000x64_0_1),
    StableHlo.TRef.binary (.of main_v42 : StableHlo.TRef sig ⟨S10000x64, .f32⟩) (.of main_call2_v4 : StableHlo.TRef sig ⟨S10000x64, .f32⟩) (.of main_call2_v5 : StableHlo.TRef sig ⟨S10000x64, .f32⟩) subf,
    StableHlo.TRef.binary (.of main_call2_v5 : StableHlo.TRef sig ⟨S10000x64, .f32⟩) (.of main_call2_v5 : StableHlo.TRef sig ⟨S10000x64, .f32⟩) (.of main_call2_v6 : StableHlo.TRef sig ⟨S10000x64, .f32⟩) mulf,
    StableHlo.TRef.unary (.of main_c_10 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x461C4000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S10000x64, .f32⟩) (.of main_call2_cst_2 : StableHlo.TRef sig ⟨S_, .f32⟩) (.of main_call2_v9 : StableHlo.TRef sig ⟨S64, .f32⟩) (fun x v => Host.reduceAdd x v reducesTo_S10000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v46 : StableHlo.TRef sig ⟨S64, .f32⟩) (fun p a b => select (broadcastInDim S64 ![] bcast_S_S64 p) a b) ]
/-- Each touches device buffers only. -/
theorem refChunk_bn1a_sub : (refChunk_bn1a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
/-- Each writes one buffer, in slot 99 or later. -/
theorem refChunk_bn1a_past : (refChunk_bn1a : List (HloOp τ sig (Elt F))).Forall (WritesPast (τ := τ) 99) :=
  ⟨writesPast_nullary (by decide), writesPast_binary (by decide), writesPast_nullary (by decide), writesPast_unary (by decide), writesPast_binary (by decide), writesPast_nullary (by decide), writesPast_nullary (by decide), writesPast_binary (by decide), writesPast_unary (by decide), writesPast_nullary (by decide), writesPast_unary (by decide), writesPast_binary (by decide), writesPast_unary (by decide), writesPast_binary (by decide), writesPast_binary (by decide), writesPast_unary (by decide), writesPast_nullary (by decide), writesPast_binary (by decide), writesPast_nullary (by decide), writesPast_binary (by decide), writesPast_unary (by decide), writesPast_binary (by decide), writesPast_nullary (by decide), writesPast_binary (by decide), writesPast_nullary (by decide), writesPast_unary (by decide), writesPast_unary (by decide), writesPast_ternary (by decide)⟩
/-- None allocates a buffer. -/
theorem refChunk_bn1a_fresh : (refChunk_bn1a : List (HloOp τ sig (Elt F))).Forall fun op => op.fresh = ∅ := by
  simp only [List.Forall]; repeat' constructor

/-- 19 operations (slots 127 … 145): the column means and variances, the normalisation with scale and shift, and the positive part. -/
abbrev refChunk_bn1b : List (HloOp τ sig (Elt F)) :=
  [ StableHlo.unary main_v45 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S10000x64 ![0, 1] bcast_S1x64_S10000x64_0_1 : (⟨S1x64, .f32⟩ : BufTy).Contents (Elt F) → (⟨S10000x64, .f32⟩ : BufTy).Contents (Elt F)),
    StableHlo.binary main_v42 main_v48 main_v49 (subf : (⟨S10000x64, .f32⟩ : BufTy).Contents (Elt F) → (⟨S10000x64, .f32⟩ : BufTy).Contents (Elt F) → (⟨S10000x64, .f32⟩ : BufTy).Contents (Elt F)),
    StableHlo.unary main_arg4 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S10000x64 ![0, 1] bcast_S1x64_S10000x64_0_1 : (⟨S1x64, .f32⟩ : BufTy).Contents (Elt F) → (⟨S10000x64, .f32⟩ : BufTy).Contents (Elt F)),
    StableHlo.binary main_v51 main_v49 main_v52 (mulf : (⟨S10000x64, .f32⟩ : BufTy).Contents (Elt F) → (⟨S10000x64, .f32⟩ : BufTy).Contents (Elt F) → (⟨S10000x64, .f32⟩ : BufTy).Contents (Elt F)),
    StableHlo.nullary main_cst_11 (constant S_ .f32 0x3727C5AC#32),
    StableHlo.unary main_cst_11 main_v53 (broadcastInDim S64 ![] bcast_S_S64 : (⟨S_, .f32⟩ : BufTy).Contents (Elt F) → (⟨S64, .f32⟩ : BufTy).Contents (Elt F)),
    StableHlo.binary main_v46 main_v53 main_v54 (addf : (⟨S64, .f32⟩ : BufTy).Contents (Elt F) → (⟨S64, .f32⟩ : BufTy).Contents (Elt F) → (⟨S64, .f32⟩ : BufTy).Contents (Elt F)),
    StableHlo.unary main_v54 main_v55 (Host.sqrt : (⟨S64, .f32⟩ : BufTy).Contents (Elt F) → (⟨S64, .f32⟩ : BufTy).Contents (Elt F)),
    StableHlo.unary main_v55 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S10000x64 ![0, 1] bcast_S1x64_S10000x64_0_1 : (⟨S1x64, .f32⟩ : BufTy).Contents (Elt F) → (⟨S10000x64, .f32⟩ : BufTy).Contents (Elt F)),
    StableHlo.binary main_v52 main_v57 main_v58 (Host.divf : (⟨S10000x64, .f32⟩ : BufTy).Contents (Elt F) → (⟨S10000x64, .f32⟩ : BufTy).Contents (Elt F) → (⟨S10000x64, .f32⟩ : BufTy).Contents (Elt F)),
    StableHlo.unary main_arg5 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S10000x64 ![0, 1] bcast_S1x64_S10000x64_0_1 : (⟨S1x64, .f32⟩ : BufTy).Contents (Elt F) → (⟨S10000x64, .f32⟩ : BufTy).Contents (Elt F)),
    StableHlo.binary main_v58 main_v60 main_v61 (addf : (⟨S10000x64, .f32⟩ : BufTy).Contents (Elt F) → (⟨S10000x64, .f32⟩ : BufTy).Contents (Elt F) → (⟨S10000x64, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S10000x64, .f32⟩) (broadcastInDim S10000x64 ![] bcast_S_S10000x64),
    StableHlo.TRef.binary (.of main_v61 : StableHlo.TRef sig ⟨S10000x64, .f32⟩) (.of main_call3_v0 : StableHlo.TRef sig ⟨S10000x64, .f32⟩) (.of main_v62 : StableHlo.TRef sig ⟨S10000x64, .f32⟩) maximumf ]
/-- Each touches device buffers only. -/
theorem refChunk_bn1b_sub : (refChunk_bn1b : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
/-- Each writes one buffer, in slot 127 or later. -/
theorem refChunk_bn1b_past : (refChunk_bn1b : List (HloOp τ sig (Elt F))).Forall (WritesPast (τ := τ) 127) :=
  ⟨writesPast_unary (by decide), writesPast_unary (by decide), writesPast_binary (by decide), writesPast_unary (by decide), writesPast_unary (by decide), writesPast_binary (by decide), writesPast_nullary (by decide), writesPast_unary (by decide), writesPast_binary (by decide), writesPast_unary (by decide), writesPast_unary (by decide), writesPast_unary (by decide), writesPast_binary (by decide), writesPast_unary (by decide), writesPast_unary (by decide), writesPast_binary (by decide), writesPast_nullary (by decide), writesPast_unary (by decide), writesPast_binary (by decide)⟩
/-- None allocates a buffer. -/
theorem refChunk_bn1b_fresh : (refChunk_bn1b : List (HloOp τ sig (Elt F))).Forall fun op => op.fresh = ∅ := by
  simp only [List.Forall]; repeat' constructor

end Cert.ReferenceIdeal.Hand

end
-- ==== Proof.RefOpsB.lean ====
/- The reference program's second layer, as lists of host operations, stretch by stretch in program order.
   An outlined function's operations stand at its call, over the call's own buffers. Each list comes with three facts:
   it touches device buffers only, every operation writes one buffer at or past the list's first slot, none allocates. -/
import proofs.«107159_g82575041232963_cont_9to1c4b_479_20_alg».proof.Proof.Gen.ReferenceIdeal
import Idealize.ShloMosaic.Lib.StableHlo.Run
import proofs.«107159_g82575041232963_cont_9to1c4b_479_20_alg».proof.Proof.LibHostLine
import proofs.«107159_g82575041232963_cont_9to1c4b_479_20_alg».proof.Proof.RefPast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 1 operation (slot 146): the features times the layer's weight matrix. -/
abbrev refChunk_xw2 : List (HloOp τ sig (Elt F)) :=
  [ StableHlo.binary main_v62 main_arg6 main_v63 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) ]
/-- Each touches device buffers only. -/
theorem refChunk_xw2_sub : (refChunk_xw2 : List (HloOp τ sig (Elt F))).Forall fun op => op.bufs ⊆ tcRefs τ sig :=
  binary_bufs_sub ..
/-- Each writes one buffer, in slot 146 or later. -/
theorem refChunk_xw2_past : (refChunk_xw2 : List (HloOp τ sig (Elt F))).Forall (WritesPast (τ := τ) 146) :=
  writesPast_binary (by decide)
/-- None allocates a buffer. -/
theorem refChunk_xw2_fresh : (refChunk_xw2 : List (HloOp τ sig (Elt F))).Forall fun op => op.fresh = ∅ := by
  simp only [List.Forall]; repeat' constructor

/-- 3 operations (slots 147 … 149): the node numbering appended to each row of edges (one self edge per node). -/
abbrev refChunk_cat2 : List (HloOp τ sig (Elt F)) :=
  [ StableHlo.nullary main_v64 (iotaInDim S10000 32 0),
    StableHlo.binary main_v1 main_v64 main_v65 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.binary main_v3 main_v64 main_v66 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
/-- Each touches device buffers only. -/
theorem refChunk_cat2_sub : (refChunk_cat2 : List (HloOp τ sig (Elt F))).Forall fun op => op.bufs ⊆ tcRefs τ sig :=
  ⟨nullary_bufs_sub .., binary_bufs_sub .., binary_bufs_sub ..⟩
/-- Each writes one buffer, in slot 147 or later. -/
theorem refChunk_cat2_past : (refChunk_cat2 : List (HloOp τ sig (Elt F))).Forall (WritesPast (τ := τ) 147) :=
  ⟨writesPast_nullary (by decide), writesPast_binary (by decide), writesPast_binary (by decide)⟩
/-- None allocates a buffer. -/
theorem refChunk_cat2_fresh : (refChunk_cat2 : List (HloOp τ sig (Elt F))).Forall fun op => op.fresh = ∅ := by
  simp only [List.Forall]; repeat' constructor

/-- 6 operations (slots 150 … 155): the degree of each node: ones added at the target row. -/
abbrev refChunk_deg2 : List (HloOp τ sig (Elt F)) :=
  [ StableHlo.nullary main_cst_12 (constant S_ .f32 0x3F800000#32),
    StableHlo.unary main_cst_12 main_v67 (broadcastInDim S330000 ![] bcast_S_S330000 : (⟨S_, .f32⟩ : BufTy).Contents (Elt F) → (⟨S330000, .f32⟩ : BufTy).Contents (Elt F)),
    StableHlo.nullary main_cst_13 (constant S_ .f32 0x00000000#32),
    StableHlo.unary main_cst_13 main_v68 (broadcastInDim S10000 ![] bcast_S_S10000 : (⟨S_, .f32⟩ : BufTy).Contents (Elt F) → (⟨S10000, .f32⟩ : BufTy).Contents (Elt F)),
    StableHlo.unary main_v66 main_v69 (broadcastInDim S330000x1 ![0] bcast_S330000_S330000x1_0 : (⟨S330000, .i32⟩ : BufTy).Contents (Elt F) → (⟨S330000x1, .i32⟩ : BufTy).Contents (Elt F)),
    StableHlo.ternary main_v68 main_v69 main_v67 main_v70 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)) ]
/-- Each touches device buffers only. -/
theorem refChunk_deg2_sub : (refChunk_deg2 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
/-- Each writes one buffer, in slot 150 or later. -/
theorem refChunk_deg2_past : (refChunk_deg2 : List (HloOp τ sig (Elt F))).Forall (WritesPast (τ := τ) 150) :=
  ⟨writesPast_nullary (by decide), writesPast_unary (by decide), writesPast_nullary (by decide), writesPast_unary (by decide), writesPast_unary (by decide), writesPast_ternary (by decide)⟩
/-- None allocates a buffer. -/
theorem refChunk_deg2_fresh : (refChunk_deg2 : List (HloOp τ sig (Elt F))).Forall fun op => op.fresh = ∅ := by
  simp only [List.Forall]; repeat' constructor

/-- 11 operations (slots 156 … 166): the inverse square root of the degree, zero where the degree is zero. -/
abbrev refChunk_inv2 : List (HloOp τ sig (Elt F)) :=
  [ StableHlo.nullary main_cst_14 (constant S_ .f32 0x00000000#32),
    StableHlo.unary main_cst_14 main_v71 (broadcastInDim S10000 ![] bcast_S_S10000 : (⟨S_, .f32⟩ : BufTy).Contents (Elt F) → (⟨S10000, .f32⟩ : BufTy).Contents (Elt F)),
    StableHlo.binary main_v70 main_v71 main_v72 (cmpf .ogt : (⟨S10000, .f32⟩ : BufTy).Contents (Elt F) → (⟨S10000, .f32⟩ : BufTy).Contents (Elt F) → (⟨S10000, .i1⟩ : BufTy).Contents (Elt F)),
    StableHlo.unary main_v70 main_v73 (Host.sqrt : (⟨S10000, .f32⟩ : BufTy).Contents (Elt F) → (⟨S10000, .f32⟩ : BufTy).Contents (Elt F)),
    StableHlo.nullary main_cst_15 (constant S_ .f32 0x3F800000#32),
    StableHlo.unary main_cst_15 main_v74 (broadcastInDim S10000 ![] bcast_S_S10000 : (⟨S_, .f32⟩ : BufTy).Contents (Elt F) → (⟨S10000, .f32⟩ : BufTy).Contents (Elt F)),
    StableHlo.binary main_v74 main_v73 main_v75 (Host.divf : (⟨S10000, .f32⟩ : BufTy).Contents (Elt F) → (⟨S10000, .f32⟩ : BufTy).Contents (Elt F) → (⟨S10000, .f32⟩ : BufTy).Contents (Elt F)),
    StableHlo.nullary main_cst_16 (constant S_ .f32 0x00000000#32),
    StableHlo.TRef.unary (.of main_cst_16 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S10000, .f32⟩) (broadcastInDim S10000 ![] bcast_S_S10000),
    StableHlo.TRef.ternary (.of main_v72 : StableHlo.TRef sig ⟨S10000, .i1⟩) (.of main_v75 : StableHlo.TRef sig ⟨S10000, .f32⟩) (.of main_call4_v1 : StableHlo.TRef sig ⟨S10000, .f32⟩) (.of main_v76 : StableHlo.TRef sig ⟨S10000, .f32⟩) select ]
/-- Each touches device buffers only. -/
theorem refChunk_inv2_sub : (refChunk_inv2 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., unary_bufs_sub .., ternary_bufs_sub ..⟩
/-- Each writes one buffer, in slot 156 or later. -/
theorem refChunk_inv2_past : (refChunk_inv2 : List (HloOp τ sig (Elt F))).Forall (WritesPast (τ := τ) 156) :=
  ⟨writesPast_nullary (by decide), writesPast_unary (by decide), writesPast_binary (by decide), writesPast_unary (by decide), writesPast_nullary (by decide), writesPast_unary (by decide), writesPast_binary (by decide), writesPast_nullary (by decide), writesPast_unary (by decide), writesPast_unary (by decide), writesPast_ternary (by decide)⟩
/-- None allocates a buffer. -/
theorem refChunk_inv2_fresh : (refChunk_inv2 : List (HloOp τ sig (Elt F))).Forall fun op => op.fresh = ∅ := by
  simp only [List.Forall]; repeat' constructor

/-- 19 operations (slots 167 … 185): both row indices wrapped into range, the inverse roots read at them, and their product: the edge weight. -/
abbrev refChunk_nrm2 : List (HloOp τ sig (Elt F)) :=
  [ StableHlo.nullary main_c_17 (constantI S_ 32 0#32),
    StableHlo.unary main_c_17 main_v77 (broadcastInDim S330000 ![] bcast_S_S330000 : (⟨S_, .i32⟩ : BufTy).Contents (Elt F) → (⟨S330000, .i32⟩ : BufTy).Contents (Elt F)),
    StableHlo.binary main_v65 main_v77 main_v78 (cmpi .slt : (⟨S330000, .i32⟩ : BufTy).Contents (Elt F) → (⟨S330000, .i32⟩ : BufTy).Contents (Elt F) → (⟨S330000, .i1⟩ : BufTy).Contents (Elt F)),
    StableHlo.nullary main_c_18 (constantI S_ 32 10000#32),
    StableHlo.unary main_c_18 main_v79 (broadcastInDim S330000 ![] bcast_S_S330000 : (⟨S_, .i32⟩ : BufTy).Contents (Elt F) → (⟨S330000, .i32⟩ : BufTy).Contents (Elt F)),
    StableHlo.binary main_v65 main_v79 main_v80 (addi : (⟨S330000, .i32⟩ : BufTy).Contents (Elt F) → (⟨S330000, .i32⟩ : BufTy).Contents (Elt F) → (⟨S330000, .i32⟩ : BufTy).Contents (Elt F)),
    StableHlo.ternary main_v78 main_v80 main_v65 main_v81 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v81 main_v82 (broadcastInDim S330000x1 ![0] bcast_S330000_S330000x1_0 : (⟨S330000, .i32⟩ : BufTy).Contents (Elt F) → (⟨S330000x1, .i32⟩ : BufTy).Contents (Elt F)),
    StableHlo.binary main_v76 main_v82 main_v83 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.nullary main_c_19 (constantI S_ 32 0#32),
    StableHlo.unary main_c_19 main_v84 (broadcastInDim S330000 ![] bcast_S_S330000 : (⟨S_, .i32⟩ : BufTy).Contents (Elt F) → (⟨S330000, .i32⟩ : BufTy).Contents (Elt F)),
    StableHlo.binary main_v66 main_v84 main_v85 (cmpi .slt : (⟨S330000, .i32⟩ : BufTy).Contents (Elt F) → (⟨S330000, .i32⟩ : BufTy).Contents (Elt F) → (⟨S330000, .i1⟩ : BufTy).Contents (Elt F)),
    StableHlo.nullary main_c_20 (constantI S_ 32 10000#32),
    StableHlo.unary main_c_20 main_v86 (broadcastInDim S330000 ![] bcast_S_S330000 : (⟨S_, .i32⟩ : BufTy).Contents (Elt F) → (⟨S330000, .i32⟩ : BufTy).Contents (Elt F)),
    StableHlo.binary main_v66 main_v86 main_v87 (addi : (⟨S330000, .i32⟩ : BufTy).Contents (Elt F) → (⟨S330000, .i32⟩ : BufTy).Contents (Elt F) → (⟨S330000, .i32⟩ : BufTy).Contents (Elt F)),
    StableHlo.ternary main_v85 main_v87 main_v66 main_v88 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v88 main_v89 (broadcastInDim S330000x1 ![0] bcast_S330000_S330000x1_0 : (⟨S330000, .i32⟩ : BufTy).Contents (Elt F) → (⟨S330000x1, .i32⟩ : BufTy).Contents (Elt F)),
    StableHlo.binary main_v76 main_v89 main_v90 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v83 main_v90 main_v91 (mulf : (⟨S330000, .f32⟩ : BufTy).Contents (Elt F) → (⟨S330000, .f32⟩ : BufTy).Contents (Elt F) → (⟨S330000, .f32⟩ : BufTy).Contents (Elt F)) ]
/-- Each touches device buffers only. -/
theorem refChunk_nrm2_sub : (refChunk_nrm2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- Each writes one buffer, in slot 167 or later. -/
theorem refChunk_nrm2_past : (refChunk_nrm2 : List (HloOp τ sig (Elt F))).Forall (WritesPast (τ := τ) 167) :=
  ⟨writesPast_nullary (by decide), writesPast_unary (by decide), writesPast_binary (by decide), writesPast_nullary (by decide), writesPast_unary (by decide), writesPast_binary (by decide), writesPast_ternary (by decide), writesPast_unary (by decide), writesPast_binary (by decide), writesPast_nullary (by decide), writesPast_unary (by decide), writesPast_binary (by decide), writesPast_nullary (by decide), writesPast_unary (by decide), writesPast_binary (by decide), writesPast_ternary (by decide), writesPast_unary (by decide), writesPast_binary (by decide), writesPast_binary (by decide)⟩
/-- None allocates a buffer. -/
theorem refChunk_nrm2_fresh : (refChunk_nrm2 : List (HloOp τ sig (Elt F))).Forall fun op => op.fresh = ∅ := by
  simp only [List.Forall]; repeat' constructor

/-- 1 operation (slot 186): the edge weights as a column. -/
abbrev refChunk_col2 : List (HloOp τ sig (Elt F)) :=
  [ StableHlo.unary main_v91 main_v92 (broadcastInDim S330000x1 ![0] bcast_S330000_S330000x1_0 : (⟨S330000, .f32⟩ : BufTy).Contents (Elt F) → (⟨S330000x1, .f32⟩ : BufTy).Contents (Elt F)) ]
/-- Each touches device buffers only. -/
theorem refChunk_col2_sub : (refChunk_col2 : List (HloOp τ sig (Elt F))).Forall fun op => op.bufs ⊆ tcRefs τ sig :=
  unary_bufs_sub ..
/-- Each writes one buffer, in slot 186 or later. -/
theorem refChunk_col2_past : (refChunk_col2 : List (HloOp τ sig (Elt F))).Forall (WritesPast (τ := τ) 186) :=
  writesPast_unary (by decide)
/-- None allocates a buffer. -/
theorem refChunk_col2_fresh : (refChunk_col2 : List (HloOp τ sig (Elt F))).Forall fun op => op.fresh = ∅ := by
  simp only [List.Forall]; repeat' constructor

/-- 23 operations (slots 187 … 209): the transformed features read at each edge's source, out-of-range rows marked. -/
abbrev refChunk_take2 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S330000, .i32⟩) (broadcastInDim S330000 ![] bcast_S_S330000),
    StableHlo.TRef.binary (.of main_v65 : StableHlo.TRef sig ⟨S330000, .i32⟩) (.of main_call5_v0 : StableHlo.TRef sig ⟨S330000, .i32⟩) (.of main_call5_v1 : StableHlo.TRef sig ⟨S330000, .i1⟩) (cmpi .slt),
    StableHlo.TRef.nullary (.of main_call5_c_0 : StableHlo.TRef sig ⟨S_, .i32⟩) (constantI S_ 32 10000#32),
    StableHlo.TRef.unary (.of main_call5_c_0 : StableHlo.TRef sig ⟨S_, .i32⟩) (.of main_call5_v2 : StableHlo.TRef sig ⟨S330000, .i32⟩) (broadcastInDim S330000 ![] bcast_S_S330000),
    StableHlo.TRef.binary (.of main_v65 : StableHlo.TRef sig ⟨S330000, .i32⟩) (.of main_call5_v2 : StableHlo.TRef sig ⟨S330000, .i32⟩) (.of main_call5_v3 : StableHlo.TRef sig ⟨S330000, .i32⟩) addi,
    StableHlo.TRef.ternary (.of main_call5_v1 : StableHlo.TRef sig ⟨S330000, .i1⟩) (.of main_call5_v3 : StableHlo.TRef sig ⟨S330000, .i32⟩) (.of main_v65 : StableHlo.TRef sig ⟨S330000, .i32⟩) (.of main_call5_v4 : StableHlo.TRef sig ⟨S330000, .i32⟩) select,
    StableHlo.TRef.unary (.of main_call5_v4 : StableHlo.TRef sig ⟨S330000, .i32⟩) (.of main_call5_v5 : StableHlo.TRef sig ⟨S330000x1, .i32⟩) (broadcastInDim S330000x1 ![0] bcast_S330000_S330000x1_0),
    StableHlo.TRef.nullary (.of main_call5_c_1 : StableHlo.TRef sig ⟨S1, .i32⟩) (constantI S1 32 9999#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S330000x1, .i32⟩) (broadcastInDim S330000x1 ![] bcast_S_S330000x1),
    StableHlo.TRef.binary (.of main_call5_v5 : StableHlo.TRef sig ⟨S330000x1, .i32⟩) (.of main_call5_v6 : StableHlo.TRef sig ⟨S330000x1, .i32⟩) (.of main_call5_v7 : StableHlo.TRef sig ⟨S330000x1, .i1⟩) (cmpi .sge),
    StableHlo.TRef.unary (.of main_call5_c_1 : StableHlo.TRef sig ⟨S1, .i32⟩) (.of main_call5_v8 : StableHlo.TRef sig ⟨S1x1, .i32⟩) (broadcastInDim S1x1 ![1] bcast_S1_S1x1_1),
    StableHlo.TRef.unary (.of main_call5_v8 : StableHlo.TRef sig ⟨S1x1, .i32⟩) (.of main_call5_v9 : StableHlo.TRef sig ⟨S330000x1, .i32⟩) (broadcastInDim S330000x1 ![0, 1] bcast_S1x1_S330000x1_0_1),
    StableHlo.TRef.binary (.of main_call5_v5 : StableHlo.TRef sig ⟨S330000x1, .i32⟩) (.of main_call5_v9 : StableHlo.TRef sig ⟨S330000x1, .i32⟩) (.of main_call5_v10 : StableHlo.TRef sig ⟨S330000x1, .i1⟩) (cmpi .sle),
    StableHlo.TRef.binary (.of main_call5_v7 : StableHlo.TRef sig ⟨S330000x1, .i1⟩) (.of main_call5_v10 : StableHlo.TRef sig ⟨S330000x1, .i1⟩) (.of main_call5_v11 : StableHlo.TRef sig ⟨S330000x1, .i1⟩) andi,
    StableHlo.TRef.nullary (.of main_call5_c_3 : StableHlo.TRef sig ⟨S_, .i1⟩) (constantI S_ 1 1#1),
    StableHlo.TRef.binary (.of main_call5_v11 : StableHlo.TRef sig ⟨S330000x1, .i1⟩) (.of main_call5_c_3 : StableHlo.TRef sig ⟨S_, .i1⟩) (.of main_call5_v12 : StableHlo.TRef sig ⟨S330000, .i1⟩) (fun x v => Host.reduce IntOp.andi x v reducesTo_S330000x1_S330000_d1 h_S_),
    StableHlo.TRef.binary (.of main_v63 : StableHlo.TRef sig ⟨S10000x64, .f32⟩) (.of main_call5_v5 : StableHlo.TRef sig ⟨S330000x1, .i32⟩) (.of main_call5_v13 : StableHlo.TRef sig ⟨S330000x64, .f32⟩) (fun x i => Host.gather gather_S10000x64_S330000x1_S330000x64_1_0_n_n_0_1_164 x i),
    StableHlo.TRef.unary (.of main_call5_v12 : StableHlo.TRef sig ⟨S330000, .i1⟩) (.of main_call5_v14 : StableHlo.TRef sig ⟨S330000x64, .i1⟩) (broadcastInDim S330000x64 ![0] bcast_S330000_S330000x64_0),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v15 : StableHlo.TRef sig ⟨S330000x64, .f32⟩) (broadcastInDim S330000x64 ![] bcast_S_S330000x64),
    StableHlo.TRef.ternary (.of main_call5_v14 : StableHlo.TRef sig ⟨S330000x64, .i1⟩) (.of main_call5_v13 : StableHlo.TRef sig ⟨S330000x64, .f32⟩) (.of main_call5_v15 : StableHlo.TRef sig ⟨S330000x64, .f32⟩) (.of main_v93 : StableHlo.TRef sig ⟨S330000x64, .f32⟩) select ]
/-- Each touches device buffers only. -/
theorem refChunk_take2_sub : (refChunk_take2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each writes one buffer, in slot 187 or later. -/
theorem refChunk_take2_past : (refChunk_take2 : List (HloOp τ sig (Elt F))).Forall (WritesPast (τ := τ) 187) :=
  ⟨writesPast_nullary (by decide), writesPast_unary (by decide), writesPast_binary (by decide), writesPast_nullary (by decide), writesPast_unary (by decide), writesPast_binary (by decide), writesPast_ternary (by decide), writesPast_unary (by decide), writesPast_nullary (by decide), writesPast_nullary (by decide), writesPast_unary (by decide), writesPast_binary (by decide), writesPast_unary (by decide), writesPast_unary (by decide), writesPast_binary (by decide), writesPast_binary (by decide), writesPast_nullary (by decide), writesPast_binary (by decide), writesPast_binary (by decide), writesPast_unary (by decide), writesPast_nullary (by decide), writesPast_unary (by decide), writesPast_ternary (by decide)⟩
/-- None allocates a buffer. -/
theorem refChunk_take2_fresh : (refChunk_take2 : List (HloOp τ sig (Elt F))).Forall fun op => op.fresh = ∅ := by
  simp only [List.Forall]; repeat' constructor

/-- 2 operations (slots 210 … 211): each read row times its edge weight. -/
abbrev refChunk_scl2 : List (HloOp τ sig (Elt F)) :=
  [ StableHlo.unary main_v92 main_v94 (broadcastInDim S330000x64 ![0, 1] bcast_S330000x1_S330000x64_0_1 : (⟨S330000x1, .f32⟩ : BufTy).Contents (Elt F) → (⟨S330000x64, .f32⟩ : BufTy).Contents (Elt F)),
    StableHlo.binary main_v94 main_v93 main_v95 (mulf : (⟨S330000x64, .f32⟩ : BufTy).Contents (Elt F) → (⟨S330000x64, .f32⟩ : BufTy).Contents (Elt F) → (⟨S330000x64, .f32⟩ : BufTy).Contents (Elt F)) ]
/-- Each touches device buffers only. -/
theorem refChunk_scl2_sub : (refChunk_scl2 : List (HloOp τ sig (Elt F))).Forall fun op => op.bufs ⊆ tcRefs τ sig :=
  ⟨unary_bufs_sub .., binary_bufs_sub ..⟩
/-- Each writes one buffer, in slot 210 or later. -/
theorem refChunk_scl2_past : (refChunk_scl2 : List (HloOp τ sig (Elt F))).Forall (WritesPast (τ := τ) 210) :=
  ⟨writesPast_unary (by decide), writesPast_binary (by decide)⟩
/-- None allocates a buffer. -/
theorem refChunk_scl2_fresh : (refChunk_scl2 : List (HloOp τ sig (Elt F))).Forall fun op => op.fresh = ∅ := by
  simp only [List.Forall]; repeat' constructor

/-- 1 operation (slot 212): the weighted rows added at each edge's target, plus the bias. -/
abbrev refChunk_agg2a : List (HloOp τ sig (Elt F)) :=
  [ StableHlo.nullary main_cst_21 (constant S_ .f32 0x00000000#32) ]
/-- Each touches device buffers only. -/
theorem refChunk_agg2a_sub : (refChunk_agg2a : List (HloOp τ sig (Elt F))).Forall fun op => op.bufs ⊆ tcRefs τ sig :=
  nullary_bufs_sub ..
/-- Each writes one buffer, in slot 212 or later. -/
theorem refChunk_agg2a_past : (refChunk_agg2a : List (HloOp τ sig (Elt F))).Forall (WritesPast (τ := τ) 212) :=
  writesPast_nullary (by decide)
/-- None allocates a buffer. -/
theorem refChunk_agg2a_fresh : (refChunk_agg2a : List (HloOp τ sig (Elt F))).Forall fun op => op.fresh = ∅ := by
  simp only [List.Forall]; repeat' constructor

/-- 6 operations (slots 213 … 218): the weighted rows added at each edge's target, plus the bias. -/
abbrev refChunk_agg2b : List (HloOp τ sig (Elt F)) :=
  [ StableHlo.unary main_cst_21 main_v96 (broadcastInDim S10000x64 ![] bcast_S_S10000x64 : (⟨S_, .f32⟩ : BufTy).Contents (Elt F) → (⟨S10000x64, .f32⟩ : BufTy).Contents (Elt F)),
    StableHlo.unary main_v66 main_v97 (broadcastInDim S330000x1 ![0] bcast_S330000_S330000x1_0 : (⟨S330000, .i32⟩ : BufTy).Contents (Elt F) → (⟨S330000x1, .i32⟩ : BufTy).Contents (Elt F)),
    StableHlo.ternary main_v96 main_v97 main_v95 main_v98 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    StableHlo.unary main_arg7 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S10000x64 ![0, 1] bcast_S1x64_S10000x64_0_1 : (⟨S1x64, .f32⟩ : BufTy).Contents (Elt F) → (⟨S10000x64, .f32⟩ : BufTy).Contents (Elt F)),
    StableHlo.binary main_v98 main_v100 main_v101 (addf : (⟨S10000x64, .f32⟩ : BufTy).Contents (Elt F) → (⟨S10000x64, .f32⟩ : BufTy).Contents (Elt F) → (⟨S10000x64, .f32⟩ : BufTy).Contents (Elt F)) ]
/-- Each touches device buffers only. -/
theorem refChunk_agg2b_sub : (refChunk_agg2b : List (HloOp τ sig (Elt F))).Forall fun op => op.bufs ⊆ tcRefs τ sig :=
  ⟨unary_bufs_sub .., unary_bufs_sub .., ternary_bufs_sub .., unary_bufs_sub .., unary_bufs_sub .., binary_bufs_sub ..⟩
/-- Each writes one buffer, in slot 213 or later. -/
theorem refChunk_agg2b_past : (refChunk_agg2b : List (HloOp τ sig (Elt F))).Forall (WritesPast (τ := τ) 213) :=
  ⟨writesPast_unary (by decide), writesPast_unary (by decide), writesPast_ternary (by decide), writesPast_unary (by decide), writesPast_unary (by decide), writesPast_binary (by decide)⟩
/-- None allocates a buffer. -/
theorem refChunk_agg2b_fresh : (refChunk_agg2b : List (HloOp τ sig (Elt F))).Forall fun op => op.fresh = ∅ := by
  simp only [List.Forall]; repeat' constructor

/-- 47 operations (slots 219 … 265): the column means and variances, the normalisation with scale and shift, and the positive part. -/
abbrev refChunk_bn2 : List (HloOp τ sig (Elt F)) :=
  [ StableHlo.nullary main_cst_22 (constant S_ .f32 0x00000000#32),
    StableHlo.binary main_v101 main_cst_22 main_v102 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_23 (constant S_ .f32 0x461C4000#32),
    StableHlo.unary main_cst_23 main_v103 (broadcastInDim S64 ![] bcast_S_S64 : (⟨S_, .f32⟩ : BufTy).Contents (Elt F) → (⟨S64, .f32⟩ : BufTy).Contents (Elt F)),
    StableHlo.binary main_v102 main_v103 main_v104 (Host.divf : (⟨S64, .f32⟩ : BufTy).Contents (Elt F) → (⟨S64, .f32⟩ : BufTy).Contents (Elt F) → (⟨S64, .f32⟩ : BufTy).Contents (Elt F)),
    StableHlo.nullary main_c_24 (constantI S_ 32 0#32),
    StableHlo.TRef.nullary (.of main_call6_cst : StableHlo.TRef sig ⟨S_, .f32⟩) (constant S_ .f32 0x00000000#32),
    StableHlo.TRef.binary (.of main_v101 : StableHlo.TRef sig ⟨S10000x64, .f32⟩) (.of main_call6_cst : StableHlo.TRef sig ⟨S_, .f32⟩) (.of main_call6_v0 : StableHlo.TRef sig ⟨S64, .f32⟩) (fun x v => Host.reduceAdd x v reducesTo_S10000x64_S64_d0 h_S_),
    StableHlo.TRef.unary (.of main_call6_v0 : StableHlo.TRef sig ⟨S64, .f32⟩) (.of main_call6_v1 : StableHlo.TRef sig ⟨S1x64, .f32⟩) (broadcastInDim S1x64 ![1] bcast_S64_S1x64_1),
    StableHlo.TRef.nullary (.of main_call6_cst_0 : StableHlo.TRef sig ⟨S_, .f32⟩) (constant S_ .f32 0x461C4000#32),
    StableHlo.TRef.unary (.of main_call6_cst_0 : StableHlo.TRef sig ⟨S_, .f32⟩) (.of main_call6_v2 : StableHlo.TRef sig ⟨S1x64, .f32⟩) (broadcastInDim S1x64 ![] bcast_S_S1x64),
    StableHlo.TRef.binary (.of main_call6_v1 : StableHlo.TRef sig ⟨S1x64, .f32⟩) (.of main_call6_v2 : StableHlo.TRef sig ⟨S1x64, .f32⟩) (.of main_call6_v3 : StableHlo.TRef sig ⟨S1x64, .f32⟩) Host.divf,
    StableHlo.TRef.unary (.of main_call6_v3 : StableHlo.TRef sig ⟨S1x64, .f32⟩) (.of main_call6_v4 : StableHlo.TRef sig ⟨S10000x64, .f32⟩) (broadcastInDim S10000x64 ![0, 1] bcast_S1x64_S10000x64_0_1),
    StableHlo.TRef.binary (.of main_v101 : StableHlo.TRef sig ⟨S10000x64, .f32⟩) (.of main_call6_v4 : StableHlo.TRef sig ⟨S10000x64, .f32⟩) (.of main_call6_v5 : StableHlo.TRef sig ⟨S10000x64, .f32⟩) subf,
    StableHlo.TRef.binary (.of main_call6_v5 : StableHlo.TRef sig ⟨S10000x64, .f32⟩) (.of main_call6_v5 : StableHlo.TRef sig ⟨S10000x64, .f32⟩) (.of main_call6_v6 : StableHlo.TRef sig ⟨S10000x64, .f32⟩) mulf,
    StableHlo.TRef.unary (.of main_c_24 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x461C4000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S10000x64, .f32⟩) (.of main_call6_cst_2 : StableHlo.TRef sig ⟨S_, .f32⟩) (.of main_call6_v9 : StableHlo.TRef sig ⟨S64, .f32⟩) (fun x v => Host.reduceAdd x v reducesTo_S10000x64_S64_d0 h_S_),
    StableHlo.TRef.unary (.of main_call6_v8 : StableHlo.TRef sig ⟨S_, .f32⟩) (.of main_call6_v10 : StableHlo.TRef sig ⟨S64, .f32⟩) (broadcastInDim S64 ![] bcast_S_S64),
    StableHlo.TRef.binary (.of main_call6_v9 : StableHlo.TRef sig ⟨S64, .f32⟩) (.of main_call6_v10 : StableHlo.TRef sig ⟨S64, .f32⟩) (.of main_call6_v11 : StableHlo.TRef sig ⟨S64, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S64, .f32⟩) (broadcastInDim S64 ![] bcast_S_S64),
    StableHlo.TRef.ternary (.of main_call6_v12 : StableHlo.TRef sig ⟨S_, .i1⟩) (.of main_call6_v11 : StableHlo.TRef sig ⟨S64, .f32⟩) (.of main_call6_call0_v1 : StableHlo.TRef sig ⟨S64, .f32⟩) (.of main_v105 : StableHlo.TRef sig ⟨S64, .f32⟩) (fun p a b => select (broadcastInDim S64 ![] bcast_S_S64 p) a b),
    StableHlo.unary main_v104 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S10000x64 ![0, 1] bcast_S1x64_S10000x64_0_1 : (⟨S1x64, .f32⟩ : BufTy).Contents (Elt F) → (⟨S10000x64, .f32⟩ : BufTy).Contents (Elt F)),
    StableHlo.binary main_v101 main_v107 main_v108 (subf : (⟨S10000x64, .f32⟩ : BufTy).Contents (Elt F) → (⟨S10000x64, .f32⟩ : BufTy).Contents (Elt F) → (⟨S10000x64, .f32⟩ : BufTy).Contents (Elt F)),
    StableHlo.unary main_arg8 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S10000x64 ![0, 1] bcast_S1x64_S10000x64_0_1 : (⟨S1x64, .f32⟩ : BufTy).Contents (Elt F) → (⟨S10000x64, .f32⟩ : BufTy).Contents (Elt F)),
    StableHlo.binary main_v110 main_v108 main_v111 (mulf : (⟨S10000x64, .f32⟩ : BufTy).Contents (Elt F) → (⟨S10000x64, .f32⟩ : BufTy).Contents (Elt F) → (⟨S10000x64, .f32⟩ : BufTy).Contents (Elt F)),
    StableHlo.nullary main_cst_25 (constant S_ .f32 0x3727C5AC#32),
    StableHlo.unary main_cst_25 main_v112 (broadcastInDim S64 ![] bcast_S_S64 : (⟨S_, .f32⟩ : BufTy).Contents (Elt F) → (⟨S64, .f32⟩ : BufTy).Contents (Elt F)),
    StableHlo.binary main_v105 main_v112 main_v113 (addf : (⟨S64, .f32⟩ : BufTy).Contents (Elt F) → (⟨S64, .f32⟩ : BufTy).Contents (Elt F) → (⟨S64, .f32⟩ : BufTy).Contents (Elt F)),
    StableHlo.unary main_v113 main_v114 (Host.sqrt : (⟨S64, .f32⟩ : BufTy).Contents (Elt F) → (⟨S64, .f32⟩ : BufTy).Contents (Elt F)),
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S10000x64 ![0, 1] bcast_S1x64_S10000x64_0_1 : (⟨S1x64, .f32⟩ : BufTy).Contents (Elt F) → (⟨S10000x64, .f32⟩ : BufTy).Contents (Elt F)),
    StableHlo.binary main_v111 main_v116 main_v117 (Host.divf : (⟨S10000x64, .f32⟩ : BufTy).Contents (Elt F) → (⟨S10000x64, .f32⟩ : BufTy).Contents (Elt F) → (⟨S10000x64, .f32⟩ : BufTy).Contents (Elt F)),
    StableHlo.unary main_arg9 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S10000x64 ![0, 1] bcast_S1x64_S10000x64_0_1 : (⟨S1x64, .f32⟩ : BufTy).Contents (Elt F) → (⟨S10000x64, .f32⟩ : BufTy).Contents (Elt F)),
    StableHlo.binary main_v117 main_v119 main_v120 (addf : (⟨S10000x64, .f32⟩ : BufTy).Contents (Elt F) → (⟨S10000x64, .f32⟩ : BufTy).Contents (Elt F) → (⟨S10000x64, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S10000x64, .f32⟩) (broadcastInDim S10000x64 ![] bcast_S_S10000x64),
    StableHlo.TRef.binary (.of main_v120 : StableHlo.TRef sig ⟨S10000x64, .f32⟩) (.of main_call7_v0 : StableHlo.TRef sig ⟨S10000x64, .f32⟩) (.of main_v121 : StableHlo.TRef sig ⟨S10000x64, .f32⟩) maximumf ]
/-- Each touches device buffers only. -/
theorem refChunk_bn2_sub : (refChunk_bn2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
/-- Each writes one buffer, in slot 219 or later. -/
theorem refChunk_bn2_past : (refChunk_bn2 : List (HloOp τ sig (Elt F))).Forall (WritesPast (τ := τ) 219) :=
  ⟨writesPast_nullary (by decide), writesPast_binary (by decide), writesPast_nullary (by decide), writesPast_unary (by decide), writesPast_binary (by decide), writesPast_nullary (by decide), writesPast_nullary (by decide), writesPast_binary (by decide), writesPast_unary (by decide), writesPast_nullary (by decide), writesPast_unary (by decide), writesPast_binary (by decide), writesPast_unary (by decide), writesPast_binary (by decide), writesPast_binary (by decide), writesPast_unary (by decide), writesPast_nullary (by decide), writesPast_binary (by decide), writesPast_nullary (by decide), writesPast_binary (by decide), writesPast_unary (by decide), writesPast_binary (by decide), writesPast_nullary (by decide), writesPast_binary (by decide), writesPast_nullary (by decide), writesPast_unary (by decide), writesPast_unary (by decide), writesPast_ternary (by decide), writesPast_unary (by decide), writesPast_unary (by decide), writesPast_binary (by decide), writesPast_unary (by decide), writesPast_unary (by decide), writesPast_binary (by decide), writesPast_nullary (by decide), writesPast_unary (by decide), writesPast_binary (by decide), writesPast_unary (by decide), writesPast_unary (by decide), writesPast_unary (by decide), writesPast_binary (by decide), writesPast_unary (by decide), writesPast_unary (by decide), writesPast_binary (by decide), writesPast_nullary (by decide), writesPast_unary (by decide), writesPast_binary (by decide)⟩
/-- None allocates a buffer. -/
theorem refChunk_bn2_fresh : (refChunk_bn2 : List (HloOp τ sig (Elt F))).Forall fun op => op.fresh = ∅ := by
  simp only [List.Forall]; repeat' constructor

end Cert.ReferenceIdeal.Hand

end
-- ==== Proof.RefOpsC.lean ====
/- The reference program's third layer, as lists of host operations, stretch by stretch in program order.
   An outlined function's operations stand at its call, over the call's own buffers. Each list comes with three facts:
   it touches device buffers only, every operation writes one buffer at or past the list's first slot, none allocates. -/
import proofs.«107159_g82575041232963_cont_9to1c4b_479_20_alg».proof.Proof.Gen.ReferenceIdeal
import Idealize.ShloMosaic.Lib.StableHlo.Run
import proofs.«107159_g82575041232963_cont_9to1c4b_479_20_alg».proof.Proof.LibHostLine
import proofs.«107159_g82575041232963_cont_9to1c4b_479_20_alg».proof.Proof.RefPast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 1 operation (slot 266): the features times the layer's weight matrix. -/
abbrev refChunk_xw3 : List (HloOp τ sig (Elt F)) :=
  [ StableHlo.binary main_v121 main_arg10 main_v122 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) ]
/-- Each touches device buffers only. -/
theorem refChunk_xw3_sub : (refChunk_xw3 : List (HloOp τ sig (Elt F))).Forall fun op => op.bufs ⊆ tcRefs τ sig :=
  binary_bufs_sub ..
/-- Each writes one buffer, in slot 266 or later. -/
theorem refChunk_xw3_past : (refChunk_xw3 : List (HloOp τ sig (Elt F))).Forall (WritesPast (τ := τ) 266) :=
  writesPast_binary (by decide)
/-- None allocates a buffer. -/
theorem refChunk_xw3_fresh : (refChunk_xw3 : List (HloOp τ sig (Elt F))).Forall fun op => op.fresh = ∅ := by
  simp only [List.Forall]; repeat' constructor

/-- 3 operations (slots 267 … 269): the node numbering appended to each row of edges (one self edge per node). -/
abbrev refChunk_cat3 : List (HloOp τ sig (Elt F)) :=
  [ StableHlo.nullary main_v123 (iotaInDim S10000 32 0),
    StableHlo.binary main_v1 main_v123 main_v124 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.binary main_v3 main_v123 main_v125 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
/-- Each touches device buffers only. -/
theorem refChunk_cat3_sub : (refChunk_cat3 : List (HloOp τ sig (Elt F))).Forall fun op => op.bufs ⊆ tcRefs τ sig :=
  ⟨nullary_bufs_sub .., binary_bufs_sub .., binary_bufs_sub ..⟩
/-- Each writes one buffer, in slot 267 or later. -/
theorem refChunk_cat3_past : (refChunk_cat3 : List (HloOp τ sig (Elt F))).Forall (WritesPast (τ := τ) 267) :=
  ⟨writesPast_nullary (by decide), writesPast_binary (by decide), writesPast_binary (by decide)⟩
/-- None allocates a buffer. -/
theorem refChunk_cat3_fresh : (refChunk_cat3 : List (HloOp τ sig (Elt F))).Forall fun op => op.fresh = ∅ := by
  simp only [List.Forall]; repeat' constructor

/-- 6 operations (slots 270 … 275): the degree of each node: ones added at the target row. -/
abbrev refChunk_deg3 : List (HloOp τ sig (Elt F)) :=
  [ StableHlo.nullary main_cst_26 (constant S_ .f32 0x3F800000#32),
    StableHlo.unary main_cst_26 main_v126 (broadcastInDim S330000 ![] bcast_S_S330000 : (⟨S_, .f32⟩ : BufTy).Contents (Elt F) → (⟨S330000, .f32⟩ : BufTy).Contents (Elt F)),
    StableHlo.nullary main_cst_27 (constant S_ .f32 0x00000000#32),
    StableHlo.unary main_cst_27 main_v127 (broadcastInDim S10000 ![] bcast_S_S10000 : (⟨S_, .f32⟩ : BufTy).Contents (Elt F) → (⟨S10000, .f32⟩ : BufTy).Contents (Elt F)),
    StableHlo.unary main_v125 main_v128 (broadcastInDim S330000x1 ![0] bcast_S330000_S330000x1_0 : (⟨S330000, .i32⟩ : BufTy).Contents (Elt F) → (⟨S330000x1, .i32⟩ : BufTy).Contents (Elt F)),
    StableHlo.ternary main_v127 main_v128 main_v126 main_v129 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)) ]
/-- Each touches device buffers only. -/
theorem refChunk_deg3_sub : (refChunk_deg3 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
/-- Each writes one buffer, in slot 270 or later. -/
theorem refChunk_deg3_past : (refChunk_deg3 : List (HloOp τ sig (Elt F))).Forall (WritesPast (τ := τ) 270) :=
  ⟨writesPast_nullary (by decide), writesPast_unary (by decide), writesPast_nullary (by decide), writesPast_unary (by decide), writesPast_unary (by decide), writesPast_ternary (by decide)⟩
/-- None allocates a buffer. -/
theorem refChunk_deg3_fresh : (refChunk_deg3 : List (HloOp τ sig (Elt F))).Forall fun op => op.fresh = ∅ := by
  simp only [List.Forall]; repeat' constructor

/-- 11 operations (slots 276 … 286): the inverse square root of the degree, zero where the degree is zero. -/
abbrev refChunk_inv3 : List (HloOp τ sig (Elt F)) :=
  [ StableHlo.nullary main_cst_28 (constant S_ .f32 0x00000000#32),
    StableHlo.unary main_cst_28 main_v130 (broadcastInDim S10000 ![] bcast_S_S10000 : (⟨S_, .f32⟩ : BufTy).Contents (Elt F) → (⟨S10000, .f32⟩ : BufTy).Contents (Elt F)),
    StableHlo.binary main_v129 main_v130 main_v131 (cmpf .ogt : (⟨S10000, .f32⟩ : BufTy).Contents (Elt F) → (⟨S10000, .f32⟩ : BufTy).Contents (Elt F) → (⟨S10000, .i1⟩ : BufTy).Contents (Elt F)),
    StableHlo.unary main_v129 main_v132 (Host.sqrt : (⟨S10000, .f32⟩ : BufTy).Contents (Elt F) → (⟨S10000, .f32⟩ : BufTy).Contents (Elt F)),
    StableHlo.nullary main_cst_29 (constant S_ .f32 0x3F800000#32),
    StableHlo.unary main_cst_29 main_v133 (broadcastInDim S10000 ![] bcast_S_S10000 : (⟨S_, .f32⟩ : BufTy).Contents (Elt F) → (⟨S10000, .f32⟩ : BufTy).Contents (Elt F)),
    StableHlo.binary main_v133 main_v132 main_v134 (Host.divf : (⟨S10000, .f32⟩ : BufTy).Contents (Elt F) → (⟨S10000, .f32⟩ : BufTy).Contents (Elt F) → (⟨S10000, .f32⟩ : BufTy).Contents (Elt F)),
    StableHlo.nullary main_cst_30 (constant S_ .f32 0x00000000#32),
    StableHlo.TRef.unary (.of main_cst_30 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S10000, .f32⟩) (broadcastInDim S10000 ![] bcast_S_S10000),
    StableHlo.TRef.ternary (.of main_v131 : StableHlo.TRef sig ⟨S10000, .i1⟩) (.of main_v134 : StableHlo.TRef sig ⟨S10000, .f32⟩) (.of main_call8_v1 : StableHlo.TRef sig ⟨S10000, .f32⟩) (.of main_v135 : StableHlo.TRef sig ⟨S10000, .f32⟩) select ]
/-- Each touches device buffers only. -/
theorem refChunk_inv3_sub : (refChunk_inv3 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., unary_bufs_sub .., ternary_bufs_sub ..⟩
/-- Each writes one buffer, in slot 276 or later. -/
theorem refChunk_inv3_past : (refChunk_inv3 : List (HloOp τ sig (Elt F))).Forall (WritesPast (τ := τ) 276) :=
  ⟨writesPast_nullary (by decide), writesPast_unary (by decide), writesPast_binary (by decide), writesPast_unary (by decide), writesPast_nullary (by decide), writesPast_unary (by decide), writesPast_binary (by decide), writesPast_nullary (by decide), writesPast_unary (by decide), writesPast_unary (by decide), writesPast_ternary (by decide)⟩
/-- None allocates a buffer. -/
theorem refChunk_inv3_fresh : (refChunk_inv3 : List (HloOp τ sig (Elt F))).Forall fun op => op.fresh = ∅ := by
  simp only [List.Forall]; repeat' constructor

/-- 11 operations (slots 287 … 297): both row indices wrapped into range, the inverse roots read at them, and their product: the edge weight. -/
abbrev refChunk_nrm3a : List (HloOp τ sig (Elt F)) :=
  [ StableHlo.nullary main_c_31 (constantI S_ 32 0#32),
    StableHlo.unary main_c_31 main_v136 (broadcastInDim S330000 ![] bcast_S_S330000 : (⟨S_, .i32⟩ : BufTy).Contents (Elt F) → (⟨S330000, .i32⟩ : BufTy).Contents (Elt F)),
    StableHlo.binary main_v124 main_v136 main_v137 (cmpi .slt : (⟨S330000, .i32⟩ : BufTy).Contents (Elt F) → (⟨S330000, .i32⟩ : BufTy).Contents (Elt F) → (⟨S330000, .i1⟩ : BufTy).Contents (Elt F)),
    StableHlo.nullary main_c_32 (constantI S_ 32 10000#32),
    StableHlo.unary main_c_32 main_v138 (broadcastInDim S330000 ![] bcast_S_S330000 : (⟨S_, .i32⟩ : BufTy).Contents (Elt F) → (⟨S330000, .i32⟩ : BufTy).Contents (Elt F)),
    StableHlo.binary main_v124 main_v138 main_v139 (addi : (⟨S330000, .i32⟩ : BufTy).Contents (Elt F) → (⟨S330000, .i32⟩ : BufTy).Contents (Elt F) → (⟨S330000, .i32⟩ : BufTy).Contents (Elt F)),
    StableHlo.ternary main_v137 main_v139 main_v124 main_v140 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v140 main_v141 (broadcastInDim S330000x1 ![0] bcast_S330000_S330000x1_0 : (⟨S330000, .i32⟩ : BufTy).Contents (Elt F) → (⟨S330000x1, .i32⟩ : BufTy).Contents (Elt F)),
    StableHlo.binary main_v135 main_v141 main_v142 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.nullary main_c_33 (constantI S_ 32 0#32),
    StableHlo.unary main_c_33 main_v143 (broadcastInDim S330000 ![] bcast_S_S330000 : (⟨S_, .i32⟩ : BufTy).Contents (Elt F) → (⟨S330000, .i32⟩ : BufTy).Contents (Elt F)) ]
/-- Each touches device buffers only. -/
theorem refChunk_nrm3a_sub : (refChunk_nrm3a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩
/-- Each writes one buffer, in slot 287 or later. -/
theorem refChunk_nrm3a_past : (refChunk_nrm3a : List (HloOp τ sig (Elt F))).Forall (WritesPast (τ := τ) 287) :=
  ⟨writesPast_nullary (by decide), writesPast_unary (by decide), writesPast_binary (by decide), writesPast_nullary (by decide), writesPast_unary (by decide), writesPast_binary (by decide), writesPast_ternary (by decide), writesPast_unary (by decide), writesPast_binary (by decide), writesPast_nullary (by decide), writesPast_unary (by decide)⟩
/-- None allocates a buffer. -/
theorem refChunk_nrm3a_fresh : (refChunk_nrm3a : List (HloOp τ sig (Elt F))).Forall fun op => op.fresh = ∅ := by
  simp only [List.Forall]; repeat' constructor

/-- 8 operations (slots 298 … 305): both row indices wrapped into range, the inverse roots read at them, and their product: the edge weight. -/
abbrev refChunk_nrm3b : List (HloOp τ sig (Elt F)) :=
  [ StableHlo.binary main_v125 main_v143 main_v144 (cmpi .slt : (⟨S330000, .i32⟩ : BufTy).Contents (Elt F) → (⟨S330000, .i32⟩ : BufTy).Contents (Elt F) → (⟨S330000, .i1⟩ : BufTy).Contents (Elt F)),
    StableHlo.nullary main_c_34 (constantI S_ 32 10000#32),
    StableHlo.unary main_c_34 main_v145 (broadcastInDim S330000 ![] bcast_S_S330000 : (⟨S_, .i32⟩ : BufTy).Contents (Elt F) → (⟨S330000, .i32⟩ : BufTy).Contents (Elt F)),
    StableHlo.binary main_v125 main_v145 main_v146 (addi : (⟨S330000, .i32⟩ : BufTy).Contents (Elt F) → (⟨S330000, .i32⟩ : BufTy).Contents (Elt F) → (⟨S330000, .i32⟩ : BufTy).Contents (Elt F)),
    StableHlo.ternary main_v144 main_v146 main_v125 main_v147 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v147 main_v148 (broadcastInDim S330000x1 ![0] bcast_S330000_S330000x1_0 : (⟨S330000, .i32⟩ : BufTy).Contents (Elt F) → (⟨S330000x1, .i32⟩ : BufTy).Contents (Elt F)),
    StableHlo.binary main_v135 main_v148 main_v149 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v142 main_v149 main_v150 (mulf : (⟨S330000, .f32⟩ : BufTy).Contents (Elt F) → (⟨S330000, .f32⟩ : BufTy).Contents (Elt F) → (⟨S330000, .f32⟩ : BufTy).Contents (Elt F)) ]
/-- Each touches device buffers only. -/
theorem refChunk_nrm3b_sub : (refChunk_nrm3b : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub ..⟩
/-- Each writes one buffer, in slot 298 or later. -/
theorem refChunk_nrm3b_past : (refChunk_nrm3b : List (HloOp τ sig (Elt F))).Forall (WritesPast (τ := τ) 298) :=
  ⟨writesPast_binary (by decide), writesPast_nullary (by decide), writesPast_unary (by decide), writesPast_binary (by decide), writesPast_ternary (by decide), writesPast_unary (by decide), writesPast_binary (by decide), writesPast_binary (by decide)⟩
/-- None allocates a buffer. -/
theorem refChunk_nrm3b_fresh : (refChunk_nrm3b : List (HloOp τ sig (Elt F))).Forall fun op => op.fresh = ∅ := by
  simp only [List.Forall]; repeat' constructor

/-- 1 operation (slot 306): the edge weights as a column. -/
abbrev refChunk_col3 : List (HloOp τ sig (Elt F)) :=
  [ StableHlo.unary main_v150 main_v151 (broadcastInDim S330000x1 ![0] bcast_S330000_S330000x1_0 : (⟨S330000, .f32⟩ : BufTy).Contents (Elt F) → (⟨S330000x1, .f32⟩ : BufTy).Contents (Elt F)) ]
/-- Each touches device buffers only. -/
theorem refChunk_col3_sub : (refChunk_col3 : List (HloOp τ sig (Elt F))).Forall fun op => op.bufs ⊆ tcRefs τ sig :=
  unary_bufs_sub ..
/-- Each writes one buffer, in slot 306 or later. -/
theorem refChunk_col3_past : (refChunk_col3 : List (HloOp τ sig (Elt F))).Forall (WritesPast (τ := τ) 306) :=
  writesPast_unary (by decide)
/-- None allocates a buffer. -/
theorem refChunk_col3_fresh : (refChunk_col3 : List (HloOp τ sig (Elt F))).Forall fun op => op.fresh = ∅ := by
  simp only [List.Forall]; repeat' constructor

/-- 23 operations (slots 307 … 329): the transformed features read at each edge's source, out-of-range rows marked. -/
abbrev refChunk_take3 : List (HloOp τ sig (Elt F)) :=
  [ StableHlo.TRef.nullary (.of main_call9_c : StableHlo.TRef sig ⟨S_, .i32⟩) (constantI S_ 32 0#32),
    StableHlo.TRef.unary (.of main_call9_c : StableHlo.TRef sig ⟨S_, .i32⟩) (.of main_call9_v0 : StableHlo.TRef sig ⟨S330000, .i32⟩) (broadcastInDim S330000 ![] bcast_S_S330000),
    StableHlo.TRef.binary (.of main_v124 : StableHlo.TRef sig ⟨S330000, .i32⟩) (.of main_call9_v0 : StableHlo.TRef sig ⟨S330000, .i32⟩) (.of main_call9_v1 : StableHlo.TRef sig ⟨S330000, .i1⟩) (cmpi .slt),
    StableHlo.TRef.nullary (.of main_call9_c_0 : StableHlo.TRef sig ⟨S_, .i32⟩) (constantI S_ 32 10000#32),
    StableHlo.TRef.unary (.of main_call9_c_0 : StableHlo.TRef sig ⟨S_, .i32⟩) (.of main_call9_v2 : StableHlo.TRef sig ⟨S330000, .i32⟩) (broadcastInDim S330000 ![] bcast_S_S330000),
    StableHlo.TRef.binary (.of main_v124 : StableHlo.TRef sig ⟨S330000, .i32⟩) (.of main_call9_v2 : StableHlo.TRef sig ⟨S330000, .i32⟩) (.of main_call9_v3 : StableHlo.TRef sig ⟨S330000, .i32⟩) addi,
    StableHlo.TRef.ternary (.of main_call9_v1 : StableHlo.TRef sig ⟨S330000, .i1⟩) (.of main_call9_v3 : StableHlo.TRef sig ⟨S330000, .i32⟩) (.of main_v124 : StableHlo.TRef sig ⟨S330000, .i32⟩) (.of main_call9_v4 : StableHlo.TRef sig ⟨S330000, .i32⟩) select,
    StableHlo.TRef.unary (.of main_call9_v4 : StableHlo.TRef sig ⟨S330000, .i32⟩) (.of main_call9_v5 : StableHlo.TRef sig ⟨S330000x1, .i32⟩) (broadcastInDim S330000x1 ![0] bcast_S330000_S330000x1_0),
    StableHlo.TRef.nullary (.of main_call9_c_1 : StableHlo.TRef sig ⟨S1, .i32⟩) (constantI S1 32 9999#32),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v6 : StableHlo.TRef sig ⟨S330000x1, .i32⟩) (broadcastInDim S330000x1 ![] bcast_S_S330000x1),
    StableHlo.TRef.binary (.of main_call9_v5 : StableHlo.TRef sig ⟨S330000x1, .i32⟩) (.of main_call9_v6 : StableHlo.TRef sig ⟨S330000x1, .i32⟩) (.of main_call9_v7 : StableHlo.TRef sig ⟨S330000x1, .i1⟩) (cmpi .sge),
    StableHlo.TRef.unary (.of main_call9_c_1 : StableHlo.TRef sig ⟨S1, .i32⟩) (.of main_call9_v8 : StableHlo.TRef sig ⟨S1x1, .i32⟩) (broadcastInDim S1x1 ![1] bcast_S1_S1x1_1),
    StableHlo.TRef.unary (.of main_call9_v8 : StableHlo.TRef sig ⟨S1x1, .i32⟩) (.of main_call9_v9 : StableHlo.TRef sig ⟨S330000x1, .i32⟩) (broadcastInDim S330000x1 ![0, 1] bcast_S1x1_S330000x1_0_1),
    StableHlo.TRef.binary (.of main_call9_v5 : StableHlo.TRef sig ⟨S330000x1, .i32⟩) (.of main_call9_v9 : StableHlo.TRef sig ⟨S330000x1, .i32⟩) (.of main_call9_v10 : StableHlo.TRef sig ⟨S330000x1, .i1⟩) (cmpi .sle),
    StableHlo.TRef.binary (.of main_call9_v7 : StableHlo.TRef sig ⟨S330000x1, .i1⟩) (.of main_call9_v10 : StableHlo.TRef sig ⟨S330000x1, .i1⟩) (.of main_call9_v11 : StableHlo.TRef sig ⟨S330000x1, .i1⟩) andi,
    StableHlo.TRef.nullary (.of main_call9_c_3 : StableHlo.TRef sig ⟨S_, .i1⟩) (constantI S_ 1 1#1),
    StableHlo.TRef.binary (.of main_call9_v11 : StableHlo.TRef sig ⟨S330000x1, .i1⟩) (.of main_call9_c_3 : StableHlo.TRef sig ⟨S_, .i1⟩) (.of main_call9_v12 : StableHlo.TRef sig ⟨S330000, .i1⟩) (fun x v => Host.reduce IntOp.andi x v reducesTo_S330000x1_S330000_d1 h_S_),
    StableHlo.TRef.binary (.of main_v122 : StableHlo.TRef sig ⟨S10000x64, .f32⟩) (.of main_call9_v5 : StableHlo.TRef sig ⟨S330000x1, .i32⟩) (.of main_call9_v13 : StableHlo.TRef sig ⟨S330000x64, .f32⟩) (fun x i => Host.gather gather_S10000x64_S330000x1_S330000x64_1_0_n_n_0_1_164 x i),
    StableHlo.TRef.unary (.of main_call9_v12 : StableHlo.TRef sig ⟨S330000, .i1⟩) (.of main_call9_v14 : StableHlo.TRef sig ⟨S330000x64, .i1⟩) (broadcastInDim S330000x64 ![0] bcast_S330000_S330000x64_0),
    StableHlo.TRef.nullary (.of main_call9_cst : StableHlo.TRef sig ⟨S_, .f32⟩) (constant S_ .f32 0x7FC00000#32),
    StableHlo.TRef.unary (.of main_call9_cst : StableHlo.TRef sig ⟨S_, .f32⟩) (.of main_call9_v15 : StableHlo.TRef sig ⟨S330000x64, .f32⟩) (broadcastInDim S330000x64 ![] bcast_S_S330000x64),
    StableHlo.TRef.ternary (.of main_call9_v14 : StableHlo.TRef sig ⟨S330000x64, .i1⟩) (.of main_call9_v13 : StableHlo.TRef sig ⟨S330000x64, .f32⟩) (.of main_call9_v15 : StableHlo.TRef sig ⟨S330000x64, .f32⟩) (.of main_v152 : StableHlo.TRef sig ⟨S330000x64, .f32⟩) select ]
/-- Each touches device buffers only. -/
theorem refChunk_take3_sub : (refChunk_take3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each writes one buffer, in slot 307 or later. -/
theorem refChunk_take3_past : (refChunk_take3 : List (HloOp τ sig (Elt F))).Forall (WritesPast (τ := τ) 307) :=
  ⟨writesPast_nullary (by decide), writesPast_unary (by decide), writesPast_binary (by decide), writesPast_nullary (by decide), writesPast_unary (by decide), writesPast_binary (by decide), writesPast_ternary (by decide), writesPast_unary (by decide), writesPast_nullary (by decide), writesPast_nullary (by decide), writesPast_unary (by decide), writesPast_binary (by decide), writesPast_unary (by decide), writesPast_unary (by decide), writesPast_binary (by decide), writesPast_binary (by decide), writesPast_nullary (by decide), writesPast_binary (by decide), writesPast_binary (by decide), writesPast_unary (by decide), writesPast_nullary (by decide), writesPast_unary (by decide), writesPast_ternary (by decide)⟩
/-- None allocates a buffer. -/
theorem refChunk_take3_fresh : (refChunk_take3 : List (HloOp τ sig (Elt F))).Forall fun op => op.fresh = ∅ := by
  simp only [List.Forall]; repeat' constructor

/-- 2 operations (slots 330 … 331): each read row times its edge weight. -/
abbrev refChunk_scl3 : List (HloOp τ sig (Elt F)) :=
  [ StableHlo.unary main_v151 main_v153 (broadcastInDim S330000x64 ![0, 1] bcast_S330000x1_S330000x64_0_1 : (⟨S330000x1, .f32⟩ : BufTy).Contents (Elt F) → (⟨S330000x64, .f32⟩ : BufTy).Contents (Elt F)),
    StableHlo.binary main_v153 main_v152 main_v154 (mulf : (⟨S330000x64, .f32⟩ : BufTy).Contents (Elt F) → (⟨S330000x64, .f32⟩ : BufTy).Contents (Elt F) → (⟨S330000x64, .f32⟩ : BufTy).Contents (Elt F)) ]
/-- Each touches device buffers only. -/
theorem refChunk_scl3_sub : (refChunk_scl3 : List (HloOp τ sig (Elt F))).Forall fun op => op.bufs ⊆ tcRefs τ sig :=
  ⟨unary_bufs_sub .., binary_bufs_sub ..⟩
/-- Each writes one buffer, in slot 330 or later. -/
theorem refChunk_scl3_past : (refChunk_scl3 : List (HloOp τ sig (Elt F))).Forall (WritesPast (τ := τ) 330) :=
  ⟨writesPast_unary (by decide), writesPast_binary (by decide)⟩
/-- None allocates a buffer. -/
theorem refChunk_scl3_fresh : (refChunk_scl3 : List (HloOp τ sig (Elt F))).Forall fun op => op.fresh = ∅ := by
  simp only [List.Forall]; repeat' constructor

/-- 7 operations (slots 332 … 338): the weighted rows added at each edge's target, plus the bias. -/
abbrev refChunk_agg3 : List (HloOp τ sig (Elt F)) :=
  [ StableHlo.nullary main_cst_35 (constant S_ .f32 0x00000000#32),
    StableHlo.unary main_cst_35 main_v155 (broadcastInDim S10000x64 ![] bcast_S_S10000x64 : (⟨S_, .f32⟩ : BufTy).Contents (Elt F) → (⟨S10000x64, .f32⟩ : BufTy).Contents (Elt F)),
    StableHlo.unary main_v125 main_v156 (broadcastInDim S330000x1 ![0] bcast_S330000_S330000x1_0 : (⟨S330000, .i32⟩ : BufTy).Contents (Elt F) → (⟨S330000x1, .i32⟩ : BufTy).Contents (Elt F)),
    StableHlo.ternary main_v155 main_v156 main_v154 main_v157 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    StableHlo.unary main_arg11 main_v158 (broadcastInDim S1x64 ![1] bcast_S64_S1x64_1 : (⟨S64, .f32⟩ : BufTy).Contents (Elt F) → (⟨S1x64, .f32⟩ : BufTy).Contents (Elt F)),
    StableHlo.unary main_v158 main_v159 (broadcastInDim S10000x64 ![0, 1] bcast_S1x64_S10000x64_0_1 : (⟨S1x64, .f32⟩ : BufTy).Contents (Elt F) → (⟨S10000x64, .f32⟩ : BufTy).Contents (Elt F)),
    StableHlo.binary main_v157 main_v159 main_v160 (addf : (⟨S10000x64, .f32⟩ : BufTy).Contents (Elt F) → (⟨S10000x64, .f32⟩ : BufTy).Contents (Elt F) → (⟨S10000x64, .f32⟩ : BufTy).Contents (Elt F)) ]
/-- Each touches device buffers only. -/
theorem refChunk_agg3_sub : (refChunk_agg3 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub ..⟩
/-- Each writes one buffer, in slot 332 or later. -/
theorem refChunk_agg3_past : (refChunk_agg3 : List (HloOp τ sig (Elt F))).Forall (WritesPast (τ := τ) 332) :=
  ⟨writesPast_nullary (by decide), writesPast_unary (by decide), writesPast_unary (by decide), writesPast_ternary (by decide), writesPast_unary (by decide), writesPast_unary (by decide), writesPast_binary (by decide)⟩
/-- None allocates a buffer. -/
theorem refChunk_agg3_fresh : (refChunk_agg3 : List (HloOp τ sig (Elt F))).Forall fun op => op.fresh = ∅ := by
  simp only [List.Forall]; repeat' constructor

/-- 44 operations (slots 339 … 382): the column means and variances, the normalisation with scale and shift, and the positive part. -/
abbrev refChunk_bn3 : List (HloOp τ sig (Elt F)) :=
  [ StableHlo.nullary main_cst_36 (constant S_ .f32 0x00000000#32),
    StableHlo.binary main_v160 main_cst_36 main_v161 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_37 (constant S_ .f32 0x461C4000#32),
    StableHlo.unary main_cst_37 main_v162 (broadcastInDim S64 ![] bcast_S_S64 : (⟨S_, .f32⟩ : BufTy).Contents (Elt F) → (⟨S64, .f32⟩ : BufTy).Contents (Elt F)),
    StableHlo.binary main_v161 main_v162 main_v163 (Host.divf : (⟨S64, .f32⟩ : BufTy).Contents (Elt F) → (⟨S64, .f32⟩ : BufTy).Contents (Elt F) → (⟨S64, .f32⟩ : BufTy).Contents (Elt F)),
    StableHlo.nullary main_c_38 (constantI S_ 32 0#32),
    StableHlo.TRef.nullary (.of main_call10_cst : StableHlo.TRef sig ⟨S_, .f32⟩) (constant S_ .f32 0x00000000#32),
    StableHlo.TRef.binary (.of main_v160 : StableHlo.TRef sig ⟨S10000x64, .f32⟩) (.of main_call10_cst : StableHlo.TRef sig ⟨S_, .f32⟩) (.of main_call10_v0 : StableHlo.TRef sig ⟨S64, .f32⟩) (fun x v => Host.reduceAdd x v reducesTo_S10000x64_S64_d0 h_S_),
    StableHlo.TRef.unary (.of main_call10_v0 : StableHlo.TRef sig ⟨S64, .f32⟩) (.of main_call10_v1 : StableHlo.TRef sig ⟨S1x64, .f32⟩) (broadcastInDim S1x64 ![1] bcast_S64_S1x64_1),
    StableHlo.TRef.nullary (.of main_call10_cst_0 : StableHlo.TRef sig ⟨S_, .f32⟩) (constant S_ .f32 0x461C4000#32),
    StableHlo.TRef.unary (.of main_call10_cst_0 : StableHlo.TRef sig ⟨S_, .f32⟩) (.of main_call10_v2 : StableHlo.TRef sig ⟨S1x64, .f32⟩) (broadcastInDim S1x64 ![] bcast_S_S1x64),
    StableHlo.TRef.binary (.of main_call10_v1 : StableHlo.TRef sig ⟨S1x64, .f32⟩) (.of main_call10_v2 : StableHlo.TRef sig ⟨S1x64, .f32⟩) (.of main_call10_v3 : StableHlo.TRef sig ⟨S1x64, .f32⟩) Host.divf,
    StableHlo.TRef.unary (.of main_call10_v3 : StableHlo.TRef sig ⟨S1x64, .f32⟩) (.of main_call10_v4 : StableHlo.TRef sig ⟨S10000x64, .f32⟩) (broadcastInDim S10000x64 ![0, 1] bcast_S1x64_S10000x64_0_1),
    StableHlo.TRef.binary (.of main_v160 : StableHlo.TRef sig ⟨S10000x64, .f32⟩) (.of main_call10_v4 : StableHlo.TRef sig ⟨S10000x64, .f32⟩) (.of main_call10_v5 : StableHlo.TRef sig ⟨S10000x64, .f32⟩) subf,
    StableHlo.TRef.binary (.of main_call10_v5 : StableHlo.TRef sig ⟨S10000x64, .f32⟩) (.of main_call10_v5 : StableHlo.TRef sig ⟨S10000x64, .f32⟩) (.of main_call10_v6 : StableHlo.TRef sig ⟨S10000x64, .f32⟩) mulf,
    StableHlo.TRef.unary (.of main_c_38 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x461C4000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S10000x64, .f32⟩) (.of main_call10_cst_2 : StableHlo.TRef sig ⟨S_, .f32⟩) (.of main_call10_v9 : StableHlo.TRef sig ⟨S64, .f32⟩) (fun x v => Host.reduceAdd x v reducesTo_S10000x64_S64_d0 h_S_),
    StableHlo.TRef.unary (.of main_call10_v8 : StableHlo.TRef sig ⟨S_, .f32⟩) (.of main_call10_v10 : StableHlo.TRef sig ⟨S64, .f32⟩) (broadcastInDim S64 ![] bcast_S_S64),
    StableHlo.TRef.binary (.of main_call10_v9 : StableHlo.TRef sig ⟨S64, .f32⟩) (.of main_call10_v10 : StableHlo.TRef sig ⟨S64, .f32⟩) (.of main_call10_v11 : StableHlo.TRef sig ⟨S64, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S64, .f32⟩) (broadcastInDim S64 ![] bcast_S_S64),
    StableHlo.TRef.ternary (.of main_call10_v12 : StableHlo.TRef sig ⟨S_, .i1⟩) (.of main_call10_v11 : StableHlo.TRef sig ⟨S64, .f32⟩) (.of main_call10_call0_v1 : StableHlo.TRef sig ⟨S64, .f32⟩) (.of main_v164 : StableHlo.TRef sig ⟨S64, .f32⟩) (fun p a b => select (broadcastInDim S64 ![] bcast_S_S64 p) a b),
    StableHlo.unary main_v163 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S10000x64 ![0, 1] bcast_S1x64_S10000x64_0_1 : (⟨S1x64, .f32⟩ : BufTy).Contents (Elt F) → (⟨S10000x64, .f32⟩ : BufTy).Contents (Elt F)),
    StableHlo.binary main_v160 main_v166 main_v167 (subf : (⟨S10000x64, .f32⟩ : BufTy).Contents (Elt F) → (⟨S10000x64, .f32⟩ : BufTy).Contents (Elt F) → (⟨S10000x64, .f32⟩ : BufTy).Contents (Elt F)),
    StableHlo.unary main_arg12 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S10000x64 ![0, 1] bcast_S1x64_S10000x64_0_1 : (⟨S1x64, .f32⟩ : BufTy).Contents (Elt F) → (⟨S10000x64, .f32⟩ : BufTy).Contents (Elt F)),
    StableHlo.binary main_v169 main_v167 main_v170 (mulf : (⟨S10000x64, .f32⟩ : BufTy).Contents (Elt F) → (⟨S10000x64, .f32⟩ : BufTy).Contents (Elt F) → (⟨S10000x64, .f32⟩ : BufTy).Contents (Elt F)),
    StableHlo.nullary main_cst_39 (constant S_ .f32 0x3727C5AC#32),
    StableHlo.unary main_cst_39 main_v171 (broadcastInDim S64 ![] bcast_S_S64 : (⟨S_, .f32⟩ : BufTy).Contents (Elt F) → (⟨S64, .f32⟩ : BufTy).Contents (Elt F)),
    StableHlo.binary main_v164 main_v171 main_v172 (addf : (⟨S64, .f32⟩ : BufTy).Contents (Elt F) → (⟨S64, .f32⟩ : BufTy).Contents (Elt F) → (⟨S64, .f32⟩ : BufTy).Contents (Elt F)),
    StableHlo.unary main_v172 main_v173 (Host.sqrt : (⟨S64, .f32⟩ : BufTy).Contents (Elt F) → (⟨S64, .f32⟩ : BufTy).Contents (Elt F)),
    StableHlo.unary main_v173 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S10000x64 ![0, 1] bcast_S1x64_S10000x64_0_1 : (⟨S1x64, .f32⟩ : BufTy).Contents (Elt F) → (⟨S10000x64, .f32⟩ : BufTy).Contents (Elt F)),
    StableHlo.binary main_v170 main_v175 main_v176 (Host.divf : (⟨S10000x64, .f32⟩ : BufTy).Contents (Elt F) → (⟨S10000x64, .f32⟩ : BufTy).Contents (Elt F) → (⟨S10000x64, .f32⟩ : BufTy).Contents (Elt F)),
    StableHlo.unary main_arg13 main_v177 (broadcastInDim S1x64 ![1] bcast_S64_S1x64_1 : (⟨S64, .f32⟩ : BufTy).Contents (Elt F) → (⟨S1x64, .f32⟩ : BufTy).Contents (Elt F)),
    StableHlo.unary main_v177 main_v178 (broadcastInDim S10000x64 ![0, 1] bcast_S1x64_S10000x64_0_1 : (⟨S1x64, .f32⟩ : BufTy).Contents (Elt F) → (⟨S10000x64, .f32⟩ : BufTy).Contents (Elt F)),
    StableHlo.binary main_v176 main_v178 main_v179 (addf : (⟨S10000x64, .f32⟩ : BufTy).Contents (Elt F) → (⟨S10000x64, .f32⟩ : BufTy).Contents (Elt F) → (⟨S10000x64, .f32⟩ : BufTy).Contents (Elt F)) ]
/-- Each touches device buffers only. -/
theorem refChunk_bn3_sub : (refChunk_bn3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
/-- Each writes one buffer, in slot 339 or later. -/
theorem refChunk_bn3_past : (refChunk_bn3 : List (HloOp τ sig (Elt F))).Forall (WritesPast (τ := τ) 339) :=
  ⟨writesPast_nullary (by decide), writesPast_binary (by decide), writesPast_nullary (by decide), writesPast_unary (by decide), writesPast_binary (by decide), writesPast_nullary (by decide), writesPast_nullary (by decide), writesPast_binary (by decide), writesPast_unary (by decide), writesPast_nullary (by decide), writesPast_unary (by decide), writesPast_binary (by decide), writesPast_unary (by decide), writesPast_binary (by decide), writesPast_binary (by decide), writesPast_unary (by decide), writesPast_nullary (by decide), writesPast_binary (by decide), writesPast_nullary (by decide), writesPast_binary (by decide), writesPast_unary (by decide), writesPast_binary (by decide), writesPast_nullary (by decide), writesPast_binary (by decide), writesPast_nullary (by decide), writesPast_unary (by decide), writesPast_unary (by decide), writesPast_ternary (by decide), writesPast_unary (by decide), writesPast_unary (by decide), writesPast_binary (by decide), writesPast_unary (by decide), writesPast_unary (by decide), writesPast_binary (by decide), writesPast_nullary (by decide), writesPast_unary (by decide), writesPast_binary (by decide), writesPast_unary (by decide), writesPast_unary (by decide), writesPast_unary (by decide), writesPast_binary (by decide), writesPast_unary (by decide), writesPast_unary (by decide), writesPast_binary (by decide)⟩
/-- None allocates a buffer. -/
theorem refChunk_bn3_fresh : (refChunk_bn3 : List (HloOp τ sig (Elt F))).Forall fun op => op.fresh = ∅ := by
  simp only [List.Forall]; repeat' constructor

end Cert.ReferenceIdeal.Hand

end
-- ==== Proof.RefOpsD.lean ====
/- The reference program's read-out (the mean over the nodes and the two output heads), as lists of host operations.
   An outlined function's operations stand at its call, over the call's own buffers. Each list comes with three facts:
   it touches device buffers only, every operation writes one buffer at or past the list's first slot, none allocates. -/
import proofs.«107159_g82575041232963_cont_9to1c4b_479_20_alg».proof.Proof.Gen.ReferenceIdeal
import Idealize.ShloMosaic.Lib.StableHlo.Run
import proofs.«107159_g82575041232963_cont_9to1c4b_479_20_alg».proof.Proof.LibHostLine
import proofs.«107159_g82575041232963_cont_9to1c4b_479_20_alg».proof.Proof.RefPast

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 6 operations (slots 383 … 388): the mean over the nodes. -/
abbrev refChunk_mean : List (HloOp τ sig (Elt F)) :=
  [ StableHlo.nullary main_cst_40 (constant S_ .f32 0x00000000#32),
    StableHlo.binary main_v179 main_cst_40 main_v180 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.unary main_v180 main_v181 (broadcastInDim S1x64 ![1] bcast_S64_S1x64_1 : (⟨S64, .f32⟩ : BufTy).Contents (Elt F) → (⟨S1x64, .f32⟩ : BufTy).Contents (Elt F)),
    StableHlo.nullary main_cst_41 (constant S_ .f32 0x461C4000#32),
    StableHlo.unary main_cst_41 main_v182 (broadcastInDim S1x64 ![] bcast_S_S1x64 : (⟨S_, .f32⟩ : BufTy).Contents (Elt F) → (⟨S1x64, .f32⟩ : BufTy).Contents (Elt F)),
    StableHlo.binary main_v181 main_v182 main_v183 (Host.divf : (⟨S1x64, .f32⟩ : BufTy).Contents (Elt F) → (⟨S1x64, .f32⟩ : BufTy).Contents (Elt F) → (⟨S1x64, .f32⟩ : BufTy).Contents (Elt F)) ]
/-- Each touches device buffers only. -/
theorem refChunk_mean_sub : (refChunk_mean : List (HloOp τ sig (Elt F))).Forall fun op => op.bufs ⊆ tcRefs τ sig :=
  ⟨nullary_bufs_sub .., binary_bufs_sub .., unary_bufs_sub .., nullary_bufs_sub .., unary_bufs_sub .., binary_bufs_sub ..⟩
/-- Each writes one buffer, in slot 383 or later. -/
theorem refChunk_mean_past : (refChunk_mean : List (HloOp τ sig (Elt F))).Forall (WritesPast (τ := τ) 383) :=
  ⟨writesPast_nullary (by decide), writesPast_binary (by decide), writesPast_unary (by decide), writesPast_nullary (by decide), writesPast_unary (by decide), writesPast_binary (by decide)⟩
/-- None allocates a buffer. -/
theorem refChunk_mean_fresh : (refChunk_mean : List (HloOp τ sig (Elt F))).Forall fun op => op.fresh = ∅ := by
  simp only [List.Forall]; repeat' constructor

/-- 9 operations (slots 389 … 397): one output head: a dense layer, its positive part, a second dense layer. -/
abbrev refChunk_head0 : List (HloOp τ sig (Elt F)) :=
  [ StableHlo.binary main_v183 main_arg14 main_v184 ((fun l r => Host.dotGeneral dot_S1x64_S64x32_S1x32_1_0_0_1_n_n none l r) : (⟨S1x64, .f32⟩ : BufTy).Contents (Elt F) → (⟨S64x32, .f32⟩ : BufTy).Contents (Elt F) → (⟨S1x32, .f32⟩ : BufTy).Contents (Elt F)),
    StableHlo.unary main_arg15 main_v185 (broadcastInDim S1x32 ![1] bcast_S32_S1x32_1 : (⟨S32, .f32⟩ : BufTy).Contents (Elt F) → (⟨S1x32, .f32⟩ : BufTy).Contents (Elt F)),
    StableHlo.binary main_v184 main_v185 main_v186 (addf : (⟨S1x32, .f32⟩ : BufTy).Contents (Elt F) → (⟨S1x32, .f32⟩ : BufTy).Contents (Elt F) → (⟨S1x32, .f32⟩ : BufTy).Contents (Elt F)),
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S1x32, .f32⟩) (broadcastInDim S1x32 ![] bcast_S_S1x32),
    StableHlo.TRef.binary (.of main_v186 : StableHlo.TRef sig ⟨S1x32, .f32⟩) (.of main_call11_v0 : StableHlo.TRef sig ⟨S1x32, .f32⟩) (.of main_v187 : StableHlo.TRef sig ⟨S1x32, .f32⟩) maximumf,
    StableHlo.binary main_v187 main_arg16 main_v188 ((fun l r => Host.dotGeneral dot_S1x32_S32x3_S1x3_1_0_0_1_n_n none l r) : (⟨S1x32, .f32⟩ : BufTy).Contents (Elt F) → (⟨S32x3, .f32⟩ : BufTy).Contents (Elt F) → (⟨S1x3, .f32⟩ : BufTy).Contents (Elt F)),
    StableHlo.unary main_arg17 main_v189 (broadcastInDim S1x3 ![1] bcast_S3_S1x3_1 : (⟨S3, .f32⟩ : BufTy).Contents (Elt F) → (⟨S1x3, .f32⟩ : BufTy).Contents (Elt F)),
    StableHlo.binary main_v188 main_v189 main_v190 (addf : (⟨S1x3, .f32⟩ : BufTy).Contents (Elt F) → (⟨S1x3, .f32⟩ : BufTy).Contents (Elt F) → (⟨S1x3, .f32⟩ : BufTy).Contents (Elt F)) ]
/-- Each touches device buffers only. -/
theorem refChunk_head0_sub : (refChunk_head0 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., unary_bufs_sub .., binary_bufs_sub ..⟩
/-- Each writes one buffer, in slot 389 or later. -/
theorem refChunk_head0_past : (refChunk_head0 : List (HloOp τ sig (Elt F))).Forall (WritesPast (τ := τ) 389) :=
  ⟨writesPast_binary (by decide), writesPast_unary (by decide), writesPast_binary (by decide), writesPast_nullary (by decide), writesPast_unary (by decide), writesPast_binary (by decide), writesPast_binary (by decide), writesPast_unary (by decide), writesPast_binary (by decide)⟩
/-- None allocates a buffer. -/
theorem refChunk_head0_fresh : (refChunk_head0 : List (HloOp τ sig (Elt F))).Forall fun op => op.fresh = ∅ := by
  simp only [List.Forall]; repeat' constructor

/-- 7 operations (slots 398 … 404): one output head: a dense layer, its positive part, a second dense layer. -/
abbrev refChunk_head1a : List (HloOp τ sig (Elt F)) :=
  [ StableHlo.binary main_v183 main_arg18 main_v191 ((fun l r => Host.dotGeneral dot_S1x64_S64x32_S1x32_1_0_0_1_n_n none l r) : (⟨S1x64, .f32⟩ : BufTy).Contents (Elt F) → (⟨S64x32, .f32⟩ : BufTy).Contents (Elt F) → (⟨S1x32, .f32⟩ : BufTy).Contents (Elt F)),
    StableHlo.unary main_arg19 main_v192 (broadcastInDim S1x32 ![1] bcast_S32_S1x32_1 : (⟨S32, .f32⟩ : BufTy).Contents (Elt F) → (⟨S1x32, .f32⟩ : BufTy).Contents (Elt F)),
    StableHlo.binary main_v191 main_v192 main_v193 (addf : (⟨S1x32, .f32⟩ : BufTy).Contents (Elt F) → (⟨S1x32, .f32⟩ : BufTy).Contents (Elt F) → (⟨S1x32, .f32⟩ : BufTy).Contents (Elt F)),
    StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S1x32, .f32⟩) (broadcastInDim S1x32 ![] bcast_S_S1x32),
    StableHlo.TRef.binary (.of main_v193 : StableHlo.TRef sig ⟨S1x32, .f32⟩) (.of main_call12_v0 : StableHlo.TRef sig ⟨S1x32, .f32⟩) (.of main_v194 : StableHlo.TRef sig ⟨S1x32, .f32⟩) maximumf,
    StableHlo.binary main_v194 main_arg20 main_v195 ((fun l r => Host.dotGeneral dot_S1x32_S32x1_S1x1_1_0_0_1_n_n none l r) : (⟨S1x32, .f32⟩ : BufTy).Contents (Elt F) → (⟨S32x1, .f32⟩ : BufTy).Contents (Elt F) → (⟨S1x1, .f32⟩ : BufTy).Contents (Elt F)) ]
/-- Each touches device buffers only. -/
theorem refChunk_head1a_sub : (refChunk_head1a : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub ..⟩
/-- Each writes one buffer, in slot 398 or later. -/
theorem refChunk_head1a_past : (refChunk_head1a : List (HloOp τ sig (Elt F))).Forall (WritesPast (τ := τ) 398) :=
  ⟨writesPast_binary (by decide), writesPast_unary (by decide), writesPast_binary (by decide), writesPast_nullary (by decide), writesPast_unary (by decide), writesPast_binary (by decide), writesPast_binary (by decide)⟩
/-- None allocates a buffer. -/
theorem refChunk_head1a_fresh : (refChunk_head1a : List (HloOp τ sig (Elt F))).Forall fun op => op.fresh = ∅ := by
  simp only [List.Forall]; repeat' constructor

/-- 2 operations (slots 405 … 406): one output head: a dense layer, its positive part, a second dense layer. -/
abbrev refChunk_head1b : List (HloOp τ sig (Elt F)) :=
  [ StableHlo.unary main_arg21 main_v196 (broadcastInDim S1x1 ![1] bcast_S1_S1x1_1 : (⟨S1, .f32⟩ : BufTy).Contents (Elt F) → (⟨S1x1, .f32⟩ : BufTy).Contents (Elt F)),
    StableHlo.binary main_v195 main_v196 main_v197 (addf : (⟨S1x1, .f32⟩ : BufTy).Contents (Elt F) → (⟨S1x1, .f32⟩ : BufTy).Contents (Elt F) → (⟨S1x1, .f32⟩ : BufTy).Contents (Elt F)) ]
/-- Each touches device buffers only. -/
theorem refChunk_head1b_sub : (refChunk_head1b : List (HloOp τ sig (Elt F))).Forall fun op => op.bufs ⊆ tcRefs τ sig :=
  ⟨unary_bufs_sub .., binary_bufs_sub ..⟩
/-- Each writes one buffer, in slot 405 or later. -/
theorem refChunk_head1b_past : (refChunk_head1b : List (HloOp τ sig (Elt F))).Forall (WritesPast (τ := τ) 405) :=
  ⟨writesPast_unary (by decide), writesPast_binary (by decide)⟩
/-- None allocates a buffer. -/
theorem refChunk_head1b_fresh : (refChunk_head1b : List (HloOp τ sig (Elt F))).Forall fun op => op.fresh = ∅ := by
  simp only [List.Forall]; repeat' constructor

end Cert.ReferenceIdeal.Hand

end
-- ==== Proof.RefRun.lean ====
/- The run of the reference program, read as one straight line of host operations.

The program is printed in five consecutive windows, with its outlined functions called where they are used. Each window
is, by unfolding alone, the line of the operations of its stretches (the lists of RefOpsA … RefOpsD, an outlined function's
operations standing at its call); the windows one after the other are the line of all the operations. The general run
theorem for a straight line then gives: every weakly fair execution of the program ends, and each device buffer ends at
the fold of the operations' results over the contents at launch. -/
import proofs.«107159_g82575041232963_cont_9to1c4b_479_20_alg».proof.Proof.Gen.ReferenceIdeal
import Idealize.ShloMosaic.Lib.StableHlo.Run
import Idealize.ShloMosaic.Lib.Pipeline.Regions
import proofs.«107159_g82575041232963_cont_9to1c4b_479_20_alg».proof.Proof.LibHostLine
import proofs.«107159_g82575041232963_cont_9to1c4b_479_20_alg».proof.Proof.RefPast
import proofs.«107159_g82575041232963_cont_9to1c4b_479_20_alg».proof.Proof.RefOpsA
import proofs.«107159_g82575041232963_cont_9to1c4b_479_20_alg».proof.Proof.RefOpsB
import proofs.«107159_g82575041232963_cont_9to1c4b_479_20_alg».proof.Proof.RefOpsC
import proofs.«107159_g82575041232963_cont_9to1c4b_479_20_alg».proof.Proof.RefOpsD

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- All 385 operations of the program, in order: the stretches appended, nested to the right (`a ++ (b ++ (c ++ …))`),
    so that the first operation is reached by unfolding the first stretch alone. -/
abbrev refOps : List (HloOp τ sig (Elt F)) :=
  refChunk_idx ++ (refChunk_xw1 ++ (refChunk_cat1 ++ (refChunk_deg1 ++ (refChunk_inv1 ++ (refChunk_nrm1 ++ (
    refChunk_col1 ++ (refChunk_take1 ++ (refChunk_scl1 ++ (refChunk_agg1 ++ (refChunk_bn1a ++ (
    refChunk_bn1b ++ (refChunk_xw2 ++ (refChunk_cat2 ++ (refChunk_deg2 ++ (refChunk_inv2 ++ (refChunk_nrm2 ++ (
    refChunk_col2 ++ (refChunk_take2 ++ (refChunk_scl2 ++ (refChunk_agg2a ++ (refChunk_agg2b ++ (
    refChunk_bn2 ++ (refChunk_xw3 ++ (refChunk_cat3 ++ (refChunk_deg3 ++ (refChunk_inv3 ++ (refChunk_nrm3a ++ (
    refChunk_nrm3b ++ (refChunk_col3 ++ (refChunk_take3 ++ (refChunk_scl3 ++ (refChunk_agg3 ++ (
    refChunk_bn3 ++ (refChunk_mean ++ (refChunk_head0 ++ (refChunk_head1a ++ (refChunk_head1b)))))))))))))))))))))))))))))))))))))

/-! ## The windows -/

/-- The operations of window 0. -/
def refWin0 : List (HloOp τ sig (Elt F)) :=
  refChunk_idx ++ (refChunk_xw1 ++ (refChunk_cat1 ++ (refChunk_deg1 ++ (refChunk_inv1 ++ (refChunk_nrm1 ++ (
    refChunk_col1 ++ (refChunk_take1 ++ (refChunk_scl1 ++ (refChunk_agg1 ++ (refChunk_bn1a))))))))))

/-- The operations of window 1. -/
def refWin1 : List (HloOp τ sig (Elt F)) :=
  refChunk_bn1b ++ (refChunk_xw2 ++ (refChunk_cat2 ++ (refChunk_deg2 ++ (refChunk_inv2 ++ (refChunk_nrm2 ++ (
    refChunk_col2 ++ (refChunk_take2 ++ (refChunk_scl2 ++ (refChunk_agg2a)))))))))

/-- The operations of window 2. -/
def refWin2 : List (HloOp τ sig (Elt F)) :=
  refChunk_agg2b ++ (refChunk_bn2 ++ (refChunk_xw3 ++ (refChunk_cat3 ++ (refChunk_deg3 ++ (refChunk_inv3 ++ (
    refChunk_nrm3a))))))

/-- The operations of window 3. -/
def refWin3 : List (HloOp τ sig (Elt F)) :=
  refChunk_nrm3b ++ (refChunk_col3 ++ (refChunk_take3 ++ (refChunk_scl3 ++ (refChunk_agg3 ++ (
    refChunk_bn3 ++ (refChunk_mean ++ (refChunk_head0 ++ (refChunk_head1a))))))))

/-- The operations of window 4. -/
def refWin4 : List (HloOp τ sig (Elt F)) :=
  refChunk_head1b

/-! Each window is the line of its operations: both sides unfold to the same chain of steps (a function's body at its
    call, a record's field at its buffer), which the kernel checks. -/

theorem main_part0_eq (c : Dev nD) : main_part0 (F := F) c = seq refWin0 := by
  chain_rfl

theorem main_part1_eq (c : Dev nD) : main_part1 (F := F) c = seq refWin1 := by
  chain_rfl

theorem main_part2_eq (c : Dev nD) : main_part2 (F := F) c = seq refWin2 := by
  chain_rfl

theorem main_part3_eq (c : Dev nD) : main_part3 (F := F) c = seq refWin3 := by
  chain_rfl

theorem main_part4_eq (c : Dev nD) : main_part4 (F := F) c = seq refWin4 := by
  chain_rfl

/-- The line of all operations is the windows' lines one after the other. -/
theorem refOps_eq : (refOps : List (HloOp τ sig (Elt F))) = refWin0 ++ (refWin1 ++ (refWin2 ++ (refWin3 ++ refWin4))) := by
  simp only [refOps, refWin0, refWin1, refWin2, refWin3, refWin4, List.append_assoc]

/-- The program is the line of its operations. -/
theorem main_eq (c : Dev nD) : main (F := F) c = seq refOps := by
  rw [refOps_eq, seq_append, seq_append, seq_append, seq_append,
    ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches device buffers only. -/
theorem refOps_sub : (refOps : List (HloOp τ sig (Elt F))).Forall fun op => op.bufs ⊆ tcRefs τ sig :=
  forall_append_of refChunk_idx_sub (forall_append_of refChunk_xw1_sub (forall_append_of refChunk_cat1_sub (
    forall_append_of refChunk_deg1_sub (forall_append_of refChunk_inv1_sub (forall_append_of refChunk_nrm1_sub (
    forall_append_of refChunk_col1_sub (forall_append_of refChunk_take1_sub (
    forall_append_of refChunk_scl1_sub (forall_append_of refChunk_agg1_sub (forall_append_of refChunk_bn1a_sub (
    forall_append_of refChunk_bn1b_sub (forall_append_of refChunk_xw2_sub (forall_append_of refChunk_cat2_sub (
    forall_append_of refChunk_deg2_sub (forall_append_of refChunk_inv2_sub (forall_append_of refChunk_nrm2_sub (
    forall_append_of refChunk_col2_sub (forall_append_of refChunk_take2_sub (
    forall_append_of refChunk_scl2_sub (forall_append_of refChunk_agg2a_sub (
    forall_append_of refChunk_agg2b_sub (forall_append_of refChunk_bn2_sub (forall_append_of refChunk_xw3_sub (
    forall_append_of refChunk_cat3_sub (forall_append_of refChunk_deg3_sub (forall_append_of refChunk_inv3_sub (
    forall_append_of refChunk_nrm3a_sub (forall_append_of refChunk_nrm3b_sub (
    forall_append_of refChunk_col3_sub (forall_append_of refChunk_take3_sub (
    forall_append_of refChunk_scl3_sub (forall_append_of refChunk_agg3_sub (forall_append_of refChunk_bn3_sub (
    forall_append_of refChunk_mean_sub (forall_append_of refChunk_head0_sub (
    forall_append_of refChunk_head1a_sub (refChunk_head1b_sub)))))))))))))))))))))))))))))))))))))

/-- No operation allocates a buffer. -/
theorem refOps_fresh : (refOps : List (HloOp τ sig (Elt F))).Forall fun op => op.fresh = ∅ :=
  forall_append_of refChunk_idx_fresh (forall_append_of refChunk_xw1_fresh (
    forall_append_of refChunk_cat1_fresh (forall_append_of refChunk_deg1_fresh (
    forall_append_of refChunk_inv1_fresh (forall_append_of refChunk_nrm1_fresh (
    forall_append_of refChunk_col1_fresh (forall_append_of refChunk_take1_fresh (
    forall_append_of refChunk_scl1_fresh (forall_append_of refChunk_agg1_fresh (
    forall_append_of refChunk_bn1a_fresh (forall_append_of refChunk_bn1b_fresh (
    forall_append_of refChunk_xw2_fresh (forall_append_of refChunk_cat2_fresh (
    forall_append_of refChunk_deg2_fresh (forall_append_of refChunk_inv2_fresh (
    forall_append_of refChunk_nrm2_fresh (forall_append_of refChunk_col2_fresh (
    forall_append_of refChunk_take2_fresh (forall_append_of refChunk_scl2_fresh (
    forall_append_of refChunk_agg2a_fresh (forall_append_of refChunk_agg2b_fresh (
    forall_append_of refChunk_bn2_fresh (forall_append_of refChunk_xw3_fresh (
    forall_append_of refChunk_cat3_fresh (forall_append_of refChunk_deg3_fresh (
    forall_append_of refChunk_inv3_fresh (forall_append_of refChunk_nrm3a_fresh (
    forall_append_of refChunk_nrm3b_fresh (forall_append_of refChunk_col3_fresh (
    forall_append_of refChunk_take3_fresh (forall_append_of refChunk_scl3_fresh (
    forall_append_of refChunk_agg3_fresh (forall_append_of refChunk_bn3_fresh (
    forall_append_of refChunk_mean_fresh (forall_append_of refChunk_head0_fresh (
    forall_append_of refChunk_head1a_fresh (refChunk_head1b_fresh)))))))))))))))))))))))))))))))))))))

/-- Every operation writes one buffer, past the argument slots (the arguments are slots 0 … 21). -/
theorem refOps_past : (refOps : List (HloOp τ sig (Elt F))).Forall (WritesPast (τ := τ) 22) :=
  forall_append_of (forall_writesPast_mono (by decide) refChunk_idx_past) (
    forall_append_of (forall_writesPast_mono (by decide) refChunk_xw1_past) (
    forall_append_of (forall_writesPast_mono (by decide) refChunk_cat1_past) (
    forall_append_of (forall_writesPast_mono (by decide) refChunk_deg1_past) (
    forall_append_of (forall_writesPast_mono (by decide) refChunk_inv1_past) (
    forall_append_of (forall_writesPast_mono (by decide) refChunk_nrm1_past) (
    forall_append_of (forall_writesPast_mono (by decide) refChunk_col1_past) (
    forall_append_of (forall_writesPast_mono (by decide) refChunk_take1_past) (
    forall_append_of (forall_writesPast_mono (by decide) refChunk_scl1_past) (
    forall_append_of (forall_writesPast_mono (by decide) refChunk_agg1_past) (
    forall_append_of (forall_writesPast_mono (by decide) refChunk_bn1a_past) (
    forall_append_of (forall_writesPast_mono (by decide) refChunk_bn1b_past) (
    forall_append_of (forall_writesPast_mono (by decide) refChunk_xw2_past) (
    forall_append_of (forall_writesPast_mono (by decide) refChunk_cat2_past) (
    forall_append_of (forall_writesPast_mono (by decide) refChunk_deg2_past) (
    forall_append_of (forall_writesPast_mono (by decide) refChunk_inv2_past) (
    forall_append_of (forall_writesPast_mono (by decide) refChunk_nrm2_past) (
    forall_append_of (forall_writesPast_mono (by decide) refChunk_col2_past) (
    forall_append_of (forall_writesPast_mono (by decide) refChunk_take2_past) (
    forall_append_of (forall_writesPast_mono (by decide) refChunk_scl2_past) (
    forall_append_of (forall_writesPast_mono (by decide) refChunk_agg2a_past) (
    forall_append_of (forall_writesPast_mono (by decide) refChunk_agg2b_past) (
    forall_append_of (forall_writesPast_mono (by decide) refChunk_bn2_past) (
    forall_append_of (forall_writesPast_mono (by decide) refChunk_xw3_past) (
    forall_append_of (forall_writesPast_mono (by decide) refChunk_cat3_past) (
    forall_append_of (forall_writesPast_mono (by decide) refChunk_deg3_past) (
    forall_append_of (forall_writesPast_mono (by decide) refChunk_inv3_past) (
    forall_append_of (forall_writesPast_mono (by decide) refChunk_nrm3a_past) (
    forall_append_of (forall_writesPast_mono (by decide) refChunk_nrm3b_past) (
    forall_append_of (forall_writesPast_mono (by decide) refChunk_col3_past) (
    forall_append_of (forall_writesPast_mono (by decide) refChunk_take3_past) (
    forall_append_of (forall_writesPast_mono (by decide) refChunk_scl3_past) (
    forall_append_of (forall_writesPast_mono (by decide) refChunk_agg3_past) (
    forall_append_of (forall_writesPast_mono (by decide) refChunk_bn3_past) (
    forall_append_of (forall_writesPast_mono (by decide) refChunk_mean_past) (
    forall_append_of (forall_writesPast_mono (by decide) refChunk_head0_past) (
    forall_append_of (forall_writesPast_mono (by decide) refChunk_head1a_past) (
    (forall_writesPast_mono (by decide) refChunk_head1b_past))))))))))))))))))))))))))))))))))))))

/-- On every device, for any float values, from any memory with zero counters: every weakly fair execution of the program
    terminates, and every final state has each device buffer at the fold of the operations' results over its contents at launch. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after refOps (launchContents m d) (Proc.devRef .tc b) :=
  run_seq scopedRefs_eq scopedSems_eq defs main (fun _ => refOps) main_eq (fun _ => refOps_sub) m ρ
    (fun _ => List.forall_iff_forall_mem.mp refOps_fresh)

end Cert.ReferenceIdeal.Hand

end
-- ==== Proof.LibHostRerun.lean ====
/- Running part of an ascending line again changes nothing.

A straight line of host operations in single-assignment form with ascending slots (each operation writes one buffer, in
a slot above every slot written before it, and reads only lower slots) satisfies its own equations at the end: the final
contents of each operation's result buffer are that operation's function of the final contents. So an operation of the
line, applied to the line's final contents, writes back what is already there, and any list of the line's operations,
in any order and with any repetitions, leaves the final contents as they are. This is what lets a long line be compared
with another program piece by piece: a piece run on the whole line's final contents returns them.

Also here: the step lemmas that build the "ascending" fact for a literal list one operation at a time, one per builder of
host operations, and the tactic that applies them down a list. -/
import proofs.«107159_g82575041232963_cont_9to1c4b_479_20_alg».proof.Proof.LibHostLine

noncomputable section

namespace Idealize.ShloMosaic.StableHlo

variable {nD : Nat} {τ : Topo} {sig : RefSig} {Val : EltTy → Type}

/-- Every operation of an ascending line writes exactly one buffer and reads only slots below that buffer's. -/
theorem AscendingTo.mem_spec : ∀ {n m : ℕ} {ops : List (HloOp τ sig Val)}, AscendingTo n ops m →
    ∀ {op : HloOp τ sig Val}, op ∈ ops → ∃ y : Ref sig .tc, op.writes = {Proc.devRef (τ := τ) .tc y} ∧ ReadsBelow op y
  | _, _, [], _, _, ho => nomatch ho
  | _, _, _ :: _, ⟨y₀, hw₀, _, hr₀, hrest⟩, _, ho => by
    rcases List.mem_cons.mp ho with rfl | ho'
    · exact ⟨y₀, hw₀, hr₀⟩
    · exact AscendingTo.mem_spec hrest ho'

/-- An operation that writes one buffer, applied to contents which already hold its value there, changes nothing:
    at its result buffer the new contents are the old by hypothesis, and it touches no other buffer. -/
theorem result_eq_self {op : HloOp τ sig Val} {X : Valuation τ sig Val} {y : Ref sig .tc}
    (hw : op.writes = {Proc.devRef (τ := τ) .tc y})
    (hy : X (Proc.devRef .tc y) = op.result X (Proc.devRef .tc y)) : op.result X = X := by
  funext b
  by_cases hb : b ∈ op.writes
  · rw [hw, Finset.mem_singleton] at hb
    subst hb
    exact hy.symm
  · exact op.result_of_not_mem X hb

/-- A list of operations each of which leaves the contents X as they are leaves X as it is. -/
theorem after_fixed (ch : List (HloOp τ sig Val)) (X : Valuation τ sig Val) (h : ∀ op ∈ ch, op.result X = X) :
    after ch X = X := by
  induction ch with
  | nil => rfl
  | cons op l ih =>
    rw [after_cons, h op (List.mem_cons_self ..)]
    exact ih fun o ho => h o (List.mem_cons_of_mem _ ho)

/-- **An ascending single-assignment line's final contents are left unchanged by running any of its operations again**,
    in any order and any number of times: each satisfies its own equation at the end (the fixpoint property), so it
    writes back what its result buffer already holds. -/
theorem AscendingTo.rerun {n m : ℕ} {ops : List (HloOp τ sig Val)} (h : AscendingTo n ops m) (V : Valuation τ sig Val)
    (ch : List (HloOp τ sig Val)) (hch : ∀ op ∈ ch, op ∈ ops) : after ch (after ops V) = after ops V :=
  after_fixed ch _ fun op ho => by
    obtain ⟨y, hw, hr⟩ := h.mem_spec (hch op ho)
    exact result_eq_self hw (h.fixpoint V op (hch op ho) y hw hr)

/-! ## Building the fact for a literal list, one operation at a time -/

/-- The empty line ascends from n to m when n ≤ m. -/
theorem AscendingTo.nil {n m : ℕ} (h : n ≤ m) : AscendingTo (τ := τ) (sig := sig) (Val := Val) n [] m := h

/-- One more operation in front: it writes the one buffer y, at a slot not below n, reads below y, and the rest ascends
    from the slot after y's. -/
theorem AscendingTo.cons {n m : ℕ} {op : HloOp τ sig Val} {ops : List (HloOp τ sig Val)} (y : Ref sig .tc)
    (hw : op.writes = {Proc.devRef (τ := τ) .tc y}) (hn : n ≤ y.idx.val) (hr : ReadsBelow op y)
    (hrest : AscendingTo (y.idx.val + 1) ops m) : AscendingTo n (op :: ops) m :=
  ⟨y, hw, hn, hr, hrest⟩

section Steps

variable {n m : ℕ} {ops : List (HloOp τ sig Val)} (x a b c e y : Ref sig .tc)

/-- The operand-free builder in front. -/
theorem AscendingTo.cons_nullary (v : y.ty.Contents Val) (hy) (hn : n ≤ y.idx.val)
    (hrest : AscendingTo (y.idx.val + 1) ops m) : AscendingTo n (nullary (τ := τ) y v hy :: ops) m :=
  .cons y (nullary_writes y v hy) hn (readsBelow_nullary y v hy) hrest

/-- The one-operand builder in front: its operand sits below its result. -/
theorem AscendingTo.cons_unary (f : x.ty.Contents Val → y.ty.Contents Val) (hx hy) (hn : n ≤ y.idx.val)
    (h : x.idx.val < y.idx.val) (hrest : AscendingTo (y.idx.val + 1) ops m) :
    AscendingTo n (unary (τ := τ) x y f hx hy :: ops) m :=
  .cons y (unary_writes x y f hx hy) hn (readsBelow_unary x y f hx hy h) hrest

/-- A reshape in front: its operand sits below its result. -/
theorem AscendingTo.cons_reshape (he hs hx hy) (hn : n ≤ y.idx.val) (h : x.idx.val < y.idx.val)
    (hrest : AscendingTo (y.idx.val + 1) ops m) :
    AscendingTo n (reshape (τ := τ) (Val := Val) x y he hs hx hy :: ops) m :=
  .cons y (reshape_writes x y he hs hx hy) hn (readsBelow_reshape x y he hs hx hy h) hrest

/-- The two-operand builder in front: both operands sit below its result. -/
theorem AscendingTo.cons_binary (f : a.ty.Contents Val → b.ty.Contents Val → y.ty.Contents Val) (ha hb hy)
    (hn : n ≤ y.idx.val) (h₁ : a.idx.val < y.idx.val) (h₂ : b.idx.val < y.idx.val)
    (hrest : AscendingTo (y.idx.val + 1) ops m) : AscendingTo n (binary (τ := τ) a b y f ha hb hy :: ops) m :=
  .cons y (binary_writes a b y f ha hb hy) hn (readsBelow_binary a b y f ha hb hy h₁ h₂) hrest

/-- The three-operand builder in front: the three operands sit below its result. -/
theorem AscendingTo.cons_ternary (f : c.ty.Contents Val → a.ty.Contents Val → b.ty.Contents Val → y.ty.Contents Val)
    (hc ha hb hy) (hn : n ≤ y.idx.val) (h₀ : c.idx.val < y.idx.val) (h₁ : a.idx.val < y.idx.val)
    (h₂ : b.idx.val < y.idx.val) (hrest : AscendingTo (y.idx.val + 1) ops m) :
    AscendingTo n (ternary (τ := τ) c a b y f hc ha hb hy :: ops) m :=
  .cons y (ternary_writes a b c y f hc ha hb hy) hn (readsBelow_ternary a b c y f hc ha hb hy h₀ h₁ h₂) hrest

/-- The four-operand builder reads only its operands. -/
theorem readsBelow_quaternary
    (f : a.ty.Contents Val → b.ty.Contents Val → c.ty.Contents Val → e.ty.Contents Val → y.ty.Contents Val) (ha hb hc he' hy)
    (h₁ : a.idx.val < y.idx.val) (h₂ : b.idx.val < y.idx.val) (h₃ : c.idx.val < y.idx.val) (h₄ : e.idx.val < y.idx.val) :
    ReadsBelow (quaternary (τ := τ) a b c e y f ha hb hc he' hy) y :=
  fun F G hFG => by rw [quaternary_result, quaternary_result, hFG a h₁, hFG b h₂, hFG c h₃, hFG e h₄]

/-- The four-operand builder in front: the four operands sit below its result. -/
theorem AscendingTo.cons_quaternary
    (f : a.ty.Contents Val → b.ty.Contents Val → c.ty.Contents Val → e.ty.Contents Val → y.ty.Contents Val) (ha hb hc he' hy)
    (hn : n ≤ y.idx.val) (h₁ : a.idx.val < y.idx.val) (h₂ : b.idx.val < y.idx.val) (h₃ : c.idx.val < y.idx.val)
    (h₄ : e.idx.val < y.idx.val) (hrest : AscendingTo (y.idx.val + 1) ops m) :
    AscendingTo n (quaternary (τ := τ) a b c e y f ha hb hc he' hy :: ops) m :=
  .cons y (quaternary_writes a b c e y f ha hb hc he' hy) hn
    (readsBelow_quaternary a b c e y f ha hb hc he' hy h₁ h₂ h₃ h₄) hrest

/-- The builder over a family of operands in front: every operand sits below its result. -/
theorem AscendingTo.cons_nary {k : ℕ} (xs : Fin k → Ref sig .tc)
    (f : ((i : Fin k) → (xs i).ty.Contents Val) → y.ty.Contents Val) (hxs hy) (hn : n ≤ y.idx.val)
    (h : ∀ i, (xs i).idx.val < y.idx.val) (hrest : AscendingTo (y.idx.val + 1) ops m) :
    AscendingTo n (nary (τ := τ) xs y f hxs hy :: ops) m :=
  .cons y (nary_writes y xs f hxs hy) hn (readsBelow_nary y xs f hxs hy h) hrest

end Steps

open Lean Elab Tactic Meta in
/-- One step down a literal list. The goal is "n, (op :: ops), m ascends"; the step lemma is chosen by the NAME of the
    builder at the head of the list (read off the goal after unfolding abbreviations only, so that no two builders are
    ever compared by unfolding them), and its slot comparisons are decided. -/
elab "ascending_step" : tactic => withMainContext do
  let g ← getMainGoal
  let t ← whnfR (← instantiateMVars (← g.getType))
  unless t.isAppOfArity ``AscendingTo 6 do throwError "ascending_step: the goal is not an AscendingTo fact"
  let l ← whnfR (t.getArg! 4)
  unless l.isAppOfArity ``List.cons 3 do throwError "ascending_step: the list is not a cons"
  let op ← whnfR (l.getArg! 1)
  let some c := op.getAppFn.constName? | throwError "ascending_step: the head operation is not a builder's"
  let tac ←
    if c == ``unary then `(tactic| refine AscendingTo.cons_unary _ _ _ _ _ (by decide) (by decide) ?_)
    else if c == ``binary then `(tactic| refine AscendingTo.cons_binary _ _ _ _ _ _ _ (by decide) (by decide) (by decide) ?_)
    else if c == ``nullary then `(tactic| refine AscendingTo.cons_nullary _ _ _ (by decide) ?_)
    else if c == ``ternary then
      `(tactic| refine AscendingTo.cons_ternary _ _ _ _ _ _ _ _ _ (by decide) (by decide) (by decide) (by decide) ?_)
    else if c == ``reshape then `(tactic| refine AscendingTo.cons_reshape _ _ _ _ _ _ (by decide) (by decide) ?_)
    else if c == ``quaternary then
      `(tactic| refine AscendingTo.cons_quaternary _ _ _ _ _ _ _ _ _ _ _ (by decide) (by decide) (by decide) (by decide) (by decide) ?_)
    else if c == ``nary then `(tactic| refine AscendingTo.cons_nary _ _ _ _ _ (by decide) (by decide) ?_)
    else throwError "ascending_step: no step lemma for {c}"
  evalTactic tac

/-- Proves `AscendingTo lo ops hi` for a literal list `ops` of the builders' operations over literal references: one
    step per operation, then the empty list's bound. -/
macro "ascending_line" : tactic =>
  `(tactic| ((repeat ascending_step); exact AscendingTo.nil (by decide)))

end Idealize.ShloMosaic.StableHlo

end
-- ==== Proof.RefAscending.lean ====
/- The reference program's line of host operations is in single-assignment form with ascending slots.

Each stretch of the line writes its buffers in ascending slots, starting at the stretch's first slot and ending below the
next stretch's first slot, and each operation reads only buffers in lower slots (arguments sit in slots 0 … 21, every value
in the slot of its position in the program). The stretches join end to start, so the whole line ascends from slot 22 to
slot 407. Two consequences are stated for use: any stretch, run again on the whole line's final contents, leaves them
unchanged; and the line leaves every argument buffer as it found it. -/
import proofs.«107159_g82575041232963_cont_9to1c4b_479_20_alg».proof.Proof.LibHostRerun
import proofs.«107159_g82575041232963_cont_9to1c4b_479_20_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Each stretch ascends from its first slot to the next stretch's first slot -/

theorem refChunk_idx_ascending : AscendingTo (τ := τ) 22 (refChunk_idx (F := F)) 26 := by
  ascending_line
theorem refChunk_xw1_ascending : AscendingTo (τ := τ) 26 (refChunk_xw1 (F := F)) 27 := by
  ascending_line
theorem refChunk_cat1_ascending : AscendingTo (τ := τ) 27 (refChunk_cat1 (F := F)) 30 := by
  ascending_line
theorem refChunk_deg1_ascending : AscendingTo (τ := τ) 30 (refChunk_deg1 (F := F)) 36 := by
  ascending_line
theorem refChunk_inv1_ascending : AscendingTo (τ := τ) 36 (refChunk_inv1 (F := F)) 47 := by
  ascending_line
theorem refChunk_nrm1_ascending : AscendingTo (τ := τ) 47 (refChunk_nrm1 (F := F)) 66 := by
  ascending_line
theorem refChunk_col1_ascending : AscendingTo (τ := τ) 66 (refChunk_col1 (F := F)) 67 := by
  ascending_line
theorem refChunk_take1_ascending : AscendingTo (τ := τ) 67 (refChunk_take1 (F := F)) 90 := by
  ascending_line
theorem refChunk_scl1_ascending : AscendingTo (τ := τ) 90 (refChunk_scl1 (F := F)) 92 := by
  ascending_line
theorem refChunk_agg1_ascending : AscendingTo (τ := τ) 92 (refChunk_agg1 (F := F)) 99 := by
  ascending_line
theorem refChunk_bn1a_ascending : AscendingTo (τ := τ) 99 (refChunk_bn1a (F := F)) 127 := by
  ascending_line
theorem refChunk_bn1b_ascending : AscendingTo (τ := τ) 127 (refChunk_bn1b (F := F)) 146 := by
  ascending_line
theorem refChunk_xw2_ascending : AscendingTo (τ := τ) 146 (refChunk_xw2 (F := F)) 147 := by
  ascending_line
theorem refChunk_cat2_ascending : AscendingTo (τ := τ) 147 (refChunk_cat2 (F := F)) 150 := by
  ascending_line
theorem refChunk_deg2_ascending : AscendingTo (τ := τ) 150 (refChunk_deg2 (F := F)) 156 := by
  ascending_line
theorem refChunk_inv2_ascending : AscendingTo (τ := τ) 156 (refChunk_inv2 (F := F)) 167 := by
  ascending_line
theorem refChunk_nrm2_ascending : AscendingTo (τ := τ) 167 (refChunk_nrm2 (F := F)) 186 := by
  ascending_line
theorem refChunk_col2_ascending : AscendingTo (τ := τ) 186 (refChunk_col2 (F := F)) 187 := by
  ascending_line
theorem refChunk_take2_ascending : AscendingTo (τ := τ) 187 (refChunk_take2 (F := F)) 210 := by
  ascending_line
theorem refChunk_scl2_ascending : AscendingTo (τ := τ) 210 (refChunk_scl2 (F := F)) 212 := by
  ascending_line
theorem refChunk_agg2a_ascending : AscendingTo (τ := τ) 212 (refChunk_agg2a (F := F)) 213 := by
  ascending_line
theorem refChunk_agg2b_ascending : AscendingTo (τ := τ) 213 (refChunk_agg2b (F := F)) 219 := by
  ascending_line
theorem refChunk_bn2_ascending : AscendingTo (τ := τ) 219 (refChunk_bn2 (F := F)) 266 := by
  ascending_line
theorem refChunk_xw3_ascending : AscendingTo (τ := τ) 266 (refChunk_xw3 (F := F)) 267 := by
  ascending_line
theorem refChunk_cat3_ascending : AscendingTo (τ := τ) 267 (refChunk_cat3 (F := F)) 270 := by
  ascending_line
theorem refChunk_deg3_ascending : AscendingTo (τ := τ) 270 (refChunk_deg3 (F := F)) 276 := by
  ascending_line
theorem refChunk_inv3_ascending : AscendingTo (τ := τ) 276 (refChunk_inv3 (F := F)) 287 := by
  ascending_line
theorem refChunk_nrm3a_ascending : AscendingTo (τ := τ) 287 (refChunk_nrm3a (F := F)) 298 := by
  ascending_line
theorem refChunk_nrm3b_ascending : AscendingTo (τ := τ) 298 (refChunk_nrm3b (F := F)) 306 := by
  ascending_line
theorem refChunk_col3_ascending : AscendingTo (τ := τ) 306 (refChunk_col3 (F := F)) 307 := by
  ascending_line
theorem refChunk_take3_ascending : AscendingTo (τ := τ) 307 (refChunk_take3 (F := F)) 330 := by
  ascending_line
theorem refChunk_scl3_ascending : AscendingTo (τ := τ) 330 (refChunk_scl3 (F := F)) 332 := by
  ascending_line
theorem refChunk_agg3_ascending : AscendingTo (τ := τ) 332 (refChunk_agg3 (F := F)) 339 := by
  ascending_line
theorem refChunk_bn3_ascending : AscendingTo (τ := τ) 339 (refChunk_bn3 (F := F)) 383 := by
  ascending_line
theorem refChunk_mean_ascending : AscendingTo (τ := τ) 383 (refChunk_mean (F := F)) 389 := by
  ascending_line
theorem refChunk_head0_ascending : AscendingTo (τ := τ) 389 (refChunk_head0 (F := F)) 398 := by
  ascending_line
theorem refChunk_head1a_ascending : AscendingTo (τ := τ) 398 (refChunk_head1a (F := F)) 405 := by
  ascending_line
theorem refChunk_head1b_ascending : AscendingTo (τ := τ) 405 (refChunk_head1b (F := F)) 407 := by
  ascending_line

/-! ## The whole line -/

/-- The line of all operations ascends from slot 22 (the first slot after the arguments) to slot 407. -/
theorem refOps_ascending : AscendingTo (τ := τ) 22 (refOps (F := F)) 407 := by
  have h : (refOps (F := F)) = refChunk_idx ++ (refChunk_xw1 ++ (refChunk_cat1 ++ (refChunk_deg1 ++ (refChunk_inv1 ++ (refChunk_nrm1 ++ (refChunk_col1 ++ (refChunk_take1 ++ (refChunk_scl1 ++ (refChunk_agg1 ++ (refChunk_bn1a ++ (refChunk_bn1b ++ (refChunk_xw2 ++ (refChunk_cat2 ++ (refChunk_deg2 ++ (refChunk_inv2 ++ (refChunk_nrm2 ++ (refChunk_col2 ++ (refChunk_take2 ++ (refChunk_scl2 ++ (refChunk_agg2a ++ (refChunk_agg2b ++ (refChunk_bn2 ++ (refChunk_xw3 ++ (refChunk_cat3 ++ (refChunk_deg3 ++ (refChunk_inv3 ++ (refChunk_nrm3a ++ (refChunk_nrm3b ++ (refChunk_col3 ++ (refChunk_take3 ++ (refChunk_scl3 ++ (refChunk_agg3 ++ (refChunk_bn3 ++ (refChunk_mean ++ (refChunk_head0 ++ (refChunk_head1a ++ (refChunk_head1b))))))))))))))))))))))))))))))))))))) := by
    simp only [refOps, List.append_assoc]
  rw [h]
  refine AscendingTo.append refChunk_idx_ascending ?_
  refine AscendingTo.append refChunk_xw1_ascending ?_
  refine AscendingTo.append refChunk_cat1_ascending ?_
  refine AscendingTo.append refChunk_deg1_ascending ?_
  refine AscendingTo.append refChunk_inv1_ascending ?_
  refine AscendingTo.append refChunk_nrm1_ascending ?_
  refine AscendingTo.append refChunk_col1_ascending ?_
  refine AscendingTo.append refChunk_take1_ascending ?_
  refine AscendingTo.append refChunk_scl1_ascending ?_
  refine AscendingTo.append refChunk_agg1_ascending ?_
  refine AscendingTo.append refChunk_bn1a_ascending ?_
  refine AscendingTo.append refChunk_bn1b_ascending ?_
  refine AscendingTo.append refChunk_xw2_ascending ?_
  refine AscendingTo.append refChunk_cat2_ascending ?_
  refine AscendingTo.append refChunk_deg2_ascending ?_
  refine AscendingTo.append refChunk_inv2_ascending ?_
  refine AscendingTo.append refChunk_nrm2_ascending ?_
  refine AscendingTo.append refChunk_col2_ascending ?_
  refine AscendingTo.append refChunk_take2_ascending ?_
  refine AscendingTo.append refChunk_scl2_ascending ?_
  refine AscendingTo.append refChunk_agg2a_ascending ?_
  refine AscendingTo.append refChunk_agg2b_ascending ?_
  refine AscendingTo.append refChunk_bn2_ascending ?_
  refine AscendingTo.append refChunk_xw3_ascending ?_
  refine AscendingTo.append refChunk_cat3_ascending ?_
  refine AscendingTo.append refChunk_deg3_ascending ?_
  refine AscendingTo.append refChunk_inv3_ascending ?_
  refine AscendingTo.append refChunk_nrm3a_ascending ?_
  refine AscendingTo.append refChunk_nrm3b_ascending ?_
  refine AscendingTo.append refChunk_col3_ascending ?_
  refine AscendingTo.append refChunk_take3_ascending ?_
  refine AscendingTo.append refChunk_scl3_ascending ?_
  refine AscendingTo.append refChunk_agg3_ascending ?_
  refine AscendingTo.append refChunk_bn3_ascending ?_
  refine AscendingTo.append refChunk_mean_ascending ?_
  refine AscendingTo.append refChunk_head0_ascending ?_
  refine AscendingTo.append refChunk_head1a_ascending ?_
  exact refChunk_head1b_ascending

/-- Every operation of a stretch is an operation of the whole line. -/
theorem refChunk_idx_mem {op : HloOp τ sig (Elt F)} (h : op ∈ refChunk_idx (F := F)) : op ∈ refOps (F := F) := by
  simp only [refOps, List.mem_append]; tauto
theorem refChunk_xw1_mem {op : HloOp τ sig (Elt F)} (h : op ∈ refChunk_xw1 (F := F)) : op ∈ refOps (F := F) := by
  simp only [refOps, List.mem_append]; tauto
theorem refChunk_cat1_mem {op : HloOp τ sig (Elt F)} (h : op ∈ refChunk_cat1 (F := F)) : op ∈ refOps (F := F) := by
  simp only [refOps, List.mem_append]; tauto
theorem refChunk_deg1_mem {op : HloOp τ sig (Elt F)} (h : op ∈ refChunk_deg1 (F := F)) : op ∈ refOps (F := F) := by
  simp only [refOps, List.mem_append]; tauto
theorem refChunk_inv1_mem {op : HloOp τ sig (Elt F)} (h : op ∈ refChunk_inv1 (F := F)) : op ∈ refOps (F := F) := by
  simp only [refOps, List.mem_append]; tauto
theorem refChunk_nrm1_mem {op : HloOp τ sig (Elt F)} (h : op ∈ refChunk_nrm1 (F := F)) : op ∈ refOps (F := F) := by
  simp only [refOps, List.mem_append]; tauto
theorem refChunk_col1_mem {op : HloOp τ sig (Elt F)} (h : op ∈ refChunk_col1 (F := F)) : op ∈ refOps (F := F) := by
  simp only [refOps, List.mem_append]; tauto
theorem refChunk_take1_mem {op : HloOp τ sig (Elt F)} (h : op ∈ refChunk_take1 (F := F)) : op ∈ refOps (F := F) := by
  simp only [refOps, List.mem_append]; tauto
theorem refChunk_scl1_mem {op : HloOp τ sig (Elt F)} (h : op ∈ refChunk_scl1 (F := F)) : op ∈ refOps (F := F) := by
  simp only [refOps, List.mem_append]; tauto
theorem refChunk_agg1_mem {op : HloOp τ sig (Elt F)} (h : op ∈ refChunk_agg1 (F := F)) : op ∈ refOps (F := F) := by
  simp only [refOps, List.mem_append]; tauto
theorem refChunk_bn1a_mem {op : HloOp τ sig (Elt F)} (h : op ∈ refChunk_bn1a (F := F)) : op ∈ refOps (F := F) := by
  simp only [refOps, List.mem_append]; tauto
theorem refChunk_bn1b_mem {op : HloOp τ sig (Elt F)} (h : op ∈ refChunk_bn1b (F := F)) : op ∈ refOps (F := F) := by
  simp only [refOps, List.mem_append]; tauto
theorem refChunk_xw2_mem {op : HloOp τ sig (Elt F)} (h : op ∈ refChunk_xw2 (F := F)) : op ∈ refOps (F := F) := by
  simp only [refOps, List.mem_append]; tauto
theorem refChunk_cat2_mem {op : HloOp τ sig (Elt F)} (h : op ∈ refChunk_cat2 (F := F)) : op ∈ refOps (F := F) := by
  simp only [refOps, List.mem_append]; tauto
theorem refChunk_deg2_mem {op : HloOp τ sig (Elt F)} (h : op ∈ refChunk_deg2 (F := F)) : op ∈ refOps (F := F) := by
  simp only [refOps, List.mem_append]; tauto
theorem refChunk_inv2_mem {op : HloOp τ sig (Elt F)} (h : op ∈ refChunk_inv2 (F := F)) : op ∈ refOps (F := F) := by
  simp only [refOps, List.mem_append]; tauto
theorem refChunk_nrm2_mem {op : HloOp τ sig (Elt F)} (h : op ∈ refChunk_nrm2 (F := F)) : op ∈ refOps (F := F) := by
  simp only [refOps, List.mem_append]; tauto
theorem refChunk_col2_mem {op : HloOp τ sig (Elt F)} (h : op ∈ refChunk_col2 (F := F)) : op ∈ refOps (F := F) := by
  simp only [refOps, List.mem_append]; tauto
theorem refChunk_take2_mem {op : HloOp τ sig (Elt F)} (h : op ∈ refChunk_take2 (F := F)) : op ∈ refOps (F := F) := by
  simp only [refOps, List.mem_append]; tauto
theorem refChunk_scl2_mem {op : HloOp τ sig (Elt F)} (h : op ∈ refChunk_scl2 (F := F)) : op ∈ refOps (F := F) := by
  simp only [refOps, List.mem_append]; tauto
theorem refChunk_agg2a_mem {op : HloOp τ sig (Elt F)} (h : op ∈ refChunk_agg2a (F := F)) : op ∈ refOps (F := F) := by
  simp only [refOps, List.mem_append]; tauto
theorem refChunk_agg2b_mem {op : HloOp τ sig (Elt F)} (h : op ∈ refChunk_agg2b (F := F)) : op ∈ refOps (F := F) := by
  simp only [refOps, List.mem_append]; tauto
theorem refChunk_bn2_mem {op : HloOp τ sig (Elt F)} (h : op ∈ refChunk_bn2 (F := F)) : op ∈ refOps (F := F) := by
  simp only [refOps, List.mem_append]; tauto
theorem refChunk_xw3_mem {op : HloOp τ sig (Elt F)} (h : op ∈ refChunk_xw3 (F := F)) : op ∈ refOps (F := F) := by
  simp only [refOps, List.mem_append]; tauto
theorem refChunk_cat3_mem {op : HloOp τ sig (Elt F)} (h : op ∈ refChunk_cat3 (F := F)) : op ∈ refOps (F := F) := by
  simp only [refOps, List.mem_append]; tauto
theorem refChunk_deg3_mem {op : HloOp τ sig (Elt F)} (h : op ∈ refChunk_deg3 (F := F)) : op ∈ refOps (F := F) := by
  simp only [refOps, List.mem_append]; tauto
theorem refChunk_inv3_mem {op : HloOp τ sig (Elt F)} (h : op ∈ refChunk_inv3 (F := F)) : op ∈ refOps (F := F) := by
  simp only [refOps, List.mem_append]; tauto
theorem refChunk_nrm3a_mem {op : HloOp τ sig (Elt F)} (h : op ∈ refChunk_nrm3a (F := F)) : op ∈ refOps (F := F) := by
  simp only [refOps, List.mem_append]; tauto
theorem refChunk_nrm3b_mem {op : HloOp τ sig (Elt F)} (h : op ∈ refChunk_nrm3b (F := F)) : op ∈ refOps (F := F) := by
  simp only [refOps, List.mem_append]; tauto
theorem refChunk_col3_mem {op : HloOp τ sig (Elt F)} (h : op ∈ refChunk_col3 (F := F)) : op ∈ refOps (F := F) := by
  simp only [refOps, List.mem_append]; tauto
theorem refChunk_take3_mem {op : HloOp τ sig (Elt F)} (h : op ∈ refChunk_take3 (F := F)) : op ∈ refOps (F := F) := by
  simp only [refOps, List.mem_append]; tauto
theorem refChunk_scl3_mem {op : HloOp τ sig (Elt F)} (h : op ∈ refChunk_scl3 (F := F)) : op ∈ refOps (F := F) := by
  simp only [refOps, List.mem_append]; tauto
theorem refChunk_agg3_mem {op : HloOp τ sig (Elt F)} (h : op ∈ refChunk_agg3 (F := F)) : op ∈ refOps (F := F) := by
  simp only [refOps, List.mem_append]; tauto
theorem refChunk_bn3_mem {op : HloOp τ sig (Elt F)} (h : op ∈ refChunk_bn3 (F := F)) : op ∈ refOps (F := F) := by
  simp only [refOps, List.mem_append]; tauto
theorem refChunk_mean_mem {op : HloOp τ sig (Elt F)} (h : op ∈ refChunk_mean (F := F)) : op ∈ refOps (F := F) := by
  simp only [refOps, List.mem_append]; tauto
theorem refChunk_head0_mem {op : HloOp τ sig (Elt F)} (h : op ∈ refChunk_head0 (F := F)) : op ∈ refOps (F := F) := by
  simp only [refOps, List.mem_append]; tauto
theorem refChunk_head1a_mem {op : HloOp τ sig (Elt F)} (h : op ∈ refChunk_head1a (F := F)) : op ∈ refOps (F := F) := by
  simp only [refOps, List.mem_append]; tauto
theorem refChunk_head1b_mem {op : HloOp τ sig (Elt F)} (h : op ∈ refChunk_head1b (F := F)) : op ∈ refOps (F := F) := by
  simp only [refOps, List.mem_append]; tauto

/-! ## A stretch run again on the line's final contents leaves them unchanged -/

theorem rerun_idx (V : Valuation τ sig (Elt F)) :
    after (refChunk_idx (F := F)) (after (refOps (F := F)) V) = after (refOps (F := F)) V :=
  refOps_ascending.rerun V _ fun _ h => refChunk_idx_mem h
theorem rerun_xw1 (V : Valuation τ sig (Elt F)) :
    after (refChunk_xw1 (F := F)) (after (refOps (F := F)) V) = after (refOps (F := F)) V :=
  refOps_ascending.rerun V _ fun _ h => refChunk_xw1_mem h
theorem rerun_cat1 (V : Valuation τ sig (Elt F)) :
    after (refChunk_cat1 (F := F)) (after (refOps (F := F)) V) = after (refOps (F := F)) V :=
  refOps_ascending.rerun V _ fun _ h => refChunk_cat1_mem h
theorem rerun_deg1 (V : Valuation τ sig (Elt F)) :
    after (refChunk_deg1 (F := F)) (after (refOps (F := F)) V) = after (refOps (F := F)) V :=
  refOps_ascending.rerun V _ fun _ h => refChunk_deg1_mem h
theorem rerun_inv1 (V : Valuation τ sig (Elt F)) :
    after (refChunk_inv1 (F := F)) (after (refOps (F := F)) V) = after (refOps (F := F)) V :=
  refOps_ascending.rerun V _ fun _ h => refChunk_inv1_mem h
theorem rerun_nrm1 (V : Valuation τ sig (Elt F)) :
    after (refChunk_nrm1 (F := F)) (after (refOps (F := F)) V) = after (refOps (F := F)) V :=
  refOps_ascending.rerun V _ fun _ h => refChunk_nrm1_mem h
theorem rerun_col1 (V : Valuation τ sig (Elt F)) :
    after (refChunk_col1 (F := F)) (after (refOps (F := F)) V) = after (refOps (F := F)) V :=
  refOps_ascending.rerun V _ fun _ h => refChunk_col1_mem h
theorem rerun_take1 (V : Valuation τ sig (Elt F)) :
    after (refChunk_take1 (F := F)) (after (refOps (F := F)) V) = after (refOps (F := F)) V :=
  refOps_ascending.rerun V _ fun _ h => refChunk_take1_mem h
theorem rerun_scl1 (V : Valuation τ sig (Elt F)) :
    after (refChunk_scl1 (F := F)) (after (refOps (F := F)) V) = after (refOps (F := F)) V :=
  refOps_ascending.rerun V _ fun _ h => refChunk_scl1_mem h
theorem rerun_agg1 (V : Valuation τ sig (Elt F)) :
    after (refChunk_agg1 (F := F)) (after (refOps (F := F)) V) = after (refOps (F := F)) V :=
  refOps_ascending.rerun V _ fun _ h => refChunk_agg1_mem h
theorem rerun_bn1a (V : Valuation τ sig (Elt F)) :
    after (refChunk_bn1a (F := F)) (after (refOps (F := F)) V) = after (refOps (F := F)) V :=
  refOps_ascending.rerun V _ fun _ h => refChunk_bn1a_mem h
theorem rerun_bn1b (V : Valuation τ sig (Elt F)) :
    after (refChunk_bn1b (F := F)) (after (refOps (F := F)) V) = after (refOps (F := F)) V :=
  refOps_ascending.rerun V _ fun _ h => refChunk_bn1b_mem h
theorem rerun_xw2 (V : Valuation τ sig (Elt F)) :
    after (refChunk_xw2 (F := F)) (after (refOps (F := F)) V) = after (refOps (F := F)) V :=
  refOps_ascending.rerun V _ fun _ h => refChunk_xw2_mem h
theorem rerun_cat2 (V : Valuation τ sig (Elt F)) :
    after (refChunk_cat2 (F := F)) (after (refOps (F := F)) V) = after (refOps (F := F)) V :=
  refOps_ascending.rerun V _ fun _ h => refChunk_cat2_mem h
theorem rerun_deg2 (V : Valuation τ sig (Elt F)) :
    after (refChunk_deg2 (F := F)) (after (refOps (F := F)) V) = after (refOps (F := F)) V :=
  refOps_ascending.rerun V _ fun _ h => refChunk_deg2_mem h
theorem rerun_inv2 (V : Valuation τ sig (Elt F)) :
    after (refChunk_inv2 (F := F)) (after (refOps (F := F)) V) = after (refOps (F := F)) V :=
  refOps_ascending.rerun V _ fun _ h => refChunk_inv2_mem h
theorem rerun_nrm2 (V : Valuation τ sig (Elt F)) :
    after (refChunk_nrm2 (F := F)) (after (refOps (F := F)) V) = after (refOps (F := F)) V :=
  refOps_ascending.rerun V _ fun _ h => refChunk_nrm2_mem h
theorem rerun_col2 (V : Valuation τ sig (Elt F)) :
    after (refChunk_col2 (F := F)) (after (refOps (F := F)) V) = after (refOps (F := F)) V :=
  refOps_ascending.rerun V _ fun _ h => refChunk_col2_mem h
theorem rerun_take2 (V : Valuation τ sig (Elt F)) :
    after (refChunk_take2 (F := F)) (after (refOps (F := F)) V) = after (refOps (F := F)) V :=
  refOps_ascending.rerun V _ fun _ h => refChunk_take2_mem h
theorem rerun_scl2 (V : Valuation τ sig (Elt F)) :
    after (refChunk_scl2 (F := F)) (after (refOps (F := F)) V) = after (refOps (F := F)) V :=
  refOps_ascending.rerun V _ fun _ h => refChunk_scl2_mem h
theorem rerun_agg2a (V : Valuation τ sig (Elt F)) :
    after (refChunk_agg2a (F := F)) (after (refOps (F := F)) V) = after (refOps (F := F)) V :=
  refOps_ascending.rerun V _ fun _ h => refChunk_agg2a_mem h
theorem rerun_agg2b (V : Valuation τ sig (Elt F)) :
    after (refChunk_agg2b (F := F)) (after (refOps (F := F)) V) = after (refOps (F := F)) V :=
  refOps_ascending.rerun V _ fun _ h => refChunk_agg2b_mem h
theorem rerun_bn2 (V : Valuation τ sig (Elt F)) :
    after (refChunk_bn2 (F := F)) (after (refOps (F := F)) V) = after (refOps (F := F)) V :=
  refOps_ascending.rerun V _ fun _ h => refChunk_bn2_mem h
theorem rerun_xw3 (V : Valuation τ sig (Elt F)) :
    after (refChunk_xw3 (F := F)) (after (refOps (F := F)) V) = after (refOps (F := F)) V :=
  refOps_ascending.rerun V _ fun _ h => refChunk_xw3_mem h
theorem rerun_cat3 (V : Valuation τ sig (Elt F)) :
    after (refChunk_cat3 (F := F)) (after (refOps (F := F)) V) = after (refOps (F := F)) V :=
  refOps_ascending.rerun V _ fun _ h => refChunk_cat3_mem h
theorem rerun_deg3 (V : Valuation τ sig (Elt F)) :
    after (refChunk_deg3 (F := F)) (after (refOps (F := F)) V) = after (refOps (F := F)) V :=
  refOps_ascending.rerun V _ fun _ h => refChunk_deg3_mem h
theorem rerun_inv3 (V : Valuation τ sig (Elt F)) :
    after (refChunk_inv3 (F := F)) (after (refOps (F := F)) V) = after (refOps (F := F)) V :=
  refOps_ascending.rerun V _ fun _ h => refChunk_inv3_mem h
theorem rerun_nrm3a (V : Valuation τ sig (Elt F)) :
    after (refChunk_nrm3a (F := F)) (after (refOps (F := F)) V) = after (refOps (F := F)) V :=
  refOps_ascending.rerun V _ fun _ h => refChunk_nrm3a_mem h
theorem rerun_nrm3b (V : Valuation τ sig (Elt F)) :
    after (refChunk_nrm3b (F := F)) (after (refOps (F := F)) V) = after (refOps (F := F)) V :=
  refOps_ascending.rerun V _ fun _ h => refChunk_nrm3b_mem h
theorem rerun_col3 (V : Valuation τ sig (Elt F)) :
    after (refChunk_col3 (F := F)) (after (refOps (F := F)) V) = after (refOps (F := F)) V :=
  refOps_ascending.rerun V _ fun _ h => refChunk_col3_mem h
theorem rerun_take3 (V : Valuation τ sig (Elt F)) :
    after (refChunk_take3 (F := F)) (after (refOps (F := F)) V) = after (refOps (F := F)) V :=
  refOps_ascending.rerun V _ fun _ h => refChunk_take3_mem h
theorem rerun_scl3 (V : Valuation τ sig (Elt F)) :
    after (refChunk_scl3 (F := F)) (after (refOps (F := F)) V) = after (refOps (F := F)) V :=
  refOps_ascending.rerun V _ fun _ h => refChunk_scl3_mem h
theorem rerun_agg3 (V : Valuation τ sig (Elt F)) :
    after (refChunk_agg3 (F := F)) (after (refOps (F := F)) V) = after (refOps (F := F)) V :=
  refOps_ascending.rerun V _ fun _ h => refChunk_agg3_mem h
theorem rerun_bn3 (V : Valuation τ sig (Elt F)) :
    after (refChunk_bn3 (F := F)) (after (refOps (F := F)) V) = after (refOps (F := F)) V :=
  refOps_ascending.rerun V _ fun _ h => refChunk_bn3_mem h
theorem rerun_mean (V : Valuation τ sig (Elt F)) :
    after (refChunk_mean (F := F)) (after (refOps (F := F)) V) = after (refOps (F := F)) V :=
  refOps_ascending.rerun V _ fun _ h => refChunk_mean_mem h
theorem rerun_head0 (V : Valuation τ sig (Elt F)) :
    after (refChunk_head0 (F := F)) (after (refOps (F := F)) V) = after (refOps (F := F)) V :=
  refOps_ascending.rerun V _ fun _ h => refChunk_head0_mem h
theorem rerun_head1a (V : Valuation τ sig (Elt F)) :
    after (refChunk_head1a (F := F)) (after (refOps (F := F)) V) = after (refOps (F := F)) V :=
  refOps_ascending.rerun V _ fun _ h => refChunk_head1a_mem h
theorem rerun_head1b (V : Valuation τ sig (Elt F)) :
    after (refChunk_head1b (F := F)) (after (refOps (F := F)) V) = after (refOps (F := F)) V :=
  refOps_ascending.rerun V _ fun _ h => refChunk_head1b_mem h

/-! ## The arguments end unchanged -/

/-- The line leaves every buffer in a slot below 22 (the program's arguments) as it found it. -/
theorem refOps_keeps_low (V : Valuation τ sig (Elt F)) (b : Ref sig .tc) (hb : b.idx.val < 22) :
    after (refOps (F := F)) V (Proc.devRef .tc b) = V (Proc.devRef .tc b) :=
  after_keep_of_writesPast hb refOps V refOps_ascending.forall_writesPast

end Cert.ReferenceIdeal.Hand

end
-- ==== Proof.LibEvalLines.lean ====
/- Reading a straight line of host operations at a buffer.

   What a buffer holds after a line of host operations is a computation: the fold over the line is unrolled, and each
   operation's result at a buffer is its function of its operands' contents when the buffer is the one it writes, and
   what was there otherwise. The library's one-pass evaluation does not enter the operand list of a concatenation (a
   list of shape-and-vector pairs); the remaining results are rewritten one at a time. -/
import Idealize.ShloMosaic.Lib.StableHlo.Run

namespace Idealize.ShloMosaic.StableHlo

/-- The results the one-pass evaluation leaves (those inside a concatenation's operand list), one rewrite at a time. -/
macro "results_rest" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- Both sides of an equation between buffers after lines of host operations, as terms over the starting contents. -/
macro "eval_lines" : tactic => `(tactic| (after_results_simp; results_rest))

end Idealize.ShloMosaic.StableHlo
-- ==== Proof.CrossIndex.lean ====
/- The edge lists and the degree: the kernel program's first stretch against each of the reference's three copies.
   Both programs compute them by the same operations from the edge table, so the two folds, evaluated, are one term. -/
import proofs.«107159_g82575041232963_cont_9to1c4b_479_20_alg».proof.Proof.Gen.KernelIdeal.Launch
import proofs.«107159_g82575041232963_cont_9to1c4b_479_20_alg».proof.Proof.RefOpsA
import proofs.«107159_g82575041232963_cont_9to1c4b_479_20_alg».proof.Proof.RefOpsB
import proofs.«107159_g82575041232963_cont_9to1c4b_479_20_alg».proof.Proof.RefOpsC
import proofs.«107159_g82575041232963_cont_9to1c4b_479_20_alg».proof.Proof.LibEvalLines
import Idealize.ShloMosaic.PureOps.Ideal

noncomputable section

namespace Cert.Cross

open Idealize.ShloMosaic Idealize.ShloMosaic.TcCoe Idealize.SL.Sem Idealize.ShloMosaic.StableHlo

/-- Buffer contents of the kernel program and of the reference program, at the ideal instance. -/
local notation "KV" => Valuation Cert.KernelIdeal.τ Cert.KernelIdeal.sig (Elt Ideal)
local notation "RV" => Valuation Cert.ReferenceIdeal.τ Cert.ReferenceIdeal.sig (Elt Ideal)

/-- The edges' source list with the self-loops appended: the kernel program's first stretch and the reference's copy 1 compute it by the same operations from the edge table. -/
theorem sources_1 (V : KV) (V' : RV) (h0 : V (Proc.devRef .tc Cert.KernelIdeal.main_arg1) = V' (Proc.devRef .tc Cert.ReferenceIdeal.main_arg1)) :
    after (Cert.KernelIdeal.Gen.hostOps0 (F := Ideal)) V (Proc.devRef .tc Cert.KernelIdeal.main_v5)
      = after (Cert.ReferenceIdeal.Hand.refChunk_cat1 (F := Ideal)) (after (Cert.ReferenceIdeal.Hand.refChunk_idx (F := Ideal)) V') (Proc.devRef .tc Cert.ReferenceIdeal.main_v6) := by
  eval_lines
  try rw [h0]
  rfl
/-- The edges' target list with the self-loops appended (copy 1). -/
theorem targets_1 (V : KV) (V' : RV) (h0 : V (Proc.devRef .tc Cert.KernelIdeal.main_arg1) = V' (Proc.devRef .tc Cert.ReferenceIdeal.main_arg1)) :
    after (Cert.KernelIdeal.Gen.hostOps0 (F := Ideal)) V (Proc.devRef .tc Cert.KernelIdeal.main_v6)
      = after (Cert.ReferenceIdeal.Hand.refChunk_cat1 (F := Ideal)) (after (Cert.ReferenceIdeal.Hand.refChunk_idx (F := Ideal)) V') (Proc.devRef .tc Cert.ReferenceIdeal.main_v7) := by
  eval_lines
  try rw [h0]
  rfl
/-- The degree vector, the scatter-add of ones at the targets (copy 1). -/
theorem degree_1 (V : KV) (V' : RV) (h0 : V (Proc.devRef .tc Cert.KernelIdeal.main_arg1) = V' (Proc.devRef .tc Cert.ReferenceIdeal.main_arg1)) :
    after (Cert.KernelIdeal.Gen.hostOps0 (F := Ideal)) V (Proc.devRef .tc Cert.KernelIdeal.main_v10)
      = after (Cert.ReferenceIdeal.Hand.refChunk_deg1 (F := Ideal)) (after (Cert.ReferenceIdeal.Hand.refChunk_cat1 (F := Ideal)) (after (Cert.ReferenceIdeal.Hand.refChunk_idx (F := Ideal)) V')) (Proc.devRef .tc Cert.ReferenceIdeal.main_v11) := by
  eval_lines
  try rw [h0]
  rfl
/-- The edges' source list with the self-loops appended: the kernel program's first stretch and the reference's copy 2 compute it by the same operations from the edge table. -/
theorem sources_2 (V : KV) (V' : RV) (h0 : V (Proc.devRef .tc Cert.KernelIdeal.main_arg1) = V' (Proc.devRef .tc Cert.ReferenceIdeal.main_arg1)) :
    after (Cert.KernelIdeal.Gen.hostOps0 (F := Ideal)) V (Proc.devRef .tc Cert.KernelIdeal.main_v5)
      = after (Cert.ReferenceIdeal.Hand.refChunk_cat2 (F := Ideal)) (after (Cert.ReferenceIdeal.Hand.refChunk_idx (F := Ideal)) V') (Proc.devRef .tc Cert.ReferenceIdeal.main_v65) := by
  eval_lines
  try rw [h0]
  rfl
/-- The edges' target list with the self-loops appended (copy 2). -/
theorem targets_2 (V : KV) (V' : RV) (h0 : V (Proc.devRef .tc Cert.KernelIdeal.main_arg1) = V' (Proc.devRef .tc Cert.ReferenceIdeal.main_arg1)) :
    after (Cert.KernelIdeal.Gen.hostOps0 (F := Ideal)) V (Proc.devRef .tc Cert.KernelIdeal.main_v6)
      = after (Cert.ReferenceIdeal.Hand.refChunk_cat2 (F := Ideal)) (after (Cert.ReferenceIdeal.Hand.refChunk_idx (F := Ideal)) V') (Proc.devRef .tc Cert.ReferenceIdeal.main_v66) := by
  eval_lines
  try rw [h0]
  rfl
/-- The degree vector, the scatter-add of ones at the targets (copy 2). -/
theorem degree_2 (V : KV) (V' : RV) (h0 : V (Proc.devRef .tc Cert.KernelIdeal.main_arg1) = V' (Proc.devRef .tc Cert.ReferenceIdeal.main_arg1)) :
    after (Cert.KernelIdeal.Gen.hostOps0 (F := Ideal)) V (Proc.devRef .tc Cert.KernelIdeal.main_v10)
      = after (Cert.ReferenceIdeal.Hand.refChunk_deg2 (F := Ideal)) (after (Cert.ReferenceIdeal.Hand.refChunk_cat2 (F := Ideal)) (after (Cert.ReferenceIdeal.Hand.refChunk_idx (F := Ideal)) V')) (Proc.devRef .tc Cert.ReferenceIdeal.main_v70) := by
  eval_lines
  try rw [h0]
  rfl
/-- The edges' source list with the self-loops appended: the kernel program's first stretch and the reference's copy 3 compute it by the same operations from the edge table. -/
theorem sources_3 (V : KV) (V' : RV) (h0 : V (Proc.devRef .tc Cert.KernelIdeal.main_arg1) = V' (Proc.devRef .tc Cert.ReferenceIdeal.main_arg1)) :
    after (Cert.KernelIdeal.Gen.hostOps0 (F := Ideal)) V (Proc.devRef .tc Cert.KernelIdeal.main_v5)
      = after (Cert.ReferenceIdeal.Hand.refChunk_cat3 (F := Ideal)) (after (Cert.ReferenceIdeal.Hand.refChunk_idx (F := Ideal)) V') (Proc.devRef .tc Cert.ReferenceIdeal.main_v124) := by
  eval_lines
  try rw [h0]
  rfl
/-- The edges' target list with the self-loops appended (copy 3). -/
theorem targets_3 (V : KV) (V' : RV) (h0 : V (Proc.devRef .tc Cert.KernelIdeal.main_arg1) = V' (Proc.devRef .tc Cert.ReferenceIdeal.main_arg1)) :
    after (Cert.KernelIdeal.Gen.hostOps0 (F := Ideal)) V (Proc.devRef .tc Cert.KernelIdeal.main_v6)
      = after (Cert.ReferenceIdeal.Hand.refChunk_cat3 (F := Ideal)) (after (Cert.ReferenceIdeal.Hand.refChunk_idx (F := Ideal)) V') (Proc.devRef .tc Cert.ReferenceIdeal.main_v125) := by
  eval_lines
  try rw [h0]
  rfl
/-- The degree vector, the scatter-add of ones at the targets (copy 3). -/
theorem degree_3 (V : KV) (V' : RV) (h0 : V (Proc.devRef .tc Cert.KernelIdeal.main_arg1) = V' (Proc.devRef .tc Cert.ReferenceIdeal.main_arg1)) :
    after (Cert.KernelIdeal.Gen.hostOps0 (F := Ideal)) V (Proc.devRef .tc Cert.KernelIdeal.main_v10)
      = after (Cert.ReferenceIdeal.Hand.refChunk_deg3 (F := Ideal)) (after (Cert.ReferenceIdeal.Hand.refChunk_cat3 (F := Ideal)) (after (Cert.ReferenceIdeal.Hand.refChunk_idx (F := Ideal)) V')) (Proc.devRef .tc Cert.ReferenceIdeal.main_v129) := by
  eval_lines
  try rw [h0]
  rfl
/-- The degree as a one-row matrix is the degree vector recast. -/
theorem degree_row (V : KV) :
    after (Cert.KernelIdeal.Gen.hostOps0 (F := Ideal)) V (Proc.devRef .tc Cert.KernelIdeal.main_v11)
      = shapeCast Cert.KernelIdeal.S1x10000 (after (Cert.KernelIdeal.Gen.hostOps0 (F := Ideal)) V (Proc.devRef .tc Cert.KernelIdeal.main_v10)) Cert.KernelIdeal.Facts₀.shapeCasts_S10000_S1x10000 := by
  eval_lines
  rfl

end Cert.Cross

end
-- ==== Proof.PayloadsAsHostOps.lean ====
/- The payloads of the two whole-array regions as the reference's host operations, at the extended reals.

   The first layer's product: a matrix product into a zero accumulator is the host's `dot_general` — at an output
   index both are the sum, over the one contracted axis, of the operands' products.

   The inverse square root of the degree: the kernel computes where(d > 0, rsqrt d, 0) on the [1, 10000] view of
   the degree vector, the reference where(d > 0, 1 / sqrt d, 0) on the vector itself. At an index both test the
   same comparison; where it holds the entry is a positive extended real x, and the reciprocal square root of x
   is one over its square root: both are 0 at +infinity and the real (sqrt r)⁻¹ at a positive real r. -/
import proofs.«107159_g82575041232963_cont_9to1c4b_479_20_alg».proof.Proof.Gen.KernelIdeal.Skeleton
import proofs.«107159_g82575041232963_cont_9to1c4b_479_20_alg».proof.Proof.Gen.ReferenceIdeal
import Idealize.ShloMosaic.PureOps.Ideal.Laws
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.ValueIdx

/-! ## The first layer's product -/

/-- The kernel program's and the reference's dimension numbers of the product are the same data: contract the
    left operand's axis 1 with the right operand's axis 0, no batch axis. -/
theorem product_dims_eq :
    (Cert.KernelIdeal.dot_S10000x128_S128x64_S10000x64_1_0_0_1_n_n : DotDims S10000x128 S128x64 S10000x64)
      = Cert.ReferenceIdeal.dot_S10000x128_S128x64_S10000x64_1_0_0_1_n_n := rfl

/-- A matrix product into a zero accumulator is the host's `dot_general` of the same operands. -/
theorem product_is_dot (x : FVec Ideal S10000x128 .f32) (w : FVec Ideal S128x64 .f32) :
    Gen.k1_pay1 (F := Ideal) x w
      = Host.dotGeneral (F := Ideal) Cert.ReferenceIdeal.dot_S10000x128_S128x64_S10000x64_1_0_0_1_n_n none x w := by
  funext j
  unfold Gen.k1_pay1
  refine (Ideal.matmul_constant_zero_apply _ none x w j).trans ?_
  rw [product_dims_eq]
  exact (Ideal.dotGeneral_apply _ none .single x w j).symm

/-! ## The inverse square root of the degree -/

/-- The word `0x3F800000` is the float `1.0`. -/
theorem one_f32 : Ideal.ofBits .f32 0x3F800000#32 = 1 := by
  simp [Ideal.ofBits, Ideal.ieee, -EReal.coe_mul]; norm_num

/-- On a positive extended real the reciprocal square root is one over the square root: `0` at `⊤`, the real
    `(sqrt r)⁻¹` at a positive real `r`. -/
theorem rsqrt_eq_one_div_sqrt {x : EReal} (hx : 0 < x) : Ideal.rsqrt x = Ideal.div 1 (Ideal.sqrt x) := by
  induction x using EReal.rec with
  | bot => exact absurd hx (not_lt.mpr bot_le)
  | top =>
    show (0 : EReal) = Ideal.div 1 ⊤
    unfold Ideal.div
    rw [if_neg EReal.top_ne_zero, EReal.inv_top, mul_zero]
  | coe r =>
    have hr : 0 < r := EReal.coe_pos.mp hx
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div_coe hs, one_mul, one_div]

/-- The two selections agree at every extended real: they test the same comparison, and where it holds the entry
    is positive. -/
theorem where_pos_rsqrt (x : EReal) :
    Scalar.select (Ideal.cmp .ogt x 0) (Ideal.rsqrt x) (0 : EReal)
      = Scalar.select (Ideal.cmp .ogt x 0) (Ideal.div 1 (Ideal.sqrt x)) 0 := by
  by_cases h : 0 < x
  · rw [rsqrt_eq_one_div_sqrt h]
  · have hc : Ideal.cmp .ogt x 0 = 0#1 := by
      show BitVec.ofBool (decide (0 < x)) = 0#1
      rw [decide_eq_false h]; rfl
    rw [hc]; rfl

/-- The kernel's selection on the [1, 10000] view of the degree vector, read back as a vector, is the reference's
    selection on the vector. -/
theorem invSqrt_is_quotient (d : FVec Ideal S10000 .f32) :
    shapeCast S10000 (Gen.k0_pay1 (F := Ideal) (shapeCast S1x10000 d shapeCasts_S10000_S1x10000)) shapeCasts_S1x10000_S10000
      = select (cmpf .ogt d (broadcastInDim S10000 ![] bcast_S_S10000 (constant (F := Ideal) S_ .f32 0x00000000#32)))
          (Host.divf (F := Ideal) (broadcastInDim S10000 ![] bcast_S_S10000 (constant (F := Ideal) S_ .f32 0x3F800000#32)) (Host.sqrt (F := Ideal) d))
          (broadcastInDim S10000 ![] bcast_S_S10000 (id (constant (F := Ideal) S_ .f32 0x00000000#32))) := by
  funext i
  obtain ⟨r, rfl⟩ : ∃ r : Fin 10000, i = ix1 r := ⟨i 0, eq_ix1 i⟩
  refine (shapeCast_1a_a_apply _ shapeCasts_S1x10000_S10000 r).trans ?_
  unfold Gen.k0_pay1
  show Scalar.select (Ideal.cmp .ogt (shapeCast S1x10000 (shapeCast S1x10000 d shapeCasts_S10000_S1x10000) shapeCasts_S1x10000_S1x10000 (ix2 (0 : Fin 1) r)) (Ideal.ofBits .f32 0x00000000#32))
        (Ideal.rsqrt (shapeCast S1x10000 (shapeCast S1x10000 d shapeCasts_S10000_S1x10000) shapeCasts_S1x10000_S1x10000 (ix2 (0 : Fin 1) r))) (Ideal.ofBits .f32 0x00000000#32)
      = Scalar.select (Ideal.cmp .ogt (d (ix1 r)) (Ideal.ofBits .f32 0x00000000#32))
        (Ideal.div (Ideal.ofBits .f32 0x3F800000#32) (Ideal.sqrt (d (ix1 r)))) (Ideal.ofBits .f32 0x00000000#32)
  rw [shapeCast_self, shapeCast_a_1a_apply d shapeCasts_S10000_S1x10000 0 r, Ideal.ofBits_zero_f32, one_f32]
  exact where_pos_rsqrt (d (ix1 r))

end Cert.KernelIdeal.Hand
-- ==== Proof.HeadsAsHostOps.lean ====
/- The two heads' payloads are the reference's host operations, at the ideal values.

   Each head of the last region is: the mean row times a [64,32] matrix into a zero accumulator, plus the [32] bias
   seen as a [1,32] row, clamped below at zero, times a second matrix into a zero accumulator, plus the second bias seen
   as a row. The reference writes the same with `dot_general`, `broadcast_in_dim` along a new leading unit axis, and
   `maximum` against a broadcast scalar zero. Index by index the two agree: a matrix product into a zero accumulator
   and a `dot_general` are both the plain sum over the contracted axis; a shape cast [n] → [1,n] and a
   `broadcast_in_dim` along axis 1 both read the bias at the column coordinate; both zero rows hold the zero word. -/
import proofs.«107159_g82575041232963_cont_9to1c4b_479_20_alg».proof.Proof.Gen.KernelIdeal.Skeleton
import proofs.«107159_g82575041232963_cont_9to1c4b_479_20_alg».proof.Proof.Gen.ReferenceIdeal
import Idealize.ShloMosaic.PureOps.Ideal.Laws
import Idealize.ShloMosaic.Lib.Pipeline.Value

noncomputable section

namespace Cert.KernelIdeal.Hand

open Cert.KernelIdeal Cert.KernelIdeal.Gen Idealize.ShloMosaic Idealize.ShloMosaic.TcCoe Idealize.SL.Sem

/-- A matrix product into the zero accumulator is the host's `dot_general` of the same dimension numbers: at each
    output index both are the sum, over the contracted axis, of the operands' products. -/
theorem matmul_zero_eq_dotGeneral {sl sr so : Shape} {φ₁ φ₂ : FTy} (d : DotDims sl sr so) (prec : Option ContractPrecision)
    (x : FVec Ideal sl φ₁) (y : FVec Ideal sr φ₂) :
    matmul (F := Ideal) d prec x y (constant (F := Ideal) so .f32 0x00000000#32) = Host.dotGeneral (F := Ideal) d prec x y := by
  funext j
  show FloatOps.matmul d prec x y (constant so .f32 0x00000000#32) j = FloatOps.dotGeneral d prec .single x y j
  rw [Ideal.matmul_constant_zero_apply, Ideal.dotGeneral_apply]

/-- The two programs' dimension records are the same data. -/
theorem dot_mean_hidden_eq : Cert.KernelIdeal.dot_S1x64_S64x32_S1x32_1_0_0_1_n_n = Cert.ReferenceIdeal.dot_S1x64_S64x32_S1x32_1_0_0_1_n_n := rfl
theorem dot_hidden_three_eq : Cert.KernelIdeal.dot_S1x32_S32x3_S1x3_1_0_0_1_n_n = Cert.ReferenceIdeal.dot_S1x32_S32x3_S1x3_1_0_0_1_n_n := rfl
theorem dot_hidden_one_eq : Cert.KernelIdeal.dot_S1x32_S32x1_S1x1_1_0_0_1_n_n = Cert.ReferenceIdeal.dot_S1x32_S32x1_S1x1_1_0_0_1_n_n := rfl

/-- A vector of extent `n` seen as a [1,n] row: the shape cast that adds the leading unit axis and the
    `broadcast_in_dim` that sends the vector's axis to axis 1 both read the vector at the column coordinate. -/
theorem row_of_vec {α : Type} {n : Nat} (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ (![1] : Fin 1 → Fin 2) hb v := by
  funext j
  rw [shapeCast_addUnit_apply ![n] v hc j]
  refine (broadcastInDim_apply _ hb v j (fun a => j a.succ) fun a => ?_).symm
  have ha : a = 0 := Subsingleton.elim _ _
  subst ha
  have hj : (j 1).val < n := (j 1).isLt
  show (j 1).val = if n = 1 then 0 else (j 1).val
  split_ifs with h1
  · omega
  · rfl

/-- The row of zeros: the scalar zero splat and the `broadcast_in_dim` of the rank-zero constant zero. -/
theorem zero_row_eq (t : Shape) (hb : (⟨0, ![]⟩ : Shape).BroadcastsInDim t (![] : Fin 0 → Fin t.rank)) :
    broadcast t (Scalar.ofBits (F := Ideal) .f32 0x00000000#32)
      = broadcastInDim t (![] : Fin 0 → Fin t.rank) hb (constant (F := Ideal) ⟨0, ![]⟩ .f32 0x00000000#32) := rfl

/-- THE FIRST HEAD: the body's [1,3] payload is the reference's host operations on the same five arrays. -/
theorem heads0_is_host (hm : FVec Ideal S1x64 .f32) (wc1 : FVec Ideal S64x32 .f32) (bc1 : FVec Ideal S32 .f32)
    (wc2 : FVec Ideal S32x3 .f32) (bc2 : FVec Ideal S3 .f32) :
    Gen.k5_pay2 (F := Ideal) hm wc1 bc1 wc2 bc2
      = addf (Host.dotGeneral (F := Ideal) Cert.ReferenceIdeal.dot_S1x32_S32x3_S1x3_1_0_0_1_n_n none
            (maximumf
              (addf (Host.dotGeneral (F := Ideal) Cert.ReferenceIdeal.dot_S1x64_S64x32_S1x32_1_0_0_1_n_n none hm wc1)
                (broadcastInDim Cert.ReferenceIdeal.S1x32 ![1] Cert.ReferenceIdeal.Facts₀.bcast_S32_S1x32_1 bc1))
              (broadcastInDim Cert.ReferenceIdeal.S1x32 ![] Cert.ReferenceIdeal.Facts₀.bcast_S_S1x32
                (constant (F := Ideal) Cert.ReferenceIdeal.S_ .f32 0x00000000#32)))
            wc2)
          (broadcastInDim Cert.ReferenceIdeal.S1x3 ![1] Cert.ReferenceIdeal.Facts₀.bcast_S3_S1x3_1 bc2) := by
  unfold Gen.k5_pay2 Gen.k5_pay1
  dsimp only
  rw [shapeCast_self, matmul_zero_eq_dotGeneral, matmul_zero_eq_dotGeneral, dot_mean_hidden_eq, dot_hidden_three_eq]
  rw [row_of_vec bc1 shapeCasts_S32_S1x32 Cert.ReferenceIdeal.Facts₀.bcast_S32_S1x32_1,
    row_of_vec bc2 shapeCasts_S3_S1x3 Cert.ReferenceIdeal.Facts₀.bcast_S3_S1x3_1,
    zero_row_eq S1x32 Cert.ReferenceIdeal.Facts₀.bcast_S_S1x32]

/-- THE SECOND HEAD: the body's [1,1] payload is the reference's host operations on the same five arrays. -/
theorem heads1_is_host (hm : FVec Ideal S1x64 .f32) (wr1 : FVec Ideal S64x32 .f32) (br1 : FVec Ideal S32 .f32)
    (wr2 : FVec Ideal S32x1 .f32) (br2 : FVec Ideal S1 .f32) :
    Gen.k5_pay3 (F := Ideal) hm wr1 br1 wr2 br2
      = addf (Host.dotGeneral (F := Ideal) Cert.ReferenceIdeal.dot_S1x32_S32x1_S1x1_1_0_0_1_n_n none
            (maximumf
              (addf (Host.dotGeneral (F := Ideal) Cert.ReferenceIdeal.dot_S1x64_S64x32_S1x32_1_0_0_1_n_n none hm wr1)
                (broadcastInDim Cert.ReferenceIdeal.S1x32 ![1] Cert.ReferenceIdeal.Facts₀.bcast_S32_S1x32_1 br1))
              (broadcastInDim Cert.ReferenceIdeal.S1x32 ![] Cert.ReferenceIdeal.Facts₀.bcast_S_S1x32
                (constant (F := Ideal) Cert.ReferenceIdeal.S_ .f32 0x00000000#32)))
            wr2)
          (broadcastInDim Cert.ReferenceIdeal.S1x1 ![1] Cert.ReferenceIdeal.Facts₀.bcast_S1_S1x1_1 br2) := by
  unfold Gen.k5_pay3 Gen.k5_pay1
  dsimp only
  rw [shapeCast_self, matmul_zero_eq_dotGeneral, matmul_zero_eq_dotGeneral, dot_mean_hidden_eq, dot_hidden_one_eq]
  rw [row_of_vec br1 shapeCasts_S32_S1x32 Cert.ReferenceIdeal.Facts₀.bcast_S32_S1x32_1,
    row_of_vec br2 shapeCasts_S1_S1x1 Cert.ReferenceIdeal.Facts₀.bcast_S1_S1x1_1,
    zero_row_eq S1x32 Cert.ReferenceIdeal.Facts₀.bcast_S_S1x32]

end Cert.KernelIdeal.Hand
-- ==== Proof.RowScaleLaws.lean ====
/- Scaling each row of a matrix by that row's entry of a one-column matrix, as one function of the two arrays, index by
   index; the body's block product read at an index; and the column a vector becomes when it is reshaped to one column, which
   is the column it becomes when it is broadcast along a new unit axis. -/
import proofs.«107159_g82575041232963_cont_9to1c4b_479_20_alg».proof.KernelIdeal
import proofs.«107159_g82575041232963_cont_9to1c4b_479_20_alg».proof.ReferenceIdeal
import proofs.«107159_g82575041232963_cont_9to1c4b_479_20_alg».proof.Proof.Gen.KernelIdeal.Skeleton
import proofs.«107159_g82575041232963_cont_9to1c4b_479_20_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Hand

open Cert.KernelIdeal Cert.KernelIdeal.Gen Idealize.ShloMosaic Idealize.ShloMosaic.TcCoe Idealize.SL.Sem
open Idealize.ShloMosaic.ValueIdx

/-- Every row of `rows` multiplied by that row's one entry of the column `scale`, in the order the reference writes the
    product: the column broadcast along the row, times the rows. -/
def rowScaled (rows : FVec Ideal S330000x64 .f32) (scale : FVec Ideal S330000x1 .f32) : FVec Ideal S330000x64 .f32 :=
  mulf (broadcastInDim S330000x64 ![0, 1] Cert.ReferenceIdeal.Facts₀.bcast_S330000x1_S330000x64_0_1 scale) rows

/-- A one-column block broadcast along its rows reads, at row `p` and any column, the column's entry of row `p`. -/
theorem broadcastTo_column_apply {a b : ℕ} (v : (⟨2, ![a, 1]⟩ : Shape).Idx → EReal)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at row `p`, column `q` of a block: the rows' entry there times the column's entry of row `p`. -/
theorem payload_at (x0 : Vec Ideal S6600x64 .f32) (x1 : Vec Ideal S6600x1 .f32) (p : Fin 6600) (q : Fin 64) :
    Gen.k2_pay1 (F := Ideal) x0 x1 (ix2 p q) = x0 (ix2 p q) * x1 (ix2 p (0 : Fin 1)) := by
  unfold Gen.k2_pay1
  rw [mulf_apply, shapeCast_self, shapeCast_self]
  exact congrArg (x0 (ix2 p q) * ·) (broadcastTo_column_apply x1 _ p q)

/-- The same product in the second row-scaling body. -/
theorem payload3_at (x0 : Vec Ideal S6600x64 .f32) (x1 : Vec Ideal S6600x1 .f32) (p : Fin 6600) (q : Fin 64) :
    Gen.k3_pay1 (F := Ideal) x0 x1 (ix2 p q) = x0 (ix2 p q) * x1 (ix2 p (0 : Fin 1)) := by
  unfold Gen.k3_pay1
  rw [mulf_apply, shapeCast_self, shapeCast_self]
  exact congrArg (x0 (ix2 p q) * ·) (broadcastTo_column_apply x1 _ p q)

/-- The same product in the third row-scaling body. -/
theorem payload4_at (x0 : Vec Ideal S6600x64 .f32) (x1 : Vec Ideal S6600x1 .f32) (p : Fin 6600) (q : Fin 64) :
    Gen.k4_pay1 (F := Ideal) x0 x1 (ix2 p q) = x0 (ix2 p q) * x1 (ix2 p (0 : Fin 1)) := by
  unfold Gen.k4_pay1
  rw [mulf_apply, shapeCast_self, shapeCast_self]
  exact congrArg (x0 (ix2 p q) * ·) (broadcastTo_column_apply x1 _ p q)

/-- The scaled rows at row `r`, column `j`: the column's entry of row `r` times the rows' entry there. -/
theorem rowScaled_apply (rows : FVec Ideal S330000x64 .f32) (scale : FVec Ideal S330000x1 .f32) (r : Fin 330000) (j : Fin 64) :
    rowScaled rows scale (ix2 r j) = scale (ix2 r (0 : Fin 1)) * rows (ix2 r j) := by
  unfold rowScaled
  rw [mulf_apply]
  refine congrArg (· * rows (ix2 r j)) ?_
  refine broadcastInDim_apply _ _ scale (ix2 r j) (ix2 r (0 : Fin 1)) fun ax => ?_
  match ax with
  | ⟨0, _⟩ => rfl
  | ⟨1, _⟩ => rfl

/-- A vector reshaped to one column is the vector broadcast along a new unit axis: both read, at row `r`, the vector's
    entry `r`. -/
theorem column_cast (n : FVec Ideal S330000 .f32) :
    shapeCast S330000x1 n Cert.KernelIdeal.Facts₀.shapeCasts_S330000_S330000x1
      = broadcastInDim S330000x1 ![0] Cert.ReferenceIdeal.Facts₀.bcast_S330000_S330000x1_0 n := by
  funext i
  obtain ⟨r, u, rfl⟩ : ∃ (r : Fin 330000) (u : Fin 1), i = ix2 r u := ⟨i 0, i 1, eq_ix2 i⟩
  have hu : u.val = 0 := by omega
  rw [shapeCast_apply n _ (ix2 r u) (ix1 r) (by
    rw [Shape.rowMajor_val_two, Shape.rowMajor_val_one]
    show r.val = r.val * 1 + u.val
    omega)]
  refine (broadcastInDim_apply _ _ n (ix2 r u) (ix1 r) fun ax => ?_).symm
  match ax with
  | ⟨0, _⟩ => rfl

end Cert.KernelIdeal.Hand

end
-- ==== Proof.CrossNorm.lean ====
/- The edge norm, the gathers and the small stretches: the reference's statements read against the kernel program's host stretches and its regions' payloads. -/
import proofs.«107159_g82575041232963_cont_9to1c4b_479_20_alg».proof.Proof.Gen.KernelIdeal.Launch
import proofs.«107159_g82575041232963_cont_9to1c4b_479_20_alg».proof.Proof.RefOpsA
import proofs.«107159_g82575041232963_cont_9to1c4b_479_20_alg».proof.Proof.RefOpsB
import proofs.«107159_g82575041232963_cont_9to1c4b_479_20_alg».proof.Proof.RefOpsC
import proofs.«107159_g82575041232963_cont_9to1c4b_479_20_alg».proof.Proof.RefOpsD
import proofs.«107159_g82575041232963_cont_9to1c4b_479_20_alg».proof.Proof.LibEvalLines
import proofs.«107159_g82575041232963_cont_9to1c4b_479_20_alg».proof.Proof.PayloadsAsHostOps
import proofs.«107159_g82575041232963_cont_9to1c4b_479_20_alg».proof.Proof.HeadsAsHostOps
import proofs.«107159_g82575041232963_cont_9to1c4b_479_20_alg».proof.Proof.RowScaleLaws
import Idealize.ShloMosaic.PureOps.Ideal

noncomputable section

namespace Cert.Cross

open Idealize.ShloMosaic Idealize.ShloMosaic.TcCoe Idealize.SL.Sem Idealize.ShloMosaic.StableHlo

/-- Buffer contents of the kernel program and of the reference program, at the ideal instance. -/
local notation "KV" => Valuation Cert.KernelIdeal.τ Cert.KernelIdeal.sig (Elt Ideal)
local notation "RV" => Valuation Cert.ReferenceIdeal.τ Cert.ReferenceIdeal.sig (Elt Ideal)

/-- The inverse root of the degree as a vector is the region's one-row result recast. -/
theorem inverse_root_vector (V : KV) :
    after (Cert.KernelIdeal.Gen.hostOps1 (F := Ideal)) V (Proc.devRef .tc Cert.KernelIdeal.main_v13)
      = shapeCast Cert.KernelIdeal.S10000 (V (Proc.devRef .tc Cert.KernelIdeal.main_v12)) Cert.KernelIdeal.Facts₀.shapeCasts_S1x10000_S10000 := by
  eval_lines
  rfl
/-- The edge norm, the product of the inverse roots gathered at the sources and at the targets (copy 1): the same operations on
    both sides, from equal index lists and an equal inverse-root vector. -/
theorem norm_1 (V : KV) (V' : RV) (h0 : V (Proc.devRef .tc Cert.KernelIdeal.main_v5) = V' (Proc.devRef .tc Cert.ReferenceIdeal.main_v6)) (h1 : V (Proc.devRef .tc Cert.KernelIdeal.main_v6) = V' (Proc.devRef .tc Cert.ReferenceIdeal.main_v7))
    (h2 : shapeCast Cert.KernelIdeal.S10000 (V (Proc.devRef .tc Cert.KernelIdeal.main_v12)) Cert.KernelIdeal.Facts₀.shapeCasts_S1x10000_S10000 = V' (Proc.devRef .tc Cert.ReferenceIdeal.main_v17)) :
    after (Cert.KernelIdeal.Gen.hostOps1 (F := Ideal)) V (Proc.devRef .tc Cert.KernelIdeal.main_v28)
      = after (Cert.ReferenceIdeal.Hand.refChunk_nrm1 (F := Ideal)) V' (Proc.devRef .tc Cert.ReferenceIdeal.main_v32) := by
  eval_lines
  have h2' : (fun i => shapeCast Cert.KernelIdeal.main_v13.ty.shape (V (Proc.devRef .tc Cert.KernelIdeal.main_v12)) Cert.KernelIdeal.Gen.shapeCasts_S1x10000_S10000 i) = V' (Proc.devRef .tc Cert.ReferenceIdeal.main_v17) := h2
  rw [h2']
  try rw [h0]
  try rw [h1]
  rfl
/-- The reference's masked quotient 1 / sqrt(degree) (copy 1) is the kernel's masked inverse root of the same degree,
    recast to and from a one-row matrix. -/
theorem inverse_root_1 (V' : RV) (d : FVec Ideal Cert.KernelIdeal.S10000 .f32) (hd : V' (Proc.devRef .tc Cert.ReferenceIdeal.main_v11) = d) :
    after (Cert.ReferenceIdeal.Hand.refChunk_inv1 (F := Ideal)) V' (Proc.devRef .tc Cert.ReferenceIdeal.main_v17)
      = shapeCast Cert.KernelIdeal.S10000 (Cert.KernelIdeal.Gen.k0_pay1 (F := Ideal) (shapeCast Cert.KernelIdeal.S1x10000 d Cert.KernelIdeal.Facts₀.shapeCasts_S10000_S1x10000)) Cert.KernelIdeal.Facts₀.shapeCasts_S1x10000_S10000 := by
  rw [Cert.KernelIdeal.Hand.invSqrt_is_quotient]
  eval_lines
  rw [hd]
  rfl
/-- The reference's norm column (copy 1), a broadcast along a new unit axis, is the norm vector recast to a column. -/
theorem norm_column_ref_1 (V' : RV) (n : FVec Ideal Cert.KernelIdeal.S330000 .f32) (hn : V' (Proc.devRef .tc Cert.ReferenceIdeal.main_v32) = n) :
    after (Cert.ReferenceIdeal.Hand.refChunk_col1 (F := Ideal)) V' (Proc.devRef .tc Cert.ReferenceIdeal.main_v33)
      = shapeCast Cert.KernelIdeal.S330000x1 n Cert.KernelIdeal.Facts₀.shapeCasts_S330000_S330000x1 := by
  rw [Cert.KernelIdeal.Hand.column_cast]
  eval_lines
  rw [hn]
/-- The reference's scaled messages (copy 1): the norm column broadcast along the rows, times the gathered rows. -/
theorem scaled_ref_1 (V' : RV) (rows : FVec Ideal Cert.KernelIdeal.S330000x64 .f32) (s : FVec Ideal Cert.KernelIdeal.S330000x1 .f32)
    (hr : V' (Proc.devRef .tc Cert.ReferenceIdeal.main_v34) = rows) (hs : V' (Proc.devRef .tc Cert.ReferenceIdeal.main_v33) = s) :
    after (Cert.ReferenceIdeal.Hand.refChunk_scl1 (F := Ideal)) V' (Proc.devRef .tc Cert.ReferenceIdeal.main_v36) = Cert.KernelIdeal.Hand.rowScaled rows s := by
  unfold Cert.KernelIdeal.Hand.rowScaled
  eval_lines
  rw [hr, hs]
/-- The edge norm, the product of the inverse roots gathered at the sources and at the targets (copy 2): the same operations on
    both sides, from equal index lists and an equal inverse-root vector. -/
theorem norm_2 (V : KV) (V' : RV) (h0 : V (Proc.devRef .tc Cert.KernelIdeal.main_v5) = V' (Proc.devRef .tc Cert.ReferenceIdeal.main_v65)) (h1 : V (Proc.devRef .tc Cert.KernelIdeal.main_v6) = V' (Proc.devRef .tc Cert.ReferenceIdeal.main_v66))
    (h2 : shapeCast Cert.KernelIdeal.S10000 (V (Proc.devRef .tc Cert.KernelIdeal.main_v12)) Cert.KernelIdeal.Facts₀.shapeCasts_S1x10000_S10000 = V' (Proc.devRef .tc Cert.ReferenceIdeal.main_v76)) :
    after (Cert.KernelIdeal.Gen.hostOps1 (F := Ideal)) V (Proc.devRef .tc Cert.KernelIdeal.main_v28)
      = after (Cert.ReferenceIdeal.Hand.refChunk_nrm2 (F := Ideal)) V' (Proc.devRef .tc Cert.ReferenceIdeal.main_v91) := by
  eval_lines
  have h2' : (fun i => shapeCast Cert.KernelIdeal.main_v13.ty.shape (V (Proc.devRef .tc Cert.KernelIdeal.main_v12)) Cert.KernelIdeal.Gen.shapeCasts_S1x10000_S10000 i) = V' (Proc.devRef .tc Cert.ReferenceIdeal.main_v76) := h2
  rw [h2']
  try rw [h0]
  try rw [h1]
  rfl
/-- The reference's masked quotient 1 / sqrt(degree) (copy 2) is the kernel's masked inverse root of the same degree,
    recast to and from a one-row matrix. -/
theorem inverse_root_2 (V' : RV) (d : FVec Ideal Cert.KernelIdeal.S10000 .f32) (hd : V' (Proc.devRef .tc Cert.ReferenceIdeal.main_v70) = d) :
    after (Cert.ReferenceIdeal.Hand.refChunk_inv2 (F := Ideal)) V' (Proc.devRef .tc Cert.ReferenceIdeal.main_v76)
      = shapeCast Cert.KernelIdeal.S10000 (Cert.KernelIdeal.Gen.k0_pay1 (F := Ideal) (shapeCast Cert.KernelIdeal.S1x10000 d Cert.KernelIdeal.Facts₀.shapeCasts_S10000_S1x10000)) Cert.KernelIdeal.Facts₀.shapeCasts_S1x10000_S10000 := by
  rw [Cert.KernelIdeal.Hand.invSqrt_is_quotient]
  eval_lines
  rw [hd]
  rfl
/-- The reference's norm column (copy 2), a broadcast along a new unit axis, is the norm vector recast to a column. -/
theorem norm_column_ref_2 (V' : RV) (n : FVec Ideal Cert.KernelIdeal.S330000 .f32) (hn : V' (Proc.devRef .tc Cert.ReferenceIdeal.main_v91) = n) :
    after (Cert.ReferenceIdeal.Hand.refChunk_col2 (F := Ideal)) V' (Proc.devRef .tc Cert.ReferenceIdeal.main_v92)
      = shapeCast Cert.KernelIdeal.S330000x1 n Cert.KernelIdeal.Facts₀.shapeCasts_S330000_S330000x1 := by
  rw [Cert.KernelIdeal.Hand.column_cast]
  eval_lines
  rw [hn]
/-- The reference's scaled messages (copy 2): the norm column broadcast along the rows, times the gathered rows. -/
theorem scaled_ref_2 (V' : RV) (rows : FVec Ideal Cert.KernelIdeal.S330000x64 .f32) (s : FVec Ideal Cert.KernelIdeal.S330000x1 .f32)
    (hr : V' (Proc.devRef .tc Cert.ReferenceIdeal.main_v93) = rows) (hs : V' (Proc.devRef .tc Cert.ReferenceIdeal.main_v92) = s) :
    after (Cert.ReferenceIdeal.Hand.refChunk_scl2 (F := Ideal)) V' (Proc.devRef .tc Cert.ReferenceIdeal.main_v95) = Cert.KernelIdeal.Hand.rowScaled rows s := by
  unfold Cert.KernelIdeal.Hand.rowScaled
  eval_lines
  rw [hr, hs]
/-- The edge norm, the product of the inverse roots gathered at the sources and at the targets (copy 3): the same operations on
    both sides, from equal index lists and an equal inverse-root vector. -/
theorem norm_3 (V : KV) (V' : RV) (h0 : V (Proc.devRef .tc Cert.KernelIdeal.main_v5) = V' (Proc.devRef .tc Cert.ReferenceIdeal.main_v124)) (h1 : V (Proc.devRef .tc Cert.KernelIdeal.main_v6) = V' (Proc.devRef .tc Cert.ReferenceIdeal.main_v125))
    (h2 : shapeCast Cert.KernelIdeal.S10000 (V (Proc.devRef .tc Cert.KernelIdeal.main_v12)) Cert.KernelIdeal.Facts₀.shapeCasts_S1x10000_S10000 = V' (Proc.devRef .tc Cert.ReferenceIdeal.main_v135)) :
    after (Cert.KernelIdeal.Gen.hostOps1 (F := Ideal)) V (Proc.devRef .tc Cert.KernelIdeal.main_v28)
      = after (Cert.ReferenceIdeal.Hand.refChunk_nrm3b (F := Ideal)) (after (Cert.ReferenceIdeal.Hand.refChunk_nrm3a (F := Ideal)) V') (Proc.devRef .tc Cert.ReferenceIdeal.main_v150) := by
  eval_lines
  have h2' : (fun i => shapeCast Cert.KernelIdeal.main_v13.ty.shape (V (Proc.devRef .tc Cert.KernelIdeal.main_v12)) Cert.KernelIdeal.Gen.shapeCasts_S1x10000_S10000 i) = V' (Proc.devRef .tc Cert.ReferenceIdeal.main_v135) := h2
  rw [h2']
  try rw [h0]
  try rw [h1]
  rfl
/-- The reference's masked quotient 1 / sqrt(degree) (copy 3) is the kernel's masked inverse root of the same degree,
    recast to and from a one-row matrix. -/
theorem inverse_root_3 (V' : RV) (d : FVec Ideal Cert.KernelIdeal.S10000 .f32) (hd : V' (Proc.devRef .tc Cert.ReferenceIdeal.main_v129) = d) :
    after (Cert.ReferenceIdeal.Hand.refChunk_inv3 (F := Ideal)) V' (Proc.devRef .tc Cert.ReferenceIdeal.main_v135)
      = shapeCast Cert.KernelIdeal.S10000 (Cert.KernelIdeal.Gen.k0_pay1 (F := Ideal) (shapeCast Cert.KernelIdeal.S1x10000 d Cert.KernelIdeal.Facts₀.shapeCasts_S10000_S1x10000)) Cert.KernelIdeal.Facts₀.shapeCasts_S1x10000_S10000 := by
  rw [Cert.KernelIdeal.Hand.invSqrt_is_quotient]
  eval_lines
  rw [hd]
  rfl
/-- The reference's norm column (copy 3), a broadcast along a new unit axis, is the norm vector recast to a column. -/
theorem norm_column_ref_3 (V' : RV) (n : FVec Ideal Cert.KernelIdeal.S330000 .f32) (hn : V' (Proc.devRef .tc Cert.ReferenceIdeal.main_v150) = n) :
    after (Cert.ReferenceIdeal.Hand.refChunk_col3 (F := Ideal)) V' (Proc.devRef .tc Cert.ReferenceIdeal.main_v151)
      = shapeCast Cert.KernelIdeal.S330000x1 n Cert.KernelIdeal.Facts₀.shapeCasts_S330000_S330000x1 := by
  rw [Cert.KernelIdeal.Hand.column_cast]
  eval_lines
  rw [hn]
/-- The reference's scaled messages (copy 3): the norm column broadcast along the rows, times the gathered rows. -/
theorem scaled_ref_3 (V' : RV) (rows : FVec Ideal Cert.KernelIdeal.S330000x64 .f32) (s : FVec Ideal Cert.KernelIdeal.S330000x1 .f32)
    (hr : V' (Proc.devRef .tc Cert.ReferenceIdeal.main_v152) = rows) (hs : V' (Proc.devRef .tc Cert.ReferenceIdeal.main_v151) = s) :
    after (Cert.ReferenceIdeal.Hand.refChunk_scl3 (F := Ideal)) V' (Proc.devRef .tc Cert.ReferenceIdeal.main_v154) = Cert.KernelIdeal.Hand.rowScaled rows s := by
  unfold Cert.KernelIdeal.Hand.rowScaled
  eval_lines
  rw [hr, hs]
/-- The reference's first matrix product is the kernel region's matmul into a zero accumulator. -/
theorem first_product_ref (V' : RV) (x : FVec Ideal Cert.KernelIdeal.S10000x128 .f32) (w : FVec Ideal Cert.KernelIdeal.S128x64 .f32)
    (hx : V' (Proc.devRef .tc Cert.ReferenceIdeal.main_arg0) = x) (hw : V' (Proc.devRef .tc Cert.ReferenceIdeal.main_arg2) = w) :
    after (Cert.ReferenceIdeal.Hand.refChunk_xw1 (F := Ideal)) V' (Proc.devRef .tc Cert.ReferenceIdeal.main_v4) = Cert.KernelIdeal.Gen.k1_pay1 (F := Ideal) x w := by
  rw [Cert.KernelIdeal.Hand.product_is_dot]
  eval_lines
  rw [hx, hw]
/-- The reference's first head on the mean row is the kernel region's first payload. -/
theorem head0_ref (V' : RV) (hm : FVec Ideal Cert.KernelIdeal.S1x64 .f32) (w1 : FVec Ideal Cert.KernelIdeal.S64x32 .f32) (b1 : FVec Ideal Cert.KernelIdeal.S32 .f32)
    (w2 : FVec Ideal Cert.KernelIdeal.S32x3 .f32) (b2 : FVec Ideal Cert.KernelIdeal.S3 .f32)
    (h0 : V' (Proc.devRef .tc Cert.ReferenceIdeal.main_v183) = hm) (h1 : V' (Proc.devRef .tc Cert.ReferenceIdeal.main_arg14) = w1) (h2 : V' (Proc.devRef .tc Cert.ReferenceIdeal.main_arg15) = b1) (h3 : V' (Proc.devRef .tc Cert.ReferenceIdeal.main_arg16) = w2) (h4 : V' (Proc.devRef .tc Cert.ReferenceIdeal.main_arg17) = b2) :
    after (Cert.ReferenceIdeal.Hand.refChunk_head0 (F := Ideal)) V' (Proc.devRef .tc Cert.ReferenceIdeal.main_v190) = Cert.KernelIdeal.Gen.k5_pay2 (F := Ideal) hm w1 b1 w2 b2 := by
  rw [Cert.KernelIdeal.Hand.heads0_is_host]
  eval_lines
  rw [h0, h1, h2, h3, h4]
  rfl
/-- The reference's second head on the mean row is the kernel region's second payload. -/
theorem head1_ref (V' : RV) (hm : FVec Ideal Cert.KernelIdeal.S1x64 .f32) (w1 : FVec Ideal Cert.KernelIdeal.S64x32 .f32) (b1 : FVec Ideal Cert.KernelIdeal.S32 .f32)
    (w2 : FVec Ideal Cert.KernelIdeal.S32x1 .f32) (b2 : FVec Ideal Cert.KernelIdeal.S1 .f32)
    (h0 : V' (Proc.devRef .tc Cert.ReferenceIdeal.main_v183) = hm) (h1 : V' (Proc.devRef .tc Cert.ReferenceIdeal.main_arg18) = w1) (h2 : V' (Proc.devRef .tc Cert.ReferenceIdeal.main_arg19) = b1) (h3 : V' (Proc.devRef .tc Cert.ReferenceIdeal.main_arg20) = w2) (h4 : V' (Proc.devRef .tc Cert.ReferenceIdeal.main_arg21) = b2) :
    after (Cert.ReferenceIdeal.Hand.refChunk_head1b (F := Ideal)) (after (Cert.ReferenceIdeal.Hand.refChunk_head1a (F := Ideal)) V') (Proc.devRef .tc Cert.ReferenceIdeal.main_v197) = Cert.KernelIdeal.Gen.k5_pay3 (F := Ideal) hm w1 b1 w2 b2 := by
  rw [Cert.KernelIdeal.Hand.heads1_is_host]
  eval_lines
  rw [h0, h1, h2, h3, h4]
  rfl
/-- The first layer's gathered source rows: the same gather (with jnp's index normalisation and out-of-range fill) of equal products at equal source lists. -/
theorem take_1 (V : KV) (V' : RV) (h0 : V (Proc.devRef .tc Cert.KernelIdeal.main_v29) = V' (Proc.devRef .tc Cert.ReferenceIdeal.main_v4)) (h1 : V (Proc.devRef .tc Cert.KernelIdeal.main_v5) = V' (Proc.devRef .tc Cert.ReferenceIdeal.main_v6)) :
    after (Cert.KernelIdeal.Gen.hostOps2 (F := Ideal)) V (Proc.devRef .tc Cert.KernelIdeal.main_v30)
      = after (Cert.ReferenceIdeal.Hand.refChunk_take1 (F := Ideal)) V' (Proc.devRef .tc Cert.ReferenceIdeal.main_v34) := by
  eval_lines
  try rw [h0]
  try rw [h1]
  rfl
/-- The norm vector as a column, as the first row-scaling region takes it. -/
theorem norm_column_1 (V : KV) :
    after (Cert.KernelIdeal.Gen.hostOps2_1 (F := Ideal)) (after (Cert.KernelIdeal.Gen.hostOps2 (F := Ideal)) V) (Proc.devRef .tc Cert.KernelIdeal.main_v31)
      = shapeCast Cert.KernelIdeal.S330000x1 (V (Proc.devRef .tc Cert.KernelIdeal.main_v28)) Cert.KernelIdeal.Facts₀.shapeCasts_S330000_S330000x1 := by
  eval_lines
  rfl
/-- The first row-scaling region's rows are read after the one-operation stretch that recasts the norm: unchanged by it. -/
theorem take_1_kept (V : KV) :
    after (Cert.KernelIdeal.Gen.hostOps2_1 (F := Ideal)) (after (Cert.KernelIdeal.Gen.hostOps2 (F := Ideal)) V) (Proc.devRef .tc Cert.KernelIdeal.main_v30)
      = after (Cert.KernelIdeal.Gen.hostOps2 (F := Ideal)) V (Proc.devRef .tc Cert.KernelIdeal.main_v30) := by
  rw [show (Cert.KernelIdeal.Gen.hostOps2_1 (F := Ideal)) = [_] from rfl, after_cons, after_nil, reshape_result_ne]
  decide

end Cert.Cross

end
-- ==== Proof.CrossLayer1.lean ====
/- The first layer after its messages are scaled: the scatter-add at the targets, the bias, the batch normalisation, the rectifier, the next layer's matrix product and its gather of source rows. The kernel program's host stretch between its second and third row-scaling regions and the reference's statements do the same operations, so the two folds, evaluated from equal inputs, are one term. -/
import proofs.«107159_g82575041232963_cont_9to1c4b_479_20_alg».proof.Proof.Gen.KernelIdeal.Launch
import proofs.«107159_g82575041232963_cont_9to1c4b_479_20_alg».proof.Proof.RefOpsA
import proofs.«107159_g82575041232963_cont_9to1c4b_479_20_alg».proof.Proof.RefOpsB
import proofs.«107159_g82575041232963_cont_9to1c4b_479_20_alg».proof.Proof.LibEvalLines
import Idealize.ShloMosaic.PureOps.Ideal

noncomputable section

namespace Cert.Cross

open Idealize.ShloMosaic Idealize.ShloMosaic.TcCoe Idealize.SL.Sem Idealize.ShloMosaic.StableHlo

/-- Buffer contents of the kernel program and of the reference program, at the ideal instance. -/
local notation "KV" => Valuation Cert.KernelIdeal.τ Cert.KernelIdeal.sig (Elt Ideal)
local notation "RV" => Valuation Cert.ReferenceIdeal.τ Cert.ReferenceIdeal.sig (Elt Ideal)

set_option maxHeartbeats 1000000 in
/-- From the first layer's scaled messages to the second layer's gathered rows. -/
theorem layer1_to_take2 (V : KV) (V' : RV) (h0 : V (Proc.devRef .tc Cert.KernelIdeal.main_v32) = V' (Proc.devRef .tc Cert.ReferenceIdeal.main_v36)) (h1 : V (Proc.devRef .tc Cert.KernelIdeal.main_v6) = V' (Proc.devRef .tc Cert.ReferenceIdeal.main_v7)) (h2 : V (Proc.devRef .tc Cert.KernelIdeal.main_v5) = V' (Proc.devRef .tc Cert.ReferenceIdeal.main_v65)) (h3 : V (Proc.devRef .tc Cert.KernelIdeal.main_arg3) = V' (Proc.devRef .tc Cert.ReferenceIdeal.main_arg3)) (h4 : V (Proc.devRef .tc Cert.KernelIdeal.main_arg4) = V' (Proc.devRef .tc Cert.ReferenceIdeal.main_arg4)) (h5 : V (Proc.devRef .tc Cert.KernelIdeal.main_arg5) = V' (Proc.devRef .tc Cert.ReferenceIdeal.main_arg5)) (h6 : V (Proc.devRef .tc Cert.KernelIdeal.main_arg6) = V' (Proc.devRef .tc Cert.ReferenceIdeal.main_arg6)) :
    after (Cert.KernelIdeal.Gen.hostOps3_6 (F := Ideal)) (after (Cert.KernelIdeal.Gen.hostOps3_5 (F := Ideal)) (after (Cert.KernelIdeal.Gen.hostOps3_4 (F := Ideal)) (after (Cert.KernelIdeal.Gen.hostOps3_3 (F := Ideal)) (after (Cert.KernelIdeal.Gen.hostOps3_2 (F := Ideal)) (after (Cert.KernelIdeal.Gen.hostOps3_1 (F := Ideal)) (after (Cert.KernelIdeal.Gen.hostOps3 (F := Ideal)) V)))))) (Proc.devRef .tc Cert.KernelIdeal.main_v60)
      = after (Cert.ReferenceIdeal.Hand.refChunk_take2 (F := Ideal)) (after (Cert.ReferenceIdeal.Hand.refChunk_xw2 (F := Ideal)) (after (Cert.ReferenceIdeal.Hand.refChunk_bn1b (F := Ideal)) (after (Cert.ReferenceIdeal.Hand.refChunk_bn1a (F := Ideal)) (after (Cert.ReferenceIdeal.Hand.refChunk_agg1 (F := Ideal)) V')))) (Proc.devRef .tc Cert.ReferenceIdeal.main_v93) := by
  eval_lines
  try rw [h0]
  try rw [h1]
  try rw [h2]
  try rw [h3]
  try rw [h4]
  try rw [h5]
  try rw [h6]
  rfl
/-- The norm vector as a column, as the second row-scaling region takes it. -/
theorem norm_column_2 (V : KV) :
    after (Cert.KernelIdeal.Gen.hostOps3_6 (F := Ideal)) (after (Cert.KernelIdeal.Gen.hostOps3_5 (F := Ideal)) (after (Cert.KernelIdeal.Gen.hostOps3_4 (F := Ideal)) (after (Cert.KernelIdeal.Gen.hostOps3_3 (F := Ideal)) (after (Cert.KernelIdeal.Gen.hostOps3_2 (F := Ideal)) (after (Cert.KernelIdeal.Gen.hostOps3_1 (F := Ideal)) (after (Cert.KernelIdeal.Gen.hostOps3 (F := Ideal)) V)))))) (Proc.devRef .tc Cert.KernelIdeal.main_v61)
      = shapeCast Cert.KernelIdeal.S330000x1 (V (Proc.devRef .tc Cert.KernelIdeal.main_v28)) Cert.KernelIdeal.Facts₀.shapeCasts_S330000_S330000x1 := by
  eval_lines
  rfl

end Cert.Cross

end
-- ==== Proof.CrossLayer2.lean ====
/- The second layer after its messages are scaled, up to the third layer's gathered rows (as for the first layer). -/
import proofs.«107159_g82575041232963_cont_9to1c4b_479_20_alg».proof.Proof.Gen.KernelIdeal.Launch
import proofs.«107159_g82575041232963_cont_9to1c4b_479_20_alg».proof.Proof.RefOpsB
import proofs.«107159_g82575041232963_cont_9to1c4b_479_20_alg».proof.Proof.RefOpsC
import proofs.«107159_g82575041232963_cont_9to1c4b_479_20_alg».proof.Proof.LibEvalLines
import Idealize.ShloMosaic.PureOps.Ideal

noncomputable section

namespace Cert.Cross

open Idealize.ShloMosaic Idealize.ShloMosaic.TcCoe Idealize.SL.Sem Idealize.ShloMosaic.StableHlo

/-- Buffer contents of the kernel program and of the reference program, at the ideal instance. -/
local notation "KV" => Valuation Cert.KernelIdeal.τ Cert.KernelIdeal.sig (Elt Ideal)
local notation "RV" => Valuation Cert.ReferenceIdeal.τ Cert.ReferenceIdeal.sig (Elt Ideal)

set_option maxHeartbeats 1000000 in
/-- From the second layer's scaled messages to the third layer's gathered rows. -/
theorem layer2_to_take3 (V : KV) (V' : RV) (h0 : V (Proc.devRef .tc Cert.KernelIdeal.main_v62) = V' (Proc.devRef .tc Cert.ReferenceIdeal.main_v95)) (h1 : V (Proc.devRef .tc Cert.KernelIdeal.main_v6) = V' (Proc.devRef .tc Cert.ReferenceIdeal.main_v66)) (h2 : V (Proc.devRef .tc Cert.KernelIdeal.main_v5) = V' (Proc.devRef .tc Cert.ReferenceIdeal.main_v124)) (h3 : V (Proc.devRef .tc Cert.KernelIdeal.main_arg7) = V' (Proc.devRef .tc Cert.ReferenceIdeal.main_arg7)) (h4 : V (Proc.devRef .tc Cert.KernelIdeal.main_arg8) = V' (Proc.devRef .tc Cert.ReferenceIdeal.main_arg8)) (h5 : V (Proc.devRef .tc Cert.KernelIdeal.main_arg9) = V' (Proc.devRef .tc Cert.ReferenceIdeal.main_arg9)) (h6 : V (Proc.devRef .tc Cert.KernelIdeal.main_arg10) = V' (Proc.devRef .tc Cert.ReferenceIdeal.main_arg10)) :
    after (Cert.KernelIdeal.Gen.hostOps4_6 (F := Ideal)) (after (Cert.KernelIdeal.Gen.hostOps4_5 (F := Ideal)) (after (Cert.KernelIdeal.Gen.hostOps4_4 (F := Ideal)) (after (Cert.KernelIdeal.Gen.hostOps4_3 (F := Ideal)) (after (Cert.KernelIdeal.Gen.hostOps4_2 (F := Ideal)) (after (Cert.KernelIdeal.Gen.hostOps4_1 (F := Ideal)) (after (Cert.KernelIdeal.Gen.hostOps4 (F := Ideal)) V)))))) (Proc.devRef .tc Cert.KernelIdeal.main_v90)
      = after (Cert.ReferenceIdeal.Hand.refChunk_take3 (F := Ideal)) (after (Cert.ReferenceIdeal.Hand.refChunk_xw3 (F := Ideal)) (after (Cert.ReferenceIdeal.Hand.refChunk_bn2 (F := Ideal)) (after (Cert.ReferenceIdeal.Hand.refChunk_agg2b (F := Ideal)) (after (Cert.ReferenceIdeal.Hand.refChunk_agg2a (F := Ideal)) V')))) (Proc.devRef .tc Cert.ReferenceIdeal.main_v152) := by
  eval_lines
  try rw [h0]
  try rw [h1]
  try rw [h2]
  try rw [h3]
  try rw [h4]
  try rw [h5]
  try rw [h6]
  rfl
/-- The norm vector as a column, as the third row-scaling region takes it. -/
theorem norm_column_3 (V : KV) :
    after (Cert.KernelIdeal.Gen.hostOps4_6 (F := Ideal)) (after (Cert.KernelIdeal.Gen.hostOps4_5 (F := Ideal)) (after (Cert.KernelIdeal.Gen.hostOps4_4 (F := Ideal)) (after (Cert.KernelIdeal.Gen.hostOps4_3 (F := Ideal)) (after (Cert.KernelIdeal.Gen.hostOps4_2 (F := Ideal)) (after (Cert.KernelIdeal.Gen.hostOps4_1 (F := Ideal)) (after (Cert.KernelIdeal.Gen.hostOps4 (F := Ideal)) V)))))) (Proc.devRef .tc Cert.KernelIdeal.main_v91)
      = shapeCast Cert.KernelIdeal.S330000x1 (V (Proc.devRef .tc Cert.KernelIdeal.main_v28)) Cert.KernelIdeal.Facts₀.shapeCasts_S330000_S330000x1 := by
  eval_lines
  rfl

end Cert.Cross

end
-- ==== Proof.CrossLayer3.lean ====
/- The third layer after its messages are scaled: the scatter-add, the bias, the batch normalisation and the mean over the nodes. -/
import proofs.«107159_g82575041232963_cont_9to1c4b_479_20_alg».proof.Proof.Gen.KernelIdeal.Launch
import proofs.«107159_g82575041232963_cont_9to1c4b_479_20_alg».proof.Proof.RefOpsC
import proofs.«107159_g82575041232963_cont_9to1c4b_479_20_alg».proof.Proof.RefOpsD
import proofs.«107159_g82575041232963_cont_9to1c4b_479_20_alg».proof.Proof.LibEvalLines
import Idealize.ShloMosaic.PureOps.Ideal

noncomputable section

namespace Cert.Cross

open Idealize.ShloMosaic Idealize.ShloMosaic.TcCoe Idealize.SL.Sem Idealize.ShloMosaic.StableHlo

/-- Buffer contents of the kernel program and of the reference program, at the ideal instance. -/
local notation "KV" => Valuation Cert.KernelIdeal.τ Cert.KernelIdeal.sig (Elt Ideal)
local notation "RV" => Valuation Cert.ReferenceIdeal.τ Cert.ReferenceIdeal.sig (Elt Ideal)

/-- From the third layer's scaled messages to the mean row the heads take. -/
theorem layer3_to_mean (V : KV) (V' : RV) (h0 : V (Proc.devRef .tc Cert.KernelIdeal.main_v92) = V' (Proc.devRef .tc Cert.ReferenceIdeal.main_v154)) (h1 : V (Proc.devRef .tc Cert.KernelIdeal.main_v6) = V' (Proc.devRef .tc Cert.ReferenceIdeal.main_v125)) (h2 : V (Proc.devRef .tc Cert.KernelIdeal.main_arg11) = V' (Proc.devRef .tc Cert.ReferenceIdeal.main_arg11)) (h3 : V (Proc.devRef .tc Cert.KernelIdeal.main_arg12) = V' (Proc.devRef .tc Cert.ReferenceIdeal.main_arg12)) (h4 : V (Proc.devRef .tc Cert.KernelIdeal.main_arg13) = V' (Proc.devRef .tc Cert.ReferenceIdeal.main_arg13)) :
    after (Cert.KernelIdeal.Gen.hostOps5_2 (F := Ideal)) (after (Cert.KernelIdeal.Gen.hostOps5_1 (F := Ideal)) (after (Cert.KernelIdeal.Gen.hostOps5 (F := Ideal)) V)) (Proc.devRef .tc Cert.KernelIdeal.main_v121)
      = after (Cert.ReferenceIdeal.Hand.refChunk_mean (F := Ideal)) (after (Cert.ReferenceIdeal.Hand.refChunk_bn3 (F := Ideal)) (after (Cert.ReferenceIdeal.Hand.refChunk_agg3 (F := Ideal)) V')) (Proc.devRef .tc Cert.ReferenceIdeal.main_v183) := by
  eval_lines
  try rw [h0]
  try rw [h1]
  try rw [h2]
  try rw [h3]
  try rw [h4]
  rfl

end Cert.Cross

end
-- ==== Proof.WholeBlockRegions.lean ====
/- The two one-point regions whose blocks are whole arrays.

   Region 0 (the inverse square root of the degree) and region 1 (the first layer's matrix product) run on a
   grid of ONE point, and every window's block is its whole array at block index 0 on each axis. So an input's
   block read off its array is the array itself, the body's one whole-rectangle store leaves its payload of the
   whole input arrays in the output's staging buffer, and the one write-back, whose block covers the output
   array, leaves that payload in the array. Every lemma is stated at a parameter `V` (the buffer contents when
   the region is entered); only the last lines instantiate it at the run's contents. -/
import proofs.«107159_g82575041232963_cont_9to1c4b_479_20_alg».proof.Proof.Gen.KernelIdeal.Frame
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)
variable (V : (c : Dev nD) → (b : Ref sig .tc) → Buf (Elt F) ((c : Thread nD τ).loc b))

/-- The zero offsets of a rank-two whole-rectangle access, however spelt. -/
theorem zeros2 : (![0, 0] : Fin 2 → Nat) = fun _ => 0 := funext fun a => by fin_cases a <;> rfl

/-! ## Region 0 -/

/-- The output window's block at the one point, read off contents `X` of its array, is `X`: the block sits at
    index 0 on each axis and has the array's sizes. -/
theorem read_blk0_1 (t : Fin cfg0.N) (X : Vec F S1x10000 .f32) :
    ((cfg0.win 1).blk t).view.read (Elt F) X = X :=
  Memref.read_access_unit_zero (Elt F) main_v12 (funext fun a => Nat.zero_mul _) _ X

/-- The input window's block likewise. -/
theorem read_blk0_0 (t : Fin cfg0.N) (X : Vec F S1x10000 .f32) :
    ((cfg0.win 0).blk t).view.read (Elt F) X = X :=
  Memref.read_access_unit_zero (Elt F) main_v11 (funext fun a => Nat.zero_mul _) _ X

/-- What the body leaves in the output's staging buffer, from contents `x` of the input's: its payload of `x`. -/
theorem out0_1_eq (x : Vec F S1x10000 .f32) : out0_1 x = k0_pay1 x := by
  unfold out0_1
  rw [View.canon_unit_zero zeros2]
  simp only [View.ld_unit_zero (S := S1x10000) zeros2]

/-- The input's block at the one point is its array as the region finds it. -/
theorem iblk0_0_eq (c : Dev nD) (t : Fin cfg0.N) : iblk0 V c 0 t = V c main_v11 := by
  unfold iblk0
  exact read_blk0_0 t _

/-- What the one point writes back is its block of the payload of the whole input array. -/
theorem flushed0_1_eq (c : Dev nD) (t : Fin cfg0.N) :
    (dat0 V c).flushed 1 t = ((cfg0.win 1).blk t).view.read (Elt F) (k0_pay1 (V c main_v11)) := by
  show (cfg0.win 1).cut (grid0.coords t) ((dat0 V c).after 1 t) = _
  rw [after0_1, out0_1_eq, iblk0_0_eq, read_blk0_1]
  rfl

/-- Every index of the output array is in the one point's block. -/
theorem covered0_1 (i : S1x10000.Idx) :
    ∃ t : Fin cfg0.N, (cfg0.win 1).flush t = true ∧ i ∈ ((cfg0.win 1).blk t).view.set := by
  refine ⟨t0_0, flush0_1 t0_0, ?_⟩
  show i ∈ ((View.whole main_v12).slice (win0_1.rect t0_0)).set
  rw [View.set_slice_whole, Rect.mem_set_unit]
  intro a
  show 0 * S1x10000.size a ≤ (i a).val ∧ (i a).val < 0 * S1x10000.size a + S1x10000.size a
  have := (i a).isLt
  omega

/-- The output array after region 0 at entry contents `V`. -/
theorem final0_1 (c : Dev nD) : (dat0 V c).arrAt 1 cfg0.N = k0_pay1 (V c main_v11) :=
  (dat0 V c).arrAt_eq_of_cover 1 (k0_pay1 (V c main_v11)) (fun t _ => flushed0_1_eq V c t) covered0_1

/-- REGION 0: at its exit the array of the inverse square roots holds the body's payload of the degree array as the
    region found it. -/
theorem invSqrt_exit (c : Dev nD) :
    Gen.W2 m ρ c (Proc.devRef .tc main_v12) = Gen.k0_pay1 (F := F) (Gen.W1 m ρ c (Proc.devRef .tc main_v11)) :=
  (Gen.W2_arr m ρ c 1).trans (final0_1 (Gen.V1 m ρ) c)

/-! ## Region 1 -/

/-- Each window's block at the one point, read off contents `X` of its array, is `X`. -/
theorem read_blk1_0 (t : Fin cfg1.N) (X : Vec F S10000x128 .f32) :
    ((cfg1.win 0).blk t).view.read (Elt F) X = X :=
  Memref.read_access_unit_zero (Elt F) main_arg0 (funext fun a => Nat.zero_mul _) _ X

theorem read_blk1_1 (t : Fin cfg1.N) (X : Vec F S128x64 .f32) :
    ((cfg1.win 1).blk t).view.read (Elt F) X = X :=
  Memref.read_access_unit_zero (Elt F) main_arg2 (funext fun a => Nat.zero_mul _) _ X

theorem read_blk1_2 (t : Fin cfg1.N) (X : Vec F S10000x64 .f32) :
    ((cfg1.win 2).blk t).view.read (Elt F) X = X :=
  Memref.read_access_unit_zero (Elt F) main_v29 (funext fun a => Nat.zero_mul _) _ X

/-- What the body leaves in the output's staging buffer, from contents `x`, `w` of the inputs': its payload of them. -/
theorem out1_2_eq (x : Vec F S10000x128 .f32) (w : Vec F S128x64 .f32) : out1_2 x w = k1_pay1 x w := by
  unfold out1_2
  rw [View.canon_unit_zero zeros2]
  simp only [View.ld_unit_zero (S := S10000x128) zeros2, View.ld_unit_zero (S := S128x64) zeros2]

/-- Each input's block at the one point is its array as the region finds it. -/
theorem iblk1_0_eq (c : Dev nD) (t : Fin cfg1.N) : iblk1 V c 0 t = V c main_arg0 := by
  unfold iblk1
  exact read_blk1_0 t _

theorem iblk1_1_eq (c : Dev nD) (t : Fin cfg1.N) : iblk1 V c 1 t = V c main_arg2 := by
  unfold iblk1
  exact read_blk1_1 t _

/-- What the one point writes back is its block of the payload of the whole input arrays. -/
theorem flushed1_2_eq (c : Dev nD) (t : Fin cfg1.N) :
    (dat1 V c).flushed 2 t = ((cfg1.win 2).blk t).view.read (Elt F) (k1_pay1 (V c main_arg0) (V c main_arg2)) := by
  show (cfg1.win 2).cut (grid1.coords t) ((dat1 V c).after 2 t) = _
  rw [after1_2, out1_2_eq, iblk1_0_eq, iblk1_1_eq, read_blk1_2]
  rfl

/-- Every index of the output array is in the one point's block. -/
theorem covered1_2 (i : S10000x64.Idx) :
    ∃ t : Fin cfg1.N, (cfg1.win 2).flush t = true ∧ i ∈ ((cfg1.win 2).blk t).view.set := by
  refine ⟨t1_0, flush1_2 t1_0, ?_⟩
  show i ∈ ((View.whole main_v29).slice (win1_2.rect t1_0)).set
  rw [View.set_slice_whole, Rect.mem_set_unit]
  intro a
  show 0 * S10000x64.size a ≤ (i a).val ∧ (i a).val < 0 * S10000x64.size a + S10000x64.size a
  have := (i a).isLt
  omega

/-- The output array after region 1 at entry contents `V`. -/
theorem final1_2 (c : Dev nD) : (dat1 V c).arrAt 2 cfg1.N = k1_pay1 (V c main_arg0) (V c main_arg2) :=
  (dat1 V c).arrAt_eq_of_cover 2 (k1_pay1 (V c main_arg0) (V c main_arg2)) (fun t _ => flushed1_2_eq V c t) covered1_2

/-- REGION 1: at its exit the product's array holds the body's payload of the feature array and the weight array as
    the region found them. -/
theorem product_exit (c : Dev nD) :
    Gen.W4 m ρ c (Proc.devRef .tc main_v29)
      = Gen.k1_pay1 (F := F) (Gen.W3 m ρ c (Proc.devRef .tc main_arg0)) (Gen.W3 m ρ c (Proc.devRef .tc main_arg2)) :=
  (Gen.W4_arr m ρ c 2).trans (final1_2 (Gen.V3 m ρ) c)

end Cert.KernelIdeal.Hand
-- ==== Proof.RowScaleRegion2.lean ====
/- The first row-scaling region: 50 grid points, point t owning rows 6600·t … 6600·t + 6599. Each point writes back, as its block
   of the output, the product of its block of the rows with its block of the one-column scale broadcast along the row; the
   blocks are restrictions of one function of the two whole arrays, and the 50 row blocks fill the array, so the output
   array ends holding that function: every row of the rows scaled by that row's entry of the column. -/
import proofs.«107159_g82575041232963_cont_9to1c4b_479_20_alg».proof.Proof.RowScaleLaws
import proofs.«107159_g82575041232963_cont_9to1c4b_479_20_alg».proof.Proof.Gen.KernelIdeal.Frame
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)
variable (V : (c : Dev nD) → (b : Ref sig .tc) → Buf (Elt Ideal) ((c : Thread nD τ).loc b))

theorem zero_offsets2 : (![0, 0] : Fin 2 → Nat) = fun _ => 0 := funext fun a => by fin_cases a <;> rfl

/-- What the output array ends holding, index by index: the rows' entry times the column's entry of the same row. -/
abbrev scaledRows2 (rows : S330000x64.Idx → EReal) (scale : S330000x1.Idx → EReal) : S330000x64.Idx → EReal :=
  fun i => rows i * scale (ix2 (⟨(i 0).val, idx2_lt0 i⟩ : Fin 330000) (0 : Fin 1))

/-- An entry of the rows times an entry of the column. -/
abbrev entryProduct2 (rows : S330000x64.Idx → EReal) (scale : S330000x1.Idx → EReal) (i : S330000x64.Idx) (k : S330000x1.Idx) : EReal :=
  rows i * scale k

/-- The body's product as a function of the block index. -/
theorem payload2_fun (x0 : Vec Ideal S6600x64 .f32) (x1 : Vec Ideal S6600x1 .f32) :
    Gen.k2_pay1 (F := Ideal) x0 x1
      = fun j : S6600x64.Idx => x0 j * x1 (ix2 (⟨(j 0).val, idx2_lt0 j⟩ : Fin 6600) (0 : Fin 1)) := by
  funext j
  obtain ⟨p, q, rfl⟩ : ∃ (p : Fin 6600) (q : Fin 64), j = ix2 p q := ⟨j 0, j 1, eq_ix2 j⟩
  exact payload_at x0 x1 p q

/-- The printed index maps, decided over the grid: at point `t` every window's block index is `t` along the rows and
    `0` along the columns. -/
theorem block_index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the scaled rows of the two arrays as the region finds them: the rows'
    block and the output's block sit at the same rows, and the column's block holds, at row `p`, the entry of row
    `6600·t + p`. -/
theorem writeback2_eq (c : Dev nD) (t : Fin cfg2.N) :
    (dat2 V c).flushed 2 t
      = ((cfg2.win 2).blk t).view.read (Elt Ideal) (scaledRows2 (V c main_v30) (V c main_v31)) := by
  show (cfg2.win 2).cut (grid2.coords t) ((dat2 V c).after 2 t) = _
  rw [after2_2]
  unfold out2_2
  rw [View.canon_unit_zero zero_offsets2]
  simp only [View.ld_unit_zero (S := S6600x64) zero_offsets2, View.ld_unit_zero (S := S6600x1) zero_offsets2]
  rw [payload2_fun]
  obtain ⟨e0, e1, e2, e3, e4, e5⟩ := block_index2 t
  funext j
  show entryProduct2 (V c main_v30) (V c main_v31) (((cfg2.win 0).blk t).view.emb j)
        (((cfg2.win 1).blk t).view.emb (ix2 (⟨(j 0).val, idx2_lt0 j⟩ : Fin 6600) (0 : Fin 1)))
      = entryProduct2 (V c main_v30) (V c main_v31) (((cfg2.win 2).blk t).view.emb j)
        (ix2 (⟨((((cfg2.win 2).blk t).view.emb j) 0).val, idx2_lt0 _⟩ : Fin 330000) (0 : Fin 1))
  have h0 : ((cfg2.win 0).blk t).view.emb j = ((cfg2.win 2).blk t).view.emb j := by
    funext a; apply Fin.ext
    match a with
    | ⟨0, _⟩ => show win2_0.index t (0 : Fin 2) * 6600 + 1 * (j 0).val = win2_2.index t (0 : Fin 2) * 6600 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (⟨(j 0).val, idx2_lt0 j⟩ : Fin 6600) (0 : Fin 1))
      = ix2 (⟨((((cfg2.win 2).blk t).view.emb j) 0).val, idx2_lt0 _⟩ : Fin 330000) (0 : Fin 1) := by
    funext a; apply Fin.ext
    match a with
    | ⟨0, _⟩ => show win2_1.index t (0 : Fin 2) * 6600 + 1 * (j 0).val = win2_2.index t (0 : Fin 2) * 6600 + 1 * (j 0).val; omega
    | ⟨1, _⟩ => show win2_1.index t (1 : Fin 2) * 1 + 1 * 0 = 0; omega
  rw [h0, h1]

/-- An index of the output array is in point `t`'s block iff each coordinate is in the block's range on its axis. -/
theorem mem_block2 (t : Fin cfg2.N) (i : S330000x64.Idx) :
    i ∈ ((cfg2.win 2).blk t).view.set ↔ ∀ a : Fin 2, win2_2.index t a * S6600x64.size a ≤ (i a).val ∧ (i a).val < win2_2.index t a * S6600x64.size a + S6600x64.size a := by
  show i ∈ ((View.whole main_v32).slice (win2_2.rect t)).set ↔ _
  rw [View.set_slice_whole, Rect.mem_set_unit]
  exact Iff.rfl

/-- The 50 row blocks fill the array: row `r` is in the block of point `r / 6600`. -/
theorem blocks_cover2 (i : S330000x64.Idx) :
    ∃ t : Fin cfg2.N, (cfg2.win 2).flush t = true ∧ i ∈ ((cfg2.win 2).blk t).view.set := by
  have hN : cfg2.N = 50 := N_2
  have hi0 : (i 0).val < 330000 := idx2_lt0 i
  have hi1 : (i 1).val < 64 := idx2_lt1 i
  obtain ⟨t, ht⟩ : ∃ t : Fin cfg2.N, t.val = (i 0).val / 6600 := ⟨⟨(i 0).val / 6600, by omega⟩, rfl⟩
  obtain ⟨e0, e1, e2, e3, e4, e5⟩ := block_index2 t
  refine ⟨t, flush2_2 t, ?_⟩
  rw [mem_block2]
  intro a
  match a with
  | ⟨0, _⟩ => show win2_2.index t (0 : Fin 2) * 6600 ≤ (i 0).val ∧ (i 0).val < win2_2.index t (0 : Fin 2) * 6600 + 6600; omega
  | ⟨1, _⟩ => show win2_2.index t (1 : Fin 2) * 64 ≤ (i 1).val ∧ (i 1).val < win2_2.index t (1 : Fin 2) * 64 + 64; omega

/-- THE OUTPUT ARRAY after the region: the scaled rows of the two arrays as the region finds them. -/
theorem region2_array (c : Dev nD) :
    (dat2 V c).arrAt 2 cfg2.N = scaledRows2 (V c main_v30) (V c main_v31) :=
  (dat2 V c).arrAt_eq_of_cover 2 (scaledRows2 (V c main_v30) (V c main_v31))
    (fun t _ => writeback2_eq V c t) (blocks_cover2)

/-- The scaled rows are the reference's product (the column broadcast along the row, times the rows): multiplication of
    extended reals is commutative. -/
theorem scaledRows2_eq (rows : FVec Ideal S330000x64 .f32) (scale : FVec Ideal S330000x1 .f32) :
    scaledRows2 rows scale = rowScaled rows scale := by
  funext i
  obtain ⟨r, j, rfl⟩ : ∃ (r : Fin 330000) (j : Fin 64), i = ix2 r j := ⟨i 0, i 1, eq_ix2 i⟩
  rw [rowScaled_apply]
  exact mul_comm _ _

/-- At the region's exit its output array holds the scaled rows of its two input arrays as they were at its entry. -/
theorem rowScale2_exit (c : Dev nD) :
    Gen.W7 m ρ c (Proc.devRef .tc main_v32)
      = rowScaled (Gen.W6 m ρ c (Proc.devRef .tc main_v30)) (Gen.W6 m ρ c (Proc.devRef .tc main_v31)) := by
  refine (Gen.W7_arr m ρ c 2).trans ?_
  rw [region2_array (Gen.V6 m ρ) c]
  exact scaledRows2_eq _ _

end Cert.KernelIdeal.Hand

end
-- ==== Proof.RowScaleRegion3.lean ====
/- The second row-scaling region: 50 grid points, point t owning rows 6600·t … 6600·t + 6599. Each point writes back, as its block
   of the output, the product of its block of the rows with its block of the one-column scale broadcast along the row; the
   blocks are restrictions of one function of the two whole arrays, and the 50 row blocks fill the array, so the output
   array ends holding that function: every row of the rows scaled by that row's entry of the column. -/
import proofs.«107159_g82575041232963_cont_9to1c4b_479_20_alg».proof.Proof.RowScaleLaws
import proofs.«107159_g82575041232963_cont_9to1c4b_479_20_alg».proof.Proof.Gen.KernelIdeal.Frame
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)
variable (V : (c : Dev nD) → (b : Ref sig .tc) → Buf (Elt Ideal) ((c : Thread nD τ).loc b))

theorem zero_offsets3 : (![0, 0] : Fin 2 → Nat) = fun _ => 0 := funext fun a => by fin_cases a <;> rfl

/-- What the output array ends holding, index by index: the rows' entry times the column's entry of the same row. -/
abbrev scaledRows3 (rows : S330000x64.Idx → EReal) (scale : S330000x1.Idx → EReal) : S330000x64.Idx → EReal :=
  fun i => rows i * scale (ix2 (⟨(i 0).val, idx2_lt0 i⟩ : Fin 330000) (0 : Fin 1))

/-- An entry of the rows times an entry of the column. -/
abbrev entryProduct3 (rows : S330000x64.Idx → EReal) (scale : S330000x1.Idx → EReal) (i : S330000x64.Idx) (k : S330000x1.Idx) : EReal :=
  rows i * scale k

/-- The body's product as a function of the block index. -/
theorem payload3_fun (x0 : Vec Ideal S6600x64 .f32) (x1 : Vec Ideal S6600x1 .f32) :
    Gen.k3_pay1 (F := Ideal) x0 x1
      = fun j : S6600x64.Idx => x0 j * x1 (ix2 (⟨(j 0).val, idx2_lt0 j⟩ : Fin 6600) (0 : Fin 1)) := by
  funext j
  obtain ⟨p, q, rfl⟩ : ∃ (p : Fin 6600) (q : Fin 64), j = ix2 p q := ⟨j 0, j 1, eq_ix2 j⟩
  exact payload3_at x0 x1 p q

/-- The printed index maps, decided over the grid: at point `t` every window's block index is `t` along the rows and
    `0` along the columns. -/
theorem block_index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of the scaled rows of the two arrays as the region finds them: the rows'
    block and the output's block sit at the same rows, and the column's block holds, at row `p`, the entry of row
    `6600·t + p`. -/
theorem writeback3_eq (c : Dev nD) (t : Fin cfg3.N) :
    (dat3 V c).flushed 2 t
      = ((cfg3.win 2).blk t).view.read (Elt Ideal) (scaledRows3 (V c main_v60) (V c main_v61)) := by
  show (cfg3.win 2).cut (grid3.coords t) ((dat3 V c).after 2 t) = _
  rw [after3_2]
  unfold out3_2
  rw [View.canon_unit_zero zero_offsets3]
  simp only [View.ld_unit_zero (S := S6600x64) zero_offsets3, View.ld_unit_zero (S := S6600x1) zero_offsets3]
  rw [payload3_fun]
  obtain ⟨e0, e1, e2, e3, e4, e5⟩ := block_index3 t
  funext j
  show entryProduct3 (V c main_v60) (V c main_v61) (((cfg3.win 0).blk t).view.emb j)
        (((cfg3.win 1).blk t).view.emb (ix2 (⟨(j 0).val, idx2_lt0 j⟩ : Fin 6600) (0 : Fin 1)))
      = entryProduct3 (V c main_v60) (V c main_v61) (((cfg3.win 2).blk t).view.emb j)
        (ix2 (⟨((((cfg3.win 2).blk t).view.emb j) 0).val, idx2_lt0 _⟩ : Fin 330000) (0 : Fin 1))
  have h0 : ((cfg3.win 0).blk t).view.emb j = ((cfg3.win 2).blk t).view.emb j := by
    funext a; apply Fin.ext
    match a with
    | ⟨0, _⟩ => show win3_0.index t (0 : Fin 2) * 6600 + 1 * (j 0).val = win3_2.index t (0 : Fin 2) * 6600 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (⟨(j 0).val, idx2_lt0 j⟩ : Fin 6600) (0 : Fin 1))
      = ix2 (⟨((((cfg3.win 2).blk t).view.emb j) 0).val, idx2_lt0 _⟩ : Fin 330000) (0 : Fin 1) := by
    funext a; apply Fin.ext
    match a with
    | ⟨0, _⟩ => show win3_1.index t (0 : Fin 2) * 6600 + 1 * (j 0).val = win3_2.index t (0 : Fin 2) * 6600 + 1 * (j 0).val; omega
    | ⟨1, _⟩ => show win3_1.index t (1 : Fin 2) * 1 + 1 * 0 = 0; omega
  rw [h0, h1]

/-- An index of the output array is in point `t`'s block iff each coordinate is in the block's range on its axis. -/
theorem mem_block3 (t : Fin cfg3.N) (i : S330000x64.Idx) :
    i ∈ ((cfg3.win 2).blk t).view.set ↔ ∀ a : Fin 2, win3_2.index t a * S6600x64.size a ≤ (i a).val ∧ (i a).val < win3_2.index t a * S6600x64.size a + S6600x64.size a := by
  show i ∈ ((View.whole main_v62).slice (win3_2.rect t)).set ↔ _
  rw [View.set_slice_whole, Rect.mem_set_unit]
  exact Iff.rfl

/-- The 50 row blocks fill the array: row `r` is in the block of point `r / 6600`. -/
theorem blocks_cover3 (i : S330000x64.Idx) :
    ∃ t : Fin cfg3.N, (cfg3.win 2).flush t = true ∧ i ∈ ((cfg3.win 2).blk t).view.set := by
  have hN : cfg3.N = 50 := N_3
  have hi0 : (i 0).val < 330000 := idx2_lt0 i
  have hi1 : (i 1).val < 64 := idx2_lt1 i
  obtain ⟨t, ht⟩ : ∃ t : Fin cfg3.N, t.val = (i 0).val / 6600 := ⟨⟨(i 0).val / 6600, by omega⟩, rfl⟩
  obtain ⟨e0, e1, e2, e3, e4, e5⟩ := block_index3 t
  refine ⟨t, flush3_2 t, ?_⟩
  rw [mem_block3]
  intro a
  match a with
  | ⟨0, _⟩ => show win3_2.index t (0 : Fin 2) * 6600 ≤ (i 0).val ∧ (i 0).val < win3_2.index t (0 : Fin 2) * 6600 + 6600; omega
  | ⟨1, _⟩ => show win3_2.index t (1 : Fin 2) * 64 ≤ (i 1).val ∧ (i 1).val < win3_2.index t (1 : Fin 2) * 64 + 64; omega

/-- THE OUTPUT ARRAY after the region: the scaled rows of the two arrays as the region finds them. -/
theorem region3_array (c : Dev nD) :
    (dat3 V c).arrAt 2 cfg3.N = scaledRows3 (V c main_v60) (V c main_v61) :=
  (dat3 V c).arrAt_eq_of_cover 2 (scaledRows3 (V c main_v60) (V c main_v61))
    (fun t _ => writeback3_eq V c t) (blocks_cover3)

/-- The scaled rows are the reference's product (the column broadcast along the row, times the rows): multiplication of
    extended reals is commutative. -/
theorem scaledRows3_eq (rows : FVec Ideal S330000x64 .f32) (scale : FVec Ideal S330000x1 .f32) :
    scaledRows3 rows scale = rowScaled rows scale := by
  funext i
  obtain ⟨r, j, rfl⟩ : ∃ (r : Fin 330000) (j : Fin 64), i = ix2 r j := ⟨i 0, i 1, eq_ix2 i⟩
  rw [rowScaled_apply]
  exact mul_comm _ _

/-- At the region's exit its output array holds the scaled rows of its two input arrays as they were at its entry. -/
theorem rowScale3_exit (c : Dev nD) :
    Gen.W15 m ρ c (Proc.devRef .tc main_v62)
      = rowScaled (Gen.W14 m ρ c (Proc.devRef .tc main_v60)) (Gen.W14 m ρ c (Proc.devRef .tc main_v61)) := by
  refine (Gen.W15_arr m ρ c 2).trans ?_
  rw [region3_array (Gen.V14 m ρ) c]
  exact scaledRows3_eq _ _

end Cert.KernelIdeal.Hand

end
-- ==== Proof.RowScaleRegion4.lean ====
/- The third row-scaling region: 50 grid points, point t owning rows 6600·t … 6600·t + 6599. Each point writes back, as its block
   of the output, the product of its block of the rows with its block of the one-column scale broadcast along the row; the
   blocks are restrictions of one function of the two whole arrays, and the 50 row blocks fill the array, so the output
   array ends holding that function: every row of the rows scaled by that row's entry of the column. -/
import proofs.«107159_g82575041232963_cont_9to1c4b_479_20_alg».proof.Proof.RowScaleLaws
import proofs.«107159_g82575041232963_cont_9to1c4b_479_20_alg».proof.Proof.Gen.KernelIdeal.Frame
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)
variable (V : (c : Dev nD) → (b : Ref sig .tc) → Buf (Elt Ideal) ((c : Thread nD τ).loc b))

theorem zero_offsets4 : (![0, 0] : Fin 2 → Nat) = fun _ => 0 := funext fun a => by fin_cases a <;> rfl

/-- What the output array ends holding, index by index: the rows' entry times the column's entry of the same row. -/
abbrev scaledRows4 (rows : S330000x64.Idx → EReal) (scale : S330000x1.Idx → EReal) : S330000x64.Idx → EReal :=
  fun i => rows i * scale (ix2 (⟨(i 0).val, idx2_lt0 i⟩ : Fin 330000) (0 : Fin 1))

/-- An entry of the rows times an entry of the column. -/
abbrev entryProduct4 (rows : S330000x64.Idx → EReal) (scale : S330000x1.Idx → EReal) (i : S330000x64.Idx) (k : S330000x1.Idx) : EReal :=
  rows i * scale k

/-- The body's product as a function of the block index. -/
theorem payload4_fun (x0 : Vec Ideal S6600x64 .f32) (x1 : Vec Ideal S6600x1 .f32) :
    Gen.k4_pay1 (F := Ideal) x0 x1
      = fun j : S6600x64.Idx => x0 j * x1 (ix2 (⟨(j 0).val, idx2_lt0 j⟩ : Fin 6600) (0 : Fin 1)) := by
  funext j
  obtain ⟨p, q, rfl⟩ : ∃ (p : Fin 6600) (q : Fin 64), j = ix2 p q := ⟨j 0, j 1, eq_ix2 j⟩
  exact payload4_at x0 x1 p q

/-- The printed index maps, decided over the grid: at point `t` every window's block index is `t` along the rows and
    `0` along the columns. -/
theorem block_index4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- WHAT POINT `t` WRITES BACK is block `t` of the scaled rows of the two arrays as the region finds them: the rows'
    block and the output's block sit at the same rows, and the column's block holds, at row `p`, the entry of row
    `6600·t + p`. -/
theorem writeback4_eq (c : Dev nD) (t : Fin cfg4.N) :
    (dat4 V c).flushed 2 t
      = ((cfg4.win 2).blk t).view.read (Elt Ideal) (scaledRows4 (V c main_v90) (V c main_v91)) := by
  show (cfg4.win 2).cut (grid4.coords t) ((dat4 V c).after 2 t) = _
  rw [after4_2]
  unfold out4_2
  rw [View.canon_unit_zero zero_offsets4]
  simp only [View.ld_unit_zero (S := S6600x64) zero_offsets4, View.ld_unit_zero (S := S6600x1) zero_offsets4]
  rw [payload4_fun]
  obtain ⟨e0, e1, e2, e3, e4, e5⟩ := block_index4 t
  funext j
  show entryProduct4 (V c main_v90) (V c main_v91) (((cfg4.win 0).blk t).view.emb j)
        (((cfg4.win 1).blk t).view.emb (ix2 (⟨(j 0).val, idx2_lt0 j⟩ : Fin 6600) (0 : Fin 1)))
      = entryProduct4 (V c main_v90) (V c main_v91) (((cfg4.win 2).blk t).view.emb j)
        (ix2 (⟨((((cfg4.win 2).blk t).view.emb j) 0).val, idx2_lt0 _⟩ : Fin 330000) (0 : Fin 1))
  have h0 : ((cfg4.win 0).blk t).view.emb j = ((cfg4.win 2).blk t).view.emb j := by
    funext a; apply Fin.ext
    match a with
    | ⟨0, _⟩ => show win4_0.index t (0 : Fin 2) * 6600 + 1 * (j 0).val = win4_2.index t (0 : Fin 2) * 6600 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (⟨(j 0).val, idx2_lt0 j⟩ : Fin 6600) (0 : Fin 1))
      = ix2 (⟨((((cfg4.win 2).blk t).view.emb j) 0).val, idx2_lt0 _⟩ : Fin 330000) (0 : Fin 1) := by
    funext a; apply Fin.ext
    match a with
    | ⟨0, _⟩ => show win4_1.index t (0 : Fin 2) * 6600 + 1 * (j 0).val = win4_2.index t (0 : Fin 2) * 6600 + 1 * (j 0).val; omega
    | ⟨1, _⟩ => show win4_1.index t (1 : Fin 2) * 1 + 1 * 0 = 0; omega
  rw [h0, h1]

/-- An index of the output array is in point `t`'s block iff each coordinate is in the block's range on its axis. -/
theorem mem_block4 (t : Fin cfg4.N) (i : S330000x64.Idx) :
    i ∈ ((cfg4.win 2).blk t).view.set ↔ ∀ a : Fin 2, win4_2.index t a * S6600x64.size a ≤ (i a).val ∧ (i a).val < win4_2.index t a * S6600x64.size a + S6600x64.size a := by
  show i ∈ ((View.whole main_v92).slice (win4_2.rect t)).set ↔ _
  rw [View.set_slice_whole, Rect.mem_set_unit]
  exact Iff.rfl

/-- The 50 row blocks fill the array: row `r` is in the block of point `r / 6600`. -/
theorem blocks_cover4 (i : S330000x64.Idx) :
    ∃ t : Fin cfg4.N, (cfg4.win 2).flush t = true ∧ i ∈ ((cfg4.win 2).blk t).view.set := by
  have hN : cfg4.N = 50 := N_4
  have hi0 : (i 0).val < 330000 := idx2_lt0 i
  have hi1 : (i 1).val < 64 := idx2_lt1 i
  obtain ⟨t, ht⟩ : ∃ t : Fin cfg4.N, t.val = (i 0).val / 6600 := ⟨⟨(i 0).val / 6600, by omega⟩, rfl⟩
  obtain ⟨e0, e1, e2, e3, e4, e5⟩ := block_index4 t
  refine ⟨t, flush4_2 t, ?_⟩
  rw [mem_block4]
  intro a
  match a with
  | ⟨0, _⟩ => show win4_2.index t (0 : Fin 2) * 6600 ≤ (i 0).val ∧ (i 0).val < win4_2.index t (0 : Fin 2) * 6600 + 6600; omega
  | ⟨1, _⟩ => show win4_2.index t (1 : Fin 2) * 64 ≤ (i 1).val ∧ (i 1).val < win4_2.index t (1 : Fin 2) * 64 + 64; omega

/-- THE OUTPUT ARRAY after the region: the scaled rows of the two arrays as the region finds them. -/
theorem region4_array (c : Dev nD) :
    (dat4 V c).arrAt 2 cfg4.N = scaledRows4 (V c main_v90) (V c main_v91) :=
  (dat4 V c).arrAt_eq_of_cover 2 (scaledRows4 (V c main_v90) (V c main_v91))
    (fun t _ => writeback4_eq V c t) (blocks_cover4)

/-- The scaled rows are the reference's product (the column broadcast along the row, times the rows): multiplication of
    extended reals is commutative. -/
theorem scaledRows4_eq (rows : FVec Ideal S330000x64 .f32) (scale : FVec Ideal S330000x1 .f32) :
    scaledRows4 rows scale = rowScaled rows scale := by
  funext i
  obtain ⟨r, j, rfl⟩ : ∃ (r : Fin 330000) (j : Fin 64), i = ix2 r j := ⟨i 0, i 1, eq_ix2 i⟩
  rw [rowScaled_apply]
  exact mul_comm _ _

/-- At the region's exit its output array holds the scaled rows of its two input arrays as they were at its entry. -/
theorem rowScale4_exit (c : Dev nD) :
    Gen.W23 m ρ c (Proc.devRef .tc main_v92)
      = rowScaled (Gen.W22 m ρ c (Proc.devRef .tc main_v90)) (Gen.W22 m ρ c (Proc.devRef .tc main_v91)) := by
  refine (Gen.W23_arr m ρ c 2).trans ?_
  rw [region4_array (Gen.V22 m ρ) c]
  exact scaledRows4_eq _ _

end Cert.KernelIdeal.Hand

end
-- ==== Proof.HeadsRegion.lean ====
/- The last region: the two small heads on the mean row.

   Region 5 runs on a grid of ONE point, and every window's block is its whole array at block index 0 on each
   axis. So each input's block read off its array is the array itself, the body's one whole-rectangle store per
   output leaves its payload of the whole input arrays in that output's staging buffer, and the one write-back,
   whose block covers the output array, leaves that payload in the array. Every lemma is stated at a parameter
   `V` (the buffer contents when the region is entered); only the last lines instantiate it at the run's
   contents. -/
import proofs.«107159_g82575041232963_cont_9to1c4b_479_20_alg».proof.Proof.Gen.KernelIdeal.Frame
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)
variable (V : (c : Dev nD) → (b : Ref sig .tc) → Buf (Elt F) ((c : Thread nD τ).loc b))

/-- The zero offsets of a rank-two whole-rectangle access, however spelt. -/
theorem heads_zeros2 : (![0, 0] : Fin 2 → Nat) = fun _ => 0 := funext fun a => by fin_cases a <;> rfl

/-- The zero offset of a rank-one whole-rectangle access. -/
theorem heads_zeros1 : (![0] : Fin 1 → Nat) = fun _ => 0 := funext fun a => by fin_cases a; rfl

/-! ## Each window's block, read off contents of its array, is those contents

   The block sits at index 0 on each axis and has the array's sizes. -/

theorem read_blk5_0 (t : Fin cfg5.N) (X : Vec F S1x64 .f32) : ((cfg5.win 0).blk t).view.read (Elt F) X = X :=
  Memref.read_access_unit_zero (Elt F) main_v121 (funext fun a => Nat.zero_mul _) _ X
theorem read_blk5_1 (t : Fin cfg5.N) (X : Vec F S64x32 .f32) : ((cfg5.win 1).blk t).view.read (Elt F) X = X :=
  Memref.read_access_unit_zero (Elt F) main_arg14 (funext fun a => Nat.zero_mul _) _ X
theorem read_blk5_2 (t : Fin cfg5.N) (X : Vec F S32 .f32) : ((cfg5.win 2).blk t).view.read (Elt F) X = X :=
  Memref.read_access_unit_zero (Elt F) main_arg15 (funext fun a => Nat.zero_mul _) _ X
theorem read_blk5_3 (t : Fin cfg5.N) (X : Vec F S32x3 .f32) : ((cfg5.win 3).blk t).view.read (Elt F) X = X :=
  Memref.read_access_unit_zero (Elt F) main_arg16 (funext fun a => Nat.zero_mul _) _ X
theorem read_blk5_4 (t : Fin cfg5.N) (X : Vec F S3 .f32) : ((cfg5.win 4).blk t).view.read (Elt F) X = X :=
  Memref.read_access_unit_zero (Elt F) main_arg17 (funext fun a => Nat.zero_mul _) _ X
theorem read_blk5_5 (t : Fin cfg5.N) (X : Vec F S64x32 .f32) : ((cfg5.win 5).blk t).view.read (Elt F) X = X :=
  Memref.read_access_unit_zero (Elt F) main_arg18 (funext fun a => Nat.zero_mul _) _ X
theorem read_blk5_6 (t : Fin cfg5.N) (X : Vec F S32 .f32) : ((cfg5.win 6).blk t).view.read (Elt F) X = X :=
  Memref.read_access_unit_zero (Elt F) main_arg19 (funext fun a => Nat.zero_mul _) _ X
theorem read_blk5_7 (t : Fin cfg5.N) (X : Vec F S32x1 .f32) : ((cfg5.win 7).blk t).view.read (Elt F) X = X :=
  Memref.read_access_unit_zero (Elt F) main_arg20 (funext fun a => Nat.zero_mul _) _ X
theorem read_blk5_8 (t : Fin cfg5.N) (X : Vec F S1 .f32) : ((cfg5.win 8).blk t).view.read (Elt F) X = X :=
  Memref.read_access_unit_zero (Elt F) main_arg21 (funext fun a => Nat.zero_mul _) _ X
theorem read_blk5_9 (t : Fin cfg5.N) (X : Vec F S1x3 .f32) : ((cfg5.win 9).blk t).view.read (Elt F) X = X :=
  Memref.read_access_unit_zero (Elt F) main_v122_0 (funext fun a => Nat.zero_mul _) _ X
theorem read_blk5_10 (t : Fin cfg5.N) (X : Vec F S1x1 .f32) : ((cfg5.win 10).blk t).view.read (Elt F) X = X :=
  Memref.read_access_unit_zero (Elt F) main_v122_1 (funext fun a => Nat.zero_mul _) _ X

/-! ## The inputs' blocks at the one point are their arrays as the region finds them -/

theorem iblk5_0_eq (c : Dev nD) (t : Fin cfg5.N) : iblk5 V c 0 t = V c main_v121 := by
  unfold iblk5; exact read_blk5_0 t _
theorem iblk5_1_eq (c : Dev nD) (t : Fin cfg5.N) : iblk5 V c 1 t = V c main_arg14 := by
  unfold iblk5; exact read_blk5_1 t _
theorem iblk5_2_eq (c : Dev nD) (t : Fin cfg5.N) : iblk5 V c 2 t = V c main_arg15 := by
  unfold iblk5; exact read_blk5_2 t _
theorem iblk5_3_eq (c : Dev nD) (t : Fin cfg5.N) : iblk5 V c 3 t = V c main_arg16 := by
  unfold iblk5; exact read_blk5_3 t _
theorem iblk5_4_eq (c : Dev nD) (t : Fin cfg5.N) : iblk5 V c 4 t = V c main_arg17 := by
  unfold iblk5; exact read_blk5_4 t _
theorem iblk5_5_eq (c : Dev nD) (t : Fin cfg5.N) : iblk5 V c 5 t = V c main_arg18 := by
  unfold iblk5; exact read_blk5_5 t _
theorem iblk5_6_eq (c : Dev nD) (t : Fin cfg5.N) : iblk5 V c 6 t = V c main_arg19 := by
  unfold iblk5; exact read_blk5_6 t _
theorem iblk5_7_eq (c : Dev nD) (t : Fin cfg5.N) : iblk5 V c 7 t = V c main_arg20 := by
  unfold iblk5; exact read_blk5_7 t _
theorem iblk5_8_eq (c : Dev nD) (t : Fin cfg5.N) : iblk5 V c 8 t = V c main_arg21 := by
  unfold iblk5; exact read_blk5_8 t _

/-! ## What the body leaves in each output's staging buffer: its payload of the inputs' buffers -/

theorem out5_9_eq (x0 : Vec F S1x64 .f32) (x1 : Vec F S64x32 .f32) (x2 : Vec F S32 .f32) (x3 : Vec F S32x3 .f32)
    (x4 : Vec F S3 .f32) (x5 : Vec F S64x32 .f32) (x6 : Vec F S32 .f32) (x7 : Vec F S32x1 .f32) (x8 : Vec F S1 .f32) :
    out5_9 x0 x1 x2 x3 x4 x5 x6 x7 x8 = k5_pay2 x0 x1 x2 x3 x4 := by
  unfold out5_9
  rw [View.canon_unit_zero heads_zeros2]
  simp only [View.ld_unit_zero (S := S1x64) heads_zeros2, View.ld_unit_zero (S := S64x32) heads_zeros2,
    View.ld_unit_zero (S := S32) heads_zeros1, View.ld_unit_zero (S := S32x3) heads_zeros2,
    View.ld_unit_zero (S := S3) heads_zeros1]

theorem out5_10_eq (x0 : Vec F S1x64 .f32) (x1 : Vec F S64x32 .f32) (x2 : Vec F S32 .f32) (x3 : Vec F S32x3 .f32)
    (x4 : Vec F S3 .f32) (x5 : Vec F S64x32 .f32) (x6 : Vec F S32 .f32) (x7 : Vec F S32x1 .f32) (x8 : Vec F S1 .f32) :
    out5_10 x0 x1 x2 x3 x4 x5 x6 x7 x8 = k5_pay3 x0 x5 x6 x7 x8 := by
  unfold out5_10
  rw [View.canon_unit_zero heads_zeros2]
  simp only [View.ld_unit_zero (S := S1x64) heads_zeros2, View.ld_unit_zero (S := S64x32) heads_zeros2,
    View.ld_unit_zero (S := S32) heads_zeros1, View.ld_unit_zero (S := S32x1) heads_zeros2,
    View.ld_unit_zero (S := S1) heads_zeros1]

/-! ## What the one point writes back: its block of the payload of the whole input arrays -/

theorem flushed5_9_eq (c : Dev nD) (t : Fin cfg5.N) :
    (dat5 V c).flushed 9 t = ((cfg5.win 9).blk t).view.read (Elt F)
      (k5_pay2 (V c main_v121) (V c main_arg14) (V c main_arg15) (V c main_arg16) (V c main_arg17)) := by
  show (cfg5.win 9).cut (grid5.coords t) ((dat5 V c).after 9 t) = _
  rw [after5_9, out5_9_eq, iblk5_0_eq, iblk5_1_eq, iblk5_2_eq, iblk5_3_eq, iblk5_4_eq, read_blk5_9]
  rfl

theorem flushed5_10_eq (c : Dev nD) (t : Fin cfg5.N) :
    (dat5 V c).flushed 10 t = ((cfg5.win 10).blk t).view.read (Elt F)
      (k5_pay3 (V c main_v121) (V c main_arg18) (V c main_arg19) (V c main_arg20) (V c main_arg21)) := by
  show (cfg5.win 10).cut (grid5.coords t) ((dat5 V c).after 10 t) = _
  rw [after5_10, out5_10_eq, iblk5_0_eq, iblk5_5_eq, iblk5_6_eq, iblk5_7_eq, iblk5_8_eq, read_blk5_10]
  rfl

/-! ## Every index of each output array is in the one point's block -/

theorem covered5_9 (i : S1x3.Idx) :
    ∃ t : Fin cfg5.N, (cfg5.win 9).flush t = true ∧ i ∈ ((cfg5.win 9).blk t).view.set := by
  refine ⟨t5_0, flush5_9 t5_0, ?_⟩
  show i ∈ ((View.whole main_v122_0).slice (win5_9.rect t5_0)).set
  rw [View.set_slice_whole, Rect.mem_set_unit]
  intro a
  show 0 * S1x3.size a ≤ (i a).val ∧ (i a).val < 0 * S1x3.size a + S1x3.size a
  have := (i a).isLt
  omega

theorem covered5_10 (i : S1x1.Idx) :
    ∃ t : Fin cfg5.N, (cfg5.win 10).flush t = true ∧ i ∈ ((cfg5.win 10).blk t).view.set := by
  refine ⟨t5_0, flush5_10 t5_0, ?_⟩
  show i ∈ ((View.whole main_v122_1).slice (win5_10.rect t5_0)).set
  rw [View.set_slice_whole, Rect.mem_set_unit]
  intro a
  show 0 * S1x1.size a ≤ (i a).val ∧ (i a).val < 0 * S1x1.size a + S1x1.size a
  have := (i a).isLt
  omega

/-! ## The output arrays after the region, at entry contents `V` -/

theorem final5_9 (c : Dev nD) : (dat5 V c).arrAt 9 cfg5.N
    = k5_pay2 (V c main_v121) (V c main_arg14) (V c main_arg15) (V c main_arg16) (V c main_arg17) :=
  (dat5 V c).arrAt_eq_of_cover 9 _ (fun t _ => flushed5_9_eq V c t) covered5_9

theorem final5_10 (c : Dev nD) : (dat5 V c).arrAt 10 cfg5.N
    = k5_pay3 (V c main_v121) (V c main_arg18) (V c main_arg19) (V c main_arg20) (V c main_arg21) :=
  (dat5 V c).arrAt_eq_of_cover 10 _ (fun t _ => flushed5_10_eq V c t) covered5_10

/-- THE LAST REGION, first head: at its exit the [1,3] array holds the body's first payload of the mean row and the
    first head's weights and biases as the region found them. -/
theorem heads_exit0 (c : Dev nD) :
    Gen.W27 m ρ c (Proc.devRef .tc main_v122_0)
      = Gen.k5_pay2 (F := F) (Gen.W26 m ρ c (Proc.devRef .tc main_v121)) (Gen.W26 m ρ c (Proc.devRef .tc main_arg14))
          (Gen.W26 m ρ c (Proc.devRef .tc main_arg15)) (Gen.W26 m ρ c (Proc.devRef .tc main_arg16))
          (Gen.W26 m ρ c (Proc.devRef .tc main_arg17)) :=
  (Gen.W27_arr m ρ c 9).trans (final5_9 (Gen.V26 m ρ) c)

/-- THE LAST REGION, second head: at its exit the [1,1] array holds the body's second payload of the mean row and the
    second head's weights and biases as the region found them. -/
theorem heads_exit1 (c : Dev nD) :
    Gen.W27 m ρ c (Proc.devRef .tc main_v122_1)
      = Gen.k5_pay3 (F := F) (Gen.W26 m ρ c (Proc.devRef .tc main_v121)) (Gen.W26 m ρ c (Proc.devRef .tc main_arg18))
          (Gen.W26 m ρ c (Proc.devRef .tc main_arg19)) (Gen.W26 m ρ c (Proc.devRef .tc main_arg20))
          (Gen.W26 m ρ c (Proc.devRef .tc main_arg21)) :=
  (Gen.W27_arr m ρ c 10).trans (final5_10 (Gen.V26 m ρ) c)

end Cert.KernelIdeal.Hand
-- ==== Proof.KernelKeeps.lean ====
/- What the kernel program's host operations and regions leave unchanged.

   Every value of the program has its own buffer slot, and the slots ascend in program order: the arguments sit in
   slots 0 to 21, and each stretch of host operations between two regions writes only slots past everything before
   it. So a stretch leaves every buffer in a lower slot as it found it, and a region leaves every buffer that is
   not one of its windows' arrays as it found it. Composed along the run, an argument array that no earlier region
   writes still holds its launch contents where a later region reads it, and an intermediate array written before
   region 0 (or before region 1) still holds what it held then. -/
import proofs.«107159_g82575041232963_cont_9to1c4b_479_20_alg».proof.Proof.Gen.KernelIdeal.Frame
import proofs.«107159_g82575041232963_cont_9to1c4b_479_20_alg».proof.Proof.LibHostLine
import proofs.«107159_g82575041232963_cont_9to1c4b_479_20_alg».proof.Proof.RefPast

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## Each stretch of host operations writes past the slots before it -/

/-- Every operation of a literal line writes past a slot: the line's conjunction split, each operation by its
    builder's lemma, the slot comparison by computation. -/
macro "writes_past" : tactic => `(tactic| (
  repeat' apply And.intro
  all_goals first
    | exact StableHlo.writesPast_nullary (by decide)
    | exact StableHlo.writesPast_unary (by decide)
    | exact StableHlo.writesPast_binary (by decide)
    | exact StableHlo.writesPast_ternary (by decide)
    | exact StableHlo.writesPast_reshape (by decide)))

theorem hostOps0_past : (Gen.hostOps0 : List (HloOp τ sig (Elt F))).Forall (StableHlo.WritesPast (τ := τ) 22) := by
  writes_past
theorem hostOps1_past : (Gen.hostOps1 : List (HloOp τ sig (Elt F))).Forall (StableHlo.WritesPast (τ := τ) 37) := by
  writes_past
theorem hostOps2_past : (Gen.hostOps2 : List (HloOp τ sig (Elt F))).Forall (StableHlo.WritesPast (τ := τ) 58) := by
  writes_past
theorem hostOps2_1_past : (Gen.hostOps2_1 : List (HloOp τ sig (Elt F))).Forall (StableHlo.WritesPast (τ := τ) 58) := by
  writes_past
theorem hostOps3_past : (Gen.hostOps3 : List (HloOp τ sig (Elt F))).Forall (StableHlo.WritesPast (τ := τ) 83) := by
  writes_past
theorem hostOps3_1_past : (Gen.hostOps3_1 : List (HloOp τ sig (Elt F))).Forall (StableHlo.WritesPast (τ := τ) 83) := by
  writes_past
theorem hostOps3_2_past : (Gen.hostOps3_2 : List (HloOp τ sig (Elt F))).Forall (StableHlo.WritesPast (τ := τ) 83) := by
  writes_past
theorem hostOps3_3_past : (Gen.hostOps3_3 : List (HloOp τ sig (Elt F))).Forall (StableHlo.WritesPast (τ := τ) 83) := by
  writes_past
theorem hostOps3_4_past : (Gen.hostOps3_4 : List (HloOp τ sig (Elt F))).Forall (StableHlo.WritesPast (τ := τ) 83) := by
  writes_past
theorem hostOps3_5_past : (Gen.hostOps3_5 : List (HloOp τ sig (Elt F))).Forall (StableHlo.WritesPast (τ := τ) 83) := by
  writes_past
theorem hostOps3_6_past : (Gen.hostOps3_6 : List (HloOp τ sig (Elt F))).Forall (StableHlo.WritesPast (τ := τ) 83) := by
  writes_past
theorem hostOps4_past : (Gen.hostOps4 : List (HloOp τ sig (Elt F))).Forall (StableHlo.WritesPast (τ := τ) 163) := by
  writes_past
theorem hostOps4_1_past : (Gen.hostOps4_1 : List (HloOp τ sig (Elt F))).Forall (StableHlo.WritesPast (τ := τ) 163) := by
  writes_past
theorem hostOps4_2_past : (Gen.hostOps4_2 : List (HloOp τ sig (Elt F))).Forall (StableHlo.WritesPast (τ := τ) 163) := by
  writes_past
theorem hostOps4_3_past : (Gen.hostOps4_3 : List (HloOp τ sig (Elt F))).Forall (StableHlo.WritesPast (τ := τ) 163) := by
  writes_past
theorem hostOps4_4_past : (Gen.hostOps4_4 : List (HloOp τ sig (Elt F))).Forall (StableHlo.WritesPast (τ := τ) 163) := by
  writes_past
theorem hostOps4_5_past : (Gen.hostOps4_5 : List (HloOp τ sig (Elt F))).Forall (StableHlo.WritesPast (τ := τ) 163) := by
  writes_past
theorem hostOps4_6_past : (Gen.hostOps4_6 : List (HloOp τ sig (Elt F))).Forall (StableHlo.WritesPast (τ := τ) 163) := by
  writes_past
theorem hostOps5_past : (Gen.hostOps5 : List (HloOp τ sig (Elt F))).Forall (StableHlo.WritesPast (τ := τ) 243) := by
  writes_past
theorem hostOps5_1_past : (Gen.hostOps5_1 : List (HloOp τ sig (Elt F))).Forall (StableHlo.WritesPast (τ := τ) 243) := by
  writes_past
theorem hostOps5_2_past : (Gen.hostOps5_2 : List (HloOp τ sig (Elt F))).Forall (StableHlo.WritesPast (τ := τ) 243) := by
  writes_past

/-! ## Between two boundaries a buffer in a lower slot is unchanged -/

section Keeps
variable (c : Dev nD) {b : Ref sig .tc}

/-- Before region 0: a buffer below slot 22 (an argument) holds its launch contents. -/
theorem keep0 (hb : b.idx.val < 22) : Gen.W1 m ρ c (Proc.devRef .tc b) = m ((c : Thread nD τ).loc b) :=
  (StableHlo.after_keep_of_writesPast hb Gen.hostOps0 (Gen.W0 m ρ c) hostOps0_past).trans rfl

/-- Between regions 0 and 1. -/
theorem keep1 (hb : b.idx.val < 37) : Gen.W3 m ρ c (Proc.devRef .tc b) = Gen.W2 m ρ c (Proc.devRef .tc b) :=
  StableHlo.after_keep_of_writesPast hb Gen.hostOps1 (Gen.W2 m ρ c) hostOps1_past

/-- Between regions 1 and 2. -/
theorem keep2 (hb : b.idx.val < 58) : Gen.W6 m ρ c (Proc.devRef .tc b) = Gen.W4 m ρ c (Proc.devRef .tc b) :=
  (StableHlo.after_keep_of_writesPast hb Gen.hostOps2_1 (Gen.W5 m ρ c) hostOps2_1_past).trans
    (StableHlo.after_keep_of_writesPast hb Gen.hostOps2 (Gen.W4 m ρ c) hostOps2_past)

/-- Between regions 2 and 3. -/
theorem keep3 (hb : b.idx.val < 83) : Gen.W14 m ρ c (Proc.devRef .tc b) = Gen.W7 m ρ c (Proc.devRef .tc b) :=
  calc Gen.W14 m ρ c (Proc.devRef .tc b)
    _ = Gen.W13 m ρ c (Proc.devRef .tc b) := StableHlo.after_keep_of_writesPast hb Gen.hostOps3_6 (Gen.W13 m ρ c) hostOps3_6_past
    _ = Gen.W12 m ρ c (Proc.devRef .tc b) := StableHlo.after_keep_of_writesPast hb Gen.hostOps3_5 (Gen.W12 m ρ c) hostOps3_5_past
    _ = Gen.W11 m ρ c (Proc.devRef .tc b) := StableHlo.after_keep_of_writesPast hb Gen.hostOps3_4 (Gen.W11 m ρ c) hostOps3_4_past
    _ = Gen.W10 m ρ c (Proc.devRef .tc b) := StableHlo.after_keep_of_writesPast hb Gen.hostOps3_3 (Gen.W10 m ρ c) hostOps3_3_past
    _ = Gen.W9 m ρ c (Proc.devRef .tc b) := StableHlo.after_keep_of_writesPast hb Gen.hostOps3_2 (Gen.W9 m ρ c) hostOps3_2_past
    _ = Gen.W8 m ρ c (Proc.devRef .tc b) := StableHlo.after_keep_of_writesPast hb Gen.hostOps3_1 (Gen.W8 m ρ c) hostOps3_1_past
    _ = Gen.W7 m ρ c (Proc.devRef .tc b) := StableHlo.after_keep_of_writesPast hb Gen.hostOps3 (Gen.W7 m ρ c) hostOps3_past

/-- Between regions 3 and 4. -/
theorem keep4 (hb : b.idx.val < 163) : Gen.W22 m ρ c (Proc.devRef .tc b) = Gen.W15 m ρ c (Proc.devRef .tc b) :=
  calc Gen.W22 m ρ c (Proc.devRef .tc b)
    _ = Gen.W21 m ρ c (Proc.devRef .tc b) := StableHlo.after_keep_of_writesPast hb Gen.hostOps4_6 (Gen.W21 m ρ c) hostOps4_6_past
    _ = Gen.W20 m ρ c (Proc.devRef .tc b) := StableHlo.after_keep_of_writesPast hb Gen.hostOps4_5 (Gen.W20 m ρ c) hostOps4_5_past
    _ = Gen.W19 m ρ c (Proc.devRef .tc b) := StableHlo.after_keep_of_writesPast hb Gen.hostOps4_4 (Gen.W19 m ρ c) hostOps4_4_past
    _ = Gen.W18 m ρ c (Proc.devRef .tc b) := StableHlo.after_keep_of_writesPast hb Gen.hostOps4_3 (Gen.W18 m ρ c) hostOps4_3_past
    _ = Gen.W17 m ρ c (Proc.devRef .tc b) := StableHlo.after_keep_of_writesPast hb Gen.hostOps4_2 (Gen.W17 m ρ c) hostOps4_2_past
    _ = Gen.W16 m ρ c (Proc.devRef .tc b) := StableHlo.after_keep_of_writesPast hb Gen.hostOps4_1 (Gen.W16 m ρ c) hostOps4_1_past
    _ = Gen.W15 m ρ c (Proc.devRef .tc b) := StableHlo.after_keep_of_writesPast hb Gen.hostOps4 (Gen.W15 m ρ c) hostOps4_past

/-- Between regions 4 and 5. -/
theorem keep5 (hb : b.idx.val < 243) : Gen.W26 m ρ c (Proc.devRef .tc b) = Gen.W23 m ρ c (Proc.devRef .tc b) :=
  calc Gen.W26 m ρ c (Proc.devRef .tc b)
    _ = Gen.W25 m ρ c (Proc.devRef .tc b) := StableHlo.after_keep_of_writesPast hb Gen.hostOps5_2 (Gen.W25 m ρ c) hostOps5_2_past
    _ = Gen.W24 m ρ c (Proc.devRef .tc b) := StableHlo.after_keep_of_writesPast hb Gen.hostOps5_1 (Gen.W24 m ρ c) hostOps5_1_past
    _ = Gen.W23 m ρ c (Proc.devRef .tc b) := StableHlo.after_keep_of_writesPast hb Gen.hostOps5 (Gen.W23 m ρ c) hostOps5_past

end Keeps

/-! ## Along the run -/

section Along
variable (c : Dev nD) {b : Ref sig .tc}

/-! An argument (a buffer below slot 22) that no region so far writes holds its launch contents. -/

theorem launch_at3 (hb : b.idx.val < 22) (h0 : ∀ w, Pipeline.arrRef spec0 w ≠ b) :
    Gen.W3 m ρ c (Proc.devRef .tc b) = m ((c : Thread nD τ).loc b) :=
  (keep1 m ρ c (by omega)).trans ((Gen.W2_of_ne m ρ c b h0).trans (keep0 m ρ c hb))

theorem launch_at7 (hb : b.idx.val < 22) (h0 : ∀ w, Pipeline.arrRef spec0 w ≠ b) (h1 : ∀ w, Pipeline.arrRef spec1 w ≠ b)
    (h2 : ∀ w, Pipeline.arrRef spec2 w ≠ b) : Gen.W7 m ρ c (Proc.devRef .tc b) = m ((c : Thread nD τ).loc b) :=
  (Gen.W7_of_ne m ρ c b h2).trans ((keep2 m ρ c (by omega)).trans ((Gen.W4_of_ne m ρ c b h1).trans (launch_at3 m ρ c hb h0)))

theorem launch_at15 (hb : b.idx.val < 22) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) :
    Gen.W15 m ρ c (Proc.devRef .tc b) = m ((c : Thread nD τ).loc b) :=
  (Gen.W15_of_ne m ρ c b h3).trans ((keep3 m ρ c (by omega)).trans (launch_at7 m ρ c hb h0 h1 h2))

theorem launch_at23 (hb : b.idx.val < 22) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) (h4 : ∀ w, Pipeline.arrRef spec4 w ≠ b) :
    Gen.W23 m ρ c (Proc.devRef .tc b) = m ((c : Thread nD τ).loc b) :=
  (Gen.W23_of_ne m ρ c b h4).trans ((keep4 m ρ c (by omega)).trans (launch_at15 m ρ c hb h0 h1 h2 h3))

theorem launch_at26 (hb : b.idx.val < 22) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) (h4 : ∀ w, Pipeline.arrRef spec4 w ≠ b) :
    Gen.W26 m ρ c (Proc.devRef .tc b) = m ((c : Thread nD τ).loc b) :=
  (keep5 m ρ c (by omega)).trans (launch_at23 m ρ c hb h0 h1 h2 h3 h4)

/-! A buffer written before region 0 (below slot 37) that no region so far writes holds what it held at region 0's entry. -/

theorem entry0_at2 (h0 : ∀ w, Pipeline.arrRef spec0 w ≠ b) :
    Gen.W2 m ρ c (Proc.devRef .tc b) = Gen.W1 m ρ c (Proc.devRef .tc b) :=
  Gen.W2_of_ne m ρ c b h0

theorem entry0_at4 (hb : b.idx.val < 37) (h0 : ∀ w, Pipeline.arrRef spec0 w ≠ b) (h1 : ∀ w, Pipeline.arrRef spec1 w ≠ b) :
    Gen.W4 m ρ c (Proc.devRef .tc b) = Gen.W1 m ρ c (Proc.devRef .tc b) :=
  (Gen.W4_of_ne m ρ c b h1).trans ((keep1 m ρ c hb).trans (Gen.W2_of_ne m ρ c b h0))

theorem entry0_at7 (hb : b.idx.val < 37) (h0 : ∀ w, Pipeline.arrRef spec0 w ≠ b) (h1 : ∀ w, Pipeline.arrRef spec1 w ≠ b)
    (h2 : ∀ w, Pipeline.arrRef spec2 w ≠ b) : Gen.W7 m ρ c (Proc.devRef .tc b) = Gen.W1 m ρ c (Proc.devRef .tc b) :=
  (Gen.W7_of_ne m ρ c b h2).trans ((keep2 m ρ c (by omega)).trans (entry0_at4 m ρ c hb h0 h1))

theorem entry0_at15 (hb : b.idx.val < 37) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) :
    Gen.W15 m ρ c (Proc.devRef .tc b) = Gen.W1 m ρ c (Proc.devRef .tc b) :=
  (Gen.W15_of_ne m ρ c b h3).trans ((keep3 m ρ c (by omega)).trans (entry0_at7 m ρ c hb h0 h1 h2))

theorem entry0_at23 (hb : b.idx.val < 37) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) (h4 : ∀ w, Pipeline.arrRef spec4 w ≠ b) :
    Gen.W23 m ρ c (Proc.devRef .tc b) = Gen.W1 m ρ c (Proc.devRef .tc b) :=
  (Gen.W23_of_ne m ρ c b h4).trans ((keep4 m ρ c (by omega)).trans (entry0_at15 m ρ c hb h0 h1 h2 h3))

/-! A buffer written before region 1 (below slot 58) that no later region so far writes holds what it held at region 1's entry. -/

theorem entry1_at4 (h1 : ∀ w, Pipeline.arrRef spec1 w ≠ b) :
    Gen.W4 m ρ c (Proc.devRef .tc b) = Gen.W3 m ρ c (Proc.devRef .tc b) :=
  Gen.W4_of_ne m ρ c b h1

theorem entry1_at7 (hb : b.idx.val < 58) (h1 : ∀ w, Pipeline.arrRef spec1 w ≠ b) (h2 : ∀ w, Pipeline.arrRef spec2 w ≠ b) :
    Gen.W7 m ρ c (Proc.devRef .tc b) = Gen.W3 m ρ c (Proc.devRef .tc b) :=
  (Gen.W7_of_ne m ρ c b h2).trans ((keep2 m ρ c hb).trans (Gen.W4_of_ne m ρ c b h1))

theorem entry1_at15 (hb : b.idx.val < 58) (h1 : ∀ w, Pipeline.arrRef spec1 w ≠ b) (h2 : ∀ w, Pipeline.arrRef spec2 w ≠ b)
    (h3 : ∀ w, Pipeline.arrRef spec3 w ≠ b) : Gen.W15 m ρ c (Proc.devRef .tc b) = Gen.W3 m ρ c (Proc.devRef .tc b) :=
  (Gen.W15_of_ne m ρ c b h3).trans ((keep3 m ρ c (by omega)).trans (entry1_at7 m ρ c hb h1 h2))

end Along

/-! ## The instances the value proof reads -/

theorem arg0_at3 (c : Dev nD) : Gen.W3 m ρ c (Proc.devRef .tc main_arg0) = m ((c : Thread nD τ).loc main_arg0) :=
  launch_at3 m ρ c (by decide) (by decide)
theorem arg2_at3 (c : Dev nD) : Gen.W3 m ρ c (Proc.devRef .tc main_arg2) = m ((c : Thread nD τ).loc main_arg2) :=
  launch_at3 m ρ c (by decide) (by decide)
theorem arg3_at7 (c : Dev nD) : Gen.W7 m ρ c (Proc.devRef .tc main_arg3) = m ((c : Thread nD τ).loc main_arg3) :=
  launch_at7 m ρ c (by decide) (by decide) (by decide) (by decide)
theorem arg4_at7 (c : Dev nD) : Gen.W7 m ρ c (Proc.devRef .tc main_arg4) = m ((c : Thread nD τ).loc main_arg4) :=
  launch_at7 m ρ c (by decide) (by decide) (by decide) (by decide)
theorem arg5_at7 (c : Dev nD) : Gen.W7 m ρ c (Proc.devRef .tc main_arg5) = m ((c : Thread nD τ).loc main_arg5) :=
  launch_at7 m ρ c (by decide) (by decide) (by decide) (by decide)
theorem arg6_at7 (c : Dev nD) : Gen.W7 m ρ c (Proc.devRef .tc main_arg6) = m ((c : Thread nD τ).loc main_arg6) :=
  launch_at7 m ρ c (by decide) (by decide) (by decide) (by decide)
theorem arg7_at15 (c : Dev nD) : Gen.W15 m ρ c (Proc.devRef .tc main_arg7) = m ((c : Thread nD τ).loc main_arg7) :=
  launch_at15 m ρ c (by decide) (by decide) (by decide) (by decide) (by decide)
theorem arg8_at15 (c : Dev nD) : Gen.W15 m ρ c (Proc.devRef .tc main_arg8) = m ((c : Thread nD τ).loc main_arg8) :=
  launch_at15 m ρ c (by decide) (by decide) (by decide) (by decide) (by decide)
theorem arg9_at15 (c : Dev nD) : Gen.W15 m ρ c (Proc.devRef .tc main_arg9) = m ((c : Thread nD τ).loc main_arg9) :=
  launch_at15 m ρ c (by decide) (by decide) (by decide) (by decide) (by decide)
theorem arg10_at15 (c : Dev nD) : Gen.W15 m ρ c (Proc.devRef .tc main_arg10) = m ((c : Thread nD τ).loc main_arg10) :=
  launch_at15 m ρ c (by decide) (by decide) (by decide) (by decide) (by decide)
theorem arg11_at23 (c : Dev nD) : Gen.W23 m ρ c (Proc.devRef .tc main_arg11) = m ((c : Thread nD τ).loc main_arg11) :=
  launch_at23 m ρ c (by decide) (by decide) (by decide) (by decide) (by decide) (by decide)
theorem arg12_at23 (c : Dev nD) : Gen.W23 m ρ c (Proc.devRef .tc main_arg12) = m ((c : Thread nD τ).loc main_arg12) :=
  launch_at23 m ρ c (by decide) (by decide) (by decide) (by decide) (by decide) (by decide)
theorem arg13_at23 (c : Dev nD) : Gen.W23 m ρ c (Proc.devRef .tc main_arg13) = m ((c : Thread nD τ).loc main_arg13) :=
  launch_at23 m ρ c (by decide) (by decide) (by decide) (by decide) (by decide) (by decide)
theorem arg14_at26 (c : Dev nD) : Gen.W26 m ρ c (Proc.devRef .tc main_arg14) = m ((c : Thread nD τ).loc main_arg14) :=
  launch_at26 m ρ c (by decide) (by decide) (by decide) (by decide) (by decide) (by decide)
theorem arg15_at26 (c : Dev nD) : Gen.W26 m ρ c (Proc.devRef .tc main_arg15) = m ((c : Thread nD τ).loc main_arg15) :=
  launch_at26 m ρ c (by decide) (by decide) (by decide) (by decide) (by decide) (by decide)
theorem arg16_at26 (c : Dev nD) : Gen.W26 m ρ c (Proc.devRef .tc main_arg16) = m ((c : Thread nD τ).loc main_arg16) :=
  launch_at26 m ρ c (by decide) (by decide) (by decide) (by decide) (by decide) (by decide)
theorem arg17_at26 (c : Dev nD) : Gen.W26 m ρ c (Proc.devRef .tc main_arg17) = m ((c : Thread nD τ).loc main_arg17) :=
  launch_at26 m ρ c (by decide) (by decide) (by decide) (by decide) (by decide) (by decide)
theorem arg18_at26 (c : Dev nD) : Gen.W26 m ρ c (Proc.devRef .tc main_arg18) = m ((c : Thread nD τ).loc main_arg18) :=
  launch_at26 m ρ c (by decide) (by decide) (by decide) (by decide) (by decide) (by decide)
theorem arg19_at26 (c : Dev nD) : Gen.W26 m ρ c (Proc.devRef .tc main_arg19) = m ((c : Thread nD τ).loc main_arg19) :=
  launch_at26 m ρ c (by decide) (by decide) (by decide) (by decide) (by decide) (by decide)
theorem arg20_at26 (c : Dev nD) : Gen.W26 m ρ c (Proc.devRef .tc main_arg20) = m ((c : Thread nD τ).loc main_arg20) :=
  launch_at26 m ρ c (by decide) (by decide) (by decide) (by decide) (by decide) (by decide)
theorem arg21_at26 (c : Dev nD) : Gen.W26 m ρ c (Proc.devRef .tc main_arg21) = m ((c : Thread nD τ).loc main_arg21) :=
  launch_at26 m ρ c (by decide) (by decide) (by decide) (by decide) (by decide) (by decide)
theorem v5_at2 (c : Dev nD) : Gen.W2 m ρ c (Proc.devRef .tc main_v5) = Gen.W1 m ρ c (Proc.devRef .tc main_v5) :=
  entry0_at2 m ρ c (by decide)
theorem v5_at4 (c : Dev nD) : Gen.W4 m ρ c (Proc.devRef .tc main_v5) = Gen.W1 m ρ c (Proc.devRef .tc main_v5) :=
  entry0_at4 m ρ c (by decide) (by decide) (by decide)
theorem v5_at7 (c : Dev nD) : Gen.W7 m ρ c (Proc.devRef .tc main_v5) = Gen.W1 m ρ c (Proc.devRef .tc main_v5) :=
  entry0_at7 m ρ c (by decide) (by decide) (by decide) (by decide)
theorem v5_at15 (c : Dev nD) : Gen.W15 m ρ c (Proc.devRef .tc main_v5) = Gen.W1 m ρ c (Proc.devRef .tc main_v5) :=
  entry0_at15 m ρ c (by decide) (by decide) (by decide) (by decide) (by decide)
theorem v6_at2 (c : Dev nD) : Gen.W2 m ρ c (Proc.devRef .tc main_v6) = Gen.W1 m ρ c (Proc.devRef .tc main_v6) :=
  entry0_at2 m ρ c (by decide)
theorem v6_at4 (c : Dev nD) : Gen.W4 m ρ c (Proc.devRef .tc main_v6) = Gen.W1 m ρ c (Proc.devRef .tc main_v6) :=
  entry0_at4 m ρ c (by decide) (by decide) (by decide)
theorem v6_at7 (c : Dev nD) : Gen.W7 m ρ c (Proc.devRef .tc main_v6) = Gen.W1 m ρ c (Proc.devRef .tc main_v6) :=
  entry0_at7 m ρ c (by decide) (by decide) (by decide) (by decide)
theorem v6_at15 (c : Dev nD) : Gen.W15 m ρ c (Proc.devRef .tc main_v6) = Gen.W1 m ρ c (Proc.devRef .tc main_v6) :=
  entry0_at15 m ρ c (by decide) (by decide) (by decide) (by decide) (by decide)
theorem v6_at23 (c : Dev nD) : Gen.W23 m ρ c (Proc.devRef .tc main_v6) = Gen.W1 m ρ c (Proc.devRef .tc main_v6) :=
  entry0_at23 m ρ c (by decide) (by decide) (by decide) (by decide) (by decide) (by decide)
theorem v28_at4 (c : Dev nD) : Gen.W4 m ρ c (Proc.devRef .tc main_v28) = Gen.W3 m ρ c (Proc.devRef .tc main_v28) :=
  entry1_at4 m ρ c (by decide)
theorem v28_at7 (c : Dev nD) : Gen.W7 m ρ c (Proc.devRef .tc main_v28) = Gen.W3 m ρ c (Proc.devRef .tc main_v28) :=
  entry1_at7 m ρ c (by decide) (by decide) (by decide)
theorem v28_at15 (c : Dev nD) : Gen.W15 m ρ c (Proc.devRef .tc main_v28) = Gen.W3 m ρ c (Proc.devRef .tc main_v28) :=
  entry1_at15 m ρ c (by decide) (by decide) (by decide) (by decide)

end Cert.KernelIdeal.Hand
-- ==== Proof.ResultsAgree.lean ====
/- The two programs' results agree, device by device.

   The kernel program's buffer contents are followed from boundary to boundary — a host stretch, then a kernel region,
   six times — and at each boundary the value the next step reads is shown equal to the reference's final contents at the
   corresponding buffer: the edge lists, the degree and the edge norm (which the reference recomputes in each layer and the
   kernel program computes once); the first layer's matrix product (a matmul into a zero accumulator is the host's dot);
   the inverse root of the degree (rsqrt d = 1 / sqrt d wherever d > 0); the scaled messages (multiplication commutes);
   every other stretch is the same operations on both sides. The reference's final contents are left unchanged by running
   any of its stretches again, so each of its values is read by evaluating its own stretch on the final contents. -/
import proofs.«107159_g82575041232963_cont_9to1c4b_479_20_alg».proof.Proof.Gen.KernelIdeal.Frame
import proofs.«107159_g82575041232963_cont_9to1c4b_479_20_alg».proof.Proof.CrossIndex
import proofs.«107159_g82575041232963_cont_9to1c4b_479_20_alg».proof.Proof.CrossNorm
import proofs.«107159_g82575041232963_cont_9to1c4b_479_20_alg».proof.Proof.CrossLayer1
import proofs.«107159_g82575041232963_cont_9to1c4b_479_20_alg».proof.Proof.CrossLayer2
import proofs.«107159_g82575041232963_cont_9to1c4b_479_20_alg».proof.Proof.CrossLayer3
import proofs.«107159_g82575041232963_cont_9to1c4b_479_20_alg».proof.Proof.WholeBlockRegions
import proofs.«107159_g82575041232963_cont_9to1c4b_479_20_alg».proof.Proof.RowScaleRegion2
import proofs.«107159_g82575041232963_cont_9to1c4b_479_20_alg».proof.Proof.RowScaleRegion3
import proofs.«107159_g82575041232963_cont_9to1c4b_479_20_alg».proof.Proof.RowScaleRegion4
import proofs.«107159_g82575041232963_cont_9to1c4b_479_20_alg».proof.Proof.HeadsRegion
import proofs.«107159_g82575041232963_cont_9to1c4b_479_20_alg».proof.Proof.KernelKeeps
import proofs.«107159_g82575041232963_cont_9to1c4b_479_20_alg».proof.Proof.RefAscending
import Idealize.ShloMosaic.PureOps.Ideal

noncomputable section

namespace Cert.Cross

open Idealize.ShloMosaic Idealize.ShloMosaic.TcCoe Idealize.SL.Sem Idealize.ShloMosaic.StableHlo

/-- Buffer contents of the kernel program and of the reference program, at the ideal instance. -/
local notation "KV" => Valuation Cert.KernelIdeal.τ Cert.KernelIdeal.sig (Elt Ideal)
local notation "RV" => Valuation Cert.ReferenceIdeal.τ Cert.ReferenceIdeal.sig (Elt Ideal)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The reference's final contents at an argument are the kernel program's launch contents of that argument. -/
theorem results_agree (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    (Cert.KernelIdeal.Gen.W27 (F := Ideal) m ρ c) (Proc.devRef .tc Cert.KernelIdeal.main_v122_0) = (after (Cert.ReferenceIdeal.Hand.refOps (F := Ideal)) (launchContents m' c)) (Proc.devRef .tc Cert.ReferenceIdeal.main_v190)
    ∧ (Cert.KernelIdeal.Gen.W27 (F := Ideal) m ρ c) (Proc.devRef .tc Cert.KernelIdeal.main_v122_1) = (after (Cert.ReferenceIdeal.Hand.refOps (F := Ideal)) (launchContents m' c)) (Proc.devRef .tc Cert.ReferenceIdeal.main_v197) := by
  -- the reference's final contents at each argument: its launch contents, which are the kernel program's
  have r0 : (after (Cert.ReferenceIdeal.Hand.refOps (F := Ideal)) (launchContents m' c)) (Proc.devRef .tc Cert.ReferenceIdeal.main_arg0) = m ((c.tc : Thread Cert.KernelIdeal.nD Cert.KernelIdeal.τ).loc Cert.KernelIdeal.main_arg0) := (Cert.ReferenceIdeal.Hand.refOps_keeps_low _ Cert.ReferenceIdeal.main_arg0 (by decide)).trans a0
  have r1 : (after (Cert.ReferenceIdeal.Hand.refOps (F := Ideal)) (launchContents m' c)) (Proc.devRef .tc Cert.ReferenceIdeal.main_arg1) = m ((c.tc : Thread Cert.KernelIdeal.nD Cert.KernelIdeal.τ).loc Cert.KernelIdeal.main_arg1) := (Cert.ReferenceIdeal.Hand.refOps_keeps_low _ Cert.ReferenceIdeal.main_arg1 (by decide)).trans a1
  have r2 : (after (Cert.ReferenceIdeal.Hand.refOps (F := Ideal)) (launchContents m' c)) (Proc.devRef .tc Cert.ReferenceIdeal.main_arg2) = m ((c.tc : Thread Cert.KernelIdeal.nD Cert.KernelIdeal.τ).loc Cert.KernelIdeal.main_arg2) := (Cert.ReferenceIdeal.Hand.refOps_keeps_low _ Cert.ReferenceIdeal.main_arg2 (by decide)).trans a2
  have r3 : (after (Cert.ReferenceIdeal.Hand.refOps (F := Ideal)) (launchContents m' c)) (Proc.devRef .tc Cert.ReferenceIdeal.main_arg3) = m ((c.tc : Thread Cert.KernelIdeal.nD Cert.KernelIdeal.τ).loc Cert.KernelIdeal.main_arg3) := (Cert.ReferenceIdeal.Hand.refOps_keeps_low _ Cert.ReferenceIdeal.main_arg3 (by decide)).trans a3
  have r4 : (after (Cert.ReferenceIdeal.Hand.refOps (F := Ideal)) (launchContents m' c)) (Proc.devRef .tc Cert.ReferenceIdeal.main_arg4) = m ((c.tc : Thread Cert.KernelIdeal.nD Cert.KernelIdeal.τ).loc Cert.KernelIdeal.main_arg4) := (Cert.ReferenceIdeal.Hand.refOps_keeps_low _ Cert.ReferenceIdeal.main_arg4 (by decide)).trans a4
  have r5 : (after (Cert.ReferenceIdeal.Hand.refOps (F := Ideal)) (launchContents m' c)) (Proc.devRef .tc Cert.ReferenceIdeal.main_arg5) = m ((c.tc : Thread Cert.KernelIdeal.nD Cert.KernelIdeal.τ).loc Cert.KernelIdeal.main_arg5) := (Cert.ReferenceIdeal.Hand.refOps_keeps_low _ Cert.ReferenceIdeal.main_arg5 (by decide)).trans a5
  have r6 : (after (Cert.ReferenceIdeal.Hand.refOps (F := Ideal)) (launchContents m' c)) (Proc.devRef .tc Cert.ReferenceIdeal.main_arg6) = m ((c.tc : Thread Cert.KernelIdeal.nD Cert.KernelIdeal.τ).loc Cert.KernelIdeal.main_arg6) := (Cert.ReferenceIdeal.Hand.refOps_keeps_low _ Cert.ReferenceIdeal.main_arg6 (by decide)).trans a6
  have r7 : (after (Cert.ReferenceIdeal.Hand.refOps (F := Ideal)) (launchContents m' c)) (Proc.devRef .tc Cert.ReferenceIdeal.main_arg7) = m ((c.tc : Thread Cert.KernelIdeal.nD Cert.KernelIdeal.τ).loc Cert.KernelIdeal.main_arg7) := (Cert.ReferenceIdeal.Hand.refOps_keeps_low _ Cert.ReferenceIdeal.main_arg7 (by decide)).trans a7
  have r8 : (after (Cert.ReferenceIdeal.Hand.refOps (F := Ideal)) (launchContents m' c)) (Proc.devRef .tc Cert.ReferenceIdeal.main_arg8) = m ((c.tc : Thread Cert.KernelIdeal.nD Cert.KernelIdeal.τ).loc Cert.KernelIdeal.main_arg8) := (Cert.ReferenceIdeal.Hand.refOps_keeps_low _ Cert.ReferenceIdeal.main_arg8 (by decide)).trans a8
  have r9 : (after (Cert.ReferenceIdeal.Hand.refOps (F := Ideal)) (launchContents m' c)) (Proc.devRef .tc Cert.ReferenceIdeal.main_arg9) = m ((c.tc : Thread Cert.KernelIdeal.nD Cert.KernelIdeal.τ).loc Cert.KernelIdeal.main_arg9) := (Cert.ReferenceIdeal.Hand.refOps_keeps_low _ Cert.ReferenceIdeal.main_arg9 (by decide)).trans a9
  have r10 : (after (Cert.ReferenceIdeal.Hand.refOps (F := Ideal)) (launchContents m' c)) (Proc.devRef .tc Cert.ReferenceIdeal.main_arg10) = m ((c.tc : Thread Cert.KernelIdeal.nD Cert.KernelIdeal.τ).loc Cert.KernelIdeal.main_arg10) := (Cert.ReferenceIdeal.Hand.refOps_keeps_low _ Cert.ReferenceIdeal.main_arg10 (by decide)).trans a10
  have r11 : (after (Cert.ReferenceIdeal.Hand.refOps (F := Ideal)) (launchContents m' c)) (Proc.devRef .tc Cert.ReferenceIdeal.main_arg11) = m ((c.tc : Thread Cert.KernelIdeal.nD Cert.KernelIdeal.τ).loc Cert.KernelIdeal.main_arg11) := (Cert.ReferenceIdeal.Hand.refOps_keeps_low _ Cert.ReferenceIdeal.main_arg11 (by decide)).trans a11
  have r12 : (after (Cert.ReferenceIdeal.Hand.refOps (F := Ideal)) (launchContents m' c)) (Proc.devRef .tc Cert.ReferenceIdeal.main_arg12) = m ((c.tc : Thread Cert.KernelIdeal.nD Cert.KernelIdeal.τ).loc Cert.KernelIdeal.main_arg12) := (Cert.ReferenceIdeal.Hand.refOps_keeps_low _ Cert.ReferenceIdeal.main_arg12 (by decide)).trans a12
  have r13 : (after (Cert.ReferenceIdeal.Hand.refOps (F := Ideal)) (launchContents m' c)) (Proc.devRef .tc Cert.ReferenceIdeal.main_arg13) = m ((c.tc : Thread Cert.KernelIdeal.nD Cert.KernelIdeal.τ).loc Cert.KernelIdeal.main_arg13) := (Cert.ReferenceIdeal.Hand.refOps_keeps_low _ Cert.ReferenceIdeal.main_arg13 (by decide)).trans a13
  have r14 : (after (Cert.ReferenceIdeal.Hand.refOps (F := Ideal)) (launchContents m' c)) (Proc.devRef .tc Cert.ReferenceIdeal.main_arg14) = m ((c.tc : Thread Cert.KernelIdeal.nD Cert.KernelIdeal.τ).loc Cert.KernelIdeal.main_arg14) := (Cert.ReferenceIdeal.Hand.refOps_keeps_low _ Cert.ReferenceIdeal.main_arg14 (by decide)).trans a14
  have r15 : (after (Cert.ReferenceIdeal.Hand.refOps (F := Ideal)) (launchContents m' c)) (Proc.devRef .tc Cert.ReferenceIdeal.main_arg15) = m ((c.tc : Thread Cert.KernelIdeal.nD Cert.KernelIdeal.τ).loc Cert.KernelIdeal.main_arg15) := (Cert.ReferenceIdeal.Hand.refOps_keeps_low _ Cert.ReferenceIdeal.main_arg15 (by decide)).trans a15
  have r16 : (after (Cert.ReferenceIdeal.Hand.refOps (F := Ideal)) (launchContents m' c)) (Proc.devRef .tc Cert.ReferenceIdeal.main_arg16) = m ((c.tc : Thread Cert.KernelIdeal.nD Cert.KernelIdeal.τ).loc Cert.KernelIdeal.main_arg16) := (Cert.ReferenceIdeal.Hand.refOps_keeps_low _ Cert.ReferenceIdeal.main_arg16 (by decide)).trans a16
  have r17 : (after (Cert.ReferenceIdeal.Hand.refOps (F := Ideal)) (launchContents m' c)) (Proc.devRef .tc Cert.ReferenceIdeal.main_arg17) = m ((c.tc : Thread Cert.KernelIdeal.nD Cert.KernelIdeal.τ).loc Cert.KernelIdeal.main_arg17) := (Cert.ReferenceIdeal.Hand.refOps_keeps_low _ Cert.ReferenceIdeal.main_arg17 (by decide)).trans a17
  have r18 : (after (Cert.ReferenceIdeal.Hand.refOps (F := Ideal)) (launchContents m' c)) (Proc.devRef .tc Cert.ReferenceIdeal.main_arg18) = m ((c.tc : Thread Cert.KernelIdeal.nD Cert.KernelIdeal.τ).loc Cert.KernelIdeal.main_arg18) := (Cert.ReferenceIdeal.Hand.refOps_keeps_low _ Cert.ReferenceIdeal.main_arg18 (by decide)).trans a18
  have r19 : (after (Cert.ReferenceIdeal.Hand.refOps (F := Ideal)) (launchContents m' c)) (Proc.devRef .tc Cert.ReferenceIdeal.main_arg19) = m ((c.tc : Thread Cert.KernelIdeal.nD Cert.KernelIdeal.τ).loc Cert.KernelIdeal.main_arg19) := (Cert.ReferenceIdeal.Hand.refOps_keeps_low _ Cert.ReferenceIdeal.main_arg19 (by decide)).trans a19
  have r20 : (after (Cert.ReferenceIdeal.Hand.refOps (F := Ideal)) (launchContents m' c)) (Proc.devRef .tc Cert.ReferenceIdeal.main_arg20) = m ((c.tc : Thread Cert.KernelIdeal.nD Cert.KernelIdeal.τ).loc Cert.KernelIdeal.main_arg20) := (Cert.ReferenceIdeal.Hand.refOps_keeps_low _ Cert.ReferenceIdeal.main_arg20 (by decide)).trans a20
  have r21 : (after (Cert.ReferenceIdeal.Hand.refOps (F := Ideal)) (launchContents m' c)) (Proc.devRef .tc Cert.ReferenceIdeal.main_arg21) = m ((c.tc : Thread Cert.KernelIdeal.nD Cert.KernelIdeal.τ).loc Cert.KernelIdeal.main_arg21) := (Cert.ReferenceIdeal.Hand.refOps_keeps_low _ Cert.ReferenceIdeal.main_arg21 (by decide)).trans a21
  -- the edge lists and the degree, from the edge table (the kernel program's first stretch runs from the launch contents)
  have ke1 : (Cert.KernelIdeal.Gen.W0 (F := Ideal) m ρ c) (Proc.devRef .tc Cert.KernelIdeal.main_arg1) = (after (Cert.ReferenceIdeal.Hand.refOps (F := Ideal)) (launchContents m' c)) (Proc.devRef .tc Cert.ReferenceIdeal.main_arg1) := r1.symm
  have s1 : (Cert.KernelIdeal.Gen.W1 (F := Ideal) m ρ c) (Proc.devRef .tc Cert.KernelIdeal.main_v5) = (after (Cert.ReferenceIdeal.Hand.refOps (F := Ideal)) (launchContents m' c)) (Proc.devRef .tc Cert.ReferenceIdeal.main_v6) := by
    have h := sources_1 (Cert.KernelIdeal.Gen.W0 (F := Ideal) m ρ c) (after (Cert.ReferenceIdeal.Hand.refOps (F := Ideal)) (launchContents m' c)) ke1
    rw [Cert.ReferenceIdeal.Hand.rerun_idx, Cert.ReferenceIdeal.Hand.rerun_cat1] at h
    exact h
  have t1 : (Cert.KernelIdeal.Gen.W1 (F := Ideal) m ρ c) (Proc.devRef .tc Cert.KernelIdeal.main_v6) = (after (Cert.ReferenceIdeal.Hand.refOps (F := Ideal)) (launchContents m' c)) (Proc.devRef .tc Cert.ReferenceIdeal.main_v7) := by
    have h := targets_1 (Cert.KernelIdeal.Gen.W0 (F := Ideal) m ρ c) (after (Cert.ReferenceIdeal.Hand.refOps (F := Ideal)) (launchContents m' c)) ke1
    rw [Cert.ReferenceIdeal.Hand.rerun_idx, Cert.ReferenceIdeal.Hand.rerun_cat1] at h
    exact h
  have d1 : (Cert.KernelIdeal.Gen.W1 (F := Ideal) m ρ c) (Proc.devRef .tc Cert.KernelIdeal.main_v10) = (after (Cert.ReferenceIdeal.Hand.refOps (F := Ideal)) (launchContents m' c)) (Proc.devRef .tc Cert.ReferenceIdeal.main_v11) := by
    have h := degree_1 (Cert.KernelIdeal.Gen.W0 (F := Ideal) m ρ c) (after (Cert.ReferenceIdeal.Hand.refOps (F := Ideal)) (launchContents m' c)) ke1
    rw [Cert.ReferenceIdeal.Hand.rerun_idx, Cert.ReferenceIdeal.Hand.rerun_cat1, Cert.ReferenceIdeal.Hand.rerun_deg1] at h
    exact h
  have s2 : (Cert.KernelIdeal.Gen.W1 (F := Ideal) m ρ c) (Proc.devRef .tc Cert.KernelIdeal.main_v5) = (after (Cert.ReferenceIdeal.Hand.refOps (F := Ideal)) (launchContents m' c)) (Proc.devRef .tc Cert.ReferenceIdeal.main_v65) := by
    have h := sources_2 (Cert.KernelIdeal.Gen.W0 (F := Ideal) m ρ c) (after (Cert.ReferenceIdeal.Hand.refOps (F := Ideal)) (launchContents m' c)) ke1
    rw [Cert.ReferenceIdeal.Hand.rerun_idx, Cert.ReferenceIdeal.Hand.rerun_cat2] at h
    exact h
  have t2 : (Cert.KernelIdeal.Gen.W1 (F := Ideal) m ρ c) (Proc.devRef .tc Cert.KernelIdeal.main_v6) = (after (Cert.ReferenceIdeal.Hand.refOps (F := Ideal)) (launchContents m' c)) (Proc.devRef .tc Cert.ReferenceIdeal.main_v66) := by
    have h := targets_2 (Cert.KernelIdeal.Gen.W0 (F := Ideal) m ρ c) (after (Cert.ReferenceIdeal.Hand.refOps (F := Ideal)) (launchContents m' c)) ke1
    rw [Cert.ReferenceIdeal.Hand.rerun_idx, Cert.ReferenceIdeal.Hand.rerun_cat2] at h
    exact h
  have d2 : (Cert.KernelIdeal.Gen.W1 (F := Ideal) m ρ c) (Proc.devRef .tc Cert.KernelIdeal.main_v10) = (after (Cert.ReferenceIdeal.Hand.refOps (F := Ideal)) (launchContents m' c)) (Proc.devRef .tc Cert.ReferenceIdeal.main_v70) := by
    have h := degree_2 (Cert.KernelIdeal.Gen.W0 (F := Ideal) m ρ c) (after (Cert.ReferenceIdeal.Hand.refOps (F := Ideal)) (launchContents m' c)) ke1
    rw [Cert.ReferenceIdeal.Hand.rerun_idx, Cert.ReferenceIdeal.Hand.rerun_cat2, Cert.ReferenceIdeal.Hand.rerun_deg2] at h
    exact h
  have s3 : (Cert.KernelIdeal.Gen.W1 (F := Ideal) m ρ c) (Proc.devRef .tc Cert.KernelIdeal.main_v5) = (after (Cert.ReferenceIdeal.Hand.refOps (F := Ideal)) (launchContents m' c)) (Proc.devRef .tc Cert.ReferenceIdeal.main_v124) := by
    have h := sources_3 (Cert.KernelIdeal.Gen.W0 (F := Ideal) m ρ c) (after (Cert.ReferenceIdeal.Hand.refOps (F := Ideal)) (launchContents m' c)) ke1
    rw [Cert.ReferenceIdeal.Hand.rerun_idx, Cert.ReferenceIdeal.Hand.rerun_cat3] at h
    exact h
  have t3 : (Cert.KernelIdeal.Gen.W1 (F := Ideal) m ρ c) (Proc.devRef .tc Cert.KernelIdeal.main_v6) = (after (Cert.ReferenceIdeal.Hand.refOps (F := Ideal)) (launchContents m' c)) (Proc.devRef .tc Cert.ReferenceIdeal.main_v125) := by
    have h := targets_3 (Cert.KernelIdeal.Gen.W0 (F := Ideal) m ρ c) (after (Cert.ReferenceIdeal.Hand.refOps (F := Ideal)) (launchContents m' c)) ke1
    rw [Cert.ReferenceIdeal.Hand.rerun_idx, Cert.ReferenceIdeal.Hand.rerun_cat3] at h
    exact h
  have d3 : (Cert.KernelIdeal.Gen.W1 (F := Ideal) m ρ c) (Proc.devRef .tc Cert.KernelIdeal.main_v10) = (after (Cert.ReferenceIdeal.Hand.refOps (F := Ideal)) (launchContents m' c)) (Proc.devRef .tc Cert.ReferenceIdeal.main_v129) := by
    have h := degree_3 (Cert.KernelIdeal.Gen.W0 (F := Ideal) m ρ c) (after (Cert.ReferenceIdeal.Hand.refOps (F := Ideal)) (launchContents m' c)) ke1
    rw [Cert.ReferenceIdeal.Hand.rerun_idx, Cert.ReferenceIdeal.Hand.rerun_cat3, Cert.ReferenceIdeal.Hand.rerun_deg3] at h
    exact h
  -- the inverse root of the degree: the first region on the degree as a one-row matrix, against the reference's masked quotient
  have q : shapeCast Cert.KernelIdeal.S10000 ((Cert.KernelIdeal.Gen.W2 (F := Ideal) m ρ c) (Proc.devRef .tc Cert.KernelIdeal.main_v12)) Cert.KernelIdeal.Facts₀.shapeCasts_S1x10000_S10000
      = shapeCast Cert.KernelIdeal.S10000 (Cert.KernelIdeal.Gen.k0_pay1 (F := Ideal) (shapeCast Cert.KernelIdeal.S1x10000 ((Cert.KernelIdeal.Gen.W1 (F := Ideal) m ρ c) (Proc.devRef .tc Cert.KernelIdeal.main_v10)) Cert.KernelIdeal.Facts₀.shapeCasts_S10000_S1x10000)) Cert.KernelIdeal.Facts₀.shapeCasts_S1x10000_S10000 := by
    rw [Cert.KernelIdeal.Hand.invSqrt_exit (F := Ideal) m ρ c, show (Cert.KernelIdeal.Gen.W1 (F := Ideal) m ρ c) (Proc.devRef .tc Cert.KernelIdeal.main_v11) = _ from degree_row (Cert.KernelIdeal.Gen.W0 (F := Ideal) m ρ c)]
  have q1 : shapeCast Cert.KernelIdeal.S10000 ((Cert.KernelIdeal.Gen.W2 (F := Ideal) m ρ c) (Proc.devRef .tc Cert.KernelIdeal.main_v12)) Cert.KernelIdeal.Facts₀.shapeCasts_S1x10000_S10000 = (after (Cert.ReferenceIdeal.Hand.refOps (F := Ideal)) (launchContents m' c)) (Proc.devRef .tc Cert.ReferenceIdeal.main_v17) := by
    have h := inverse_root_1 (after (Cert.ReferenceIdeal.Hand.refOps (F := Ideal)) (launchContents m' c)) ((Cert.KernelIdeal.Gen.W1 (F := Ideal) m ρ c) (Proc.devRef .tc Cert.KernelIdeal.main_v10)) d1.symm
    rw [Cert.ReferenceIdeal.Hand.rerun_inv1] at h
    exact q.trans h.symm
  have n1 : (Cert.KernelIdeal.Gen.W3 (F := Ideal) m ρ c) (Proc.devRef .tc Cert.KernelIdeal.main_v28) = (after (Cert.ReferenceIdeal.Hand.refOps (F := Ideal)) (launchContents m' c)) (Proc.devRef .tc Cert.ReferenceIdeal.main_v32) := by
    have h := norm_1 (Cert.KernelIdeal.Gen.W2 (F := Ideal) m ρ c) (after (Cert.ReferenceIdeal.Hand.refOps (F := Ideal)) (launchContents m' c)) ((Cert.KernelIdeal.Hand.v5_at2 m ρ c).trans s1) ((Cert.KernelIdeal.Hand.v6_at2 m ρ c).trans t1) q1
    rw [Cert.ReferenceIdeal.Hand.rerun_nrm1] at h
    exact h
  have q2 : shapeCast Cert.KernelIdeal.S10000 ((Cert.KernelIdeal.Gen.W2 (F := Ideal) m ρ c) (Proc.devRef .tc Cert.KernelIdeal.main_v12)) Cert.KernelIdeal.Facts₀.shapeCasts_S1x10000_S10000 = (after (Cert.ReferenceIdeal.Hand.refOps (F := Ideal)) (launchContents m' c)) (Proc.devRef .tc Cert.ReferenceIdeal.main_v76) := by
    have h := inverse_root_2 (after (Cert.ReferenceIdeal.Hand.refOps (F := Ideal)) (launchContents m' c)) ((Cert.KernelIdeal.Gen.W1 (F := Ideal) m ρ c) (Proc.devRef .tc Cert.KernelIdeal.main_v10)) d2.symm
    rw [Cert.ReferenceIdeal.Hand.rerun_inv2] at h
    exact q.trans h.symm
  have n2 : (Cert.KernelIdeal.Gen.W3 (F := Ideal) m ρ c) (Proc.devRef .tc Cert.KernelIdeal.main_v28) = (after (Cert.ReferenceIdeal.Hand.refOps (F := Ideal)) (launchContents m' c)) (Proc.devRef .tc Cert.ReferenceIdeal.main_v91) := by
    have h := norm_2 (Cert.KernelIdeal.Gen.W2 (F := Ideal) m ρ c) (after (Cert.ReferenceIdeal.Hand.refOps (F := Ideal)) (launchContents m' c)) ((Cert.KernelIdeal.Hand.v5_at2 m ρ c).trans s2) ((Cert.KernelIdeal.Hand.v6_at2 m ρ c).trans t2) q2
    rw [Cert.ReferenceIdeal.Hand.rerun_nrm2] at h
    exact h
  have q3 : shapeCast Cert.KernelIdeal.S10000 ((Cert.KernelIdeal.Gen.W2 (F := Ideal) m ρ c) (Proc.devRef .tc Cert.KernelIdeal.main_v12)) Cert.KernelIdeal.Facts₀.shapeCasts_S1x10000_S10000 = (after (Cert.ReferenceIdeal.Hand.refOps (F := Ideal)) (launchContents m' c)) (Proc.devRef .tc Cert.ReferenceIdeal.main_v135) := by
    have h := inverse_root_3 (after (Cert.ReferenceIdeal.Hand.refOps (F := Ideal)) (launchContents m' c)) ((Cert.KernelIdeal.Gen.W1 (F := Ideal) m ρ c) (Proc.devRef .tc Cert.KernelIdeal.main_v10)) d3.symm
    rw [Cert.ReferenceIdeal.Hand.rerun_inv3] at h
    exact q.trans h.symm
  have n3 : (Cert.KernelIdeal.Gen.W3 (F := Ideal) m ρ c) (Proc.devRef .tc Cert.KernelIdeal.main_v28) = (after (Cert.ReferenceIdeal.Hand.refOps (F := Ideal)) (launchContents m' c)) (Proc.devRef .tc Cert.ReferenceIdeal.main_v150) := by
    have h := norm_3 (Cert.KernelIdeal.Gen.W2 (F := Ideal) m ρ c) (after (Cert.ReferenceIdeal.Hand.refOps (F := Ideal)) (launchContents m' c)) ((Cert.KernelIdeal.Hand.v5_at2 m ρ c).trans s3) ((Cert.KernelIdeal.Hand.v6_at2 m ρ c).trans t3) q3
    rw [Cert.ReferenceIdeal.Hand.rerun_nrm3a, Cert.ReferenceIdeal.Hand.rerun_nrm3b] at h
    exact h
  -- the first layer: the product region, the gather, the norm column, the row-scaling region
  have p1 : (Cert.KernelIdeal.Gen.W4 (F := Ideal) m ρ c) (Proc.devRef .tc Cert.KernelIdeal.main_v29) = (after (Cert.ReferenceIdeal.Hand.refOps (F := Ideal)) (launchContents m' c)) (Proc.devRef .tc Cert.ReferenceIdeal.main_v4) := by
    have h := first_product_ref (after (Cert.ReferenceIdeal.Hand.refOps (F := Ideal)) (launchContents m' c)) ((Cert.KernelIdeal.Gen.W3 (F := Ideal) m ρ c) (Proc.devRef .tc Cert.KernelIdeal.main_arg0)) ((Cert.KernelIdeal.Gen.W3 (F := Ideal) m ρ c) (Proc.devRef .tc Cert.KernelIdeal.main_arg2)) (r0.trans (Cert.KernelIdeal.Hand.arg0_at3 m ρ c).symm) (r2.trans (Cert.KernelIdeal.Hand.arg2_at3 m ρ c).symm)
    rw [Cert.ReferenceIdeal.Hand.rerun_xw1] at h
    exact (Cert.KernelIdeal.Hand.product_exit (F := Ideal) m ρ c).trans h.symm
  have g1 : (Cert.KernelIdeal.Gen.W6 (F := Ideal) m ρ c) (Proc.devRef .tc Cert.KernelIdeal.main_v30) = (after (Cert.ReferenceIdeal.Hand.refOps (F := Ideal)) (launchContents m' c)) (Proc.devRef .tc Cert.ReferenceIdeal.main_v34) := by
    have h := take_1 (Cert.KernelIdeal.Gen.W4 (F := Ideal) m ρ c) (after (Cert.ReferenceIdeal.Hand.refOps (F := Ideal)) (launchContents m' c)) p1 ((Cert.KernelIdeal.Hand.v5_at4 m ρ c).trans s1)
    rw [Cert.ReferenceIdeal.Hand.rerun_take1] at h
    exact (take_1_kept (Cert.KernelIdeal.Gen.W4 (F := Ideal) m ρ c)).trans h
  have c1 : (Cert.KernelIdeal.Gen.W6 (F := Ideal) m ρ c) (Proc.devRef .tc Cert.KernelIdeal.main_v31) = (after (Cert.ReferenceIdeal.Hand.refOps (F := Ideal)) (launchContents m' c)) (Proc.devRef .tc Cert.ReferenceIdeal.main_v33) := by
    have h := norm_column_ref_1 (after (Cert.ReferenceIdeal.Hand.refOps (F := Ideal)) (launchContents m' c)) ((Cert.KernelIdeal.Gen.W4 (F := Ideal) m ρ c) (Proc.devRef .tc Cert.KernelIdeal.main_v28)) (n1.symm.trans (Cert.KernelIdeal.Hand.v28_at4 m ρ c).symm)
    rw [Cert.ReferenceIdeal.Hand.rerun_col1] at h
    exact (norm_column_1 (Cert.KernelIdeal.Gen.W4 (F := Ideal) m ρ c)).trans h.symm
  have m1 : (Cert.KernelIdeal.Gen.W7 (F := Ideal) m ρ c) (Proc.devRef .tc Cert.KernelIdeal.main_v32) = (after (Cert.ReferenceIdeal.Hand.refOps (F := Ideal)) (launchContents m' c)) (Proc.devRef .tc Cert.ReferenceIdeal.main_v36) := by
    have h := scaled_ref_1 (after (Cert.ReferenceIdeal.Hand.refOps (F := Ideal)) (launchContents m' c)) ((Cert.KernelIdeal.Gen.W6 (F := Ideal) m ρ c) (Proc.devRef .tc Cert.KernelIdeal.main_v30)) ((Cert.KernelIdeal.Gen.W6 (F := Ideal) m ρ c) (Proc.devRef .tc Cert.KernelIdeal.main_v31)) g1.symm c1.symm
    rw [Cert.ReferenceIdeal.Hand.rerun_scl1] at h
    exact (Cert.KernelIdeal.Hand.rowScale2_exit m ρ c).trans h.symm
  -- the second layer
  have g2 : (Cert.KernelIdeal.Gen.W14 (F := Ideal) m ρ c) (Proc.devRef .tc Cert.KernelIdeal.main_v60) = (after (Cert.ReferenceIdeal.Hand.refOps (F := Ideal)) (launchContents m' c)) (Proc.devRef .tc Cert.ReferenceIdeal.main_v93) := by
    have h := layer1_to_take2 (Cert.KernelIdeal.Gen.W7 (F := Ideal) m ρ c) (after (Cert.ReferenceIdeal.Hand.refOps (F := Ideal)) (launchContents m' c)) m1 ((Cert.KernelIdeal.Hand.v6_at7 m ρ c).trans t1) ((Cert.KernelIdeal.Hand.v5_at7 m ρ c).trans s2) ((Cert.KernelIdeal.Hand.arg3_at7 m ρ c).trans r3.symm) ((Cert.KernelIdeal.Hand.arg4_at7 m ρ c).trans r4.symm) ((Cert.KernelIdeal.Hand.arg5_at7 m ρ c).trans r5.symm) ((Cert.KernelIdeal.Hand.arg6_at7 m ρ c).trans r6.symm)
    rw [Cert.ReferenceIdeal.Hand.rerun_agg1, Cert.ReferenceIdeal.Hand.rerun_bn1a, Cert.ReferenceIdeal.Hand.rerun_bn1b, Cert.ReferenceIdeal.Hand.rerun_xw2, Cert.ReferenceIdeal.Hand.rerun_take2] at h
    exact h
  have c2 : (Cert.KernelIdeal.Gen.W14 (F := Ideal) m ρ c) (Proc.devRef .tc Cert.KernelIdeal.main_v61) = (after (Cert.ReferenceIdeal.Hand.refOps (F := Ideal)) (launchContents m' c)) (Proc.devRef .tc Cert.ReferenceIdeal.main_v92) := by
    have h := norm_column_ref_2 (after (Cert.ReferenceIdeal.Hand.refOps (F := Ideal)) (launchContents m' c)) ((Cert.KernelIdeal.Gen.W7 (F := Ideal) m ρ c) (Proc.devRef .tc Cert.KernelIdeal.main_v28)) (n2.symm.trans (Cert.KernelIdeal.Hand.v28_at7 m ρ c).symm)
    rw [Cert.ReferenceIdeal.Hand.rerun_col2] at h
    exact (norm_column_2 (Cert.KernelIdeal.Gen.W7 (F := Ideal) m ρ c)).trans h.symm
  have m2 : (Cert.KernelIdeal.Gen.W15 (F := Ideal) m ρ c) (Proc.devRef .tc Cert.KernelIdeal.main_v62) = (after (Cert.ReferenceIdeal.Hand.refOps (F := Ideal)) (launchContents m' c)) (Proc.devRef .tc Cert.ReferenceIdeal.main_v95) := by
    have h := scaled_ref_2 (after (Cert.ReferenceIdeal.Hand.refOps (F := Ideal)) (launchContents m' c)) ((Cert.KernelIdeal.Gen.W14 (F := Ideal) m ρ c) (Proc.devRef .tc Cert.KernelIdeal.main_v60)) ((Cert.KernelIdeal.Gen.W14 (F := Ideal) m ρ c) (Proc.devRef .tc Cert.KernelIdeal.main_v61)) g2.symm c2.symm
    rw [Cert.ReferenceIdeal.Hand.rerun_scl2] at h
    exact (Cert.KernelIdeal.Hand.rowScale3_exit m ρ c).trans h.symm
  -- the third layer
  have g3 : (Cert.KernelIdeal.Gen.W22 (F := Ideal) m ρ c) (Proc.devRef .tc Cert.KernelIdeal.main_v90) = (after (Cert.ReferenceIdeal.Hand.refOps (F := Ideal)) (launchContents m' c)) (Proc.devRef .tc Cert.ReferenceIdeal.main_v152) := by
    have h := layer2_to_take3 (Cert.KernelIdeal.Gen.W15 (F := Ideal) m ρ c) (after (Cert.ReferenceIdeal.Hand.refOps (F := Ideal)) (launchContents m' c)) m2 ((Cert.KernelIdeal.Hand.v6_at15 m ρ c).trans t2) ((Cert.KernelIdeal.Hand.v5_at15 m ρ c).trans s3) ((Cert.KernelIdeal.Hand.arg7_at15 m ρ c).trans r7.symm) ((Cert.KernelIdeal.Hand.arg8_at15 m ρ c).trans r8.symm) ((Cert.KernelIdeal.Hand.arg9_at15 m ρ c).trans r9.symm) ((Cert.KernelIdeal.Hand.arg10_at15 m ρ c).trans r10.symm)
    rw [Cert.ReferenceIdeal.Hand.rerun_agg2a, Cert.ReferenceIdeal.Hand.rerun_agg2b, Cert.ReferenceIdeal.Hand.rerun_bn2, Cert.ReferenceIdeal.Hand.rerun_xw3, Cert.ReferenceIdeal.Hand.rerun_take3] at h
    exact h
  have c3 : (Cert.KernelIdeal.Gen.W22 (F := Ideal) m ρ c) (Proc.devRef .tc Cert.KernelIdeal.main_v91) = (after (Cert.ReferenceIdeal.Hand.refOps (F := Ideal)) (launchContents m' c)) (Proc.devRef .tc Cert.ReferenceIdeal.main_v151) := by
    have h := norm_column_ref_3 (after (Cert.ReferenceIdeal.Hand.refOps (F := Ideal)) (launchContents m' c)) ((Cert.KernelIdeal.Gen.W15 (F := Ideal) m ρ c) (Proc.devRef .tc Cert.KernelIdeal.main_v28)) (n3.symm.trans (Cert.KernelIdeal.Hand.v28_at15 m ρ c).symm)
    rw [Cert.ReferenceIdeal.Hand.rerun_col3] at h
    exact (norm_column_3 (Cert.KernelIdeal.Gen.W15 (F := Ideal) m ρ c)).trans h.symm
  have m3 : (Cert.KernelIdeal.Gen.W23 (F := Ideal) m ρ c) (Proc.devRef .tc Cert.KernelIdeal.main_v92) = (after (Cert.ReferenceIdeal.Hand.refOps (F := Ideal)) (launchContents m' c)) (Proc.devRef .tc Cert.ReferenceIdeal.main_v154) := by
    have h := scaled_ref_3 (after (Cert.ReferenceIdeal.Hand.refOps (F := Ideal)) (launchContents m' c)) ((Cert.KernelIdeal.Gen.W22 (F := Ideal) m ρ c) (Proc.devRef .tc Cert.KernelIdeal.main_v90)) ((Cert.KernelIdeal.Gen.W22 (F := Ideal) m ρ c) (Proc.devRef .tc Cert.KernelIdeal.main_v91)) g3.symm c3.symm
    rw [Cert.ReferenceIdeal.Hand.rerun_scl3] at h
    exact (Cert.KernelIdeal.Hand.rowScale4_exit m ρ c).trans h.symm
  -- the mean row and the two heads
  have mu : (Cert.KernelIdeal.Gen.W26 (F := Ideal) m ρ c) (Proc.devRef .tc Cert.KernelIdeal.main_v121) = (after (Cert.ReferenceIdeal.Hand.refOps (F := Ideal)) (launchContents m' c)) (Proc.devRef .tc Cert.ReferenceIdeal.main_v183) := by
    have h := layer3_to_mean (Cert.KernelIdeal.Gen.W23 (F := Ideal) m ρ c) (after (Cert.ReferenceIdeal.Hand.refOps (F := Ideal)) (launchContents m' c)) m3 ((Cert.KernelIdeal.Hand.v6_at23 m ρ c).trans t3) ((Cert.KernelIdeal.Hand.arg11_at23 m ρ c).trans r11.symm) ((Cert.KernelIdeal.Hand.arg12_at23 m ρ c).trans r12.symm) ((Cert.KernelIdeal.Hand.arg13_at23 m ρ c).trans r13.symm)
    rw [Cert.ReferenceIdeal.Hand.rerun_agg3, Cert.ReferenceIdeal.Hand.rerun_bn3, Cert.ReferenceIdeal.Hand.rerun_mean] at h
    exact h
  constructor
  · have h := head0_ref (after (Cert.ReferenceIdeal.Hand.refOps (F := Ideal)) (launchContents m' c)) ((Cert.KernelIdeal.Gen.W26 (F := Ideal) m ρ c) (Proc.devRef .tc Cert.KernelIdeal.main_v121)) ((Cert.KernelIdeal.Gen.W26 (F := Ideal) m ρ c) (Proc.devRef .tc Cert.KernelIdeal.main_arg14)) ((Cert.KernelIdeal.Gen.W26 (F := Ideal) m ρ c) (Proc.devRef .tc Cert.KernelIdeal.main_arg15)) ((Cert.KernelIdeal.Gen.W26 (F := Ideal) m ρ c) (Proc.devRef .tc Cert.KernelIdeal.main_arg16)) ((Cert.KernelIdeal.Gen.W26 (F := Ideal) m ρ c) (Proc.devRef .tc Cert.KernelIdeal.main_arg17))
      mu.symm (r14.trans (Cert.KernelIdeal.Hand.arg14_at26 m ρ c).symm) (r15.trans (Cert.KernelIdeal.Hand.arg15_at26 m ρ c).symm) (r16.trans (Cert.KernelIdeal.Hand.arg16_at26 m ρ c).symm) (r17.trans (Cert.KernelIdeal.Hand.arg17_at26 m ρ c).symm)
    rw [Cert.ReferenceIdeal.Hand.rerun_head0] at h
    exact (Cert.KernelIdeal.Hand.heads_exit0 (F := Ideal) m ρ c).trans h.symm
  · have h := head1_ref (after (Cert.ReferenceIdeal.Hand.refOps (F := Ideal)) (launchContents m' c)) ((Cert.KernelIdeal.Gen.W26 (F := Ideal) m ρ c) (Proc.devRef .tc Cert.KernelIdeal.main_v121)) ((Cert.KernelIdeal.Gen.W26 (F := Ideal) m ρ c) (Proc.devRef .tc Cert.KernelIdeal.main_arg18)) ((Cert.KernelIdeal.Gen.W26 (F := Ideal) m ρ c) (Proc.devRef .tc Cert.KernelIdeal.main_arg19)) ((Cert.KernelIdeal.Gen.W26 (F := Ideal) m ρ c) (Proc.devRef .tc Cert.KernelIdeal.main_arg20)) ((Cert.KernelIdeal.Gen.W26 (F := Ideal) m ρ c) (Proc.devRef .tc Cert.KernelIdeal.main_arg21))
      mu.symm (r18.trans (Cert.KernelIdeal.Hand.arg18_at26 m ρ c).symm) (r19.trans (Cert.KernelIdeal.Hand.arg19_at26 m ρ c).symm) (r20.trans (Cert.KernelIdeal.Hand.arg20_at26 m ρ c).symm) (r21.trans (Cert.KernelIdeal.Hand.arg21_at26 m ρ c).symm)
    rw [Cert.ReferenceIdeal.Hand.rerun_head1a, Cert.ReferenceIdeal.Hand.rerun_head1b] at h
    exact (Cert.KernelIdeal.Hand.heads_exit1 (F := Ideal) m ρ c).trans h.symm

end Cert.Cross

end
-- ==== Proof.lean ====
/- The certificate of a three-layer graph convolution network's forward pass: the Pallas hybrid against the plain jnp reference.

   The kernel program runs six TensorCore regions among host stretches: the inverse root of the degree, the first
   layer's matrix product, the scaling of each layer's gathered rows by the edge norm (three regions, fifty row blocks
   each), and the two small heads on the mean row; the scatter-adds, the batch normalisations and the rest run as host
   operations, the same ones the reference runs. At the ideal instance (floats are extended reals, operations exact) the
   two programs' results are equal:
   * the region's masked inverse root where(d > 0, rsqrt d, 0) is the reference's where(d > 0, 1 / sqrt d, 0), because
     rsqrt x = 1 / sqrt x for every positive extended real (both are 0 at +infinity);
   * a matmul into a zero accumulator is the host's dot_general (the plain sum over the contracted axis);
   * rows * scale and scale * rows are equal (multiplication of extended reals commutes), block by block over the cover of
     the rows by fifty blocks;
   * the reference recomputes the edge lists, the degree and the norm in every layer, the kernel program computes them once:
     the same function of the edge table each time;
   * every other stretch is the same operations applied to equal values.
   No law used needs finiteness, so the precondition is never opened. The frames of the two kernel programs are the
   generated ones; the reference's frame is its run (a straight line of host operations) with the results dropped; the ideal
   pass rewrote nothing, so the idealization claim is trivial. -/
import proofs.«107159_g82575041232963_cont_9to1c4b_479_20_alg».proof.Defs
import proofs.«107159_g82575041232963_cont_9to1c4b_479_20_alg».proof.Proof.Gen.Kernel
import proofs.«107159_g82575041232963_cont_9to1c4b_479_20_alg».proof.Proof.Gen.Kernel.Frame
import proofs.«107159_g82575041232963_cont_9to1c4b_479_20_alg».proof.Proof.Gen.KernelIdeal
import proofs.«107159_g82575041232963_cont_9to1c4b_479_20_alg».proof.Proof.Gen.KernelIdeal.Frame
import proofs.«107159_g82575041232963_cont_9to1c4b_479_20_alg».proof.Proof.Gen.ReferenceIdeal
import proofs.«107159_g82575041232963_cont_9to1c4b_479_20_alg».proof.Proof.Gen.Pre_finite_inputs
import proofs.«107159_g82575041232963_cont_9to1c4b_479_20_alg».proof.Proof.KernelRun
import proofs.«107159_g82575041232963_cont_9to1c4b_479_20_alg».proof.Proof.RefRun
import proofs.«107159_g82575041232963_cont_9to1c4b_479_20_alg».proof.Proof.RefAscending
import proofs.«107159_g82575041232963_cont_9to1c4b_479_20_alg».proof.Proof.ResultsAgree
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves its arguments unchanged: the generated frame. -/
theorem frame_kernel : Cert.frame_Kernel := fun m ρ _ => Cert.Kernel.Gen.frame m ρ

/-- The idealized kernel program runs and leaves its arguments unchanged: the generated frame. -/
theorem frame_kernelIdeal : Cert.frame_KernelIdeal := fun m ρ _ => Cert.KernelIdeal.Gen.frame m ρ

/-- The reference runs and leaves its arguments unchanged: every operation of its straight line writes a buffer past the
    arguments' slots, so the line's final contents at an argument are the launch contents. -/
theorem frame_reference : Cert.frame_ReferenceIdeal := fun m ρ _ =>
  (θ_run Cert.ReferenceIdeal.defs _ _).mono (fun r h c =>
    ⟨(h c Cert.ReferenceIdeal.main_arg0).trans (Cert.ReferenceIdeal.Hand.refOps_keeps_low _ Cert.ReferenceIdeal.main_arg0 (by decide)),
      (h c Cert.ReferenceIdeal.main_arg1).trans (Cert.ReferenceIdeal.Hand.refOps_keeps_low _ Cert.ReferenceIdeal.main_arg1 (by decide)),
      (h c Cert.ReferenceIdeal.main_arg2).trans (Cert.ReferenceIdeal.Hand.refOps_keeps_low _ Cert.ReferenceIdeal.main_arg2 (by decide)),
      (h c Cert.ReferenceIdeal.main_arg3).trans (Cert.ReferenceIdeal.Hand.refOps_keeps_low _ Cert.ReferenceIdeal.main_arg3 (by decide)),
      (h c Cert.ReferenceIdeal.main_arg4).trans (Cert.ReferenceIdeal.Hand.refOps_keeps_low _ Cert.ReferenceIdeal.main_arg4 (by decide)),
      (h c Cert.ReferenceIdeal.main_arg5).trans (Cert.ReferenceIdeal.Hand.refOps_keeps_low _ Cert.ReferenceIdeal.main_arg5 (by decide)),
      (h c Cert.ReferenceIdeal.main_arg6).trans (Cert.ReferenceIdeal.Hand.refOps_keeps_low _ Cert.ReferenceIdeal.main_arg6 (by decide)),
      (h c Cert.ReferenceIdeal.main_arg7).trans (Cert.ReferenceIdeal.Hand.refOps_keeps_low _ Cert.ReferenceIdeal.main_arg7 (by decide)),
      (h c Cert.ReferenceIdeal.main_arg8).trans (Cert.ReferenceIdeal.Hand.refOps_keeps_low _ Cert.ReferenceIdeal.main_arg8 (by decide)),
      (h c Cert.ReferenceIdeal.main_arg9).trans (Cert.ReferenceIdeal.Hand.refOps_keeps_low _ Cert.ReferenceIdeal.main_arg9 (by decide)),
      (h c Cert.ReferenceIdeal.main_arg10).trans (Cert.ReferenceIdeal.Hand.refOps_keeps_low _ Cert.ReferenceIdeal.main_arg10 (by decide)),
      (h c Cert.ReferenceIdeal.main_arg11).trans (Cert.ReferenceIdeal.Hand.refOps_keeps_low _ Cert.ReferenceIdeal.main_arg11 (by decide)),
      (h c Cert.ReferenceIdeal.main_arg12).trans (Cert.ReferenceIdeal.Hand.refOps_keeps_low _ Cert.ReferenceIdeal.main_arg12 (by decide)),
      (h c Cert.ReferenceIdeal.main_arg13).trans (Cert.ReferenceIdeal.Hand.refOps_keeps_low _ Cert.ReferenceIdeal.main_arg13 (by decide)),
      (h c Cert.ReferenceIdeal.main_arg14).trans (Cert.ReferenceIdeal.Hand.refOps_keeps_low _ Cert.ReferenceIdeal.main_arg14 (by decide)),
      (h c Cert.ReferenceIdeal.main_arg15).trans (Cert.ReferenceIdeal.Hand.refOps_keeps_low _ Cert.ReferenceIdeal.main_arg15 (by decide)),
      (h c Cert.ReferenceIdeal.main_arg16).trans (Cert.ReferenceIdeal.Hand.refOps_keeps_low _ Cert.ReferenceIdeal.main_arg16 (by decide)),
      (h c Cert.ReferenceIdeal.main_arg17).trans (Cert.ReferenceIdeal.Hand.refOps_keeps_low _ Cert.ReferenceIdeal.main_arg17 (by decide)),
      (h c Cert.ReferenceIdeal.main_arg18).trans (Cert.ReferenceIdeal.Hand.refOps_keeps_low _ Cert.ReferenceIdeal.main_arg18 (by decide)),
      (h c Cert.ReferenceIdeal.main_arg19).trans (Cert.ReferenceIdeal.Hand.refOps_keeps_low _ Cert.ReferenceIdeal.main_arg19 (by decide)),
      (h c Cert.ReferenceIdeal.main_arg20).trans (Cert.ReferenceIdeal.Hand.refOps_keeps_low _ Cert.ReferenceIdeal.main_arg20 (by decide)),
      (h c Cert.ReferenceIdeal.main_arg21).trans (Cert.ReferenceIdeal.Hand.refOps_keeps_low _ Cert.ReferenceIdeal.main_arg21 (by decide))⟩)
    (Cert.ReferenceIdeal.Hand.run (F := Ideal) m ρ)

/-- The two idealized programs, run from memories that agree on the arguments, end with equal results: the kernel
    program's run names its results as the last boundary's contents, the reference's run names its as the straight line's
    final contents, and the two are equal device by device (`Cert.Cross.results_agree`). -/
theorem algebraic : Cert.algebraic_KernelIdeal_ReferenceIdeal := by
  intro m ρ m' ρ' _ hagree
  refine ⟨fun c => Cert.KernelIdeal.Gen.W27 (F := Ideal) m ρ c (Proc.devRef .tc Cert.KernelIdeal.main_v122_0),
    fun c => Cert.KernelIdeal.Gen.W27 (F := Ideal) m ρ c (Proc.devRef .tc Cert.KernelIdeal.main_v122_1),
    Cert.KernelIdeal.Hand.run_results (F := Ideal) m ρ, ?_⟩
  refine (θ_run Cert.ReferenceIdeal.defs _ _).mono (fun r h c => ?_) (Cert.ReferenceIdeal.Hand.run (F := Ideal) m' ρ')
  obtain ⟨a0, a1, a2, a3, a4, a5, a6, a7, a8, a9, a10, a11, a12, a13, a14, a15, a16, a17, a18, a19, a20, a21⟩ := hagree c
  have hr := Cert.Cross.results_agree m ρ m' c a0 a1 a2 a3 a4 a5 a6 a7 a8 a9 a10 a11 a12 a13 a14 a15 a16 a17 a18 a19 a20 a21
  exact ⟨(h c Cert.ReferenceIdeal.main_v190).trans hr.1.symm, (h c Cert.ReferenceIdeal.main_v197).trans hr.2.symm,
      (h c Cert.ReferenceIdeal.main_arg0).trans (Cert.ReferenceIdeal.Hand.refOps_keeps_low _ Cert.ReferenceIdeal.main_arg0 (by decide)),
      (h c Cert.ReferenceIdeal.main_arg1).trans (Cert.ReferenceIdeal.Hand.refOps_keeps_low _ Cert.ReferenceIdeal.main_arg1 (by decide)),
      (h c Cert.ReferenceIdeal.main_arg2).trans (Cert.ReferenceIdeal.Hand.refOps_keeps_low _ Cert.ReferenceIdeal.main_arg2 (by decide)),
      (h c Cert.ReferenceIdeal.main_arg3).trans (Cert.ReferenceIdeal.Hand.refOps_keeps_low _ Cert.ReferenceIdeal.main_arg3 (by decide)),
      (h c Cert.ReferenceIdeal.main_arg4).trans (Cert.ReferenceIdeal.Hand.refOps_keeps_low _ Cert.ReferenceIdeal.main_arg4 (by decide)),
      (h c Cert.ReferenceIdeal.main_arg5).trans (Cert.ReferenceIdeal.Hand.refOps_keeps_low _ Cert.ReferenceIdeal.main_arg5 (by decide)),
      (h c Cert.ReferenceIdeal.main_arg6).trans (Cert.ReferenceIdeal.Hand.refOps_keeps_low _ Cert.ReferenceIdeal.main_arg6 (by decide)),
      (h c Cert.ReferenceIdeal.main_arg7).trans (Cert.ReferenceIdeal.Hand.refOps_keeps_low _ Cert.ReferenceIdeal.main_arg7 (by decide)),
      (h c Cert.ReferenceIdeal.main_arg8).trans (Cert.ReferenceIdeal.Hand.refOps_keeps_low _ Cert.ReferenceIdeal.main_arg8 (by decide)),
      (h c Cert.ReferenceIdeal.main_arg9).trans (Cert.ReferenceIdeal.Hand.refOps_keeps_low _ Cert.ReferenceIdeal.main_arg9 (by decide)),
      (h c Cert.ReferenceIdeal.main_arg10).trans (Cert.ReferenceIdeal.Hand.refOps_keeps_low _ Cert.ReferenceIdeal.main_arg10 (by decide)),
      (h c Cert.ReferenceIdeal.main_arg11).trans (Cert.ReferenceIdeal.Hand.refOps_keeps_low _ Cert.ReferenceIdeal.main_arg11 (by decide)),
      (h c Cert.ReferenceIdeal.main_arg12).trans (Cert.ReferenceIdeal.Hand.refOps_keeps_low _ Cert.ReferenceIdeal.main_arg12 (by decide)),
      (h c Cert.ReferenceIdeal.main_arg13).trans (Cert.ReferenceIdeal.Hand.refOps_keeps_low _ Cert.ReferenceIdeal.main_arg13 (by decide)),
      (h c Cert.ReferenceIdeal.main_arg14).trans (Cert.ReferenceIdeal.Hand.refOps_keeps_low _ Cert.ReferenceIdeal.main_arg14 (by decide)),
      (h c Cert.ReferenceIdeal.main_arg15).trans (Cert.ReferenceIdeal.Hand.refOps_keeps_low _ Cert.ReferenceIdeal.main_arg15 (by decide)),
      (h c Cert.ReferenceIdeal.main_arg16).trans (Cert.ReferenceIdeal.Hand.refOps_keeps_low _ Cert.ReferenceIdeal.main_arg16 (by decide)),
      (h c Cert.ReferenceIdeal.main_arg17).trans (Cert.ReferenceIdeal.Hand.refOps_keeps_low _ Cert.ReferenceIdeal.main_arg17 (by decide)),
      (h c Cert.ReferenceIdeal.main_arg18).trans (Cert.ReferenceIdeal.Hand.refOps_keeps_low _ Cert.ReferenceIdeal.main_arg18 (by decide)),
      (h c Cert.ReferenceIdeal.main_arg19).trans (Cert.ReferenceIdeal.Hand.refOps_keeps_low _ Cert.ReferenceIdeal.main_arg19 (by decide)),
      (h c Cert.ReferenceIdeal.main_arg20).trans (Cert.ReferenceIdeal.Hand.refOps_keeps_low _ Cert.ReferenceIdeal.main_arg20 (by decide)),
      (h c Cert.ReferenceIdeal.main_arg21).trans (Cert.ReferenceIdeal.Hand.refOps_keeps_low _ Cert.ReferenceIdeal.main_arg21 (by decide))⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
